-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x196x768 : Shape := ⟨3, ![64, 196, 768]⟩
abbrev S1x768 : Shape := ⟨2, ![1, 768]⟩
abbrev S197x768 : Shape := ⟨2, ![197, 768]⟩
abbrev S_ : Shape := ⟨0, ![]⟩

class Facts : Prop where
  bcast_S_S64x196x768 : S_.BroadcastsInDim S64x196x768 (![] : Fin 0 → Fin S64x196x768.rank)
  reducesTo_S64x196x768_S_d0_1_2 : S64x196x768.ReducesTo [0, 1, 2] S_
  h_S_ : 0 < S_.numel
  bcast_S_S1x768 : S_.BroadcastsInDim S1x768 (![] : Fin 0 → Fin S1x768.rank)
  reducesTo_S1x768_S_d0_1 : S1x768.ReducesTo [0, 1] S_
  bcast_S_S197x768 : S_.BroadcastsInDim S197x768 (![] : Fin 0 → Fin S197x768.rank)
  reducesTo_S197x768_S_d0_1 : S197x768.ReducesTo [0, 1] S_

variable [Facts]

def fn {F : FTy → Type} [FloatOps F] (main_arg0 : FVec F S64x196x768 .f32) (main_arg1 : FVec F S1x768 .f32) (main_arg2 : FVec F S197x768 .f32) : IVec S_ 1 :=
  let main_v0 : FVec F S64x196x768 .f32 := Host.absf main_arg0
  let main_cst : FVec F S_ .f32 := constant S_ .f32 0x7F800000#32
  let main_v1 : FVec F S64x196x768 .f32 := broadcastInDim S64x196x768 ![] bcast_S_S64x196x768 main_cst
  let main_v2 : IVec S64x196x768 1 := cmpf .olt main_v0 main_v1
  let main_c : IVec S_ 1 := constantI S_ 1 1#1
  let main_v3 : IVec S_ 1 := (fun x v => Host.reduce IntOp.andi x v reducesTo_S64x196x768_S_d0_1_2 h_S_) main_v2 main_c
  let main_v4 : FVec F S1x768 .f32 := Host.absf main_arg1
  let main_cst_0 : FVec F S_ .f32 := constant S_ .f32 0x7F800000#32
  let main_v5 : FVec F S1x768 .f32 := broadcastInDim S1x768 ![] bcast_S_S1x768 main_cst_0
  let main_v6 : IVec S1x768 1 := cmpf .olt main_v4 main_v5
  let main_c_1 : IVec S_ 1 := constantI S_ 1 1#1
  let main_v7 : IVec S_ 1 := (fun x v => Host.reduce IntOp.andi x v reducesTo_S1x768_S_d0_1 h_S_) main_v6 main_c_1
  let main_v8 : IVec S_ 1 := andi main_v3 main_v7
  let main_v9 : FVec F S197x768 .f32 := Host.absf main_arg2
  let main_cst_2 : FVec F S_ .f32 := constant S_ .f32 0x7F800000#32
  let main_v10 : FVec F S197x768 .f32 := broadcastInDim S197x768 ![] bcast_S_S197x768 main_cst_2
  let main_v11 : IVec S197x768 1 := cmpf .olt main_v9 main_v10
  let main_c_3 : IVec S_ 1 := constantI S_ 1 1#1
  let main_v12 : IVec S_ 1 := (fun x v => Host.reduce IntOp.andi x v reducesTo_S197x768_S_d0_1 h_S_) main_v11 main_c_3
  let main_v13 : IVec S_ 1 := andi main_v8 main_v12
  main_v13
-- ==== Kernel.lean ====
abbrev S64x196x768 : Shape := ⟨3, ![64, 196, 768]⟩
abbrev S1x768 : Shape := ⟨2, ![1, 768]⟩
abbrev S197x768 : Shape := ⟨2, ![197, 768]⟩
abbrev S196x64x768 : Shape := ⟨3, ![196, 64, 768]⟩
abbrev S197x8x768 : Shape := ⟨3, ![197, 8, 768]⟩
abbrev S7x8x768 : Shape := ⟨3, ![7, 8, 768]⟩
abbrev S16x768 : Shape := ⟨2, ![16, 768]⟩
abbrev S5x768 : Shape := ⟨2, ![5, 768]⟩
abbrev S1x8x768 : Shape := ⟨3, ![1, 8, 768]⟩
abbrev S_ : Shape := ⟨0, ![]⟩
abbrev S1x16 : Shape := ⟨2, ![1, 16]⟩
abbrev S16 : Shape := ⟨1, ![16]⟩
abbrev S1x1x16 : Shape := ⟨3, ![1, 1, 16]⟩
abbrev S8x768 : Shape := ⟨2, ![8, 768]⟩
abbrev S197x64x768 : Shape := ⟨3, ![197, 64, 768]⟩
abbrev S196x8x768 : Shape := ⟨3, ![196, 8, 768]⟩
abbrev S196x768 : Shape := ⟨2, ![196, 768]⟩
abbrev S196x1x768 : Shape := ⟨3, ![196, 1, 768]⟩
abbrev S1x1x768 : Shape := ⟨3, ![1, 1, 768]⟩
abbrev S64x197x768 : Shape := ⟨3, ![64, 197, 768]⟩

abbrev nBuf : Table → Nat
  | .hbm => 11
  | .local .tc .vmem => 6
  | .local .scVector .vmem => 6
  | _ => 0

abbrev bufTy : (tb : Table) → Fin (nBuf tb) → BufTy
  | .hbm, ⟨0, _⟩ => ⟨S64x196x768, .f32⟩
  | .hbm, ⟨1, _⟩ => ⟨S1x768, .f32⟩
  | .hbm, ⟨2, _⟩ => ⟨S197x768, .f32⟩
  | .hbm, ⟨3, _⟩ => ⟨S196x64x768, .f32⟩
  | .hbm, ⟨4, _⟩ => ⟨S197x8x768, .f32⟩
  | .hbm, ⟨5, _⟩ => ⟨S197x64x768, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S197x64x768, .f32⟩
  | .hbm, ⟨10, _⟩ => ⟨S64x197x768, .f32⟩
  | .local .tc .vmem, ⟨0, _⟩ => ⟨S196x8x768, .f32⟩
  | .local .tc .vmem, ⟨1, _⟩ => ⟨S196x8x768, .f32⟩
  | .local .tc .vmem, ⟨2, _⟩ => ⟨S1x768, .f32⟩
  | .local .tc .vmem, ⟨3, _⟩ => ⟨S197x768, .f32⟩
  | .local .tc .vmem, ⟨4, _⟩ => ⟨S197x8x768, .f32⟩
  | .local .tc .vmem, ⟨5, _⟩ => ⟨S197x8x768, .f32⟩
  | .local .scVector .vmem, ⟨0, _⟩ => ⟨S7x8x768, .f32⟩
  | .local .scVector .vmem, ⟨1, _⟩ => ⟨S7x8x768, .f32⟩
  | .local .scVector .vmem, ⟨2, _⟩ => ⟨S16x768, .f32⟩
  | .local .scVector .vmem, ⟨3, _⟩ => ⟨S5x768, .f32⟩
  | .local .scVector .vmem, ⟨4, _⟩ => ⟨S1x768, .f32⟩
  | .local .scVector .vmem, ⟨5, _⟩ => ⟨S1x8x768, .f32⟩
  | _, _ => ⟨S64x196x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32 : BitVec 32 := 27#32
  let v2 : BitVec 1 := Scalar.cmpi .slt v1 c27_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v11 : BitVec 32 := Scalar.muli v1 c7_i32
  let c1_i32 : BitVec 32 := 1#32
  let v12 : BitVec 32 := Scalar.addi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c8_i32 : BitVec 32 := 8#32
  let c0_i32_5 : BitVec 32 := 0#32
  let v19 : BitVec 1 := Scalar.cmpi .sgt c8_i32 c0_i32_5
  let v20 : BitVec 32 := Scalar.extui v19
  let c0_i32_6 : BitVec 32 := 0#32
  let v21 : BitVec 1 := Scalar.cmpi .slt c8_i32 c0_i32_6
  let v22 : BitVec 32 := Scalar.extui v21
  let v23 : BitVec 32 := Scalar.subi v20 v22
  let v24 : BitVec 1 := Scalar.cmpi .ne v18 v23
  let v25 : BitVec 32 := Scalar.remsi v12 c8_i32
  let c0_i32_7 : BitVec 32 := 0#32
  let v26 : BitVec 1 := Scalar.cmpi .ne v25 c0_i32_7
  let v27 : BitVec 1 := Scalar.andi v24 v26
  let v13 : BitVec 32 := Scalar.divsi v12 c8_i32
  let c1_i32_8 : BitVec 32 := 1#32
  let v28 : BitVec 32 := Scalar.subi v13 c1_i32_8
  let v29 : BitVec 32 := Scalar.select v27 v28 v13
  let c8_i32_9 : BitVec 32 := 8#32
  let v30 : BitVec 32 := Scalar.muli v29 c8_i32_9
  let c0_i32_31_r0 : BitVec 32 := 0#32
  ![v30.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v11 : BitVec 32 := Scalar.muli v1 c7_i32
  let c56_i32 : BitVec 32 := 56#32
  let c0_i32_11 : BitVec 32 := 0#32
  ![v11.toNat, 56, 0]
@[reducible] def k0_t1_loop : Scf.Loop 32 :=
  let c0_i32_19 : BitVec 32 := 0#32
  let c48_i32 : BitVec 32 := 48#32
  let v37 : BitVec 32 := Scalar.addi c0_i32_19 c48_i32
  let c1_i32_20 : BitVec 32 := 1#32
  ⟨c0_i32_19, v37, c1_i32_20⟩
def k0_off3 (i : grid0.Coords) (k0_t1 : Fin k0_t1_loop.trips) (c0_i32_31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v11 : BitVec 32 := Scalar.muli v1 c7_i32
  let c1_i32_10 : BitVec 32 := 1#32
  let v31 : BitVec 32 := Scalar.addi v11 c1_i32_10
  let c1_i32 : BitVec 32 := 1#32
  let v12 : BitVec 32 := Scalar.addi v11 c1_i32
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c8_i32 : BitVec 32 := 8#32
  let c0_i32_5 : BitVec 32 := 0#32
  let v19 : BitVec 1 := Scalar.cmpi .sgt c8_i32 c0_i32_5
  let v20 : BitVec 32 := Scalar.extui v19
  let c0_i32_6 : BitVec 32 := 0#32
  let v21 : BitVec 1 := Scalar.cmpi .slt c8_i32 c0_i32_6
  let v22 : BitVec 32 := Scalar.extui v21
  let v23 : BitVec 32 := Scalar.subi v20 v22
  let v24 : BitVec 1 := Scalar.cmpi .ne v18 v23
  let v25 : BitVec 32 := Scalar.remsi v12 c8_i32
  let c0_i32_7 : BitVec 32 := 0#32
  let v26 : BitVec 1 := Scalar.cmpi .ne v25 c0_i32_7
  let v27 : BitVec 1 := Scalar.andi v24 v26
  let v13 : BitVec 32 := Scalar.divsi v12 c8_i32
  let c1_i32_8 : BitVec 32 := 1#32
  let v28 : BitVec 32 := Scalar.subi v13 c1_i32_8
  let v29 : BitVec 32 := Scalar.select v27 v28 v13
  let c8_i32_9 : BitVec 32 := 8#32
  let v30 : BitVec 32 := Scalar.muli v29 c8_i32_9
  let v32 : BitVec 32 := Scalar.subi v31 v30
  let v45 : BitVec 32 := Scalar.addi v32 c0_i32_31
  let v46 : Index := Scalar.indexCast v45
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v47 : Index := Scalar.indexCast v44
  ![v46.toNat, v47.toNat]
def k0_off4 (k0_t1 : Fin k0_t1_loop.trips) : Fin 3 → Nat :=
  let c0_i32_32 : BitVec 32 := 0#32
  let v50 : Index := Scalar.indexCast c0_i32_32
  let c0_i32_33 : BitVec 32 := 0#32
  let v51 : Index := Scalar.indexCast c0_i32_33
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v52 : Index := Scalar.indexCast v44
  ![0, 0, v52.toNat]
def k0_off5 (k0_t1 : Fin k0_t1_loop.trips) : Fin 3 → Nat :=
  let c0_i32_36 : BitVec 32 := 0#32
  let v62 : Index := Scalar.indexCast c0_i32_36
  let c1_i32_37 : BitVec 32 := 1#32
  let v63 : Index := Scalar.indexCast c1_i32_37
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v64 : Index := Scalar.indexCast v44
  ![0, 1, v64.toNat]
def k0_off6 (k0_t1 : Fin k0_t1_loop.trips) : Fin 3 → Nat :=
  let c0_i32_40 : BitVec 32 := 0#32
  let v74 : Index := Scalar.indexCast c0_i32_40
  let c2_i32_41 : BitVec 32 := 2#32
  let v75 : Index := Scalar.indexCast c2_i32_41
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v76 : Index := Scalar.indexCast v44
  ![0, 2, v76.toNat]
def k0_off7 (k0_t1 : Fin k0_t1_loop.trips) : Fin 3 → Nat :=
  let c0_i32_44 : BitVec 32 := 0#32
  let v86 : Index := Scalar.indexCast c0_i32_44
  let c3_i32 : BitVec 32 := 3#32
  let v87 : Index := Scalar.indexCast c3_i32
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v88 : Index := Scalar.indexCast v44
  ![0, 3, v88.toNat]
def k0_off8 (k0_t1 : Fin k0_t1_loop.trips) : Fin 3 → Nat :=
  let c0_i32_47 : BitVec 32 := 0#32
  let v98 : Index := Scalar.indexCast c0_i32_47
  let c4_i32 : BitVec 32 := 4#32
  let v99 : Index := Scalar.indexCast c4_i32
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v100 : Index := Scalar.indexCast v44
  ![0, 4, v100.toNat]
def k0_off9 (k0_t1 : Fin k0_t1_loop.trips) : Fin 3 → Nat :=
  let c0_i32_50 : BitVec 32 := 0#32
  let v110 : Index := Scalar.indexCast c0_i32_50
  let c5_i32 : BitVec 32 := 5#32
  let v111 : Index := Scalar.indexCast c5_i32
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v112 : Index := Scalar.indexCast v44
  ![0, 5, v112.toNat]
def k0_off10 (k0_t1 : Fin k0_t1_loop.trips) : Fin 3 → Nat :=
  let c0_i32_53 : BitVec 32 := 0#32
  let v122 : Index := Scalar.indexCast c0_i32_53
  let c6_i32 : BitVec 32 := 6#32
  let v123 : Index := Scalar.indexCast c6_i32
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v124 : Index := Scalar.indexCast v44
  ![0, 6, v124.toNat]
def k0_off11 (k0_t1 : Fin k0_t1_loop.trips) : Fin 3 → Nat :=
  let c0_i32_56 : BitVec 32 := 0#32
  let v134 : Index := Scalar.indexCast c0_i32_56
  let c7_i32_57 : BitVec 32 := 7#32
  let v135 : Index := Scalar.indexCast c7_i32_57
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v136 : Index := Scalar.indexCast v44
  ![0, 7, v136.toNat]
def k0_off12 (k0_t1 : Fin k0_t1_loop.trips) : Fin 3 → Nat :=
  let c1_i32_61 : BitVec 32 := 1#32
  let v151 : Index := Scalar.indexCast c1_i32_61
  let c0_i32_62 : BitVec 32 := 0#32
  let v152 : Index := Scalar.indexCast c0_i32_62
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v153 : Index := Scalar.indexCast v44
  ![1, 0, v153.toNat]
def k0_off13 (k0_t1 : Fin k0_t1_loop.trips) : Fin 3 → Nat :=
  let c1_i32_65 : BitVec 32 := 1#32
  let v163 : Index := Scalar.indexCast c1_i32_65
  let c1_i32_66 : BitVec 32 := 1#32
  let v164 : Index := Scalar.indexCast c1_i32_66
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v165 : Index := Scalar.indexCast v44
  ![1, 1, v165.toNat]
def k0_off14 (k0_t1 : Fin k0_t1_loop.trips) : Fin 3 → Nat :=
  let c1_i32_69 : BitVec 32 := 1#32
  let v175 : Index := Scalar.indexCast c1_i32_69
  let c2_i32_70 : BitVec 32 := 2#32
  let v176 : Index := Scalar.indexCast c2_i32_70
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v177 : Index := Scalar.indexCast v44
  ![1, 2, v177.toNat]
def k0_off15 (k0_t1 : Fin k0_t1_loop.trips) : Fin 3 → Nat :=
  let c1_i32_73 : BitVec 32 := 1#32
  let v187 : Index := Scalar.indexCast c1_i32_73
  let c3_i32_74 : BitVec 32 := 3#32
  let v188 : Index := Scalar.indexCast c3_i32_74
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v189 : Index := Scalar.indexCast v44
  ![1, 3, v189.toNat]
def k0_off16 (k0_t1 : Fin k0_t1_loop.trips) : Fin 3 → Nat :=
  let c1_i32_77 : BitVec 32 := 1#32
  let v199 : Index := Scalar.indexCast c1_i32_77
  let c4_i32_78 : BitVec 32 := 4#32
  let v200 : Index := Scalar.indexCast c4_i32_78
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v201 : Index := Scalar.indexCast v44
  ![1, 4, v201.toNat]
def k0_off17 (k0_t1 : Fin k0_t1_loop.trips) : Fin 3 → Nat :=
  let c1_i32_81 : BitVec 32 := 1#32
  let v211 : Index := Scalar.indexCast c1_i32_81
  let c5_i32_82 : BitVec 32 := 5#32
  let v212 : Index := Scalar.indexCast c5_i32_82
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v213 : Index := Scalar.indexCast v44
  ![1, 5, v213.toNat]
def k0_off18 (k0_t1 : Fin k0_t1_loop.trips) : Fin 3 → Nat :=
  let c1_i32_85 : BitVec 32 := 1#32
  let v223 : Index := Scalar.indexCast c1_i32_85
  let c6_i32_86 : BitVec 32 := 6#32
  let v224 : Index := Scalar.indexCast c6_i32_86
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v225 : Index := Scalar.indexCast v44
  ![1, 6, v225.toNat]
def k0_off19 (k0_t1 : Fin k0_t1_loop.trips) : Fin 3 → Nat :=
  let c1_i32_89 : BitVec 32 := 1#32
  let v235 : Index := Scalar.indexCast c1_i32_89
  let c7_i32_90 : BitVec 32 := 7#32
  let v236 : Index := Scalar.indexCast c7_i32_90
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v237 : Index := Scalar.indexCast v44
  ![1, 7, v237.toNat]
def k0_off20 (k0_t1 : Fin k0_t1_loop.trips) : Fin 3 → Nat :=
  let c2_i32_94 : BitVec 32 := 2#32
  let v252 : Index := Scalar.indexCast c2_i32_94
  let c0_i32_95 : BitVec 32 := 0#32
  let v253 : Index := Scalar.indexCast c0_i32_95
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v254 : Index := Scalar.indexCast v44
  ![2, 0, v254.toNat]
def k0_off21 (k0_t1 : Fin k0_t1_loop.trips) : Fin 3 → Nat :=
  let c2_i32_98 : BitVec 32 := 2#32
  let v264 : Index := Scalar.indexCast c2_i32_98
  let c1_i32_99 : BitVec 32 := 1#32
  let v265 : Index := Scalar.indexCast c1_i32_99
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v266 : Index := Scalar.indexCast v44
  ![2, 1, v266.toNat]
def k0_off22 (k0_t1 : Fin k0_t1_loop.trips) : Fin 3 → Nat :=
  let c2_i32_102 : BitVec 32 := 2#32
  let v276 : Index := Scalar.indexCast c2_i32_102
  let c2_i32_103 : BitVec 32 := 2#32
  let v277 : Index := Scalar.indexCast c2_i32_103
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v278 : Index := Scalar.indexCast v44
  ![2, 2, v278.toNat]
def k0_off23 (k0_t1 : Fin k0_t1_loop.trips) : Fin 3 → Nat :=
  let c2_i32_106 : BitVec 32 := 2#32
  let v288 : Index := Scalar.indexCast c2_i32_106
  let c3_i32_107 : BitVec 32 := 3#32
  let v289 : Index := Scalar.indexCast c3_i32_107
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v290 : Index := Scalar.indexCast v44
  ![2, 3, v290.toNat]
def k0_off24 (k0_t1 : Fin k0_t1_loop.trips) : Fin 3 → Nat :=
  let c2_i32_110 : BitVec 32 := 2#32
  let v300 : Index := Scalar.indexCast c2_i32_110
  let c4_i32_111 : BitVec 32 := 4#32
  let v301 : Index := Scalar.indexCast c4_i32_111
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v302 : Index := Scalar.indexCast v44
  ![2, 4, v302.toNat]
def k0_off25 (k0_t1 : Fin k0_t1_loop.trips) : Fin 3 → Nat :=
  let c2_i32_114 : BitVec 32 := 2#32
  let v312 : Index := Scalar.indexCast c2_i32_114
  let c5_i32_115 : BitVec 32 := 5#32
  let v313 : Index := Scalar.indexCast c5_i32_115
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v314 : Index := Scalar.indexCast v44
  ![2, 5, v314.toNat]
def k0_off26 (k0_t1 : Fin k0_t1_loop.trips) : Fin 3 → Nat :=
  let c2_i32_118 : BitVec 32 := 2#32
  let v324 : Index := Scalar.indexCast c2_i32_118
  let c6_i32_119 : BitVec 32 := 6#32
  let v325 : Index := Scalar.indexCast c6_i32_119
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v326 : Index := Scalar.indexCast v44
  ![2, 6, v326.toNat]
def k0_off27 (k0_t1 : Fin k0_t1_loop.trips) : Fin 3 → Nat :=
  let c2_i32_122 : BitVec 32 := 2#32
  let v336 : Index := Scalar.indexCast c2_i32_122
  let c7_i32_123 : BitVec 32 := 7#32
  let v337 : Index := Scalar.indexCast c7_i32_123
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v338 : Index := Scalar.indexCast v44
  ![2, 7, v338.toNat]
def k0_off28 (k0_t1 : Fin k0_t1_loop.trips) : Fin 3 → Nat :=
  let c3_i32_127 : BitVec 32 := 3#32
  let v353 : Index := Scalar.indexCast c3_i32_127
  let c0_i32_128 : BitVec 32 := 0#32
  let v354 : Index := Scalar.indexCast c0_i32_128
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v355 : Index := Scalar.indexCast v44
  ![3, 0, v355.toNat]
def k0_off29 (k0_t1 : Fin k0_t1_loop.trips) : Fin 3 → Nat :=
  let c3_i32_131 : BitVec 32 := 3#32
  let v365 : Index := Scalar.indexCast c3_i32_131
  let c1_i32_132 : BitVec 32 := 1#32
  let v366 : Index := Scalar.indexCast c1_i32_132
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v367 : Index := Scalar.indexCast v44
  ![3, 1, v367.toNat]
def k0_off30 (k0_t1 : Fin k0_t1_loop.trips) : Fin 3 → Nat :=
  let c3_i32_135 : BitVec 32 := 3#32
  let v377 : Index := Scalar.indexCast c3_i32_135
  let c2_i32_136 : BitVec 32 := 2#32
  let v378 : Index := Scalar.indexCast c2_i32_136
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v379 : Index := Scalar.indexCast v44
  ![3, 2, v379.toNat]
def k0_off31 (k0_t1 : Fin k0_t1_loop.trips) : Fin 3 → Nat :=
  let c3_i32_139 : BitVec 32 := 3#32
  let v389 : Index := Scalar.indexCast c3_i32_139
  let c3_i32_140 : BitVec 32 := 3#32
  let v390 : Index := Scalar.indexCast c3_i32_140
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v391 : Index := Scalar.indexCast v44
  ![3, 3, v391.toNat]
def k0_off32 (k0_t1 : Fin k0_t1_loop.trips) : Fin 3 → Nat :=
  let c3_i32_143 : BitVec 32 := 3#32
  let v401 : Index := Scalar.indexCast c3_i32_143
  let c4_i32_144 : BitVec 32 := 4#32
  let v402 : Index := Scalar.indexCast c4_i32_144
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v403 : Index := Scalar.indexCast v44
  ![3, 4, v403.toNat]
def k0_off33 (k0_t1 : Fin k0_t1_loop.trips) : Fin 3 → Nat :=
  let c3_i32_147 : BitVec 32 := 3#32
  let v413 : Index := Scalar.indexCast c3_i32_147
  let c5_i32_148 : BitVec 32 := 5#32
  let v414 : Index := Scalar.indexCast c5_i32_148
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v415 : Index := Scalar.indexCast v44
  ![3, 5, v415.toNat]
def k0_off34 (k0_t1 : Fin k0_t1_loop.trips) : Fin 3 → Nat :=
  let c3_i32_151 : BitVec 32 := 3#32
  let v425 : Index := Scalar.indexCast c3_i32_151
  let c6_i32_152 : BitVec 32 := 6#32
  let v426 : Index := Scalar.indexCast c6_i32_152
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v427 : Index := Scalar.indexCast v44
  ![3, 6, v427.toNat]
def k0_off35 (k0_t1 : Fin k0_t1_loop.trips) : Fin 3 → Nat :=
  let c3_i32_155 : BitVec 32 := 3#32
  let v437 : Index := Scalar.indexCast c3_i32_155
  let c7_i32_156 : BitVec 32 := 7#32
  let v438 : Index := Scalar.indexCast c7_i32_156
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v439 : Index := Scalar.indexCast v44
  ![3, 7, v439.toNat]
def k0_off36 (k0_t1 : Fin k0_t1_loop.trips) : Fin 3 → Nat :=
  let c4_i32_160 : BitVec 32 := 4#32
  let v454 : Index := Scalar.indexCast c4_i32_160
  let c0_i32_161 : BitVec 32 := 0#32
  let v455 : Index := Scalar.indexCast c0_i32_161
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v456 : Index := Scalar.indexCast v44
  ![4, 0, v456.toNat]
def k0_off37 (k0_t1 : Fin k0_t1_loop.trips) : Fin 3 → Nat :=
  let c4_i32_164 : BitVec 32 := 4#32
  let v466 : Index := Scalar.indexCast c4_i32_164
  let c1_i32_165 : BitVec 32 := 1#32
  let v467 : Index := Scalar.indexCast c1_i32_165
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v468 : Index := Scalar.indexCast v44
  ![4, 1, v468.toNat]
def k0_off38 (k0_t1 : Fin k0_t1_loop.trips) : Fin 3 → Nat :=
  let c4_i32_168 : BitVec 32 := 4#32
  let v478 : Index := Scalar.indexCast c4_i32_168
  let c2_i32_169 : BitVec 32 := 2#32
  let v479 : Index := Scalar.indexCast c2_i32_169
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v480 : Index := Scalar.indexCast v44
  ![4, 2, v480.toNat]
def k0_off39 (k0_t1 : Fin k0_t1_loop.trips) : Fin 3 → Nat :=
  let c4_i32_172 : BitVec 32 := 4#32
  let v490 : Index := Scalar.indexCast c4_i32_172
  let c3_i32_173 : BitVec 32 := 3#32
  let v491 : Index := Scalar.indexCast c3_i32_173
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v492 : Index := Scalar.indexCast v44
  ![4, 3, v492.toNat]
def k0_off40 (k0_t1 : Fin k0_t1_loop.trips) : Fin 3 → Nat :=
  let c4_i32_176 : BitVec 32 := 4#32
  let v502 : Index := Scalar.indexCast c4_i32_176
  let c4_i32_177 : BitVec 32 := 4#32
  let v503 : Index := Scalar.indexCast c4_i32_177
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v504 : Index := Scalar.indexCast v44
  ![4, 4, v504.toNat]
def k0_off41 (k0_t1 : Fin k0_t1_loop.trips) : Fin 3 → Nat :=
  let c4_i32_180 : BitVec 32 := 4#32
  let v514 : Index := Scalar.indexCast c4_i32_180
  let c5_i32_181 : BitVec 32 := 5#32
  let v515 : Index := Scalar.indexCast c5_i32_181
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v516 : Index := Scalar.indexCast v44
  ![4, 5, v516.toNat]
def k0_off42 (k0_t1 : Fin k0_t1_loop.trips) : Fin 3 → Nat :=
  let c4_i32_184 : BitVec 32 := 4#32
  let v526 : Index := Scalar.indexCast c4_i32_184
  let c6_i32_185 : BitVec 32 := 6#32
  let v527 : Index := Scalar.indexCast c6_i32_185
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v528 : Index := Scalar.indexCast v44
  ![4, 6, v528.toNat]
def k0_off43 (k0_t1 : Fin k0_t1_loop.trips) : Fin 3 → Nat :=
  let c4_i32_188 : BitVec 32 := 4#32
  let v538 : Index := Scalar.indexCast c4_i32_188
  let c7_i32_189 : BitVec 32 := 7#32
  let v539 : Index := Scalar.indexCast c7_i32_189
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v540 : Index := Scalar.indexCast v44
  ![4, 7, v540.toNat]
def k0_off44 (k0_t1 : Fin k0_t1_loop.trips) : Fin 3 → Nat :=
  let c5_i32_193 : BitVec 32 := 5#32
  let v555 : Index := Scalar.indexCast c5_i32_193
  let c0_i32_194 : BitVec 32 := 0#32
  let v556 : Index := Scalar.indexCast c0_i32_194
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v557 : Index := Scalar.indexCast v44
  ![5, 0, v557.toNat]
def k0_off45 (k0_t1 : Fin k0_t1_loop.trips) : Fin 3 → Nat :=
  let c5_i32_197 : BitVec 32 := 5#32
  let v567 : Index := Scalar.indexCast c5_i32_197
  let c1_i32_198 : BitVec 32 := 1#32
  let v568 : Index := Scalar.indexCast c1_i32_198
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v569 : Index := Scalar.indexCast v44
  ![5, 1, v569.toNat]
def k0_off46 (k0_t1 : Fin k0_t1_loop.trips) : Fin 3 → Nat :=
  let c5_i32_201 : BitVec 32 := 5#32
  let v579 : Index := Scalar.indexCast c5_i32_201
  let c2_i32_202 : BitVec 32 := 2#32
  let v580 : Index := Scalar.indexCast c2_i32_202
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v581 : Index := Scalar.indexCast v44
  ![5, 2, v581.toNat]
def k0_off47 (k0_t1 : Fin k0_t1_loop.trips) : Fin 3 → Nat :=
  let c5_i32_205 : BitVec 32 := 5#32
  let v591 : Index := Scalar.indexCast c5_i32_205
  let c3_i32_206 : BitVec 32 := 3#32
  let v592 : Index := Scalar.indexCast c3_i32_206
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v593 : Index := Scalar.indexCast v44
  ![5, 3, v593.toNat]
def k0_off48 (k0_t1 : Fin k0_t1_loop.trips) : Fin 3 → Nat :=
  let c5_i32_209 : BitVec 32 := 5#32
  let v603 : Index := Scalar.indexCast c5_i32_209
  let c4_i32_210 : BitVec 32 := 4#32
  let v604 : Index := Scalar.indexCast c4_i32_210
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v605 : Index := Scalar.indexCast v44
  ![5, 4, v605.toNat]
def k0_off49 (k0_t1 : Fin k0_t1_loop.trips) : Fin 3 → Nat :=
  let c5_i32_213 : BitVec 32 := 5#32
  let v615 : Index := Scalar.indexCast c5_i32_213
  let c5_i32_214 : BitVec 32 := 5#32
  let v616 : Index := Scalar.indexCast c5_i32_214
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v617 : Index := Scalar.indexCast v44
  ![5, 5, v617.toNat]
def k0_off50 (k0_t1 : Fin k0_t1_loop.trips) : Fin 3 → Nat :=
  let c5_i32_217 : BitVec 32 := 5#32
  let v627 : Index := Scalar.indexCast c5_i32_217
  let c6_i32_218 : BitVec 32 := 6#32
  let v628 : Index := Scalar.indexCast c6_i32_218
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v629 : Index := Scalar.indexCast v44
  ![5, 6, v629.toNat]
def k0_off51 (k0_t1 : Fin k0_t1_loop.trips) : Fin 3 → Nat :=
  let c5_i32_221 : BitVec 32 := 5#32
  let v639 : Index := Scalar.indexCast c5_i32_221
  let c7_i32_222 : BitVec 32 := 7#32
  let v640 : Index := Scalar.indexCast c7_i32_222
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v641 : Index := Scalar.indexCast v44
  ![5, 7, v641.toNat]
def k0_off52 (k0_t1 : Fin k0_t1_loop.trips) : Fin 3 → Nat :=
  let c6_i32_226 : BitVec 32 := 6#32
  let v656 : Index := Scalar.indexCast c6_i32_226
  let c0_i32_227 : BitVec 32 := 0#32
  let v657 : Index := Scalar.indexCast c0_i32_227
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v658 : Index := Scalar.indexCast v44
  ![6, 0, v658.toNat]
def k0_off53 (k0_t1 : Fin k0_t1_loop.trips) : Fin 3 → Nat :=
  let c6_i32_230 : BitVec 32 := 6#32
  let v668 : Index := Scalar.indexCast c6_i32_230
  let c1_i32_231 : BitVec 32 := 1#32
  let v669 : Index := Scalar.indexCast c1_i32_231
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v670 : Index := Scalar.indexCast v44
  ![6, 1, v670.toNat]
def k0_off54 (k0_t1 : Fin k0_t1_loop.trips) : Fin 3 → Nat :=
  let c6_i32_234 : BitVec 32 := 6#32
  let v680 : Index := Scalar.indexCast c6_i32_234
  let c2_i32_235 : BitVec 32 := 2#32
  let v681 : Index := Scalar.indexCast c2_i32_235
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v682 : Index := Scalar.indexCast v44
  ![6, 2, v682.toNat]
def k0_off55 (k0_t1 : Fin k0_t1_loop.trips) : Fin 3 → Nat :=
  let c6_i32_238 : BitVec 32 := 6#32
  let v692 : Index := Scalar.indexCast c6_i32_238
  let c3_i32_239 : BitVec 32 := 3#32
  let v693 : Index := Scalar.indexCast c3_i32_239
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v694 : Index := Scalar.indexCast v44
  ![6, 3, v694.toNat]
def k0_off56 (k0_t1 : Fin k0_t1_loop.trips) : Fin 3 → Nat :=
  let c6_i32_242 : BitVec 32 := 6#32
  let v704 : Index := Scalar.indexCast c6_i32_242
  let c4_i32_243 : BitVec 32 := 4#32
  let v705 : Index := Scalar.indexCast c4_i32_243
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v706 : Index := Scalar.indexCast v44
  ![6, 4, v706.toNat]
def k0_off57 (k0_t1 : Fin k0_t1_loop.trips) : Fin 3 → Nat :=
  let c6_i32_246 : BitVec 32 := 6#32
  let v716 : Index := Scalar.indexCast c6_i32_246
  let c5_i32_247 : BitVec 32 := 5#32
  let v717 : Index := Scalar.indexCast c5_i32_247
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v718 : Index := Scalar.indexCast v44
  ![6, 5, v718.toNat]
def k0_off58 (k0_t1 : Fin k0_t1_loop.trips) : Fin 3 → Nat :=
  let c6_i32_250 : BitVec 32 := 6#32
  let v728 : Index := Scalar.indexCast c6_i32_250
  let c6_i32_251 : BitVec 32 := 6#32
  let v729 : Index := Scalar.indexCast c6_i32_251
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v730 : Index := Scalar.indexCast v44
  ![6, 6, v730.toNat]
def k0_off59 (k0_t1 : Fin k0_t1_loop.trips) : Fin 3 → Nat :=
  let c6_i32_254 : BitVec 32 := 6#32
  let v740 : Index := Scalar.indexCast c6_i32_254
  let c7_i32_255 : BitVec 32 := 7#32
  let v741 : Index := Scalar.indexCast c7_i32_255
  let c0_i32_19 : BitVec 32 := 0#32
  let c1_i32_20 : BitVec 32 := 1#32
  let arg16 : BitVec 32 := Scf.iv c0_i32_19 c1_i32_20 k0_t1
  let c16_i32 : BitVec 32 := 16#32
  let v44 : BitVec 32 := Scalar.muli arg16 c16_i32
  let v742 : Index := Scalar.indexCast v44
  ![6, 7, v742.toNat]
def k0_off60 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v11 : BitVec 32 := Scalar.muli v1 c7_i32
  let c1_i32_22 : BitVec 32 := 1#32
  let v39 : BitVec 32 := Scalar.addi v11 c1_i32_22
  let c0_i32_23 : BitVec 32 := 0#32
  let c0_i32_24 : BitVec 32 := 0#32
  ![v39.toNat, 0, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32_0 : BitVec 32 := 27#32
  let v5 : BitVec 1 := Scalar.cmpi .eq v1 c27_i32_0
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_14 : BitVec 32 := 0#32
  let c48_i32 : BitVec 32 := 48#32
  let v15 : BitVec 32 := Scalar.addi c0_i32_14 c48_i32
  let c1_i32 : BitVec 32 := 1#32
  ⟨c0_i32_14, v15, c1_i32⟩
def k0_off61 (k0_t2 : Fin k0_t2_loop.trips) : Fin 2 → Nat :=
  let c6_i32 : BitVec 32 := 6#32
  let v22 : Index := Scalar.indexCast c6_i32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v23 : Index := Scalar.indexCast v21
  ![6, v23.toNat]
def k0_off62 (k0_t2 : Fin k0_t2_loop.trips) : Fin 3 → Nat :=
  let c0_i32_27 : BitVec 32 := 0#32
  let v26 : Index := Scalar.indexCast c0_i32_27
  let c0_i32_28 : BitVec 32 := 0#32
  let v27 : Index := Scalar.indexCast c0_i32_28
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v28 : Index := Scalar.indexCast v21
  ![0, 0, v28.toNat]
def k0_off63 (k0_t2 : Fin k0_t2_loop.trips) : Fin 3 → Nat :=
  let c0_i32_31 : BitVec 32 := 0#32
  let v38 : Index := Scalar.indexCast c0_i32_31
  let c1_i32_32 : BitVec 32 := 1#32
  let v39 : Index := Scalar.indexCast c1_i32_32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v40 : Index := Scalar.indexCast v21
  ![0, 1, v40.toNat]
def k0_off64 (k0_t2 : Fin k0_t2_loop.trips) : Fin 3 → Nat :=
  let c0_i32_35 : BitVec 32 := 0#32
  let v50 : Index := Scalar.indexCast c0_i32_35
  let c2_i32_36 : BitVec 32 := 2#32
  let v51 : Index := Scalar.indexCast c2_i32_36
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v52 : Index := Scalar.indexCast v21
  ![0, 2, v52.toNat]
def k0_off65 (k0_t2 : Fin k0_t2_loop.trips) : Fin 3 → Nat :=
  let c0_i32_39 : BitVec 32 := 0#32
  let v62 : Index := Scalar.indexCast c0_i32_39
  let c3_i32 : BitVec 32 := 3#32
  let v63 : Index := Scalar.indexCast c3_i32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v64 : Index := Scalar.indexCast v21
  ![0, 3, v64.toNat]
def k0_off66 (k0_t2 : Fin k0_t2_loop.trips) : Fin 3 → Nat :=
  let c0_i32_42 : BitVec 32 := 0#32
  let v74 : Index := Scalar.indexCast c0_i32_42
  let c4_i32 : BitVec 32 := 4#32
  let v75 : Index := Scalar.indexCast c4_i32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v76 : Index := Scalar.indexCast v21
  ![0, 4, v76.toNat]
def k0_off67 (k0_t2 : Fin k0_t2_loop.trips) : Fin 3 → Nat :=
  let c0_i32_45 : BitVec 32 := 0#32
  let v86 : Index := Scalar.indexCast c0_i32_45
  let c5_i32 : BitVec 32 := 5#32
  let v87 : Index := Scalar.indexCast c5_i32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v88 : Index := Scalar.indexCast v21
  ![0, 5, v88.toNat]
def k0_off68 (k0_t2 : Fin k0_t2_loop.trips) : Fin 3 → Nat :=
  let c0_i32_48 : BitVec 32 := 0#32
  let v98 : Index := Scalar.indexCast c0_i32_48
  let c6_i32_49 : BitVec 32 := 6#32
  let v99 : Index := Scalar.indexCast c6_i32_49
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v100 : Index := Scalar.indexCast v21
  ![0, 6, v100.toNat]
def k0_off69 (k0_t2 : Fin k0_t2_loop.trips) : Fin 3 → Nat :=
  let c0_i32_52 : BitVec 32 := 0#32
  let v110 : Index := Scalar.indexCast c0_i32_52
  let c7_i32 : BitVec 32 := 7#32
  let v111 : Index := Scalar.indexCast c7_i32
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v112 : Index := Scalar.indexCast v21
  ![0, 7, v112.toNat]
def k0_off70 (k0_t2 : Fin k0_t2_loop.trips) : Fin 2 → Nat :=
  let c7_i32_55 : BitVec 32 := 7#32
  let v122 : Index := Scalar.indexCast c7_i32_55
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v123 : Index := Scalar.indexCast v21
  ![7, v123.toNat]
def k0_off71 (k0_t2 : Fin k0_t2_loop.trips) : Fin 3 → Nat :=
  let c1_i32_56 : BitVec 32 := 1#32
  let v126 : Index := Scalar.indexCast c1_i32_56
  let c0_i32_57 : BitVec 32 := 0#32
  let v127 : Index := Scalar.indexCast c0_i32_57
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v128 : Index := Scalar.indexCast v21
  ![1, 0, v128.toNat]
def k0_off72 (k0_t2 : Fin k0_t2_loop.trips) : Fin 3 → Nat :=
  let c1_i32_60 : BitVec 32 := 1#32
  let v138 : Index := Scalar.indexCast c1_i32_60
  let c1_i32_61 : BitVec 32 := 1#32
  let v139 : Index := Scalar.indexCast c1_i32_61
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v140 : Index := Scalar.indexCast v21
  ![1, 1, v140.toNat]
def k0_off73 (k0_t2 : Fin k0_t2_loop.trips) : Fin 3 → Nat :=
  let c1_i32_64 : BitVec 32 := 1#32
  let v150 : Index := Scalar.indexCast c1_i32_64
  let c2_i32_65 : BitVec 32 := 2#32
  let v151 : Index := Scalar.indexCast c2_i32_65
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v152 : Index := Scalar.indexCast v21
  ![1, 2, v152.toNat]
def k0_off74 (k0_t2 : Fin k0_t2_loop.trips) : Fin 3 → Nat :=
  let c1_i32_68 : BitVec 32 := 1#32
  let v162 : Index := Scalar.indexCast c1_i32_68
  let c3_i32_69 : BitVec 32 := 3#32
  let v163 : Index := Scalar.indexCast c3_i32_69
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v164 : Index := Scalar.indexCast v21
  ![1, 3, v164.toNat]
def k0_off75 (k0_t2 : Fin k0_t2_loop.trips) : Fin 3 → Nat :=
  let c1_i32_72 : BitVec 32 := 1#32
  let v174 : Index := Scalar.indexCast c1_i32_72
  let c4_i32_73 : BitVec 32 := 4#32
  let v175 : Index := Scalar.indexCast c4_i32_73
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v176 : Index := Scalar.indexCast v21
  ![1, 4, v176.toNat]
def k0_off76 (k0_t2 : Fin k0_t2_loop.trips) : Fin 3 → Nat :=
  let c1_i32_76 : BitVec 32 := 1#32
  let v186 : Index := Scalar.indexCast c1_i32_76
  let c5_i32_77 : BitVec 32 := 5#32
  let v187 : Index := Scalar.indexCast c5_i32_77
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v188 : Index := Scalar.indexCast v21
  ![1, 5, v188.toNat]
def k0_off77 (k0_t2 : Fin k0_t2_loop.trips) : Fin 3 → Nat :=
  let c1_i32_80 : BitVec 32 := 1#32
  let v198 : Index := Scalar.indexCast c1_i32_80
  let c6_i32_81 : BitVec 32 := 6#32
  let v199 : Index := Scalar.indexCast c6_i32_81
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v200 : Index := Scalar.indexCast v21
  ![1, 6, v200.toNat]
def k0_off78 (k0_t2 : Fin k0_t2_loop.trips) : Fin 3 → Nat :=
  let c1_i32_84 : BitVec 32 := 1#32
  let v210 : Index := Scalar.indexCast c1_i32_84
  let c7_i32_85 : BitVec 32 := 7#32
  let v211 : Index := Scalar.indexCast c7_i32_85
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v212 : Index := Scalar.indexCast v21
  ![1, 7, v212.toNat]
def k0_off79 (k0_t2 : Fin k0_t2_loop.trips) : Fin 2 → Nat :=
  let c0_i32_88 : BitVec 32 := 0#32
  let v222 : Index := Scalar.indexCast c0_i32_88
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v223 : Index := Scalar.indexCast v21
  ![0, v223.toNat]
def k0_off80 (k0_t2 : Fin k0_t2_loop.trips) : Fin 3 → Nat :=
  let c2_i32_89 : BitVec 32 := 2#32
  let v226 : Index := Scalar.indexCast c2_i32_89
  let c0_i32_90 : BitVec 32 := 0#32
  let v227 : Index := Scalar.indexCast c0_i32_90
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v228 : Index := Scalar.indexCast v21
  ![2, 0, v228.toNat]
def k0_off81 (k0_t2 : Fin k0_t2_loop.trips) : Fin 3 → Nat :=
  let c2_i32_93 : BitVec 32 := 2#32
  let v238 : Index := Scalar.indexCast c2_i32_93
  let c1_i32_94 : BitVec 32 := 1#32
  let v239 : Index := Scalar.indexCast c1_i32_94
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v240 : Index := Scalar.indexCast v21
  ![2, 1, v240.toNat]
def k0_off82 (k0_t2 : Fin k0_t2_loop.trips) : Fin 3 → Nat :=
  let c2_i32_97 : BitVec 32 := 2#32
  let v250 : Index := Scalar.indexCast c2_i32_97
  let c2_i32_98 : BitVec 32 := 2#32
  let v251 : Index := Scalar.indexCast c2_i32_98
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v252 : Index := Scalar.indexCast v21
  ![2, 2, v252.toNat]
def k0_off83 (k0_t2 : Fin k0_t2_loop.trips) : Fin 3 → Nat :=
  let c2_i32_101 : BitVec 32 := 2#32
  let v262 : Index := Scalar.indexCast c2_i32_101
  let c3_i32_102 : BitVec 32 := 3#32
  let v263 : Index := Scalar.indexCast c3_i32_102
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v264 : Index := Scalar.indexCast v21
  ![2, 3, v264.toNat]
def k0_off84 (k0_t2 : Fin k0_t2_loop.trips) : Fin 3 → Nat :=
  let c2_i32_105 : BitVec 32 := 2#32
  let v274 : Index := Scalar.indexCast c2_i32_105
  let c4_i32_106 : BitVec 32 := 4#32
  let v275 : Index := Scalar.indexCast c4_i32_106
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v276 : Index := Scalar.indexCast v21
  ![2, 4, v276.toNat]
def k0_off85 (k0_t2 : Fin k0_t2_loop.trips) : Fin 3 → Nat :=
  let c2_i32_109 : BitVec 32 := 2#32
  let v286 : Index := Scalar.indexCast c2_i32_109
  let c5_i32_110 : BitVec 32 := 5#32
  let v287 : Index := Scalar.indexCast c5_i32_110
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v288 : Index := Scalar.indexCast v21
  ![2, 5, v288.toNat]
def k0_off86 (k0_t2 : Fin k0_t2_loop.trips) : Fin 3 → Nat :=
  let c2_i32_113 : BitVec 32 := 2#32
  let v298 : Index := Scalar.indexCast c2_i32_113
  let c6_i32_114 : BitVec 32 := 6#32
  let v299 : Index := Scalar.indexCast c6_i32_114
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v300 : Index := Scalar.indexCast v21
  ![2, 6, v300.toNat]
def k0_off87 (k0_t2 : Fin k0_t2_loop.trips) : Fin 3 → Nat :=
  let c2_i32_117 : BitVec 32 := 2#32
  let v310 : Index := Scalar.indexCast c2_i32_117
  let c7_i32_118 : BitVec 32 := 7#32
  let v311 : Index := Scalar.indexCast c7_i32_118
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v312 : Index := Scalar.indexCast v21
  ![2, 7, v312.toNat]
def k0_off88 (k0_t2 : Fin k0_t2_loop.trips) : Fin 2 → Nat :=
  let c1_i32_121 : BitVec 32 := 1#32
  let v322 : Index := Scalar.indexCast c1_i32_121
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v323 : Index := Scalar.indexCast v21
  ![1, v323.toNat]
def k0_off89 (k0_t2 : Fin k0_t2_loop.trips) : Fin 3 → Nat :=
  let c3_i32_122 : BitVec 32 := 3#32
  let v326 : Index := Scalar.indexCast c3_i32_122
  let c0_i32_123 : BitVec 32 := 0#32
  let v327 : Index := Scalar.indexCast c0_i32_123
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v328 : Index := Scalar.indexCast v21
  ![3, 0, v328.toNat]
def k0_off90 (k0_t2 : Fin k0_t2_loop.trips) : Fin 3 → Nat :=
  let c3_i32_126 : BitVec 32 := 3#32
  let v338 : Index := Scalar.indexCast c3_i32_126
  let c1_i32_127 : BitVec 32 := 1#32
  let v339 : Index := Scalar.indexCast c1_i32_127
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v340 : Index := Scalar.indexCast v21
  ![3, 1, v340.toNat]
def k0_off91 (k0_t2 : Fin k0_t2_loop.trips) : Fin 3 → Nat :=
  let c3_i32_130 : BitVec 32 := 3#32
  let v350 : Index := Scalar.indexCast c3_i32_130
  let c2_i32_131 : BitVec 32 := 2#32
  let v351 : Index := Scalar.indexCast c2_i32_131
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v352 : Index := Scalar.indexCast v21
  ![3, 2, v352.toNat]
def k0_off92 (k0_t2 : Fin k0_t2_loop.trips) : Fin 3 → Nat :=
  let c3_i32_134 : BitVec 32 := 3#32
  let v362 : Index := Scalar.indexCast c3_i32_134
  let c3_i32_135 : BitVec 32 := 3#32
  let v363 : Index := Scalar.indexCast c3_i32_135
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v364 : Index := Scalar.indexCast v21
  ![3, 3, v364.toNat]
def k0_off93 (k0_t2 : Fin k0_t2_loop.trips) : Fin 3 → Nat :=
  let c3_i32_138 : BitVec 32 := 3#32
  let v374 : Index := Scalar.indexCast c3_i32_138
  let c4_i32_139 : BitVec 32 := 4#32
  let v375 : Index := Scalar.indexCast c4_i32_139
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v376 : Index := Scalar.indexCast v21
  ![3, 4, v376.toNat]
def k0_off94 (k0_t2 : Fin k0_t2_loop.trips) : Fin 3 → Nat :=
  let c3_i32_142 : BitVec 32 := 3#32
  let v386 : Index := Scalar.indexCast c3_i32_142
  let c5_i32_143 : BitVec 32 := 5#32
  let v387 : Index := Scalar.indexCast c5_i32_143
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v388 : Index := Scalar.indexCast v21
  ![3, 5, v388.toNat]
def k0_off95 (k0_t2 : Fin k0_t2_loop.trips) : Fin 3 → Nat :=
  let c3_i32_146 : BitVec 32 := 3#32
  let v398 : Index := Scalar.indexCast c3_i32_146
  let c6_i32_147 : BitVec 32 := 6#32
  let v399 : Index := Scalar.indexCast c6_i32_147
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v400 : Index := Scalar.indexCast v21
  ![3, 6, v400.toNat]
def k0_off96 (k0_t2 : Fin k0_t2_loop.trips) : Fin 3 → Nat :=
  let c3_i32_150 : BitVec 32 := 3#32
  let v410 : Index := Scalar.indexCast c3_i32_150
  let c7_i32_151 : BitVec 32 := 7#32
  let v411 : Index := Scalar.indexCast c7_i32_151
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v412 : Index := Scalar.indexCast v21
  ![3, 7, v412.toNat]
def k0_off97 (k0_t2 : Fin k0_t2_loop.trips) : Fin 2 → Nat :=
  let c2_i32_154 : BitVec 32 := 2#32
  let v422 : Index := Scalar.indexCast c2_i32_154
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v423 : Index := Scalar.indexCast v21
  ![2, v423.toNat]
def k0_off98 (k0_t2 : Fin k0_t2_loop.trips) : Fin 3 → Nat :=
  let c4_i32_155 : BitVec 32 := 4#32
  let v426 : Index := Scalar.indexCast c4_i32_155
  let c0_i32_156 : BitVec 32 := 0#32
  let v427 : Index := Scalar.indexCast c0_i32_156
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v428 : Index := Scalar.indexCast v21
  ![4, 0, v428.toNat]
def k0_off99 (k0_t2 : Fin k0_t2_loop.trips) : Fin 3 → Nat :=
  let c4_i32_159 : BitVec 32 := 4#32
  let v438 : Index := Scalar.indexCast c4_i32_159
  let c1_i32_160 : BitVec 32 := 1#32
  let v439 : Index := Scalar.indexCast c1_i32_160
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v440 : Index := Scalar.indexCast v21
  ![4, 1, v440.toNat]
def k0_off100 (k0_t2 : Fin k0_t2_loop.trips) : Fin 3 → Nat :=
  let c4_i32_163 : BitVec 32 := 4#32
  let v450 : Index := Scalar.indexCast c4_i32_163
  let c2_i32_164 : BitVec 32 := 2#32
  let v451 : Index := Scalar.indexCast c2_i32_164
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v452 : Index := Scalar.indexCast v21
  ![4, 2, v452.toNat]
def k0_off101 (k0_t2 : Fin k0_t2_loop.trips) : Fin 3 → Nat :=
  let c4_i32_167 : BitVec 32 := 4#32
  let v462 : Index := Scalar.indexCast c4_i32_167
  let c3_i32_168 : BitVec 32 := 3#32
  let v463 : Index := Scalar.indexCast c3_i32_168
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v464 : Index := Scalar.indexCast v21
  ![4, 3, v464.toNat]
def k0_off102 (k0_t2 : Fin k0_t2_loop.trips) : Fin 3 → Nat :=
  let c4_i32_171 : BitVec 32 := 4#32
  let v474 : Index := Scalar.indexCast c4_i32_171
  let c4_i32_172 : BitVec 32 := 4#32
  let v475 : Index := Scalar.indexCast c4_i32_172
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v476 : Index := Scalar.indexCast v21
  ![4, 4, v476.toNat]
def k0_off103 (k0_t2 : Fin k0_t2_loop.trips) : Fin 3 → Nat :=
  let c4_i32_175 : BitVec 32 := 4#32
  let v486 : Index := Scalar.indexCast c4_i32_175
  let c5_i32_176 : BitVec 32 := 5#32
  let v487 : Index := Scalar.indexCast c5_i32_176
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v488 : Index := Scalar.indexCast v21
  ![4, 5, v488.toNat]
def k0_off104 (k0_t2 : Fin k0_t2_loop.trips) : Fin 3 → Nat :=
  let c4_i32_179 : BitVec 32 := 4#32
  let v498 : Index := Scalar.indexCast c4_i32_179
  let c6_i32_180 : BitVec 32 := 6#32
  let v499 : Index := Scalar.indexCast c6_i32_180
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v500 : Index := Scalar.indexCast v21
  ![4, 6, v500.toNat]
def k0_off105 (k0_t2 : Fin k0_t2_loop.trips) : Fin 3 → Nat :=
  let c4_i32_183 : BitVec 32 := 4#32
  let v510 : Index := Scalar.indexCast c4_i32_183
  let c7_i32_184 : BitVec 32 := 7#32
  let v511 : Index := Scalar.indexCast c7_i32_184
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v512 : Index := Scalar.indexCast v21
  ![4, 7, v512.toNat]
def k0_off106 (k0_t2 : Fin k0_t2_loop.trips) : Fin 2 → Nat :=
  let c3_i32_187 : BitVec 32 := 3#32
  let v522 : Index := Scalar.indexCast c3_i32_187
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v523 : Index := Scalar.indexCast v21
  ![3, v523.toNat]
def k0_off107 (k0_t2 : Fin k0_t2_loop.trips) : Fin 3 → Nat :=
  let c5_i32_188 : BitVec 32 := 5#32
  let v526 : Index := Scalar.indexCast c5_i32_188
  let c0_i32_189 : BitVec 32 := 0#32
  let v527 : Index := Scalar.indexCast c0_i32_189
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v528 : Index := Scalar.indexCast v21
  ![5, 0, v528.toNat]
def k0_off108 (k0_t2 : Fin k0_t2_loop.trips) : Fin 3 → Nat :=
  let c5_i32_192 : BitVec 32 := 5#32
  let v538 : Index := Scalar.indexCast c5_i32_192
  let c1_i32_193 : BitVec 32 := 1#32
  let v539 : Index := Scalar.indexCast c1_i32_193
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v540 : Index := Scalar.indexCast v21
  ![5, 1, v540.toNat]
def k0_off109 (k0_t2 : Fin k0_t2_loop.trips) : Fin 3 → Nat :=
  let c5_i32_196 : BitVec 32 := 5#32
  let v550 : Index := Scalar.indexCast c5_i32_196
  let c2_i32_197 : BitVec 32 := 2#32
  let v551 : Index := Scalar.indexCast c2_i32_197
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v552 : Index := Scalar.indexCast v21
  ![5, 2, v552.toNat]
def k0_off110 (k0_t2 : Fin k0_t2_loop.trips) : Fin 3 → Nat :=
  let c5_i32_200 : BitVec 32 := 5#32
  let v562 : Index := Scalar.indexCast c5_i32_200
  let c3_i32_201 : BitVec 32 := 3#32
  let v563 : Index := Scalar.indexCast c3_i32_201
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v564 : Index := Scalar.indexCast v21
  ![5, 3, v564.toNat]
def k0_off111 (k0_t2 : Fin k0_t2_loop.trips) : Fin 3 → Nat :=
  let c5_i32_204 : BitVec 32 := 5#32
  let v574 : Index := Scalar.indexCast c5_i32_204
  let c4_i32_205 : BitVec 32 := 4#32
  let v575 : Index := Scalar.indexCast c4_i32_205
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v576 : Index := Scalar.indexCast v21
  ![5, 4, v576.toNat]
def k0_off112 (k0_t2 : Fin k0_t2_loop.trips) : Fin 3 → Nat :=
  let c5_i32_208 : BitVec 32 := 5#32
  let v586 : Index := Scalar.indexCast c5_i32_208
  let c5_i32_209 : BitVec 32 := 5#32
  let v587 : Index := Scalar.indexCast c5_i32_209
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v588 : Index := Scalar.indexCast v21
  ![5, 5, v588.toNat]
def k0_off113 (k0_t2 : Fin k0_t2_loop.trips) : Fin 3 → Nat :=
  let c5_i32_212 : BitVec 32 := 5#32
  let v598 : Index := Scalar.indexCast c5_i32_212
  let c6_i32_213 : BitVec 32 := 6#32
  let v599 : Index := Scalar.indexCast c6_i32_213
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v600 : Index := Scalar.indexCast v21
  ![5, 6, v600.toNat]
def k0_off114 (k0_t2 : Fin k0_t2_loop.trips) : Fin 3 → Nat :=
  let c5_i32_216 : BitVec 32 := 5#32
  let v610 : Index := Scalar.indexCast c5_i32_216
  let c7_i32_217 : BitVec 32 := 7#32
  let v611 : Index := Scalar.indexCast c7_i32_217
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v612 : Index := Scalar.indexCast v21
  ![5, 7, v612.toNat]
def k0_off115 (k0_t2 : Fin k0_t2_loop.trips) : Fin 2 → Nat :=
  let c4_i32_220 : BitVec 32 := 4#32
  let v622 : Index := Scalar.indexCast c4_i32_220
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v623 : Index := Scalar.indexCast v21
  ![4, v623.toNat]
def k0_off116 (k0_t2 : Fin k0_t2_loop.trips) : Fin 3 → Nat :=
  let c6_i32_221 : BitVec 32 := 6#32
  let v626 : Index := Scalar.indexCast c6_i32_221
  let c0_i32_222 : BitVec 32 := 0#32
  let v627 : Index := Scalar.indexCast c0_i32_222
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v628 : Index := Scalar.indexCast v21
  ![6, 0, v628.toNat]
def k0_off117 (k0_t2 : Fin k0_t2_loop.trips) : Fin 3 → Nat :=
  let c6_i32_225 : BitVec 32 := 6#32
  let v638 : Index := Scalar.indexCast c6_i32_225
  let c1_i32_226 : BitVec 32 := 1#32
  let v639 : Index := Scalar.indexCast c1_i32_226
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v640 : Index := Scalar.indexCast v21
  ![6, 1, v640.toNat]
def k0_off118 (k0_t2 : Fin k0_t2_loop.trips) : Fin 3 → Nat :=
  let c6_i32_229 : BitVec 32 := 6#32
  let v650 : Index := Scalar.indexCast c6_i32_229
  let c2_i32_230 : BitVec 32 := 2#32
  let v651 : Index := Scalar.indexCast c2_i32_230
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v652 : Index := Scalar.indexCast v21
  ![6, 2, v652.toNat]
def k0_off119 (k0_t2 : Fin k0_t2_loop.trips) : Fin 3 → Nat :=
  let c6_i32_233 : BitVec 32 := 6#32
  let v662 : Index := Scalar.indexCast c6_i32_233
  let c3_i32_234 : BitVec 32 := 3#32
  let v663 : Index := Scalar.indexCast c3_i32_234
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v664 : Index := Scalar.indexCast v21
  ![6, 3, v664.toNat]
def k0_off120 (k0_t2 : Fin k0_t2_loop.trips) : Fin 3 → Nat :=
  let c6_i32_237 : BitVec 32 := 6#32
  let v674 : Index := Scalar.indexCast c6_i32_237
  let c4_i32_238 : BitVec 32 := 4#32
  let v675 : Index := Scalar.indexCast c4_i32_238
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v676 : Index := Scalar.indexCast v21
  ![6, 4, v676.toNat]
def k0_off121 (k0_t2 : Fin k0_t2_loop.trips) : Fin 3 → Nat :=
  let c6_i32_241 : BitVec 32 := 6#32
  let v686 : Index := Scalar.indexCast c6_i32_241
  let c5_i32_242 : BitVec 32 := 5#32
  let v687 : Index := Scalar.indexCast c5_i32_242
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v688 : Index := Scalar.indexCast v21
  ![6, 5, v688.toNat]
def k0_off122 (k0_t2 : Fin k0_t2_loop.trips) : Fin 3 → Nat :=
  let c6_i32_245 : BitVec 32 := 6#32
  let v698 : Index := Scalar.indexCast c6_i32_245
  let c6_i32_246 : BitVec 32 := 6#32
  let v699 : Index := Scalar.indexCast c6_i32_246
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v700 : Index := Scalar.indexCast v21
  ![6, 6, v700.toNat]
def k0_off123 (k0_t2 : Fin k0_t2_loop.trips) : Fin 3 → Nat :=
  let c6_i32_249 : BitVec 32 := 6#32
  let v710 : Index := Scalar.indexCast c6_i32_249
  let c7_i32_250 : BitVec 32 := 7#32
  let v711 : Index := Scalar.indexCast c7_i32_250
  let c0_i32_14 : BitVec 32 := 0#32
  let c1_i32 : BitVec 32 := 1#32
  let arg16 : BitVec 32 := Scf.iv c0_i32_14 c1_i32 k0_t2
  let c16_i32 : BitVec 32 := 16#32
  let v21 : BitVec 32 := Scalar.muli arg16 c16_i32
  let v712 : Index := Scalar.indexCast v21
  ![6, 7, v712.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v8 : BitVec 1 := Scalar.cmpi .eq v1 c28_i32
  let v9 : BitVec 32 := Scalar.extui v8
  let c0_i32_2 : BitVec 32 := 0#32
  let v10 : BitVec 1 := Scalar.cmpi .ne v9 c0_i32_2
  v10

@[reducible] def k0_t3_loop : Scf.Loop 32 :=
  let c0_i32_4 : BitVec 32 := 0#32
  let c48_i32 : BitVec 32 := 48#32
  let v11 : BitVec 32 := Scalar.addi c0_i32_4 c48_i32
  let c1_i32 : BitVec 32 := 1#32
  ⟨c0_i32_4, v11, c1_i32⟩
def k0_off124 (k0_t3 : Fin k0_t3_loop.trips) : Fin 2 → Nat :=
  let c0_i32_18 : BitVec 32 := 0#32
  let v18 : Index := Scalar.indexCast c0_i32_18
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v19 : Index := Scalar.indexCast v17
  ![0, v19.toNat]
def k0_off125 (k0_t3 : Fin k0_t3_loop.trips) : Fin 2 → Nat :=
  let c0_i32_19 : BitVec 32 := 0#32
  let v22 : Index := Scalar.indexCast c0_i32_19
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v23 : Index := Scalar.indexCast v17
  ![0, v23.toNat]
def k0_off126 (k0_t3 : Fin k0_t3_loop.trips) : Fin 3 → Nat :=
  let c0_i32_20 : BitVec 32 := 0#32
  let v27 : Index := Scalar.indexCast c0_i32_20
  let c0_i32_21 : BitVec 32 := 0#32
  let v28 : Index := Scalar.indexCast c0_i32_21
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v29 : Index := Scalar.indexCast v17
  ![0, 0, v29.toNat]
def k0_off127 (k0_t3 : Fin k0_t3_loop.trips) : Fin 3 → Nat :=
  let c0_i32_22 : BitVec 32 := 0#32
  let v33 : Index := Scalar.indexCast c0_i32_22
  let c1_i32_23 : BitVec 32 := 1#32
  let v34 : Index := Scalar.indexCast c1_i32_23
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v35 : Index := Scalar.indexCast v17
  ![0, 1, v35.toNat]
def k0_off128 (k0_t3 : Fin k0_t3_loop.trips) : Fin 3 → Nat :=
  let c0_i32_24 : BitVec 32 := 0#32
  let v39 : Index := Scalar.indexCast c0_i32_24
  let c2_i32_25 : BitVec 32 := 2#32
  let v40 : Index := Scalar.indexCast c2_i32_25
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v41 : Index := Scalar.indexCast v17
  ![0, 2, v41.toNat]
def k0_off129 (k0_t3 : Fin k0_t3_loop.trips) : Fin 3 → Nat :=
  let c0_i32_26 : BitVec 32 := 0#32
  let v45 : Index := Scalar.indexCast c0_i32_26
  let c3_i32 : BitVec 32 := 3#32
  let v46 : Index := Scalar.indexCast c3_i32
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v47 : Index := Scalar.indexCast v17
  ![0, 3, v47.toNat]
def k0_off130 (k0_t3 : Fin k0_t3_loop.trips) : Fin 3 → Nat :=
  let c0_i32_27 : BitVec 32 := 0#32
  let v51 : Index := Scalar.indexCast c0_i32_27
  let c4_i32 : BitVec 32 := 4#32
  let v52 : Index := Scalar.indexCast c4_i32
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v53 : Index := Scalar.indexCast v17
  ![0, 4, v53.toNat]
def k0_off131 (k0_t3 : Fin k0_t3_loop.trips) : Fin 3 → Nat :=
  let c0_i32_28 : BitVec 32 := 0#32
  let v57 : Index := Scalar.indexCast c0_i32_28
  let c5_i32 : BitVec 32 := 5#32
  let v58 : Index := Scalar.indexCast c5_i32
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v59 : Index := Scalar.indexCast v17
  ![0, 5, v59.toNat]
def k0_off132 (k0_t3 : Fin k0_t3_loop.trips) : Fin 3 → Nat :=
  let c0_i32_29 : BitVec 32 := 0#32
  let v63 : Index := Scalar.indexCast c0_i32_29
  let c6_i32 : BitVec 32 := 6#32
  let v64 : Index := Scalar.indexCast c6_i32
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v65 : Index := Scalar.indexCast v17
  ![0, 6, v65.toNat]
def k0_off133 (k0_t3 : Fin k0_t3_loop.trips) : Fin 3 → Nat :=
  let c0_i32_30 : BitVec 32 := 0#32
  let v69 : Index := Scalar.indexCast c0_i32_30
  let c7_i32 : BitVec 32 := 7#32
  let v70 : Index := Scalar.indexCast c7_i32
  let c0_i32_4 : BitVec 32 := 0#32
  let c1_i32 : BitVec 32 := 1#32
  let arg16 : BitVec 32 := Scf.iv c0_i32_4 c1_i32 k0_t3
  let c16_i32 : BitVec 32 := 16#32
  let v17 : BitVec 32 := Scalar.muli arg16 c16_i32
  let v71 : Index := Scalar.indexCast v17
  ![0, 7, v71.toNat]
abbrev grid1 : Pipeline.Grid := ⟨1, ![7], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S196x8x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S197x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S197x8x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S64x196x768_S196x64x768_1_0_2 : S64x196x768.Transposes [1, 0, 2] S196x64x768
  h_S1x16 : 0 < S1x16.numel
  shapeCasts_S1x16_S16 : S1x16.ShapeCasts S16
  h_S1x1x16 : 0 < S1x1x16.numel
  shapeCasts_S1x1x16_S16 : S1x1x16.ShapeCasts S16
  shapeCasts_S16_S1x1x16 : S16.ShapeCasts S1x1x16
  inb_S16x768_S8x768_0_0 : ∀ a, (![0, 0] : Fin 2 → Nat) a + S8x768.size a ≤ S16x768.size a
  inb_S197x768_S8x768_184_0 : ∀ a, (![184, 0] : Fin 2 → Nat) a + S8x768.size a ≤ S197x768.size a
  inb_S197x768_S5x768_192_0 : ∀ a, (![192, 0] : Fin 2 → Nat) a + S5x768.size a ≤ S197x768.size a
  inb_S196x64x768_S7x8x768_189_56_0 : ∀ a, (![189, 56, 0] : Fin 3 → Nat) a + S7x8x768.size a ≤ S196x64x768.size a
  inb_S197x8x768_S7x8x768_190_0_0 : ∀ a, (![190, 0, 0] : Fin 3 → Nat) a + S7x8x768.size a ≤ S197x8x768.size a
  inb_S197x768_S8x768_0_0 : ∀ a, (![0, 0] : Fin 2 → Nat) a + S8x768.size a ≤ S197x768.size a
  inb_S197x8x768_S1x8x768_0_0_0 : ∀ a, (![0, 0, 0] : Fin 3 → Nat) a + S1x8x768.size a ≤ S197x8x768.size a
  inb_S196x8x768_S196x8x768_0_0_0 : ∀ a, (![0, 0, 0] : Fin 3 → Nat) a + S196x8x768.size a ≤ S196x8x768.size a
  h_S196x8x768 : 0 < S196x8x768.numel
  shapeCasts_S196x8x768_S196x8x768 : S196x8x768.ShapeCasts S196x8x768
  inb_S197x768_S196x768_1_0 : ∀ a, (![1, 0] : Fin 2 → Nat) a + S196x768.size a ≤ S197x768.size a
  h_S196x768 : 0 < S196x768.numel
  shapeCasts_S196x768_S196x1x768 : S196x768.ShapeCasts S196x1x768
  broadcasts_S196x1x768_S196x8x768 : S196x1x768.Broadcasts S196x8x768
  inb_S197x8x768_S196x8x768_1_0_0 : ∀ a, (![1, 0, 0] : Fin 3 → Nat) a + S196x8x768.size a ≤ S197x8x768.size a
  inb_S1x768_S1x768_0_0 : ∀ a, (![0, 0] : Fin 2 → Nat) a + S1x768.size a ≤ S1x768.size a
  h_S1x768 : 0 < S1x768.numel
  inb_S197x768_S1x768_0_0 : ∀ a, (![0, 0] : Fin 2 → Nat) a + S1x768.size a ≤ S197x768.size a
  shapeCasts_S1x768_S1x1x768 : S1x768.ShapeCasts S1x1x768
  shapeCasts_S1x1x768_S1x1x768 : S1x1x768.ShapeCasts S1x1x768
  broadcasts_S1x1x768_S1x8x768 : S1x1x768.Broadcasts S1x8x768
  h_S1x8x768 : 0 < S1x8x768.numel
  updateFits_S197x64x768_S197x8x768 : S197x64x768.Slices (fun _ => 0) S197x8x768
  h_S_ : 0 < S_.numel
  transposes_S197x64x768_S64x197x768_1_0_2 : S197x64x768.Transposes [1, 0, 2] S64x197x768
  hcc0_scratch6 : 0 + S_.numel ≤ 15
  hcc0_scratch7 : 1 + S_.numel ≤ 15
  hcc0_scratch8 : 2 + S_.numel ≤ 15
  hcc0_scratch9 : 3 + S_.numel ≤ 15
  hcc0_scoped0 : 4 + S_.numel ≤ 15
  hcc0_scoped1 : 5 + S_.numel ≤ 15
  hcc0_scoped2 : 6 + S_.numel ≤ 15
  hcc0_scoped3 : 7 + S_.numel ≤ 15
  hcc0_scoped4 : 8 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S16x768.size a ≤ S197x768.size a
  k0_off2_inb : ∀ i : grid0.Coords, ∀ (k0_h1 : k0_cond1 i = 1#1), ∀ a, (k0_off2 i) a + S7x8x768.size a ≤ S196x64x768.size a
  k0_t1_ok : ∀ i : grid0.Coords, ∀ (k0_h1 : k0_cond1 i = 1#1), k0_t1_loop.OK
  k0_off3_inb : ∀ (i : grid0.Coords) (k0_t1 : Fin k0_t1_loop.trips), ∀ (k0_h1 : k0_cond1 i = 1#1), ∀ (r : Fin 7), ∀ a, (k0_off3 i k0_t1 (BitVec.ofNat 32 r.val)) a + S1x16.size a ≤ S16x768.size a
  k0_off4_inb : ∀ (i : grid0.Coords) (k0_t1 : Fin k0_t1_loop.trips), ∀ (k0_h1 : k0_cond1 i = 1#1), ∀ a, (k0_off4 k0_t1) a + S1x1x16.size a ≤ S7x8x768.size a
  k0_off5_inb : ∀ (i : grid0.Coords) (k0_t1 : Fin k0_t1_loop.trips), ∀ (k0_h1 : k0_cond1 i = 1#1), ∀ a, (k0_off5 k0_t1) a + S1x1x16.size a ≤ S7x8x768.size a
  k0_off6_inb : ∀ (i : grid0.Coords) (k0_t1 : Fin k0_t1_loop.trips), ∀ (k0_h1 : k0_cond1 i = 1#1), ∀ a, (k0_off6 k0_t1) a + S1x1x16.size a ≤ S7x8x768.size a
  k0_off7_inb : ∀ (i : grid0.Coords) (k0_t1 : Fin k0_t1_loop.trips), ∀ (k0_h1 : k0_cond1 i = 1#1), ∀ a, (k0_off7 k0_t1) a + S1x1x16.size a ≤ S7x8x768.size a
  k0_off8_inb : ∀ (i : grid0.Coords) (k0_t1 : Fin k0_t1_loop.trips), ∀ (k0_h1 : k0_cond1 i = 1#1), ∀ a, (k0_off8 k0_t1) a + S1x1x16.size a ≤ S7x8x768.size a
  k0_off9_inb : ∀ (i : grid0.Coords) (k0_t1 : Fin k0_t1_loop.trips), ∀ (k0_h1 : k0_cond1 i = 1#1), ∀ a, (k0_off9 k0_t1) a + S1x1x16.size a ≤ S7x8x768.size a
  k0_off10_inb : ∀ (i : grid0.Coords) (k0_t1 : Fin k0_t1_loop.trips), ∀ (k0_h1 : k0_cond1 i = 1#1), ∀ a, (k0_off10 k0_t1) a + S1x1x16.size a ≤ S7x8x768.size a
  k0_off11_inb : ∀ (i : grid0.Coords) (k0_t1 : Fin k0_t1_loop.trips), ∀ (k0_h1 : k0_cond1 i = 1#1), ∀ a, (k0_off11 k0_t1) a + S1x1x16.size a ≤ S7x8x768.size a
  k0_off12_inb : ∀ (i : grid0.Coords) (k0_t1 : Fin k0_t1_loop.trips), ∀ (k0_h1 : k0_cond1 i = 1#1), ∀ a, (k0_off12 k0_t1) a + S1x1x16.size a ≤ S7x8x768.size a
  k0_off13_inb : ∀ (i : grid0.Coords) (k0_t1 : Fin k0_t1_loop.trips), ∀ (k0_h1 : k0_cond1 i = 1#1), ∀ a, (k0_off13 k0_t1) a + S1x1x16.size a ≤ S7x8x768.size a
  k0_off14_inb : ∀ (i : grid0.Coords) (k0_t1 : Fin k0_t1_loop.trips), ∀ (k0_h1 : k0_cond1 i = 1#1), ∀ a, (k0_off14 k0_t1) a + S1x1x16.size a ≤ S7x8x768.size a
  k0_off15_inb : ∀ (i : grid0.Coords) (k0_t1 : Fin k0_t1_loop.trips), ∀ (k0_h1 : k0_cond1 i = 1#1), ∀ a, (k0_off15 k0_t1) a + S1x1x16.size a ≤ S7x8x768.size a
  k0_off16_inb : ∀ (i : grid0.Coords) (k0_t1 : Fin k0_t1_loop.trips), ∀ (k0_h1 : k0_cond1 i = 1#1), ∀ a, (k0_off16 k0_t1) a + S1x1x16.size a ≤ S7x8x768.size a
  k0_off17_inb : ∀ (i : grid0.Coords) (k0_t1 : Fin k0_t1_loop.trips), ∀ (k0_h1 : k0_cond1 i = 1#1), ∀ a, (k0_off17 k0_t1) a + S1x1x16.size a ≤ S7x8x768.size a
  k0_off18_inb : ∀ (i : grid0.Coords) (k0_t1 : Fin k0_t1_loop.trips), ∀ (k0_h1 : k0_cond1 i = 1#1), ∀ a, (k0_off18 k0_t1) a + S1x1x16.size a ≤ S7x8x768.size a
  k0_off19_inb : ∀ (i : grid0.Coords) (k0_t1 : Fin k0_t1_loop.trips), ∀ (k0_h1 : k0_cond1 i = 1#1), ∀ a, (k0_off19 k0_t1) a + S1x1x16.size a ≤ S7x8x768.size a
  k0_off20_inb : ∀ (i : grid0.Coords) (k0_t1 : Fin k0_t1_loop.trips), ∀ (k0_h1 : k0_cond1 i = 1#1), ∀ a, (k0_off20 k0_t1) a + S1x1x16.size a ≤ S7x8x768.size a
  k0_off21_inb : ∀ (i : grid0.Coords) (k0_t1 : Fin k0_t1_loop.trips), ∀ (k0_h1 : k0_cond1 i = 1#1), ∀ a, (k0_off21 k0_t1) a + S1x1x16.size a ≤ S7x8x768.size a
  k0_off22_inb : ∀ (i : grid0.Coords) (k0_t1 : Fin k0_t1_loop.trips), ∀ (k0_h1 : k0_cond1 i = 1#1), ∀ a, (k0_off22 k0_t1) a + S1x1x16.size a ≤ S7x8x768.size a
  k0_off23_inb : ∀ (i : grid0.Coords) (k0_t1 : Fin k0_t1_loop.trips), ∀ (k0_h1 : k0_cond1 i = 1#1), ∀ a, (k0_off23 k0_t1) a + S1x1x16.size a ≤ S7x8x768.size a
  k0_off24_inb : ∀ (i : grid0.Coords) (k0_t1 : Fin k0_t1_loop.trips), ∀ (k0_h1 : k0_cond1 i = 1#1), ∀ a, (k0_off24 k0_t1) a + S1x1x16.size a ≤ S7x8x768.size a
  k0_off25_inb : ∀ (i : grid0.Coords) (k0_t1 : Fin k0_t1_loop.trips), ∀ (k0_h1 : k0_cond1 i = 1#1), ∀ a, (k0_off25 k0_t1) a + S1x1x16.size a ≤ S7x8x768.size a
  k0_off26_inb : ∀ (i : grid0.Coords) (k0_t1 : Fin k0_t1_loop.trips), ∀ (k0_h1 : k0_cond1 i = 1#1), ∀ a, (k0_off26 k0_t1) a + S1x1x16.size a ≤ S7x8x768.size a
  k0_off27_inb : ∀ (i : grid0.Coords) (k0_t1 : Fin k0_t1_loop.trips), ∀ (k0_h1 : k0_cond1 i = 1#1), ∀ a, (k0_off27 k0_t1) a + S1x1x16.size a ≤ S7x8x768.size a
  k0_off28_inb : ∀ (i : grid0.Coords) (k0_t1 : Fin k0_t1_loop.trips), ∀ (k0_h1 : k0_cond1 i = 1#1), ∀ a, (k0_off28 k0_t1) a + S1x1x16.size a ≤ S7x8x768.size a
  k0_off29_inb : ∀ (i : grid0.Coords) (k0_t1 : Fin k0_t1_loop.trips), ∀ (k0_h1 : k0_cond1 i = 1#1), ∀ a, (k0_off29 k0_t1) a + S1x1x16.size a ≤ S7x8x768.size a
  k0_off30_inb : ∀ (i : grid0.Coords) (k0_t1 : Fin k0_t1_loop.trips), ∀ (k0_h1 : k0_cond1 i = 1#1), ∀ a, (k0_off30 k0_t1) a + S1x1x16.size a ≤ S7x8x768.size a
  k0_off31_inb : ∀ (i : grid0.Coords) (k0_t1 : Fin k0_t1_loop.trips), ∀ (k0_h1 : k0_cond1 i = 1#1), ∀ a, (k0_off31 k0_t1) a + S1x1x16.size a ≤ S7x8x768.size a
  k0_off32_inb : ∀ (i : grid0.Coords) (k0_t1 : Fin k0_t1_loop.trips), ∀ (k0_h1 : k0_cond1 i = 1#1), ∀ a, (k0_off32 k0_t1) a + S1x1x16.size a ≤ S7x8x768.size a
  k0_off33_inb : ∀ (i : grid0.Coords) (k0_t1 : Fin k0_t1_loop.trips), ∀ (k0_h1 : k0_cond1 i = 1#1), ∀ a, (k0_off33 k0_t1) a + S1x1x16.size a ≤ S7x8x768.size a
  k0_off34_inb : ∀ (i : grid0.Coords) (k0_t1 : Fin k0_t1_loop.trips), ∀ (k0_h1 : k0_cond1 i = 1#1), ∀ a, (k0_off34 k0_t1) a + S1x1x16.size a ≤ S7x8x768.size a
  k0_off35_inb : ∀ (i : grid0.Coords) (k0_t1 : Fin k0_t1_loop.trips), ∀ (k0_h1 : k0_cond1 i = 1#1), ∀ a, (k0_off35 k0_t1) a + S1x1x16.size a ≤ S7x8x768.size a
  k0_off36_inb : ∀ (i : grid0.Coords) (k0_t1 : Fin k0_t1_loop.trips), ∀ (k0_h1 : k0_cond1 i = 1#1), ∀ a, (k0_off36 k0_t1) a + S1x1x16.size a ≤ S7x8x768.size a
  k0_off37_inb : ∀ (i : grid0.Coords) (k0_t1 : Fin k0_t1_loop.trips), ∀ (k0_h1 : k0_cond1 i = 1#1), ∀ a, (k0_off37 k0_t1) a + S1x1x16.size a ≤ S7x8x768.size a
  k0_off38_inb : ∀ (i : grid0.Coords) (k0_t1 : Fin k0_t1_loop.trips), ∀ (k0_h1 : k0_cond1 i = 1#1), ∀ a, (k0_off38 k0_t1) a + S1x1x16.size a ≤ S7x8x768.size a
  k0_off39_inb : ∀ (i : grid0.Coords) (k0_t1 : Fin k0_t1_loop.trips), ∀ (k0_h1 : k0_cond1 i = 1#1), ∀ a, (k0_off39 k0_t1) a + S1x1x16.size a ≤ S7x8x768.size a
  k0_off40_inb : ∀ (i : grid0.Coords) (k0_t1 : Fin k0_t1_loop.trips), ∀ (k0_h1 : k0_cond1 i = 1#1), ∀ a, (k0_off40 k0_t1) a + S1x1x16.size a ≤ S7x8x768.size a
  k0_off41_inb : ∀ (i : grid0.Coords) (k0_t1 : Fin k0_t1_loop.trips), ∀ (k0_h1 : k0_cond1 i = 1#1), ∀ a, (k0_off41 k0_t1) a + S1x1x16.size a ≤ S7x8x768.size a
  k0_off42_inb : ∀ (i : grid0.Coords) (k0_t1 : Fin k0_t1_loop.trips), ∀ (k0_h1 : k0_cond1 i = 1#1), ∀ a, (k0_off42 k0_t1) a + S1x1x16.size a ≤ S7x8x768.size a
  k0_off43_inb : ∀ (i : grid0.Coords) (k0_t1 : Fin k0_t1_loop.trips), ∀ (k0_h1 : k0_cond1 i = 1#1), ∀ a, (k0_off43 k0_t1) a + S1x1x16.size a ≤ S7x8x768.size a
  k0_off44_inb : ∀ (i : grid0.Coords) (k0_t1 : Fin k0_t1_loop.trips), ∀ (k0_h1 : k0_cond1 i = 1#1), ∀ a, (k0_off44 k0_t1) a + S1x1x16.size a ≤ S7x8x768.size a
  k0_off45_inb : ∀ (i : grid0.Coords) (k0_t1 : Fin k0_t1_loop.trips), ∀ (k0_h1 : k0_cond1 i = 1#1), ∀ a, (k0_off45 k0_t1) a + S1x1x16.size a ≤ S7x8x768.size a
  k0_off46_inb : ∀ (i : grid0.Coords) (k0_t1 : Fin k0_t1_loop.trips), ∀ (k0_h1 : k0_cond1 i = 1#1), ∀ a, (k0_off46 k0_t1) a + S1x1x16.size a ≤ S7x8x768.size a
  k0_off47_inb : ∀ (i : grid0.Coords) (k0_t1 : Fin k0_t1_loop.trips), ∀ (k0_h1 : k0_cond1 i = 1#1), ∀ a, (k0_off47 k0_t1) a + S1x1x16.size a ≤ S7x8x768.size a
  k0_off48_inb : ∀ (i : grid0.Coords) (k0_t1 : Fin k0_t1_loop.trips), ∀ (k0_h1 : k0_cond1 i = 1#1), ∀ a, (k0_off48 k0_t1) a + S1x1x16.size a ≤ S7x8x768.size a
  k0_off49_inb : ∀ (i : grid0.Coords) (k0_t1 : Fin k0_t1_loop.trips), ∀ (k0_h1 : k0_cond1 i = 1#1), ∀ a, (k0_off49 k0_t1) a + S1x1x16.size a ≤ S7x8x768.size a
  k0_off50_inb : ∀ (i : grid0.Coords) (k0_t1 : Fin k0_t1_loop.trips), ∀ (k0_h1 : k0_cond1 i = 1#1), ∀ a, (k0_off50 k0_t1) a + S1x1x16.size a ≤ S7x8x768.size a
  k0_off51_inb : ∀ (i : grid0.Coords) (k0_t1 : Fin k0_t1_loop.trips), ∀ (k0_h1 : k0_cond1 i = 1#1), ∀ a, (k0_off51 k0_t1) a + S1x1x16.size a ≤ S7x8x768.size a
  k0_off52_inb : ∀ (i : grid0.Coords) (k0_t1 : Fin k0_t1_loop.trips), ∀ (k0_h1 : k0_cond1 i = 1#1), ∀ a, (k0_off52 k0_t1) a + S1x1x16.size a ≤ S7x8x768.size a
  k0_off53_inb : ∀ (i : grid0.Coords) (k0_t1 : Fin k0_t1_loop.trips), ∀ (k0_h1 : k0_cond1 i = 1#1), ∀ a, (k0_off53 k0_t1) a + S1x1x16.size a ≤ S7x8x768.size a
  k0_off54_inb : ∀ (i : grid0.Coords) (k0_t1 : Fin k0_t1_loop.trips), ∀ (k0_h1 : k0_cond1 i = 1#1), ∀ a, (k0_off54 k0_t1) a + S1x1x16.size a ≤ S7x8x768.size a
  k0_off55_inb : ∀ (i : grid0.Coords) (k0_t1 : Fin k0_t1_loop.trips), ∀ (k0_h1 : k0_cond1 i = 1#1), ∀ a, (k0_off55 k0_t1) a + S1x1x16.size a ≤ S7x8x768.size a
  k0_off56_inb : ∀ (i : grid0.Coords) (k0_t1 : Fin k0_t1_loop.trips), ∀ (k0_h1 : k0_cond1 i = 1#1), ∀ a, (k0_off56 k0_t1) a + S1x1x16.size a ≤ S7x8x768.size a
  k0_off57_inb : ∀ (i : grid0.Coords) (k0_t1 : Fin k0_t1_loop.trips), ∀ (k0_h1 : k0_cond1 i = 1#1), ∀ a, (k0_off57 k0_t1) a + S1x1x16.size a ≤ S7x8x768.size a
  k0_off58_inb : ∀ (i : grid0.Coords) (k0_t1 : Fin k0_t1_loop.trips), ∀ (k0_h1 : k0_cond1 i = 1#1), ∀ a, (k0_off58 k0_t1) a + S1x1x16.size a ≤ S7x8x768.size a
  k0_off59_inb : ∀ (i : grid0.Coords) (k0_t1 : Fin k0_t1_loop.trips), ∀ (k0_h1 : k0_cond1 i = 1#1), ∀ a, (k0_off59 k0_t1) a + S1x1x16.size a ≤ S7x8x768.size a
  k0_off60_inb : ∀ i : grid0.Coords, ∀ (k0_h1 : k0_cond1 i = 1#1), ∀ a, (k0_off60 i) a + S7x8x768.size a ≤ S197x8x768.size a
  k0_t2_ok : ∀ i : grid0.Coords, ∀ (k0_h2 : k0_cond2 i = 1#1), k0_t2_loop.OK
  k0_off61_inb : ∀ (i : grid0.Coords) (k0_t2 : Fin k0_t2_loop.trips), ∀ (k0_h2 : k0_cond2 i = 1#1), ∀ a, (k0_off61 k0_t2) a + S1x16.size a ≤ S16x768.size a
  k0_off62_inb : ∀ (i : grid0.Coords) (k0_t2 : Fin k0_t2_loop.trips), ∀ (k0_h2 : k0_cond2 i = 1#1), ∀ a, (k0_off62 k0_t2) a + S1x1x16.size a ≤ S7x8x768.size a
  k0_off63_inb : ∀ (i : grid0.Coords) (k0_t2 : Fin k0_t2_loop.trips), ∀ (k0_h2 : k0_cond2 i = 1#1), ∀ a, (k0_off63 k0_t2) a + S1x1x16.size a ≤ S7x8x768.size a
  k0_off64_inb : ∀ (i : grid0.Coords) (k0_t2 : Fin k0_t2_loop.trips), ∀ (k0_h2 : k0_cond2 i = 1#1), ∀ a, (k0_off64 k0_t2) a + S1x1x16.size a ≤ S7x8x768.size a
  k0_off65_inb : ∀ (i : grid0.Coords) (k0_t2 : Fin k0_t2_loop.trips), ∀ (k0_h2 : k0_cond2 i = 1#1), ∀ a, (k0_off65 k0_t2) a + S1x1x16.size a ≤ S7x8x768.size a
  k0_off66_inb : ∀ (i : grid0.Coords) (k0_t2 : Fin k0_t2_loop.trips), ∀ (k0_h2 : k0_cond2 i = 1#1), ∀ a, (k0_off66 k0_t2) a + S1x1x16.size a ≤ S7x8x768.size a
  k0_off67_inb : ∀ (i : grid0.Coords) (k0_t2 : Fin k0_t2_loop.trips), ∀ (k0_h2 : k0_cond2 i = 1#1), ∀ a, (k0_off67 k0_t2) a + S1x1x16.size a ≤ S7x8x768.size a
  k0_off68_inb : ∀ (i : grid0.Coords) (k0_t2 : Fin k0_t2_loop.trips), ∀ (k0_h2 : k0_cond2 i = 1#1), ∀ a, (k0_off68 k0_t2) a + S1x1x16.size a ≤ S7x8x768.size a
  k0_off69_inb : ∀ (i : grid0.Coords) (k0_t2 : Fin k0_t2_loop.trips), ∀ (k0_h2 : k0_cond2 i = 1#1), ∀ a, (k0_off69 k0_t2) a + S1x1x16.size a ≤ S7x8x768.size a
  k0_off70_inb : ∀ (i : grid0.Coords) (k0_t2 : Fin k0_t2_loop.trips), ∀ (k0_h2 : k0_cond2 i = 1#1), ∀ a, (k0_off70 k0_t2) a + S1x16.size a ≤ S16x768.size a
  k0_off71_inb : ∀ (i : grid0.Coords) (k0_t2 : Fin k0_t2_loop.trips), ∀ (k0_h2 : k0_cond2 i = 1#1), ∀ a, (k0_off71 k0_t2) a + S1x1x16.size a ≤ S7x8x768.size a
  k0_off72_inb : ∀ (i : grid0.Coords) (k0_t2 : Fin k0_t2_loop.trips), ∀ (k0_h2 : k0_cond2 i = 1#1), ∀ a, (k0_off72 k0_t2) a + S1x1x16.size a ≤ S7x8x768.size a
  k0_off73_inb : ∀ (i : grid0.Coords) (k0_t2 : Fin k0_t2_loop.trips), ∀ (k0_h2 : k0_cond2 i = 1#1), ∀ a, (k0_off73 k0_t2) a + S1x1x16.size a ≤ S7x8x768.size a
  k0_off74_inb : ∀ (i : grid0.Coords) (k0_t2 : Fin k0_t2_loop.trips), ∀ (k0_h2 : k0_cond2 i = 1#1), ∀ a, (k0_off74 k0_t2) a + S1x1x16.size a ≤ S7x8x768.size a
  k0_off75_inb : ∀ (i : grid0.Coords) (k0_t2 : Fin k0_t2_loop.trips), ∀ (k0_h2 : k0_cond2 i = 1#1), ∀ a, (k0_off75 k0_t2) a + S1x1x16.size a ≤ S7x8x768.size a
  k0_off76_inb : ∀ (i : grid0.Coords) (k0_t2 : Fin k0_t2_loop.trips), ∀ (k0_h2 : k0_cond2 i = 1#1), ∀ a, (k0_off76 k0_t2) a + S1x1x16.size a ≤ S7x8x768.size a
  k0_off77_inb : ∀ (i : grid0.Coords) (k0_t2 : Fin k0_t2_loop.trips), ∀ (k0_h2 : k0_cond2 i = 1#1), ∀ a, (k0_off77 k0_t2) a + S1x1x16.size a ≤ S7x8x768.size a
  k0_off78_inb : ∀ (i : grid0.Coords) (k0_t2 : Fin k0_t2_loop.trips), ∀ (k0_h2 : k0_cond2 i = 1#1), ∀ a, (k0_off78 k0_t2) a + S1x1x16.size a ≤ S7x8x768.size a
  k0_off79_inb : ∀ (i : grid0.Coords) (k0_t2 : Fin k0_t2_loop.trips), ∀ (k0_h2 : k0_cond2 i = 1#1), ∀ a, (k0_off79 k0_t2) a + S1x16.size a ≤ S5x768.size a
  k0_off80_inb : ∀ (i : grid0.Coords) (k0_t2 : Fin k0_t2_loop.trips), ∀ (k0_h2 : k0_cond2 i = 1#1), ∀ a, (k0_off80 k0_t2) a + S1x1x16.size a ≤ S7x8x768.size a
  k0_off81_inb : ∀ (i : grid0.Coords) (k0_t2 : Fin k0_t2_loop.trips), ∀ (k0_h2 : k0_cond2 i = 1#1), ∀ a, (k0_off81 k0_t2) a + S1x1x16.size a ≤ S7x8x768.size a
  k0_off82_inb : ∀ (i : grid0.Coords) (k0_t2 : Fin k0_t2_loop.trips), ∀ (k0_h2 : k0_cond2 i = 1#1), ∀ a, (k0_off82 k0_t2) a + S1x1x16.size a ≤ S7x8x768.size a
  k0_off83_inb : ∀ (i : grid0.Coords) (k0_t2 : Fin k0_t2_loop.trips), ∀ (k0_h2 : k0_cond2 i = 1#1), ∀ a, (k0_off83 k0_t2) a + S1x1x16.size a ≤ S7x8x768.size a
  k0_off84_inb : ∀ (i : grid0.Coords) (k0_t2 : Fin k0_t2_loop.trips), ∀ (k0_h2 : k0_cond2 i = 1#1), ∀ a, (k0_off84 k0_t2) a + S1x1x16.size a ≤ S7x8x768.size a
  k0_off85_inb : ∀ (i : grid0.Coords) (k0_t2 : Fin k0_t2_loop.trips), ∀ (k0_h2 : k0_cond2 i = 1#1), ∀ a, (k0_off85 k0_t2) a + S1x1x16.size a ≤ S7x8x768.size a
  k0_off86_inb : ∀ (i : grid0.Coords) (k0_t2 : Fin k0_t2_loop.trips), ∀ (k0_h2 : k0_cond2 i = 1#1), ∀ a, (k0_off86 k0_t2) a + S1x1x16.size a ≤ S7x8x768.size a
  k0_off87_inb : ∀ (i : grid0.Coords) (k0_t2 : Fin k0_t2_loop.trips), ∀ (k0_h2 : k0_cond2 i = 1#1), ∀ a, (k0_off87 k0_t2) a + S1x1x16.size a ≤ S7x8x768.size a
  k0_off88_inb : ∀ (i : grid0.Coords) (k0_t2 : Fin k0_t2_loop.trips), ∀ (k0_h2 : k0_cond2 i = 1#1), ∀ a, (k0_off88 k0_t2) a + S1x16.size a ≤ S5x768.size a
  k0_off89_inb : ∀ (i : grid0.Coords) (k0_t2 : Fin k0_t2_loop.trips), ∀ (k0_h2 : k0_cond2 i = 1#1), ∀ a, (k0_off89 k0_t2) a + S1x1x16.size a ≤ S7x8x768.size a
  k0_off90_inb : ∀ (i : grid0.Coords) (k0_t2 : Fin k0_t2_loop.trips), ∀ (k0_h2 : k0_cond2 i = 1#1), ∀ a, (k0_off90 k0_t2) a + S1x1x16.size a ≤ S7x8x768.size a
  k0_off91_inb : ∀ (i : grid0.Coords) (k0_t2 : Fin k0_t2_loop.trips), ∀ (k0_h2 : k0_cond2 i = 1#1), ∀ a, (k0_off91 k0_t2) a + S1x1x16.size a ≤ S7x8x768.size a
  k0_off92_inb : ∀ (i : grid0.Coords) (k0_t2 : Fin k0_t2_loop.trips), ∀ (k0_h2 : k0_cond2 i = 1#1), ∀ a, (k0_off92 k0_t2) a + S1x1x16.size a ≤ S7x8x768.size a
  k0_off93_inb : ∀ (i : grid0.Coords) (k0_t2 : Fin k0_t2_loop.trips), ∀ (k0_h2 : k0_cond2 i = 1#1), ∀ a, (k0_off93 k0_t2) a + S1x1x16.size a ≤ S7x8x768.size a
  k0_off94_inb : ∀ (i : grid0.Coords) (k0_t2 : Fin k0_t2_loop.trips), ∀ (k0_h2 : k0_cond2 i = 1#1), ∀ a, (k0_off94 k0_t2) a + S1x1x16.size a ≤ S7x8x768.size a
  k0_off95_inb : ∀ (i : grid0.Coords) (k0_t2 : Fin k0_t2_loop.trips), ∀ (k0_h2 : k0_cond2 i = 1#1), ∀ a, (k0_off95 k0_t2) a + S1x1x16.size a ≤ S7x8x768.size a
  k0_off96_inb : ∀ (i : grid0.Coords) (k0_t2 : Fin k0_t2_loop.trips), ∀ (k0_h2 : k0_cond2 i = 1#1), ∀ a, (k0_off96 k0_t2) a + S1x1x16.size a ≤ S7x8x768.size a
  k0_off97_inb : ∀ (i : grid0.Coords) (k0_t2 : Fin k0_t2_loop.trips), ∀ (k0_h2 : k0_cond2 i = 1#1), ∀ a, (k0_off97 k0_t2) a + S1x16.size a ≤ S5x768.size a
  k0_off98_inb : ∀ (i : grid0.Coords) (k0_t2 : Fin k0_t2_loop.trips), ∀ (k0_h2 : k0_cond2 i = 1#1), ∀ a, (k0_off98 k0_t2) a + S1x1x16.size a ≤ S7x8x768.size a
  k0_off99_inb : ∀ (i : grid0.Coords) (k0_t2 : Fin k0_t2_loop.trips), ∀ (k0_h2 : k0_cond2 i = 1#1), ∀ a, (k0_off99 k0_t2) a + S1x1x16.size a ≤ S7x8x768.size a
  k0_off100_inb : ∀ (i : grid0.Coords) (k0_t2 : Fin k0_t2_loop.trips), ∀ (k0_h2 : k0_cond2 i = 1#1), ∀ a, (k0_off100 k0_t2) a + S1x1x16.size a ≤ S7x8x768.size a
  k0_off101_inb : ∀ (i : grid0.Coords) (k0_t2 : Fin k0_t2_loop.trips), ∀ (k0_h2 : k0_cond2 i = 1#1), ∀ a, (k0_off101 k0_t2) a + S1x1x16.size a ≤ S7x8x768.size a
  k0_off102_inb : ∀ (i : grid0.Coords) (k0_t2 : Fin k0_t2_loop.trips), ∀ (k0_h2 : k0_cond2 i = 1#1), ∀ a, (k0_off102 k0_t2) a + S1x1x16.size a ≤ S7x8x768.size a
  k0_off103_inb : ∀ (i : grid0.Coords) (k0_t2 : Fin k0_t2_loop.trips), ∀ (k0_h2 : k0_cond2 i = 1#1), ∀ a, (k0_off103 k0_t2) a + S1x1x16.size a ≤ S7x8x768.size a
  k0_off104_inb : ∀ (i : grid0.Coords) (k0_t2 : Fin k0_t2_loop.trips), ∀ (k0_h2 : k0_cond2 i = 1#1), ∀ a, (k0_off104 k0_t2) a + S1x1x16.size a ≤ S7x8x768.size a
  k0_off105_inb : ∀ (i : grid0.Coords) (k0_t2 : Fin k0_t2_loop.trips), ∀ (k0_h2 : k0_cond2 i = 1#1), ∀ a, (k0_off105 k0_t2) a + S1x1x16.size a ≤ S7x8x768.size a
  k0_off106_inb : ∀ (i : grid0.Coords) (k0_t2 : Fin k0_t2_loop.trips), ∀ (k0_h2 : k0_cond2 i = 1#1), ∀ a, (k0_off106 k0_t2) a + S1x16.size a ≤ S5x768.size a
  k0_off107_inb : ∀ (i : grid0.Coords) (k0_t2 : Fin k0_t2_loop.trips), ∀ (k0_h2 : k0_cond2 i = 1#1), ∀ a, (k0_off107 k0_t2) a + S1x1x16.size a ≤ S7x8x768.size a
  k0_off108_inb : ∀ (i : grid0.Coords) (k0_t2 : Fin k0_t2_loop.trips), ∀ (k0_h2 : k0_cond2 i = 1#1), ∀ a, (k0_off108 k0_t2) a + S1x1x16.size a ≤ S7x8x768.size a
  k0_off109_inb : ∀ (i : grid0.Coords) (k0_t2 : Fin k0_t2_loop.trips), ∀ (k0_h2 : k0_cond2 i = 1#1), ∀ a, (k0_off109 k0_t2) a + S1x1x16.size a ≤ S7x8x768.size a
  k0_off110_inb : ∀ (i : grid0.Coords) (k0_t2 : Fin k0_t2_loop.trips), ∀ (k0_h2 : k0_cond2 i = 1#1), ∀ a, (k0_off110 k0_t2) a + S1x1x16.size a ≤ S7x8x768.size a
  k0_off111_inb : ∀ (i : grid0.Coords) (k0_t2 : Fin k0_t2_loop.trips), ∀ (k0_h2 : k0_cond2 i = 1#1), ∀ a, (k0_off111 k0_t2) a + S1x1x16.size a ≤ S7x8x768.size a
  k0_off112_inb : ∀ (i : grid0.Coords) (k0_t2 : Fin k0_t2_loop.trips), ∀ (k0_h2 : k0_cond2 i = 1#1), ∀ a, (k0_off112 k0_t2) a + S1x1x16.size a ≤ S7x8x768.size a
  k0_off113_inb : ∀ (i : grid0.Coords) (k0_t2 : Fin k0_t2_loop.trips), ∀ (k0_h2 : k0_cond2 i = 1#1), ∀ a, (k0_off113 k0_t2) a + S1x1x16.size a ≤ S7x8x768.size a
  k0_off114_inb : ∀ (i : grid0.Coords) (k0_t2 : Fin k0_t2_loop.trips), ∀ (k0_h2 : k0_cond2 i = 1#1), ∀ a, (k0_off114 k0_t2) a + S1x1x16.size a ≤ S7x8x768.size a
  k0_off115_inb : ∀ (i : grid0.Coords) (k0_t2 : Fin k0_t2_loop.trips), ∀ (k0_h2 : k0_cond2 i = 1#1), ∀ a, (k0_off115 k0_t2) a + S1x16.size a ≤ S5x768.size a
  k0_off116_inb : ∀ (i : grid0.Coords) (k0_t2 : Fin k0_t2_loop.trips), ∀ (k0_h2 : k0_cond2 i = 1#1), ∀ a, (k0_off116 k0_t2) a + S1x1x16.size a ≤ S7x8x768.size a
  k0_off117_inb : ∀ (i : grid0.Coords) (k0_t2 : Fin k0_t2_loop.trips), ∀ (k0_h2 : k0_cond2 i = 1#1), ∀ a, (k0_off117 k0_t2) a + S1x1x16.size a ≤ S7x8x768.size a
  k0_off118_inb : ∀ (i : grid0.Coords) (k0_t2 : Fin k0_t2_loop.trips), ∀ (k0_h2 : k0_cond2 i = 1#1), ∀ a, (k0_off118 k0_t2) a + S1x1x16.size a ≤ S7x8x768.size a
  k0_off119_inb : ∀ (i : grid0.Coords) (k0_t2 : Fin k0_t2_loop.trips), ∀ (k0_h2 : k0_cond2 i = 1#1), ∀ a, (k0_off119 k0_t2) a + S1x1x16.size a ≤ S7x8x768.size a
  k0_off120_inb : ∀ (i : grid0.Coords) (k0_t2 : Fin k0_t2_loop.trips), ∀ (k0_h2 : k0_cond2 i = 1#1), ∀ a, (k0_off120 k0_t2) a + S1x1x16.size a ≤ S7x8x768.size a
  k0_off121_inb : ∀ (i : grid0.Coords) (k0_t2 : Fin k0_t2_loop.trips), ∀ (k0_h2 : k0_cond2 i = 1#1), ∀ a, (k0_off121 k0_t2) a + S1x1x16.size a ≤ S7x8x768.size a
  k0_off122_inb : ∀ (i : grid0.Coords) (k0_t2 : Fin k0_t2_loop.trips), ∀ (k0_h2 : k0_cond2 i = 1#1), ∀ a, (k0_off122 k0_t2) a + S1x1x16.size a ≤ S7x8x768.size a
  k0_off123_inb : ∀ (i : grid0.Coords) (k0_t2 : Fin k0_t2_loop.trips), ∀ (k0_h2 : k0_cond2 i = 1#1), ∀ a, (k0_off123 k0_t2) a + S1x1x16.size a ≤ S7x8x768.size a
  k0_t3_ok : ∀ i : grid0.Coords, ∀ (k0_h3 : k0_cond3 i = 1#1), k0_t3_loop.OK
  k0_off124_inb : ∀ (i : grid0.Coords) (k0_t3 : Fin k0_t3_loop.trips), ∀ (k0_h3 : k0_cond3 i = 1#1), ∀ a, (k0_off124 k0_t3) a + S1x16.size a ≤ S1x768.size a
  k0_off125_inb : ∀ (i : grid0.Coords) (k0_t3 : Fin k0_t3_loop.trips), ∀ (k0_h3 : k0_cond3 i = 1#1), ∀ a, (k0_off125 k0_t3) a + S1x16.size a ≤ S16x768.size a
  k0_off126_inb : ∀ (i : grid0.Coords) (k0_t3 : Fin k0_t3_loop.trips), ∀ (k0_h3 : k0_cond3 i = 1#1), ∀ a, (k0_off126 k0_t3) a + S1x1x16.size a ≤ S1x8x768.size a
  k0_off127_inb : ∀ (i : grid0.Coords) (k0_t3 : Fin k0_t3_loop.trips), ∀ (k0_h3 : k0_cond3 i = 1#1), ∀ a, (k0_off127 k0_t3) a + S1x1x16.size a ≤ S1x8x768.size a
  k0_off128_inb : ∀ (i : grid0.Coords) (k0_t3 : Fin k0_t3_loop.trips), ∀ (k0_h3 : k0_cond3 i = 1#1), ∀ a, (k0_off128 k0_t3) a + S1x1x16.size a ≤ S1x8x768.size a
  k0_off129_inb : ∀ (i : grid0.Coords) (k0_t3 : Fin k0_t3_loop.trips), ∀ (k0_h3 : k0_cond3 i = 1#1), ∀ a, (k0_off129 k0_t3) a + S1x1x16.size a ≤ S1x8x768.size a
  k0_off130_inb : ∀ (i : grid0.Coords) (k0_t3 : Fin k0_t3_loop.trips), ∀ (k0_h3 : k0_cond3 i = 1#1), ∀ a, (k0_off130 k0_t3) a + S1x1x16.size a ≤ S1x8x768.size a
  k0_off131_inb : ∀ (i : grid0.Coords) (k0_t3 : Fin k0_t3_loop.trips), ∀ (k0_h3 : k0_cond3 i = 1#1), ∀ a, (k0_off131 k0_t3) a + S1x1x16.size a ≤ S1x8x768.size a
  k0_off132_inb : ∀ (i : grid0.Coords) (k0_t3 : Fin k0_t3_loop.trips), ∀ (k0_h3 : k0_cond3 i = 1#1), ∀ a, (k0_off132 k0_t3) a + S1x1x16.size a ≤ S1x8x768.size a
  k0_off133_inb : ∀ (i : grid0.Coords) (k0_t3 : Fin k0_t3_loop.trips), ∀ (k0_h3 : k0_cond3 i = 1#1), ∀ a, (k0_off133 k0_t3) a + S1x1x16.size a ≤ S1x8x768.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S196x8x768.size a ≤ S196x64x768.size a
  hwx1_0 : ∀ i : grid1.Coords, EltTy.bits .f32 = 32 ∨ (Rect.block (s := S196x64x768) S196x8x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x768.size a ≤ S1x768.size a
  hwx1_1 : ∀ i : grid1.Coords, EltTy.bits .f32 = 32 ∨ (Rect.block (s := S1x768) S1x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S197x768.size a ≤ S197x768.size a
  hwx1_2 : ∀ i : grid1.Coords, EltTy.bits .f32 = 32 ∨ (Rect.block (s := S197x768) S197x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S197x8x768.size a ≤ S197x64x768.size a
  hwx1_3 : ∀ i : grid1.Coords, EltTy.bits .f32 = 32 ∨ (Rect.block (s := S197x64x768) S197x8x768.size (cc1_transform_3 i) (hinb1_3 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

abbrev win1_0 : Pipeline.Window sig grid1 :=
  Pipeline.Window.ofSpec (Memref.whole main_v0) S196x8x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S197x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S197x8x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x196x768 : Shape := ⟨3, ![64, 196, 768]⟩
abbrev S1x768 : Shape := ⟨2, ![1, 768]⟩
abbrev S197x768 : Shape := ⟨2, ![197, 768]⟩
abbrev S1x1x768 : Shape := ⟨3, ![1, 1, 768]⟩
abbrev S64x1x768 : Shape := ⟨3, ![64, 1, 768]⟩
abbrev S64x197x768 : Shape := ⟨3, ![64, 197, 768]⟩
abbrev S1x197x768 : Shape := ⟨3, ![1, 197, 768]⟩

abbrev nBuf : Space → Nat
  | .hbm => 9
  | .vmem => 0
  | .smem => 0
  | _ => 0

abbrev bufTy : (tb : Table) → Fin (tcTables nBuf tb) → BufTy
  | .hbm, ⟨0, _⟩ => ⟨S64x196x768, .f32⟩
  | .hbm, ⟨1, _⟩ => ⟨S1x768, .f32⟩
  | .hbm, ⟨2, _⟩ => ⟨S197x768, .f32⟩
  | .hbm, ⟨3, _⟩ => ⟨S1x1x768, .f32⟩
  | .hbm, ⟨4, _⟩ => ⟨S64x1x768, .f32⟩
  | .hbm, ⟨5, _⟩ => ⟨S64x197x768, .f32⟩
  | .hbm, ⟨6, _⟩ => ⟨S1x197x768, .f32⟩
  | .hbm, ⟨7, _⟩ => ⟨S64x197x768, .f32⟩
  | .hbm, ⟨8, _⟩ => ⟨S64x197x768, .f32⟩
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1x768_S1x1x768_1_2 : S1x768.BroadcastsInDim S1x1x768 (![1, 2] : Fin 2 → Fin S1x1x768.rank)
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  bcast_S197x768_S1x197x768_1_2 : S197x768.BroadcastsInDim S1x197x768 (![1, 2] : Fin 2 → Fin S1x197x768.rank)
  bcast_S1x197x768_S64x197x768_0_1_2 : S1x197x768.BroadcastsInDim S64x197x768 (![0, 1, 2] : Fin 3 → Fin S64x197x768.rank)

variable [Facts₀]

class Facts : Prop extends Facts₀ where

variable [Facts]
-- ==== Proof.Spec.lean ====
/-
  The function both programs compute, written once over the argument arrays and an arbitrary
  addition `add` on the element type (so that one text serves every float instance).

  With `feats : [64, 196, 768]`, `qw : [1, 768]`, `pw : [197, 768]` the result `[64, 197, 768]` is
  the concatenation, along the position axis, of the one quality row (the same for every batch
  entry) and the 196 feature rows, plus the position table broadcast over the batch:

      out[b, 0, h]     = qw[0, h]        + pw[0, h]
      out[b, p + 1, h] = feats[b, p, h]  + pw[p + 1, h].

  The kernel works position-major: it first transposes `feats` to `X : [196, 64, 768]`, fills a
  position-major result `[197, 64, 768]` in two pieces (batch entries 0..55 by one processor,
  56..63 by the other), and transposes back. `rowT` is one element of the position-major result
  as a function of `X`; `scOut`, `tcOut` and `outT` are the three position-major arrays the
  kernel's stages hold; `G` is the final result as a function of `feats`.
-/
import Idealize.ShloMosaic.Lib.ValueIdx

noncomputable section

namespace Cert.Spec

open Idealize.ShloMosaic Idealize.ShloMosaic.ValueIdx

/-- The float instance's addition at f32: the `add` at which the two programs meet. -/
abbrev addF (F : FTy → Type) [FloatOps F] : F .f32 → F .f32 → F .f32 := FloatOps.addf

variable {α : Type} (add : α → α → α)

abbrev SFeats : Shape := ⟨3, ![64, 196, 768]⟩
abbrev SQw : Shape := ⟨2, ![1, 768]⟩
abbrev SPw : Shape := ⟨2, ![197, 768]⟩
abbrev SOut : Shape := ⟨3, ![64, 197, 768]⟩
abbrev SFeatsT : Shape := ⟨3, ![196, 64, 768]⟩
abbrev SOutT : Shape := ⟨3, ![197, 64, 768]⟩
abbrev SScOut : Shape := ⟨3, ![197, 8, 768]⟩

/-- One element of the position-major result: position `p`, batch entry `b`, hidden coordinate `h`,
    from the transposed features `X`. Position 0 is the quality row; position `p ≥ 1` is feature
    row `p - 1`; both get the position table's row `p`. -/
def rowT (X : SFeatsT.Idx → α) (qw : SQw.Idx → α) (pw : SPw.Idx → α) (p : Fin 197) (b : Fin 64) (h : Fin 768) : α :=
  if hp : p.val = 0 then add (qw (ix2 (0 : Fin 1) h)) (pw (ix2 (0 : Fin 197) h))
  else add (X (ix3 (⟨p.val - 1, by have := p.isLt; omega⟩ : Fin 196) b h)) (pw (ix2 p h))

/-- The position-major result, whole. -/
def outT (X : SFeatsT.Idx → α) (qw : SQw.Idx → α) (pw : SPw.Idx → α) : SOutT.Idx → α :=
  fun i => rowT add X qw pw (i 0) (i 1) (i 2)

/-- The piece for batch entries 56..63, as its own array `[197, 8, 768]`: entry `b` of the piece is
    batch entry `56 + b`. -/
def scOut (X : SFeatsT.Idx → α) (qw : SQw.Idx → α) (pw : SPw.Idx → α) : SScOut.Idx → α :=
  fun i => rowT add X qw pw (i 0) (⟨56 + (i 1).val, by have h8 : (i 1).val < 8 := (i 1).isLt; omega⟩ : Fin 64) (i 2)

/-- The position-major array after the piece for batch entries 0..55 has been written into an
    array that held `f`: the result on those entries, `f` on the rest. -/
def tcOut (X : SFeatsT.Idx → α) (qw : SQw.Idx → α) (pw : SPw.Idx → α) (f : SOutT.Idx → α) : SOutT.Idx → α :=
  fun i => if (i 1).val < 56 then rowT add X qw pw (i 0) (i 1) (i 2) else f i

/-- The result, batch-major, as a function of the untransposed features. -/
def G (feats : SFeats.Idx → α) (qw : SQw.Idx → α) (pw : SPw.Idx → α) : SOut.Idx → α :=
  fun i =>
    if hp : (i 1).val = 0 then add (qw (ix2 (0 : Fin 1) (i 2))) (pw (ix2 (0 : Fin 197) (i 2)))
    else add (feats (ix3 (i 0) (⟨(i 1).val - 1, by have h197 : (i 1).val < 197 := (i 1).isLt; omega⟩ : Fin 196) (i 2))) (pw (ix2 (i 1) (i 2)))

end Cert.Spec

end
-- ==== Proof.SetupKI.lean ====
/-
  The kernel program as the SparseCore launch theorem sees it: the configuration of its one
  SparseCore call, the body table, the variants, and the resource algebra of the proof — the
  handshakes' rounds, the TensorCore pipeline's rounds, and the counters of the local copies.
  Generic in the float instance.
-/
import proofs.«207362_g47132971107233_retrytranche2_1164_24_alg».proof.Proof.Gen.KernelIdeal
import proofs.«207362_g47132971107233_retrytranche2_1164_24_alg».proof.Proof.Gen.KernelIdeal.Skeleton
import proofs.«207362_g47132971107233_retrytranche2_1164_24_alg».proof.Proof.Gen.KernelIdeal.Launch
import proofs.«207362_g47132971107233_retrytranche2_1164_24_alg».proof.Proof.Gen.KernelIdeal.Points
import proofs.«207362_g47132971107233_retrytranche2_1164_24_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KI

end
-- ==== Proof.PayKI.lean ====
/-
  What the SparseCore call carries between the threads: per SparseCore and per tile, read shares of
  the three input arrays and full ownership of the rows of the call's result that the tile writes.

  Tile `s` of SparseCore `c` is worker `w = 2 s + c`. Workers 0..26 each add seven position rows
  (`7 w + 1 .. 7 w + 7` of the result), worker 27 the last seven (`190 .. 196`), worker 28 the
  quality row (row 0); workers 29..31 do nothing. So worker `w < 28` owns result rows
  `7 w + 1 .. 7 w + 7`, worker 28 owns row 0, and these 29 row blocks tile the result.
  Before the call the result array holds its launch contents; after it, every worker's rows hold
  the ONE function `Spec.scOut` of the (transposed) features, the quality row and the position table.
-/
import proofs.«207362_g47132971107233_retrytranche2_1164_24_alg».proof.Proof.SetupKI
import Idealize.ShloMosaic.Lib.Transfers

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

local notation "𝕄" => MT nD τ sig (HIx 1) (Elt F) ℕ UU ℕ

variable (m : (ℓ : Loc nD τ sig) → Buf (Elt F) ℓ) (ρ : Dev nD → PrngReg)

/-! ## The arrays, as locations of device `d` -/

abbrev fLoc (d : Dev nD) : Loc nD τ sig := (SparseCore.T d).loc main_arg0
abbrev qLoc (d : Dev nD) : Loc nD τ sig := (SparseCore.T d).loc main_arg1
abbrev pLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1

variable [FloatOps F]

/-- The position-major features: what the host transpose leaves in `main_v0`. -/
def xT (d : Dev nD) : Buf (Elt F) (xLoc d) :=
  transpose S196x64x768 [1, 0, 2] (m (fLoc d)) transposes_S64x196x768_S196x64x768_1_0_2

/-- What the SparseCore call leaves in its result `[197, 8, 768]`: batch entries 56..63 of the position-major result. -/
def scBuf (d : Dev nD) : Buf (Elt F) (oLoc d) :=
  Cert.Spec.scOut (Cert.Spec.addF F) (xT m d) (m (qLoc d)) (m (pLoc d))

/-! ## Workers and the rows they own -/

/-- The worker number of tile `s` of SparseCore `c`. -/
def wid (c : Fin 2) (s : Fin 16) : Fin 32 := ⟨2 * s.val + c.val, by have := c.isLt; have := s.isLt; omega⟩

/-- First row, and number of rows, of the result that worker `w` owns. -/
def outOff (w : Fin 32) : Fin 3 → Nat := if w.val < 28 then ![7 * w.val + 1, 0, 0] else ![0, 0, 0]
def outSize (w : Fin 32) : Fin 3 → Nat := if w.val < 28 then ![7, 8, 768] else if w.val = 28 then ![1, 8, 768] else ![0, 8, 768]
theorem outInb : ∀ (w : Fin 32) a, outOff w a + outSize w a ≤ S197x8x768.size a := by decide
abbrev outRect (w : Fin 32) : Rect S197x8x768 := Rect.unit (s := S197x8x768) (outOff w) (outSize w) (outInb w)
/-- The result's elements worker `w` owns. -/
abbrev outSet (w : Fin 32) : Finset S197x8x768.Idx := ((Memref.whole main_v1_scv : Memref sig .scVector .hbm S197x8x768 .f32).view.slice (outRect w)).set

/-! ## The payloads -/

/-- Read shares: the SparseCore's of an array held whole by the TensorCore, and a tile's of its SparseCore's. -/
abbrev shC (c : Fin 2) : PosShare TreeShare := shareTok fullShare 2 c
abbrev shT (c : Fin 2) (s : Fin 16) : PosShare TreeShare := shareTok (shC c) 16 s

/-- The three inputs at share `q`. -/
abbrev insAt (d : Dev nD) (q : PosShare TreeShare) : sProp 𝕄 :=
  iprop((xLoc d ↦{q} xT m d) ∗ (qLoc d ↦{q} m (qLoc d)) ∗ (pLoc d ↦{q} m (pLoc d)))

/-- Worker `w`'s rows of the result, at contents `f`. -/
abbrev outAt (d : Dev nD) (w : Fin 32) (f : Buf (Elt F) (oLoc d)) : sProp 𝕄 := oLoc d ↦[outSet w]{fullShare} f

/-- A SparseCore of the call's grid and a tile of it, as plain numbers. -/
abbrev cOf (c : Fin ((K (F := F)).nCore 0)) : Fin 2 := Fin.cast nCore_zero c
abbrev sOf (i : Fin ((K (F := F)).nSub 0)) : Fin 16 := Fin.cast nSub_zero i

/-- What SparseCore `c` takes at the call and what it brings back. -/
abbrev stOf (d : Dev nD) (c : Fin 2) (f : Buf (Elt F) (oLoc d)) : sProp 𝕄 :=
  iprop(insAt m d (shC c) ∗ bigSep Finset.univ fun s : Fin 16 => outAt d (wid c s) f)
/-- What tile `s` of SparseCore `c` takes at its task and what it brings back. -/
abbrev goOf (d : Dev nD) (c : Fin 2) (s : Fin 16) (f : Buf (Elt F) (oLoc d)) : sProp 𝕄 :=
  iprop(insAt m d (shT c s) ∗ outAt d (wid c s) f)

/-- The one call: each SparseCore takes its share of the inputs and its tiles' rows of the result, each tile its share
    and its rows; they come back with the rows at `scBuf`. -/
def P : (K (F := F)).Pay (nD := nD) (Val := Elt F) (Name := ℕ) (U := UU) where
  st := fun q d c => match q with | 0 => stOf m d (cOf c) (m (oLoc d))
  dn := fun q d c => match q with | 0 => stOf m d (cOf c) (scBuf m d)
  go := fun q d c i => match q with | 0 => goOf m d (cOf c) (sOf i) (m (oLoc d))
  td := fun q d c i => match q with | 0 => goOf m d (cOf c) (sOf i) (scBuf m d)
  x := fun _ _ => iprop(emp)

instance P_storable : (P (F := F) m).IsStorable where
  st q d c := match q with | 0 => (inferInstance : BI.Storable (upEmb : UEmb _ 𝕄) (stOf m d (cOf c) (m (oLoc d))))
  dn q d c := match q with | 0 => (inferInstance : BI.Storable (upEmb : UEmb _ 𝕄) (stOf m d (cOf c) (scBuf m d)))
  go q d c i := match q with | 0 => (inferInstance : BI.Storable (upEmb : UEmb _ 𝕄) (goOf m d (cOf c) (sOf i) (m (oLoc d))))
  td q d c i := match q with | 0 => (inferInstance : BI.Storable (upEmb : UEmb _ 𝕄) (goOf m d (cOf c) (sOf i) (scBuf m d)))

end Cert.KI

end
-- ==== Proof.RegionKI.lean ====
/-
  The TensorCore piece of the position-major result.

  One pipelined kernel over a grid of 7 points. Point `g` works on batch entries `8 g .. 8 g + 7`: it is handed
  block `g` of the transposed features `X : [196, 64, 768]` (all positions, eight batch entries), the quality
  row `qw : [1, 768]` and the position table `pw : [197, 768]` whole, and fills block `g` of the result
  `[197, 64, 768]`:

      block[p + 1, b, h] = X_block[p, b, h] + pw[p + 1, h]          (196 positions)
      block[0, b, h]     = qw[0, h] + pw[0, h]                      (the quality row, the same for every b)

  The seven blocks are pairwise disjoint and fill batch entries 0..55; batch entries 56..63 of the result keep what
  the array held when the kernel was entered. This file states what one point leaves in the result's block as a
  function of the three input blocks, runs the kernel's body against that statement, collects the seven blocks
  into the array, and packages the kernel as a region of the host program.
-/
import proofs.«207362_g47132971107233_retrytranche2_1164_24_alg».proof.Proof.Gen.KernelIdeal.Launch
import proofs.«207362_g47132971107233_retrytranche2_1164_24_alg».proof.Proof.Gen.KernelIdeal.Points
import proofs.«207362_g47132971107233_retrytranche2_1164_24_alg».proof.Proof.Gen.KernelIdeal.Skeleton
import proofs.«207362_g47132971107233_retrytranche2_1164_24_alg».proof.Proof.Spec
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

noncomputable section

namespace Cert.KI.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What one point leaves in the result's block -/

/-- The rectangles the body reads and writes: the feature block whole; rows 1..196 and row 0 of the position table;
    the quality row; rows 1..196 and row 0 of the result's block. -/
abbrev rX : Rect S196x8x768 := Rect.unit (s := S196x8x768) ![0, 0, 0] S196x8x768.size inb_S196x8x768_S196x8x768_0_0_0
abbrev rPwT : Rect S197x768 := Rect.unit (s := S197x768) ![1, 0] S196x768.size inb_S197x768_S196x768_1_0
abbrev rPw0 : Rect S197x768 := Rect.unit (s := S197x768) ![0, 0] S1x768.size inb_S197x768_S1x768_0_0
abbrev rQw : Rect S1x768 := Rect.unit (s := S1x768) ![0, 0] S1x768.size inb_S1x768_S1x768_0_0
abbrev rOutT : Rect S197x8x768 := Rect.unit (s := S197x8x768) ![1, 0, 0] S196x8x768.size inb_S197x8x768_S196x8x768_1_0_0
abbrev rOut0 : Rect S197x8x768 := Rect.unit (s := S197x8x768) ![0, 0, 0] S1x8x768.size inb_S197x8x768_S1x8x768_0_0_0

/-- The result's block after the body, from the three input blocks: its two stores as pieces, the later one first
    (row 0: the quality row plus the table's row 0, broadcast over the eight batch entries; rows 1..196: the feature
    block plus the table's rows 1..196, broadcast likewise). -/
def outBlk (x : Vec F S196x8x768 .f32) (q : Vec F S1x768 .f32) (p : Vec F S197x768 .f32) : Vec F S197x8x768 .f32 :=
  View.canon [⟨rOut0, k1_pay2 (View.ld q rQw) (View.ld p rPw0)⟩, ⟨rOutT, k1_pay1 (View.ld x rX) (View.ld p rPwT)⟩]

/-- The two stores cover the block: position 0 is under the first piece, every other position under the second. -/
theorem cover (p0 : rOut0.shape.Idx → Elt F .f32) (p1 : rOutT.shape.Idx → Elt F .f32) (y : S197x8x768.Idx) :
    ∃ pc ∈ ([⟨rOut0, p0⟩, ⟨rOutT, p1⟩] : List (View.Piece (Elt F) S197x8x768 .f32)), y ∈ pc.1.set := by
  have h0 : (y 0).val < 197 := (y 0).isLt
  have h1 : (y 1).val < 8 := (y 1).isLt
  have h2 : (y 2).val < 768 := (y 2).isLt
  by_cases h : (y 0).val = 0
  · refine ⟨_, List.mem_cons_self, ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 8; omega
    | ⟨2, _⟩ => show 0 ≤ (y 2).val ∧ (y 2).val < 0 + 768; omega
  · refine ⟨_, List.mem_cons_of_mem _ List.mem_cons_self, ?_⟩
    rw [Rect.mem_set_unit]
    intro a
    match a with
    | ⟨0, _⟩ => show 1 ≤ (y 0).val ∧ (y 0).val < 1 + 196; omega
    | ⟨1, _⟩ => show 0 ≤ (y 1).val ∧ (y 1).val < 0 + 8; omega
    | ⟨2, _⟩ => show 0 ≤ (y 2).val ∧ (y 2).val < 0 + 768; omega

/-! ## The body, run -/

set_option maxHeartbeats 1000000 in
/-- The kernel's body on whole staging buffers — the three inputs' at contents `x`, `q`, `p`, the result's at
    anything — runs to its return with the inputs' as they were and the result's at `outBlk x q p`. -/
theorem sound_kernel (c : Dev nD) (E : Set Name) (i : grid1.Coords)
    (arg1 : Memref sig .tc .vmem S196x8x768 .f32) (harg1 : arg1.IsWhole) (arg2 : Memref sig .tc .vmem S1x768 .f32) (harg2 : arg2.IsWhole)
    (arg3 : Memref sig .tc .vmem S197x768 .f32) (harg3 : arg3.IsWhole) (arg4 : Memref sig .tc .vmem S197x8x768 .f32) (harg4 : arg4.IsWhole)
    (x : Vec F S196x8x768 .f32) (q : Vec F S1x768 .f32) (p : Vec F S197x768 .f32) (K : PUnit → sProp 𝕄) :
    iprop(owns (c : Thread nD τ) arg1 fullShare x ∗ owns (c : Thread nD τ) arg2 fullShare q ∗ owns (c : Thread nD τ) arg3 fullShare p
        ∗ (∃ d, owns (c : Thread nD τ) arg4 fullShare d)
        ∗ (iprop(owns (c : Thread nD τ) arg1 fullShare x ∗ owns (c : Thread nD τ) arg2 fullShare q ∗ owns (c : Thread nD τ) arg3 fullShare p
            ∗ owns (c : Thread nD τ) arg4 fullShare (outBlk x q p)) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-! ## The proof data, at an entry valuation -/

variable (V : (c : Dev nD) → (b : Ref sig .tc) → Buf (Elt F) ((c : Thread nD τ).loc b)) (B : Set (SemLoc sig × Ix))

/-- Window `w`'s block at point `t`, read off its array as the kernel finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of one entry of the kernel on core `c`, from the valuation `V`: the four arrays at `V`; after the
    body at point `t` each input's buffer at its block there and the result's at `outBlk` of the three input blocks;
    between points, the scoped buffers the kernel does not stage; nothing owed; full shares; the recorded pairs
    bounded by `B` throughout (the body waits on nothing). -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.scopedRest (Ix := Ix) (Name := Name) (U := U) (Lvl := Lvl) (Val := Elt F) spec1 c
  q _ := fullShare
  owed _ := 0
  recorded _ := B

local notation "𝔇" => dat (Ix := Ix) (Name := Name) (U := U) (Lvl := Lvl)

theorem A_eq (c : Dev nD) (w : Fin cfg1.W) : (dat (Name := Name) (U := U) (Lvl := Lvl) V B c).A w = V c (Pipeline.arrRef spec1 w) := by
  dsimp only [dat]

theorem after_0 (c : Dev nD) (t : Fin cfg1.N) : (dat (Name := Name) (U := U) (Lvl := Lvl) V B c).after 0 t = iblk V c 0 t := by dsimp only [dat]
theorem after_1 (c : Dev nD) (t : Fin cfg1.N) : (dat (Name := Name) (U := U) (Lvl := Lvl) V B c).after 1 t = iblk V c 1 t := by dsimp only [dat]
theorem after_2 (c : Dev nD) (t : Fin cfg1.N) : (dat (Name := Name) (U := U) (Lvl := Lvl) V B c).after 2 t = iblk V c 2 t := by dsimp only [dat]
theorem after_3 (c : Dev nD) (t : Fin cfg1.N) :
    (dat (Name := Name) (U := U) (Lvl := Lvl) V B c).after 3 t = outBlk (iblk V c 0 t) (iblk V c 1 t) (iblk V c 2 t) := by dsimp only [dat]

/-- Each input's current staging buffer holds its block at every point, fetched there or not: an input that is not
    fetched at a point has not moved, and the body leaves it as it found it. -/
theorem before_0 (c : Dev nD) (t : Fin cfg1.N) (d) : (dat (Name := Name) (U := U) (Lvl := Lvl) V B c).before 0 t d = iblk V c 0 t :=
  ((dat V B c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat (Name := Name) (U := U) (Lvl := Lvl) V B c).before 1 t d = iblk V c 1 t :=
  ((dat V B c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat (Name := Name) (U := U) (Lvl := Lvl) V B c).before 2 t d = iblk V c 2 t :=
  ((dat V B c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (ι : Ix) (c : Dev nD) (t : Fin cfg1.N) : sProp 𝕄 :=
  iprop((𝔇 V B c).Φ t.castSucc ∗ (𝔇 V B c).owesAt ι t.castSucc
    ∗ (∃ d, owns (c : Thread nD τ) (st1_0 t) fullShare ((𝔇 V B c).before 0 t d))
    ∗ (∃ d, owns (c : Thread nD τ) (st1_1 t) fullShare ((𝔇 V B c).before 1 t d))
    ∗ (∃ d, owns (c : Thread nD τ) (st1_2 t) fullShare ((𝔇 V B c).before 2 t d))
    ∗ (∃ d, owns (c : Thread nD τ) (st1_3 t) fullShare ((𝔇 V B c).before 3 t d)))

/-- and what it returns. -/
def bodyPost (ι : Ix) (c : Dev nD) (t : Fin cfg1.N) : sProp 𝕄 :=
  iprop((𝔇 V B c).Φ t.succ ∗ (𝔇 V B c).owesAt ι t.succ
    ∗ owns (c : Thread nD τ) (st1_0 t) fullShare ((𝔇 V B c).after 0 t)
    ∗ owns (c : Thread nD τ) (st1_1 t) fullShare ((𝔇 V B c).after 1 t)
    ∗ owns (c : Thread nD τ) (st1_2 t) fullShare ((𝔇 V B c).after 2 t)
    ∗ owns (c : Thread nD τ) (st1_3 t) fullShare ((𝔇 V B c).after 3 t))

/-- The body at any point: the inputs' buffers hold their blocks, so `sound_kernel` applies; the invariant and the
    core's `owes` pass through unread. -/
theorem sound_body (ι : Ix) (c : Dev nD) (t : Fin cfg1.N) :
    bodyPre (Name := Name) (U := U) (Lvl := Lvl) V B ι c t ⊢ wp frame (wpE (defs₀ (F := F)) Variants.none c none) Set.univ (bodyAt1 t) (fun _ => bodyPost (Name := Name) (U := U) (Lvl := Lvl) V B ι c t) := by
  unfold bodyPre bodyPost bodyAt1
  simp only [before_0, before_1, before_2]
  rw [show (𝔇 V B c).Φ t.succ = (𝔇 V B c).Φ t.castSucc from rfl,
    show (𝔇 V B c).owesAt ι t.succ = (𝔇 V B c).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (ι : Ix) (c : Dev nD) :
    BodyObligation (dat (Name := Name) (U := U) (Lvl := Lvl) V B c) (defs₀ (F := F)) Variants.none ι Set.univ := fun t => by
  rw [bigSep_W1, bigSep_W1]
  exact sound_body V B ι c t

/-! ## The arrays after the kernel -/

/-- The three inputs' arrays are never written. -/
theorem arrAt_in (c : Dev nD) : ∀ w : Fin 4, w ≠ 3 →
    (dat (Name := Name) (U := U) (Lvl := Lvl) V B c).arrAt w cfg1.N = V c (Pipeline.arrRef spec1 w)
  | ⟨0, _⟩, _ => ((dat V B c).arrAt_in 0 rfl _).trans (A_eq V B c 0)
  | ⟨1, _⟩, _ => ((dat V B c).arrAt_in 1 rfl _).trans (A_eq V B c 1)
  | ⟨2, _⟩, _ => ((dat V B c).arrAt_in 2 rfl _).trans (A_eq V B c 2)
  | ⟨3, _⟩, h => absurd rfl h

/-! ## The result's block, element by element -/

open Idealize.ShloMosaic.ValueIdx

/-- One element of what a point leaves in the result's block, from the three input blocks: position 0 is the quality
    row plus the table's row 0; position `j0 ≥ 1` is row `j0 - 1` of the feature block plus the table's row `j0`. -/
def blkFn (x : Vec F S196x8x768 .f32) (q : Vec F S1x768 .f32) (p : Vec F S197x768 .f32) (j0 : Fin 197) (j1 : Fin 8) (j2 : Fin 768) : F .f32 :=
  if hp : j0.val = 0 then FloatOps.addf (q (ix2 (0 : Fin 1) j2)) (p (ix2 (0 : Fin 197) j2))
  else FloatOps.addf (x (ix3 (⟨j0.val - 1, by have := j0.isLt; omega⟩ : Fin 196) j1 j2)) (p (ix2 j0 j2))

/-- The second store's value at an index: the sum of the two loaded rows at the hidden coordinate, whatever the batch
    entry (one row cast to `[1, 1, 768]` and broadcast over the eight entries). -/
theorem pay2_apply (v7 v8 : Vec F S1x768 .f32) (b : Fin 8) (h : Fin 768) :
    k1_pay2 v7 v8 (ix3 (0 : Fin 1) b h) = FloatOps.addf (v7 (ix2 (0 : Fin 1) h)) (v8 (ix2 (0 : Fin 1) h)) := by
  unfold k1_pay2
  refine (broadcastTo_apply _ _ (ix3 (0 : Fin 1) b h) (ix3 (0 : Fin 1) (0 : Fin 1) h) (fun a => ?_)).trans ?_
  · match a with
    | ⟨0, _⟩ => rfl
    | ⟨1, _⟩ => rfl
    | ⟨2, _⟩ => rfl
  refine (congrFun (shapeCast_self _ _) _).trans ?_
  refine (shapeCast_apply _ _ (ix3 (0 : Fin 1) (0 : Fin 1) h) (ix2 (0 : Fin 1) h) ?_).trans rfl
  rw [Shape.rowMajor_val_two, Shape.rowMajor_val_three]
  show 0 * 768 + h.val = (0 * 1 + 0) * 768 + h.val
  omega

/-- The first store's value at an index: the feature block's element plus the table row's element at the same position
    and hidden coordinate (the rows cast to `[196, 1, 768]` and broadcast over the eight entries). -/
theorem pay1_apply (v0 : Vec F S196x8x768 .f32) (v2 : Vec F S196x768 .f32) (r : Fin 196) (b : Fin 8) (h : Fin 768) :
    k1_pay1 v0 v2 (ix3 r b h) = FloatOps.addf (v0 (ix3 r b h)) (v2 (ix2 r h)) := by
  unfold k1_pay1
  refine congrArg₂ FloatOps.addf (congrFun (shapeCast_self _ _) _) ?_
  refine (broadcastTo_apply _ _ (ix3 r b h) (ix3 r (0 : Fin 1) h) (fun a => ?_)).trans ?_
  · match a with
    | ⟨0, _⟩ => rfl
    | ⟨1, _⟩ => rfl
    | ⟨2, _⟩ => rfl
  refine shapeCast_apply _ _ (ix3 r (0 : Fin 1) h) (ix2 r h) ?_
  rw [Shape.rowMajor_val_two, Shape.rowMajor_val_three]
  show r.val * 768 + h.val = (r.val * 1 + 0) * 768 + h.val
  omega

/-- Where the body's rectangles put an index: the whole-block and row-0 rectangles leave it, the rows-1..196
    rectangles shift the position by one. -/
theorem idx_rX (r : Fin 196) (b : Fin 8) (h : Fin 768) : rX.idx (ix3 r b h) = ix3 r b h := by
  funext a; apply Fin.ext
  match a with
  | ⟨0, _⟩ => show 0 + 1 * r.val = r.val; omega
  | ⟨1, _⟩ => show 0 + 1 * b.val = b.val; omega
  | ⟨2, _⟩ => show 0 + 1 * h.val = h.val; omega
theorem idx_rQw (h : Fin 768) : rQw.idx (ix2 (0 : Fin 1) h) = ix2 (0 : Fin 1) h := by
  funext a; apply Fin.ext
  match a with
  | ⟨0, _⟩ => show 0 + 1 * 0 = 0; rfl
  | ⟨1, _⟩ => show 0 + 1 * h.val = h.val; omega
theorem idx_rPw0 (h : Fin 768) : rPw0.idx (ix2 (0 : Fin 1) h) = ix2 (0 : Fin 197) h := by
  funext a; apply Fin.ext
  match a with
  | ⟨0, _⟩ => show 0 + 1 * 0 = 0; rfl
  | ⟨1, _⟩ => show 0 + 1 * h.val = h.val; omega
theorem idx_rPwT (r : Fin 196) (h : Fin 768) : rPwT.idx (ix2 r h) = ix2 (⟨r.val + 1, by have := r.isLt; omega⟩ : Fin 197) h := by
  funext a; apply Fin.ext
  match a with
  | ⟨0, _⟩ => show 1 + 1 * r.val = r.val + 1; omega
  | ⟨1, _⟩ => show 0 + 1 * h.val = h.val; omega
theorem emb_rOut0 (b : Fin 8) (h : Fin 768) : rOut0.emb (ix3 (0 : Fin 1) b h) = ix3 (0 : Fin 197) b h := by
  funext a; apply Fin.ext
  match a with
  | ⟨0, _⟩ => show 0 + 1 * 0 = 0; rfl
  | ⟨1, _⟩ => show 0 + 1 * b.val = b.val; omega
  | ⟨2, _⟩ => show 0 + 1 * h.val = h.val; omega
theorem emb_rOutT (r : Fin 196) (b : Fin 8) (h : Fin 768) :
    rOutT.emb (ix3 r b h) = ix3 (⟨r.val + 1, by have := r.isLt; omega⟩ : Fin 197) b h := by
  funext a; apply Fin.ext
  match a with
  | ⟨0, _⟩ => show 1 + 1 * r.val = r.val + 1; omega
  | ⟨1, _⟩ => show 0 + 1 * b.val = b.val; omega
  | ⟨2, _⟩ => show 0 + 1 * h.val = h.val; omega

/-- What the body leaves in the result's block, read at an index: each of the two stores' values is `blkFn` at the
    index its rectangle gives, and the two rectangles cover the block. -/
theorem outBlk_apply (x : Vec F S196x8x768 .f32) (q : Vec F S1x768 .f32) (p : Vec F S197x768 .f32) (j : S197x8x768.Idx) :
    outBlk x q p j = blkFn x q p (j 0) (j 1) (j 2) := by
  unfold outBlk
  refine View.canon_apply_of_pieces (fun j : S197x8x768.Idx => blkFn x q p (j 0) (j 1) (j 2)) _ ?_ j (cover _ _ j)
  intro pc hpc
  rcases List.mem_cons.mp hpc with rfl | hpc
  · intro y
    obtain ⟨b, h, rfl⟩ : ∃ (b : Fin 8) (h : Fin 768), y = ix3 (0 : Fin 1) b h :=
      ⟨y 1, y 2, (eq_ix3 y).trans (congrArg (fun a : Fin 1 => ix3 a (y 1) (y 2)) (Subsingleton.elim _ _))⟩
    refine (pay2_apply _ _ b h).trans ?_
    show _ = blkFn x q p (rOut0.emb (ix3 (0 : Fin 1) b h) 0) (rOut0.emb (ix3 (0 : Fin 1) b h) 1) (rOut0.emb (ix3 (0 : Fin 1) b h) 2)
    rw [emb_rOut0]
    show _ = blkFn x q p (0 : Fin 197) b h
    unfold blkFn
    rw [dif_pos (show ((0 : Fin 197) : Nat) = 0 from rfl)]
    show FloatOps.addf (q (rQw.idx (ix2 (0 : Fin 1) h))) (p (rPw0.idx (ix2 (0 : Fin 1) h))) = _
    rw [idx_rQw, idx_rPw0]
  · rcases List.mem_cons.mp hpc with rfl | hpc
    · intro y
      obtain ⟨r, b, h, rfl⟩ : ∃ (r : Fin 196) (b : Fin 8) (h : Fin 768), y = ix3 r b h := ⟨y 0, y 1, y 2, eq_ix3 y⟩
      refine (pay1_apply _ _ r b h).trans ?_
      show _ = blkFn x q p (rOutT.emb (ix3 r b h) 0) (rOutT.emb (ix3 r b h) 1) (rOutT.emb (ix3 r b h) 2)
      rw [emb_rOutT]
      show _ = blkFn x q p (⟨r.val + 1, by have := r.isLt; omega⟩ : Fin 197) b h
      unfold blkFn
      rw [dif_neg (Nat.succ_ne_zero _)]
      show FloatOps.addf (x (rX.idx (ix3 r b h))) (p (rPwT.idx (ix2 r h))) = _
      rw [idx_rX, idx_rPwT]
      exact congrArg (fun a : Fin 196 => FloatOps.addf (x (ix3 a b h)) (p (ix2 (⟨r.val + 1, by have := r.isLt; omega⟩ : Fin 197) h)))
        (Fin.ext (Nat.add_sub_cancel (n := r.val) (m := 1)).symm)
    · exact absurd hpc List.not_mem_nil

/-! ## From blocks to the array -/

/-- The printed index maps, decided over the seven points: the features' and the result's blocks are at batch block
    `t` and nowhere else displaced; the quality row and the position table are whole. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- The feature block at point `t` read at `(r, b, h)` is the transposed features at batch entry `8 t + b`. -/
theorem iblk0_apply (c : Dev nD) (t : Fin cfg1.N) (r : Fin 196) (b : Fin 8) (h : Fin 768) (b' : Fin 64) (hb : b'.val = t.val * 8 + b.val) :
    iblk V c 0 t (ix3 r b h) = V c main_v0 (ix3 r b' h) := by
  obtain ⟨e0, e1, e2, -⟩ := idx_facts t
  show V c main_v0 (((cfg1.win 0).blk t).view.emb (ix3 r b h)) = V c main_v0 (ix3 r b' h)
  refine congrArg (V c main_v0) ?_
  funext a; apply Fin.ext
  match a with
  | ⟨0, _⟩ => show win1_0.index t (0 : Fin 3) * 196 + 1 * r.val = r.val; omega
  | ⟨1, _⟩ => show win1_0.index t (1 : Fin 3) * 8 + 1 * b.val = b'.val; omega
  | ⟨2, _⟩ => show win1_0.index t (2 : Fin 3) * 768 + 1 * h.val = h.val; omega

/-- The quality row's block is the row. -/
theorem iblk1_apply (c : Dev nD) (t : Fin cfg1.N) (h : Fin 768) :
    iblk V c 1 t (ix2 (0 : Fin 1) h) = V c main_arg1 (ix2 (0 : Fin 1) h) := by
  obtain ⟨-, -, -, e0, e1, -⟩ := idx_facts t
  show V c main_arg1 (((cfg1.win 1).blk t).view.emb (ix2 (0 : Fin 1) h)) = V c main_arg1 (ix2 (0 : Fin 1) h)
  refine congrArg (V c main_arg1) ?_
  funext a; apply Fin.ext
  match a with
  | ⟨0, _⟩ => show win1_1.index t (0 : Fin 2) * 1 + 1 * 0 = 0; omega
  | ⟨1, _⟩ => show win1_1.index t (1 : Fin 2) * 768 + 1 * h.val = h.val; omega

/-- The position table's block is the table. -/
theorem iblk2_apply (c : Dev nD) (t : Fin cfg1.N) (p : Fin 197) (h : Fin 768) :
    iblk V c 2 t (ix2 p h) = V c main_arg2 (ix2 p h) := by
  obtain ⟨-, -, -, -, -, e0, e1, -⟩ := idx_facts t
  show V c main_arg2 (((cfg1.win 2).blk t).view.emb (ix2 p h)) = V c main_arg2 (ix2 p h)
  refine congrArg (V c main_arg2) ?_
  funext a; apply Fin.ext
  match a with
  | ⟨0, _⟩ => show win1_2.index t (0 : Fin 2) * 197 + 1 * p.val = p.val; omega
  | ⟨1, _⟩ => show win1_2.index t (1 : Fin 2) * 768 + 1 * h.val = h.val; omega

/-- An element of the result's block at point `t` sits in the array at batch entry `8 t + b`. -/
theorem emb_blk3 (t : Fin cfg1.N) (p : Fin 197) (b : Fin 8) (h : Fin 768) (b' : Fin 64) (hb : b'.val = t.val * 8 + b.val) :
    ((cfg1.win 3).blk t).view.emb (ix3 p b h) = (ix3 p b' h : S197x64x768.Idx) := by
  obtain ⟨-, -, -, -, -, -, -, e0, e1, e2⟩ := idx_facts t
  funext a; apply Fin.ext
  match a with
  | ⟨0, _⟩ => show win1_3.index t (0 : Fin 3) * 197 + 1 * p.val = p.val; omega
  | ⟨1, _⟩ => show win1_3.index t (1 : Fin 3) * 8 + 1 * b.val = b'.val; omega
  | ⟨2, _⟩ => show win1_3.index t (2 : Fin 3) * 768 + 1 * h.val = h.val; omega

/-- What point `t` writes back is block `t` of the position-major result, as a function of the arrays the kernel
    finds. -/
theorem flushed_eq (c : Dev nD) (t : Fin cfg1.N) :
    (𝔇 V B c).flushed 3 t = ((cfg1.win 3).blk t).view.read (Elt F)
      (Cert.Spec.outT (Cert.Spec.addF F) (V c main_v0) (V c main_arg1) (V c main_arg2)) := by
  show (cfg1.win 3).cut (grid1.coords t) ((𝔇 V B c).after 3 t) = _
  rw [after_3]
  refine funext fun (j : S197x8x768.Idx) => ?_
  obtain ⟨p, b, h, rfl⟩ : ∃ (p : Fin 197) (b : Fin 8) (h : Fin 768), j = ix3 p b h := ⟨j 0, j 1, j 2, eq_ix3 j⟩
  have ht : t.val < 7 := lt_of_lt_of_eq (show t.val < grid1.N from t.isLt) N_1
  have hb' : t.val * 8 + b.val < 64 := by have := b.isLt; omega
  show outBlk (iblk V c 0 t) (iblk V c 1 t) (iblk V c 2 t) (ix3 p b h)
    = Cert.Spec.outT (Cert.Spec.addF F) (V c main_v0) (V c main_arg1) (V c main_arg2) (((cfg1.win 3).blk t).view.emb (ix3 p b h))
  rw [outBlk_apply, emb_blk3 t p b h ⟨t.val * 8 + b.val, hb'⟩ rfl]
  show blkFn (iblk V c 0 t) (iblk V c 1 t) (iblk V c 2 t) p b h
    = Cert.Spec.rowT (Cert.Spec.addF F) (V c main_v0) (V c main_arg1) (V c main_arg2) p ⟨t.val * 8 + b.val, hb'⟩ h
  unfold blkFn Cert.Spec.rowT
  by_cases hp : p.val = 0
  · rw [dif_pos hp, dif_pos hp]
    exact congrArg₂ FloatOps.addf (iblk1_apply V c t h) (iblk2_apply V c t 0 h)
  · rw [dif_neg hp, dif_neg hp]
    exact congrArg₂ FloatOps.addf (iblk0_apply V c t _ b h ⟨t.val * 8 + b.val, hb'⟩ rfl) (iblk2_apply V c t p h)

/-- An index of the array is in point `t`'s block iff each coordinate is in the block's range on its axis. -/
theorem mem_blk (t : Fin cfg1.N) (i : S197x64x768.Idx) :
    i ∈ ((cfg1.win 3).blk t).view.set ↔ ∀ a : Fin 3, win1_3.index t a * S197x8x768.size a ≤ (i a).val
      ∧ (i a).val < win1_3.index t a * S197x8x768.size a + S197x8x768.size a := by
  show i ∈ ((View.whole main_v2).slice (win1_3.rect t)).set ↔ _
  rw [View.set_slice_whole, Rect.mem_set_unit]
  exact Iff.rfl

/-- The seven blocks fill exactly batch entries 0..55. -/
theorem covered_iff (i : S197x64x768.Idx) :
    (∃ t : Fin cfg1.N, (cfg1.win 3).flush t = true ∧ i ∈ ((cfg1.win 3).blk t).view.set) ↔ (i 1).val < 56 := by
  have h0 : (i 0).val < 197 := (i 0).isLt
  have h1 : (i 1).val < 64 := (i 1).isLt
  have h2 : (i 2).val < 768 := (i 2).isLt
  constructor
  · rintro ⟨t, -, hi⟩
    rw [mem_blk] at hi
    have b1 : win1_3.index t (1 : Fin 3) * 8 ≤ (i 1).val ∧ (i 1).val < win1_3.index t (1 : Fin 3) * 8 + 8 := hi 1
    obtain ⟨-, -, -, -, -, -, -, e0, e1, e2⟩ := idx_facts t
    have ht : t.val < 7 := lt_of_lt_of_eq (show t.val < grid1.N from t.isLt) N_1
    omega
  · intro h
    have hlt : (i 1).val / 8 < cfg1.N := by rw [show cfg1.N = grid1.N from rfl, N_1]; omega
    obtain ⟨-, -, -, -, -, -, -, e0, e1, e2⟩ := idx_facts ⟨(i 1).val / 8, hlt⟩
    refine ⟨⟨(i 1).val / 8, hlt⟩, flush1_3 _, ?_⟩
    rw [mem_blk]
    have e1' : win1_3.index ⟨(i 1).val / 8, hlt⟩ (1 : Fin 3) = (i 1).val / 8 := e1
    intro a
    match a with
    | ⟨0, _⟩ =>
      show win1_3.index ⟨(i 1).val / 8, hlt⟩ (0 : Fin 3) * 197 ≤ (i 0).val ∧ (i 0).val < win1_3.index ⟨(i 1).val / 8, hlt⟩ (0 : Fin 3) * 197 + 197
      omega
    | ⟨1, _⟩ =>
      show win1_3.index ⟨(i 1).val / 8, hlt⟩ (1 : Fin 3) * 8 ≤ (i 1).val ∧ (i 1).val < win1_3.index ⟨(i 1).val / 8, hlt⟩ (1 : Fin 3) * 8 + 8
      omega
    | ⟨2, _⟩ =>
      show win1_3.index ⟨(i 1).val / 8, hlt⟩ (2 : Fin 3) * 768 ≤ (i 2).val ∧ (i 2).val < win1_3.index ⟨(i 1).val / 8, hlt⟩ (2 : Fin 3) * 768 + 768
      omega

/-- The result's array after the kernel: the position-major result on batch entries 0..55, what the array held at
    entry on batch entries 56..63. -/
theorem arrAt_out (c : Dev nD) :
    (dat (Name := Name) (U := U) (Lvl := Lvl) V B c).arrAt 3 cfg1.N
      = Cert.Spec.tcOut (Cert.Spec.addF F) (V c main_v0) (V c main_arg1) (V c main_arg2) (V c main_v2) := by
  funext i
  rw [(𝔇 V B c).arrAt_eq_piecewise 3 (Cert.Spec.outT (Cert.Spec.addF F) (V c main_v0) (V c main_arg1) (V c main_arg2))
    (fun t _ => flushed_eq V B c t) i, A_eq]
  unfold Cert.Spec.tcOut Cert.Spec.outT
  exact if_congr (covered_iff i) rfl rfl

/-! ## The kernel as a region of the host program -/

variable (adm : (p : Fin 1) → (pcfgs (F := F) p).Adm)

/-- The proof data family of the program's pipelines: there is one. -/
def pdats : (p : Fin 1) → (c : Dev nD) → Dat τ (Elt F) Ix Name U Lvl (Pipeline.pin (pcfgs (F := F)) adm p) c
  | ⟨0, _⟩ => fun c => dat V B c

-- the library's entry and exit lemmas are stated over the pinned configuration `pin pcs a p`; they meet this
-- configuration only when unification may unfold plain definitions in a metavariable's type
set_option backward.isDefEq.respectTransparency.types false in
/-- The kernel at one entry, over the thread state "every unscoped buffer at `V c`, `R c`, and the core owing
    nothing with its recorded pairs within `B`": entered by splitting the four arrays out of the unscoped buffers,
    the rest bypassing; left with them put back at any valuation `Vp` that has the result's array at what the seven
    write-backs leave and agrees with `V` elsewhere, the recorded pairs now within `B` and the pipeline's own
    waits. Nothing enters the invariant but the scoped buffers the kernel does not stage; the kernel has no
    semaphore of its own. -/
def reg (ι : Ix) (L : GSem nD τ sig → Finset Ix) (lv : GSem nD τ sig → Ix → Lvl) (R : Dev nD → sProp 𝕄)
    (Vp : (c : Dev nD) → (b : Ref sig .tc) → Buf (Elt F) ((c : Thread nD τ).loc b))
    (hVp_out : ∀ c, Vp c main_v2 = (dat (Name := Name) (U := U) (Lvl := Lvl) V B c).arrAt 3 cfg1.N)
    (hVp_ne : ∀ c (b : Ref sig .tc), b ≠ main_v2 → Vp c b = V c b) :
    Pipeline.RegionSeg (pcfgs (F := F)) adm (pdats (Name := Name) (U := U) (Lvl := Lvl) V B adm) ι defs₀ Variants.none L lv 0 where
  win := launch1.win.to₀
  block_pos := launch1.block_pos
  stage_whole := launch1.stage_whole
  K := PEmpty
  osem k := k.elim
  ho := Pipeline.OwnSemFacts.none _
  hbody c := (body_obligation V B ι c).loose
  hwaits := Pipeline.hwaits_of_owed_zero _ _ _ _ L lv 0 fun _ _ => rfl
  pre c := iprop(unscopedBufs c (V c) ∗ R c ∗ Pipeline.owesWithin c (0 : CellTallies nD τ sig Ix) B)
  post c := iprop(unscopedBufs c (Vp c) ∗ R c ∗ Pipeline.owesWithin c (0 : CellTallies nD τ sig Ix) (B ∪ cfg1.waitPairs ι))
  X _ := BI.emp
  Y _ := BI.emp
  Z c := iprop(Pipeline.unscopedRest (Ix := Ix) (Name := Name) (U := U) (Lvl := Lvl) spec1 c (V c) ∗ R c)
  hentry c := by
    rw [Pipeline.ownSems0_none]
    have hsplit := Pipeline.arrays_of_unscopedBufs (p := 0) (pcfgs (F := F)) adm (pdats (Name := Name) (U := U) (Lvl := Lvl) V B adm)
      launch1.win launch1.arr_whole c
      ((pdats (Name := Name) (U := U) (Lvl := Lvl) V B adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (0 : CellTallies nD τ sig Ix) (B := B)
        (B' := (pdats (Name := Name) (U := U) (Lvl := Lvl) V B adm 0 c).bound ι 0) fun _ h => Or.inl h)
      iexact HO
    isplitr; · iempintro
    isplitl [Hrest] <;> iassumption
  hin c := by
    rw [show (pdats (Name := Name) (U := U) (Lvl := Lvl) V B adm 0 c).Φ 0
      = Pipeline.scopedRest (Ix := Ix) (Name := Name) (U := U) (Lvl := Lvl) (Val := Elt F) spec1 c from rfl]
    iintro ⟨-, -, Hr⟩; iexact Hr
  hout c := by
    rw [Pipeline.ownSems0_none, show (pdats (Name := Name) (U := U) (Lvl := Lvl) V B adm 0 c).Φ (Fin.last _)
      = Pipeline.scopedRest (Ix := Ix) (Name := Name) (U := U) (Lvl := Lvl) (Val := Elt F) spec1 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch1.win launch1.arr_whole c
      (pdats (Name := Name) (U := U) (Lvl := Lvl) V B adm) ((pdats (Name := Name) (U := U) (Lvl := Lvl) V B adm 0 c).share_full fun _ => rfl)
      (V c) (Vp c) ((pdats (Name := Name) (U := U) (Lvl := Lvl) V B adm 0 c).arrAt · cfg1.N)
      (fun w => by
        fin_cases w
        · exact (arrAt_in V B c 0 (by decide)).trans (hVp_ne c main_v0 (by decide)).symm
        · exact (arrAt_in V B c 1 (by decide)).trans (hVp_ne c main_arg1 (by decide)).symm
        · exact (arrAt_in V B c 2 (by decide)).trans (hVp_ne c main_arg2 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    iexact HO

/-- info: 'Cert.KI.Region.reg' depends on axioms: [propext, Classical.choice, Quot.sound] -/
#guard_msgs in #print axioms reg
/-- info: 'Cert.KI.Region.arrAt_out' depends on axioms: [propext, Classical.choice, Quot.sound] -/
#guard_msgs in #print axioms arrAt_out
/-- info: 'Cert.KI.Region.body_obligation' depends on axioms: [propext, Classical.choice, Quot.sound] -/
#guard_msgs in #print axioms body_obligation

end Cert.KI.Region

end
-- ==== Proof.SplitKI.lean ====
/-
  The launch-side bookkeeping of the SparseCore call: how the call's result splits into the rows
  the thirty-two workers own, how each SparseCore's read share of the three inputs splits into its
  sixteen tiles' shares and comes back, how the TensorCore's full ownership of the inputs and of the
  result splits into the two SparseCores' payloads and what it keeps, and the launch element of
  the ghost state (the handshakes' rounds, the TensorCore pipeline's rounds, the copies' counters).
-/
import proofs.«207362_g47132971107233_retrytranche2_1164_24_alg».proof.Proof.PayKI
import Idealize.ShloMosaic.Lib.Pipeline.Sound

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The rows the workers own tile the result -/

theorem outOff_zero (w : Fin 32) : outOff w 0 = if w.val < 28 then 7 * w.val + 1 else 0 := by
  unfold outOff; split <;> rfl
theorem outOff_one (w : Fin 32) : outOff w 1 = 0 := by
  unfold outOff; split <;> rfl
theorem outOff_two (w : Fin 32) : outOff w 2 = 0 := by
  unfold outOff; split <;> rfl
theorem outSize_zero (w : Fin 32) : outSize w 0 = if w.val < 28 then 7 else if w.val = 28 then 1 else 0 := by
  unfold outSize; split
  · rfl
  · split <;> rfl
theorem outSize_one (w : Fin 32) : outSize w 1 = 8 := by
  unfold outSize; split
  · rfl
  · split <;> rfl
theorem outSize_two (w : Fin 32) : outSize w 2 = 768 := by
  unfold outSize; split
  · rfl
  · split <;> rfl

/-- A worker's elements are its rectangle's, the result being a whole array. -/
theorem outSet_eq (w : Fin 32) : outSet w = (outRect w).set := by
  show ((View.whole (main_v1_scv : Ref sig .scVector)).slice (outRect w)).set = _
  rw [View.set_slice]; exact Finset.map_refl

/-- Two workers' row blocks are separated on the row axis. -/
theorem outSets_disjoint : ∀ w ∈ (Finset.univ : Finset (Fin 32)), ∀ w' ∈ (Finset.univ : Finset (Fin 32)), w ≠ w' → Disjoint (outSet w) (outSet w') := by
  intro w _ w' _ h
  rw [outSet_eq, outSet_eq]
  refine Rect.unit_disjoint (0 : Fin 3) ?_
  have hne : w.val ≠ w'.val := fun e => h (Fin.ext e)
  have hw := w.isLt
  have hw' := w'.isLt
  rw [outOff_zero, outOff_zero, outSize_zero, outSize_zero]
  split <;> split <;> (try split) <;> (try split) <;> omega

/-- Row 0 is worker 28's, row `p ≥ 1` worker `(p - 1) / 7`'s: the 29 row blocks cover the 197 rows. -/
theorem outSets_cover : (Finset.univ : Finset (Fin 32)).biUnion outSet = Finset.univ := by
  ext i
  simp only [Finset.mem_biUnion, Finset.mem_univ, true_and, iff_true]
  have h0 : (i 0).val < 197 := (i 0).isLt
  have h1 : (i 1).val < 8 := (i 1).isLt
  have h2 : (i 2).val < 768 := (i 2).isLt
  by_cases hp : (i 0).val = 0
  · refine ⟨⟨28, by omega⟩, ?_⟩
    rw [outSet_eq, Rect.mem_set_unit]
    intro a
    match a with
    | 0 => rw [outOff_zero, outSize_zero]; simp only [show ¬ (28 < 28) by omega, if_false, if_true]; omega
    | 1 => rw [outOff_one, outSize_one]; omega
    | 2 => rw [outOff_two, outSize_two]; omega
  · have hw : ((i 0).val - 1) / 7 < 28 := by omega
    refine ⟨⟨((i 0).val - 1) / 7, by omega⟩, ?_⟩
    rw [outSet_eq, Rect.mem_set_unit]
    intro a
    match a with
    | 0 => rw [outOff_zero, outSize_zero]; simp only [hw, if_true]; omega
    | 1 => rw [outOff_one, outSize_one]; omega
    | 2 => rw [outOff_two, outSize_two]; omega

/-! ## The result, whole, is the workers' rows -/

/-- Tile `s` of SparseCore `c` is worker `2 s + c`: a bijection of the 2 × 16 tiles with the 32 workers. -/
def widEquiv : Fin 2 × Fin 16 ≃ Fin 32 where
  toFun p := wid p.1 p.2
  invFun w := (⟨w.val % 2, Nat.mod_lt _ (by omega)⟩, ⟨w.val / 2, by have := w.isLt; omega⟩)
  left_inv p := by
    have h1 := p.1.isLt
    have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

theorem oPts_workers (d : Dev nD) (f : Buf (Elt F) (oLoc d)) :
    (oLoc d ↦{fullShare} f : sProp 𝕄) = bigSep Finset.univ fun c : Fin 2 => bigSep Finset.univ fun s : Fin 16 => outAt d (wid c s) f := by
  rw [← bigSep_univ_prod (fun p : Fin 2 × Fin 16 => outAt d (wid p.1 p.2) f)]
  rw [show (bigSep Finset.univ fun p : Fin 2 × Fin 16 => outAt d (wid p.1 p.2) f) = bigSep Finset.univ fun w : Fin 32 => (outAt d w f : sProp 𝕄) from
    (bigSep_univ_equiv widEquiv (fun w : Fin 32 => (outAt d w f : sProp 𝕄))).symm]
  rw [← pointsTo_biUnion Finset.univ (ℓ := oLoc d) outSet outSets_disjoint, outSets_cover]; try rfl

/-! ## The call: what the TensorCore hands the two SparseCores and what it keeps -/

/-- What the TensorCore keeps of the three inputs during the call: what is left of full ownership once the two
    SparseCores' read shares are split off. -/
def callRest (d : Dev nD) : sProp 𝕄 := insAt m d (shareDrop fullShare 2)

/-- The call's grid of SparseCores is the two of the device; -/
theorem bigSep_cores (Φ : Fin 2 → sProp 𝕄) :
    (bigSep Finset.univ fun c : Fin ((K (F := F)).nCore 0) => Φ (cOf c)) = bigSep Finset.univ Φ :=
  bigSep_congr fun _ _ => congrArg Φ (Fin.ext rfl)
/-- its grid of tiles the sixteen of a SparseCore. -/
theorem bigSep_tiles (Φ : Fin 16 → sProp 𝕄) :
    (bigSep Finset.univ fun i : Fin ((K (F := F)).nSub 0) => Φ (sOf i)) = bigSep Finset.univ Φ :=
  bigSep_congr fun _ _ => congrArg Φ (Fin.ext rfl)

variable [FloatOps F]

/-- Full ownership of the inputs and of the result (at any contents `f`) is the two SparseCores' payloads and the
    TensorCore's remainder of the inputs: each input's share splits in three, the result into the workers' rows. -/
theorem call_split' (d : Dev nD) (f : Buf (Elt F) (oLoc d)) :
    iprop(insAt m d fullShare ∗ (oLoc d ↦{fullShare} f)) ⊢ iprop((bigSep Finset.univ fun c : Fin 2 => stOf m d c f) ∗ callRest m d) := by
  unfold callRest
  rw [bigSep_sep', bigSep_sep', bigSep_sep', oPts_workers d f]
  iintro ⟨⟨Hx, Hq, Hp⟩, Ho⟩
  ihave Hx' := (pointsTo_toks_split (ℓ := xLoc d) (S := Finset.univ) (f := xT m d) fullShare 2) $$ Hx
  ihave Hq' := (pointsTo_toks_split (ℓ := qLoc d) (S := Finset.univ) (f := m (qLoc d)) fullShare 2) $$ Hq
  ihave Hp' := (pointsTo_toks_split (ℓ := pLoc d) (S := Finset.univ) (f := m (pLoc d)) fullShare 2) $$ Hp
  icases Hx' with ⟨Hxr, Hxs⟩
  icases Hq' with ⟨Hqr, Hqs⟩
  icases Hp' with ⟨Hpr, Hps⟩
  isplitl [Hxs Hqs Hps Ho]
  · isplitl [Hxs Hqs Hps]
    · isplitl [Hxs]; · iexact Hxs
      isplitl [Hqs]; · iexact Hqs
      iexact Hps
    · iexact Ho
  · isplitl [Hxr]; · iexact Hxr
    isplitl [Hqr]; · iexact Hqr
    iexact Hpr

/-- And back. -/
theorem call_join' (d : Dev nD) (f : Buf (Elt F) (oLoc d)) :
    iprop((bigSep Finset.univ fun c : Fin 2 => stOf m d c f) ∗ callRest m d) ⊢ iprop(insAt m d fullShare ∗ (oLoc d ↦{fullShare} f)) := by
  unfold callRest
  rw [bigSep_sep', bigSep_sep', bigSep_sep', oPts_workers d f]
  iintro ⟨⟨⟨Hxs, Hqs, Hps⟩, Ho⟩, Hxr, Hqr, Hpr⟩
  isplitl [Hxs Hqs Hps Hxr Hqr Hpr]
  · isplitl [Hxs Hxr]
    · iapply (pointsTo_toks_join (ℓ := xLoc d) (S := Finset.univ) (f := xT m d) fullShare 2)
      isplitl [Hxr]; · iexact Hxr
      iexact Hxs
    isplitl [Hqs Hqr]
    · iapply (pointsTo_toks_join (ℓ := qLoc d) (S := Finset.univ) (f := m (qLoc d)) fullShare 2)
      isplitl [Hqr]; · iexact Hqr
      iexact Hqs
    · iapply (pointsTo_toks_join (ℓ := pLoc d) (S := Finset.univ) (f := m (pLoc d)) fullShare 2)
      isplitl [Hpr]; · iexact Hpr
      iexact Hps
  · iexact Ho

theorem st0_eq (d : Dev nD) :
    (bigSep Finset.univ fun c : Fin ((K (F := F)).nCore 0) => (P m).st 0 d c) = bigSep Finset.univ fun c : Fin 2 => stOf m d c (m (oLoc d)) :=
  bigSep_cores (fun c => stOf m d c (m (oLoc d)))
theorem dn0_eq (d : Dev nD) :
    (bigSep Finset.univ fun c : Fin ((K (F := F)).nCore 0) => (P m).dn 0 d c) = bigSep Finset.univ fun c : Fin 2 => stOf m d c (scBuf m d) :=
  bigSep_cores (fun c => stOf m d c (scBuf m d))

/-- At the call: the inputs and the result at its launch contents, whole, are what the SparseCores start with, and the
    TensorCore's remainder. -/
theorem call_split (d : Dev nD) :
    iprop(insAt m d fullShare ∗ (oLoc d ↦{fullShare} m (oLoc d)))
      ⊢ iprop((bigSep Finset.univ fun c : Fin ((K (F := F)).nCore 0) => (P m).st 0 d c) ∗ callRest m d) := by
  rw [st0_eq]; exact call_split' m d _

/-- After it: what the SparseCores bring back and the remainder are the inputs, whole again, and the result at the
    call's contents. -/
theorem call_join (d : Dev nD) :
    iprop((bigSep Finset.univ fun c : Fin ((K (F := F)).nCore 0) => (P m).dn 0 d c) ∗ callRest m d)
      ⊢ iprop(insAt m d fullShare ∗ (oLoc d ↦{fullShare} scBuf m d)) := by
  rw [dn0_eq]; exact call_join' m d _

/-! ## A SparseCore's payload among its sixteen tiles -/

/-- A SparseCore's read share of each input splits into its tiles' shares and a remainder; its rows of the result are
    its tiles' rows already. -/
theorem tiles_split (d : Dev nD) (c : Fin 2) (f : Buf (Elt F) (oLoc d)) :
    stOf m d c f ⊢ iprop((bigSep Finset.univ fun s : Fin 16 => goOf m d c s f) ∗ insAt m d (shareDrop (shC c) 16)) := by
  rw [bigSep_sep', bigSep_sep', bigSep_sep']
  iintro ⟨⟨Hx, Hq, Hp⟩, Ho⟩
  ihave Hx' := (pointsTo_toks_split (ℓ := xLoc d) (S := Finset.univ) (f := xT m d) (shC c) 16) $$ Hx
  ihave Hq' := (pointsTo_toks_split (ℓ := qLoc d) (S := Finset.univ) (f := m (qLoc d)) (shC c) 16) $$ Hq
  ihave Hp' := (pointsTo_toks_split (ℓ := pLoc d) (S := Finset.univ) (f := m (pLoc d)) (shC c) 16) $$ Hp
  icases Hx' with ⟨Hxr, Hxs⟩
  icases Hq' with ⟨Hqr, Hqs⟩
  icases Hp' with ⟨Hpr, Hps⟩
  isplitl [Hxs Hqs Hps Ho]
  · isplitl [Hxs Hqs Hps]
    · isplitl [Hxs]; · iexact Hxs
      isplitl [Hqs]; · iexact Hqs
      iexact Hps
    · iexact Ho
  · isplitl [Hxr]; · iexact Hxr
    isplitl [Hqr]; · iexact Hqr
    iexact Hpr

/-- And back, the rows at whatever contents the tiles left them. -/
theorem tiles_join (d : Dev nD) (c : Fin 2) (f : Buf (Elt F) (oLoc d)) :
    iprop((bigSep Finset.univ fun s : Fin 16 => goOf m d c s f) ∗ insAt m d (shareDrop (shC c) 16)) ⊢ stOf m d c f := by
  rw [bigSep_sep', bigSep_sep', bigSep_sep']
  iintro ⟨⟨⟨Hxs, Hqs, Hps⟩, Ho⟩, Hxr, Hqr, Hpr⟩
  isplitl [Hxs Hqs Hps Hxr Hqr Hpr]
  · isplitl [Hxs Hxr]
    · iapply (pointsTo_toks_join (ℓ := xLoc d) (S := Finset.univ) (f := xT m d) (shC c) 16)
      isplitl [Hxr]; · iexact Hxr
      iexact Hxs
    isplitl [Hqs Hqr]
    · iapply (pointsTo_toks_join (ℓ := qLoc d) (S := Finset.univ) (f := m (qLoc d)) (shC c) 16)
      isplitl [Hqr]; · iexact Hqr
      iexact Hqs
    · iapply (pointsTo_toks_join (ℓ := pLoc d) (S := Finset.univ) (f := m (pLoc d)) (shC c) 16)
      isplitl [Hpr]; · iexact Hpr
      iexact Hps
  · iexact Ho

/-- The sequencer's dispatch: the SparseCore's payload to its tiles' and a remainder of the inputs' shares, which waits
    inside the returning wand for the tiles' shares to come back. -/
theorem vecSplit : (K (F := F)).VecSplit' (P m) 0 := by
  intro d c
  show stOf m d (cOf c) (m (oLoc d)) ⊢ |={Set.univ}=> iprop(
      (bigSep Finset.univ fun i : Fin ((K (F := F)).nSub 0) => goOf m d (cOf c) (sOf i) (m (oLoc d)))
      ∗ ((bigSep Finset.univ fun i : Fin ((K (F := F)).nSub 0) => goOf m d (cOf c) (sOf i) (scBuf m d)) -∗ stOf m d (cOf c) (scBuf m d)))
  rw [bigSep_tiles (F := F) (fun s => goOf m d (cOf c) s (m (oLoc d))), bigSep_tiles (F := F) (fun s => goOf m d (cOf c) s (scBuf m d))]
  iintro H
  ihave H' := (tiles_split m d (cOf c) (m (oLoc d))) $$ H
  icases H' with ⟨Hgo, Hrest⟩
  imodintro
  isplitl [Hgo]; · iexact Hgo
  iintro Htd
  iapply (tiles_join m d (cOf c) (scBuf m d))
  isplitl [Htd]; · iexact Htd
  iexact Hrest

/-! ## The launch element of the ghost state -/

omit [FloatOps F] in
/-- No pallas_call of the program reads a prefetched table: each has the one (empty) admissible contents. -/
def adm : (p : Fin 1) → (pcfgs (F := F) p).Adm := fun p => (cfgs p).toPCfg_adm

/-- The TensorCore pipelines at those contents: the printed configurations themselves. -/
abbrev pcs : Fin 1 → Pipeline.Cfg sig Λ₀ := Pipeline.pin (pcfgs (F := F)) adm

omit [FloatOps F] in
/-- Their staging cells are pairwise distinct (decided on the printed configurations). -/
theorem pcs_inj : Function.Injective (Pipeline.cellOf (nD := nD) (τ := τ) (pcs (F := F))) := cellOf_inj

/-- Pipeline 0's launch ghost state on device `d`: its staging cells' launch states and its transfers' duty tokens. -/
def G (d : Dev nD) : sProp 𝕄 := Pipeline.ghostOn (pcfgs (F := F)) adm EP {0} d

omit [FloatOps F] in
theorem G_eq (d : Dev nD) :
    (G (F := F) d : sProp 𝕄) = iprop(Pipeline.cellsGhost (pcs (F := F)) EP 0 d ∗ Pipeline.toksInit (pcs (F := F)) EP 0 d) := by
  unfold G Pipeline.ghostOn Pipeline.PerCore.ghostOn
  exact bigSep_singleton

/-- The launch element: the handshakes' cells and tokens, the pipeline's cells and tokens, and the unit of the
    local copies' counters. -/
def u₀ : UU :=
  (initOf (K (F := F)).hsCells (K (F := F)).hsToks,
    (initOf (Pipeline.cells (pcs (F := F)) pcs_inj) (Pipeline.launchToks (pcs (F := F)) pcs_inj), 1))

omit [FloatOps F] in
/-- The pipeline's rounds are owned through the right factor's left factor. -/
theorem own_EP (a : UP) :
    (BI.own (((Emb.inl : Emb UP (UP × Counters)).trans (embR : Emb (UP × Counters) 𝕄)) a) : sProp 𝕄) = BI.own (EP a) := rfl

omit [FloatOps F] in
theorem bigSep_emp' {I : Type} (s : Finset I) : (bigSep s fun _ => iprop(emp)) = (iprop(emp) : sProp 𝕄) := bigSep_emp_const s

/-- No thread starts with anything of the kernel's own. -/
theorem Px_emp : (bigSep Finset.univ fun thr : Thread nD τ => bigSep Finset.univ fun q : Fin 1 => (P (F := F) m).x q thr) = (iprop(emp) : sProp 𝕄) := by
  unfold P; dsimp only
  rw [bigSep_congr fun _ _ => bigSep_emp' _, bigSep_emp']

/-- From the launch element: the handshakes' part as the launch theorem takes it, the pipeline's part funds its
    staging cells' ghost state on every device, the counters' unit is dropped; nothing is dealt to the threads. -/
theorem hu₀ : iprop((ownU (u₀ (F := F)) : sProp 𝕄) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  have hG : (bigSep Finset.univ (G (F := F)) : sProp 𝕄)
      = iprop((bigSep Finset.univ fun c : Dev nD => bigSep Finset.univ fun p : Fin 1 => Pipeline.cellsGhost (pcs (F := F)) EP p c)
          ∗ (bigSep Finset.univ fun c : Dev nD => bigSep Finset.univ fun p : Fin 1 => (Pipeline.toksInit (pcs (F := F)) EP p c : sProp 𝕄))) := by
    rw [← bigSep_sep']
    refine bigSep_congr fun d _ => ?_
    rw [G_eq, bigSep_univ_of_subsingleton (0 : Fin 1), bigSep_univ_of_subsingleton (0 : Fin 1)]
  rw [Px_emp, hG]
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (pcs (F := F)) EP pcs_inj) $$ HP' with ⟨Hg, Ht⟩
  imodintro
  isplitl [HH]; · iexact HH
  isplitl [Hg Ht]
  · isplitl [Hg]; · iexact Hg
    iexact Ht
  · iempintro

end Cert.KI

end
-- ==== Proof.HostTail.lean ====
/-
  The host operations that follow the two processors' work, as one equation between pure arrays.

  The position-major array `[197, 64, 768]` left by the block-wise stage holds the result on batch
  entries 0..55 and arbitrary values `f` on entries 56..63; the other stage's piece `[197, 8, 768]`
  holds the result for entries 56..63. Writing the piece into the array at start `(0, 56, 0)`
  gives the whole position-major result, and exchanging the first two axes gives the batch-major
  result `G` of the untransposed features, because the position-major stages were fed the
  features with their first two axes exchanged.
-/
import proofs.«207362_g47132971107233_retrytranche2_1164_24_alg».proof.Proof.Spec
import Idealize.ShloMosaic.Lib.Pipeline.Value
import Idealize.ShloMosaic.Lib.ValueIdx

noncomputable section

namespace Cert.HostTail

open Idealize.ShloMosaic Idealize.ShloMosaic.ValueIdx Cert.Spec

/-- The 32-bit word zero, read as a signed integer. -/
theorem toInt_zero : (0#32 : BitVec 32).toInt = 0 := by decide

/-- The 32-bit word fifty-six, read as a signed integer. -/
theorem toInt_56 : (56#32 : BitVec 32).toInt = 56 := by decide

variable {α : Type} (add : α → α → α)

/-- `rowT` depends on its three coordinates only through their values. -/
theorem rowT_congr (X : SFeatsT.Idx → α) (qw : SQw.Idx → α) (pw : SPw.Idx → α)
    {p p' : Fin 197} {b b' : Fin 64} {h h' : Fin 768} (hp : p = p') (hb : b = b') (hh : h = h') :
    rowT add X qw pw p b h = rowT add X qw pw p' b' h' := by
  subst hp hb hh; rfl

/-- The features with their first two axes exchanged, read at (position, batch, hidden), are the
    features at (batch, position, hidden). -/
theorem featsT_apply (feats : SFeats.Idx → α) (h0 : SFeats.Transposes [1, 0, 2] SFeatsT)
    (p : Fin 196) (b : Fin 64) (h : Fin 768) :
    transpose SFeatsT [1, 0, 2] feats h0 (ix3 p b h) = feats (ix3 b p h) :=
  transpose_apply [1, 0, 2] feats h0 (ix3 p b h) (ix3 b p h) (fun a => match a with
    | ⟨0, _⟩ => rfl
    | ⟨1, _⟩ => rfl
    | ⟨2, _⟩ => rfl)

/-- One element of the position-major result computed from the exchanged features is the
    batch-major result at the exchanged index. -/
theorem rowT_featsT (feats : SFeats.Idx → α) (qw : SQw.Idx → α) (pw : SPw.Idx → α)
    (h0 : SFeats.Transposes [1, 0, 2] SFeatsT) (p : Fin 197) (b : Fin 64) (h : Fin 768) :
    rowT add (transpose SFeatsT [1, 0, 2] feats h0) qw pw p b h = G add feats qw pw (ix3 b p h) := by
  unfold rowT G
  by_cases hp : p.val = 0
  · rw [dif_pos hp, dif_pos (show ((ix3 b p h : SOut.Idx) 1).val = 0 from hp)]
  · rw [dif_neg hp, dif_neg (show ¬ ((ix3 b p h : SOut.Idx) 1).val = 0 from hp)]
    exact congrArg (fun x => add x (pw (ix2 p h))) (featsT_apply feats h0 _ b h)

/-- Writing the piece for batch entries 56..63 into the array that holds the result on entries
    0..55 gives the whole position-major result, whatever the array held on entries 56..63. -/
theorem update_eq_outT (X : SFeatsT.Idx → α) (qw : SQw.Idx → α) (pw : SPw.Idx → α) (f : SOutT.Idx → α)
    (hfit : SOutT.Slices (fun _ => 0) SScOut) (start : Fin 3 → Int)
    (hs0 : start 0 = 0) (hs1 : start 1 = 56) (hs2 : start 2 = 0) :
    Host.dynamicUpdateSlice (tcOut add X qw pw f) (scOut add X qw pw) start hfit = outT add X qw pw := by
  have hfit' : SOutT.Slices ![0, 56, 0] SScOut := by decide
  rw [Host.dynamicUpdateSlice_eq_updateSlice (tcOut add X qw pw f) (scOut add X qw pw) start hfit ![0, 56, 0]
    (fun a => match a with
      | ⟨0, _⟩ => by
        show (min (max (start 0) 0) ((197 - 197 : Nat) : Int)).toNat = 0
        rw [hs0]; decide
      | ⟨1, _⟩ => by
        show (min (max (start 1) 0) ((64 - 8 : Nat) : Int)).toNat = 56
        rw [hs1]; decide
      | ⟨2, _⟩ => by
        show (min (max (start 2) 0) ((768 - 768 : Nat) : Int)).toNat = 0
        rw [hs2]; decide) hfit']
  funext i
  obtain ⟨p, b, h, rfl⟩ : ∃ (p : Fin 197) (b : Fin 64) (h : Fin 768), i = ix3 p b h := ⟨i 0, i 1, i 2, eq_ix3 i⟩
  unfold updateSlice
  by_cases hb : b.val < 56
  · -- a batch entry below 56 lies outside the written rectangle, and the array holds the result there
    rw [dif_neg (fun hin => by
      have h1 := (hin ⟨1, by decide⟩).1
      have h1' : 56 ≤ b.val := h1
      omega)]
    unfold tcOut outT
    rw [if_pos (show ((ix3 p b h : SOutT.Idx) 1).val < 56 from hb)]
  · -- a batch entry 56 + k lies inside it, and the piece holds the result for that entry at k
    have hp197 : p.val < 197 := p.isLt
    have hb64 : b.val < 64 := b.isLt
    have hh768 : h.val < 768 := h.isLt
    rw [dif_pos (fun a => match a with
      | ⟨0, _⟩ => by
        show 0 ≤ p.val ∧ p.val < 0 + 197
        omega
      | ⟨1, _⟩ => by
        show 56 ≤ b.val ∧ b.val < 56 + 8
        omega
      | ⟨2, _⟩ => by
        show 0 ≤ h.val ∧ h.val < 0 + 768
        omega)]
    unfold scOut outT
    refine rowT_congr add X qw pw (Fin.ext ?_) (Fin.ext ?_) (Fin.ext ?_)
    · show p.val - 0 = p.val
      omega
    · show 56 + (b.val - 56) = b.val
      omega
    · show h.val - 0 = h.val
      omega

/-- The host operations after the two stages: the piece written at start `(0, 56, 0)`, then the
    first two axes exchanged back, give the batch-major result of the untransposed features. -/
theorem tail_is_G (feats : SFeats.Idx → α) (qw : SQw.Idx → α) (pw : SPw.Idx → α) (f : SOutT.Idx → α)
    (h0 : SFeats.Transposes [1, 0, 2] SFeatsT) (h1 : SOutT.Transposes [1, 0, 2] SOut)
    (hfit : SOutT.Slices (fun _ => 0) SScOut) (start : Fin 3 → Int)
    (hs0 : start 0 = 0) (hs1 : start 1 = 56) (hs2 : start 2 = 0) :
    transpose SOut [1, 0, 2]
        (Host.dynamicUpdateSlice (tcOut add (transpose SFeatsT [1, 0, 2] feats h0) qw pw f)
          (scOut add (transpose SFeatsT [1, 0, 2] feats h0) qw pw) start hfit) h1
      = G add feats qw pw := by
  rw [update_eq_outT add _ qw pw f hfit start hs0 hs1 hs2]
  funext i
  obtain ⟨b, p, h, rfl⟩ : ∃ (b : Fin 64) (p : Fin 197) (h : Fin 768), i = ix3 b p h := ⟨i 0, i 1, i 2, eq_ix3 i⟩
  refine (transpose_apply [1, 0, 2] _ h1 (ix3 b p h) (ix3 p b h) (fun a => match a with
    | ⟨0, _⟩ => rfl
    | ⟨1, _⟩ => rfl
    | ⟨2, _⟩ => rfl)).trans ?_
  exact rowT_featsT add feats qw pw h0 p b h

end Cert.HostTail

end
-- ==== Proof.TileDefsKI.lean ====
/-
  One tile's task, as the body's proof sees it: the thread, the worker number, the memrefs spelt as
  the body table passes them, and the tile's resources laid out one by one — read shares of the
  three inputs, the worker's rows of the result, the six scratch buffers and the nine DMA
  semaphores of the tile, and what the thread owes the launch.
-/
import proofs.«207362_g47132971107233_retrytranche2_1164_24_alg».proof.Proof.PayKI

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's memrefs, spelt as the body table passes them. -/
abbrev xW : Memref sig .scVector .hbm S196x64x768 .f32 := Memref.whole main_v0_scv
abbrev qW : Memref sig .scVector .hbm S1x768 .f32 := Memref.whole main_arg1_scv
abbrev pW : Memref sig .scVector .hbm S197x768 .f32 := Memref.whole main_arg2_scv
abbrev oW : Memref sig .scVector .hbm S197x8x768 .f32 := Memref.whole main_v1_scv
abbrev bA : Memref sig .scVector .vmem S7x8x768 .f32 := Memref.whole cc0_scratch0
abbrev bB : Memref sig .scVector .vmem S7x8x768 .f32 := Memref.whole cc0_scratch1
abbrev bPw : Memref sig .scVector .vmem S16x768 .f32 := Memref.whole cc0_scratch2
abbrev bPw5 : Memref sig .scVector .vmem S5x768 .f32 := Memref.whole cc0_scratch3
abbrev bQw : Memref sig .scVector .vmem S1x768 .f32 := Memref.whole cc0_scratch4
abbrev bRow0 : Memref sig .scVector .vmem S1x8x768 .f32 := Memref.whole cc0_scratch5

/-- The tile at grid coordinates `L` of device `d`, and its worker number `2 s + c`. -/
abbrev thrV (d : Dev nD) (L : grid0.Coords) : Thread nD τ := V d ((L 0).castLE hcore0) ((L 1).castLE hsub0)
theorem bound0 : grid0.bound 0 = 2 := rfl
theorem bound1 : grid0.bound 1 = 16 := rfl
abbrev cL (L : grid0.Coords) : Fin 2 := Fin.cast bound0 (L 0)
abbrev sL (L : grid0.Coords) : Fin 16 := Fin.cast bound1 (L 1)
abbrev wL (L : grid0.Coords) : Fin 32 := wid (cL L) (sL L)

variable [FloatOps F]

/-- The kernel's body at the tile, on the whole arrays and the tile's scratch. -/
abbrev body (L : grid0.Coords) : Prog (TpuEff nD τ sig (Elt F) Λ₀ (.scVector ((L 0).castLE hcore0) ((L 1).castLE hsub0))) PUnit :=
  cc0__sc_body L xW (Memref.isWhole_whole _) qW (Memref.isWhole_whole _) pW (Memref.isWhole_whole _) oW (Memref.isWhole_whole _)
    bA (Memref.isWhole_whole _) bB (Memref.isWhole_whole _) bPw (Memref.isWhole_whole _) bPw5 (Memref.isWhole_whole _)
    bQw (Memref.isWhole_whole _) bRow0 (Memref.isWhole_whole _) cc0_scratch6 cc0_scratch7 cc0_scratch8 cc0_scratch9
    cc0_scoped0 cc0_scoped1 cc0_scoped2 cc0_scoped3 cc0_scoped4

variable (m : (ℓ : Loc nD τ sig) → Buf (Elt F) ℓ)

/-- The tile's nine DMA semaphores, each reading zero. -/
def semsZero (d : Dev nD) (L : grid0.Coords) : sProp 𝕄 :=
  iprop(semVal (thrV d L, SemLoc.dma cc0_scratch6.sem) 0 ∗ semVal (thrV d L, SemLoc.dma cc0_scratch7.sem) 0
    ∗ semVal (thrV d L, SemLoc.dma cc0_scratch8.sem) 0 ∗ semVal (thrV d L, SemLoc.dma cc0_scratch9.sem) 0
    ∗ semVal (thrV d L, SemLoc.dma cc0_scoped0.sem) 0 ∗ semVal (thrV d L, SemLoc.dma cc0_scoped1.sem) 0
    ∗ semVal (thrV d L, SemLoc.dma cc0_scoped2.sem) 0 ∗ semVal (thrV d L, SemLoc.dma cc0_scoped3.sem) 0
    ∗ semVal (thrV d L, SemLoc.dma cc0_scoped4.sem) 0)

/-- The tile's six scratch buffers, each whole at some contents. -/
def scratchAny (d : Dev nD) (L : grid0.Coords) : sProp 𝕄 :=
  iprop((∃ f, (bA).view.loc (thrV d L) ↦{fullShare} f) ∗ (∃ f, (bB).view.loc (thrV d L) ↦{fullShare} f)
    ∗ (∃ f, (bPw).view.loc (thrV d L) ↦{fullShare} f) ∗ (∃ f, (bPw5).view.loc (thrV d L) ↦{fullShare} f)
    ∗ (∃ f, (bQw).view.loc (thrV d L) ↦{fullShare} f) ∗ (∃ f, (bRow0).view.loc (thrV d L) ↦{fullShare} f))

/-- The tile's resources one by one: the three inputs at share `q` (as the tile's memrefs address them), the
    worker's rows of the result at `fo`, the scratch, the semaphores at zero, and `owes`. -/
def tileRaw (d : Dev nD) (L : grid0.Coords) (O : CellTallies nD τ sig (HIx 1)) (W : Waits sig (HIx 1)) (q : PosShare TreeShare)
    (fo : Buf (Elt F) (oLoc d)) : sProp 𝕄 :=
  iprop(((xW).view.loc (thrV d L) ↦{q} xT m d) ∗ ((qW).view.loc (thrV d L) ↦{q} m (qLoc d)) ∗ ((pW).view.loc (thrV d L) ↦{q} m (pLoc d))
    ∗ (oLoc d ↦[outSet (wL L)]{fullShare} fo)
    ∗ scratchAny d L ∗ semsZero d L ∗ owes (thrV d L) O W)

/-- What every case of the body proves: from the tile's resources with the result rows at their launch contents
    (and the evidence that the tile's own waits are admissible), the body runs and leaves the rows at `scBuf`. -/
def BranchSpec (d : Dev nD) (L : grid0.Coords) : Prop :=
  ∀ (O : CellTallies nD τ sig (HIx 1)) (W : Waits sig (HIx 1)) (q : PosShare TreeShare),
    iprop(Transfers.MayWaits (thrV d L) (none : HIx 1) O ∗ tileRaw m d L O W q (m (oLoc d)))
      ⊢ wp frame (wpE (defs₀ (F := F)) 𝒱₀ (thrV d L) none) Set.univ (body (F := F) L)
          fun _ => iprop(∃ W', ⌜∀ p ∈ W', p ∈ W ∨ p.2 = none⌝ ∗ tileRaw m d L O W' q (scBuf m d))

end Cert.KI

end
-- ==== Proof.TileOblKI.lean ====
/-
  One tile's obligation to the launch of the SparseCore call, from the body's cases.

  The launch hands a tile its share of the call's operands (read shares of the position-major
  features, the quality row and the position table, and the worker's rows of the call's result) and
  the tile's scoped storage: every buffer and every semaphore cell of the tile, the cells at zero.
  Of that storage the body uses six scratch buffers and nine DMA semaphores; the rest is carried
  around the body untouched. This module splits the six buffers and the nine cells out of the
  tile's storage, spells the operands as the tile's memrefs address them, runs the body by the
  hypothesis on its cases, and puts everything back in the launch's own words.
-/
import proofs.«207362_g47132971107233_retrytranche2_1164_24_alg».proof.Proof.TileDefsKI
import Idealize.ShloMosaic.Lib.SparseCore.Launch

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Regrouping a separating conjunction -/

/-- Separating conjunction is associative, as an equation. -/
theorem sep_assoc_eq {A B C : sProp 𝕄} : (iprop((A ∗ B) ∗ C) : sProp 𝕄) = iprop(A ∗ B ∗ C) := by
  have h1 : (iprop((A ∗ B) ∗ C) : sProp 𝕄) ⊢ iprop(A ∗ B ∗ C) := by
    iintro ⟨⟨HA, HB⟩, HC⟩
    isplitl [HA]; · iexact HA
    isplitl [HB]; · iexact HB
    iexact HC
  have h2 : (iprop(A ∗ B ∗ C) : sProp 𝕄) ⊢ iprop((A ∗ B) ∗ C) := by
    iintro ⟨HA, HB, HC⟩
    isplitr [HC]
    · isplitl [HA]; · iexact HA
      iexact HB
    · iexact HC
  exact Idealize.SL.BI.Entails.antisymm h1 h2

/-! ## The tile's nine semaphore cells and six scratch buffers among its scoped storage -/

section Storage

variable (d : Dev nD) (L : grid0.Coords)

/-- Two DMA cells of one thread differ when their semaphores do. -/
theorem dmaCell_ne (thr : Thread nD τ) {a b : DmaSem sig} (h : a ≠ b) :
    ((thr, SemLoc.dma a) : GSem nD τ sig) ≠ (thr, SemLoc.dma b) :=
  fun e => h (SemLoc.dma.inj (congrArg Prod.snd e))

/-- A scoped DMA cell of the tile is one of the tile's own cells. -/
theorem dmaCell_mem (s : DmaSem sig) (h : (SemLoc.dma s : SemLoc sig).isScoped .scVector = true) :
    ((thrV d L, SemLoc.dma s) : GSem nD τ sig) ∈ ownCells (thrV d L) :=
  (mem_ownCells (g := ((thrV d L, SemLoc.dma s) : GSem nD τ sig))).mpr ⟨rfl, h⟩

/-- The tile's own cells other than the body's nine. -/
abbrev restCells : Finset (GSem nD τ sig) :=
  (((((((((ownCells (thrV d L)).erase (thrV d L, SemLoc.dma cc0_scratch6.sem)).erase (thrV d L, SemLoc.dma cc0_scratch7.sem)).erase
    (thrV d L, SemLoc.dma cc0_scratch8.sem)).erase (thrV d L, SemLoc.dma cc0_scratch9.sem)).erase (thrV d L, SemLoc.dma cc0_scoped0.sem)).erase
    (thrV d L, SemLoc.dma cc0_scoped1.sem)).erase (thrV d L, SemLoc.dma cc0_scoped2.sem)).erase (thrV d L, SemLoc.dma cc0_scoped3.sem)).erase
    (thrV d L, SemLoc.dma cc0_scoped4.sem)

/-- The tile's cells at zero are the body's nine at zero and the others at zero. -/
theorem ownSems0_V :
    (ownSems0 (thrV d L) : sProp 𝕄) = iprop(semsZero d L ∗ bigSep (restCells d L) fun g => semVal g 0) := by
  unfold SparseCore.Cfg.ownSems0 semsZero restCells
  have m6 := dmaCell_mem d L cc0_scratch6.sem (by decide)
  have m7 := dmaCell_mem d L cc0_scratch7.sem (by decide)
  have m8 := dmaCell_mem d L cc0_scratch8.sem (by decide)
  have m9 := dmaCell_mem d L cc0_scratch9.sem (by decide)
  have n0 := dmaCell_mem d L cc0_scoped0.sem (by decide)
  have n1 := dmaCell_mem d L cc0_scoped1.sem (by decide)
  have n2 := dmaCell_mem d L cc0_scoped2.sem (by decide)
  have n3 := dmaCell_mem d L cc0_scoped3.sem (by decide)
  have n4 := dmaCell_mem d L cc0_scoped4.sem (by decide)
  have ne : ∀ {a b : DmaSem sig}, a ≠ b → ((thrV d L, SemLoc.dma a) : GSem nD τ sig) ≠ (thrV d L, SemLoc.dma b) := fun h => dmaCell_ne _ h
  rw [SparseCore.bigSep_erase' m6,
    SparseCore.bigSep_erase' (Finset.mem_erase.mpr ⟨ne (by decide), m7⟩),
    SparseCore.bigSep_erase' (Finset.mem_erase.mpr ⟨ne (by decide), Finset.mem_erase.mpr ⟨ne (by decide), m8⟩⟩),
    SparseCore.bigSep_erase' (Finset.mem_erase.mpr ⟨ne (by decide), Finset.mem_erase.mpr ⟨ne (by decide), Finset.mem_erase.mpr ⟨ne (by decide), m9⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), n0⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), n1⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), n2⟩⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), Finset.mem_erase.mpr ⟨ne (by decide), n3⟩⟩⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), Finset.mem_erase.mpr ⟨ne (by decide),
      Finset.mem_erase.mpr ⟨ne (by decide), n4⟩⟩⟩⟩⟩⟩⟩⟩)]
  simp only [sep_assoc_eq]

/-- The tile as a processor. -/
abbrev prV (L : grid0.Coords) : Proc τ := .scVector ((L 0).castLE hcore0) ((L 1).castLE hsub0)

/-- The tile's own buffers other than the body's six scratch buffers. -/
abbrev restRefs : Finset (DevRef τ sig) :=
  ((((((ownRefs (τ := τ) (prV L)).erase ((prV L).devRef cc0_scratch0)).erase ((prV L).devRef cc0_scratch1)).erase ((prV L).devRef cc0_scratch2)).erase
    ((prV L).devRef cc0_scratch3)).erase ((prV L).devRef cc0_scratch4)).erase ((prV L).devRef cc0_scratch5)

theorem scratchRef_mem (b : Ref sig .scVector) (h : ((prV L).devRef b).owner = .proc (prV L)) : (prV L).devRef b ∈ ownRefs (τ := τ) (prV L) :=
  SparseCore.Cfg.mem_ownRefs_of_owner (p := prV L) (b := (prV L).devRef b) h

theorem scratchRef_ne {a b : Ref sig .scVector} (h : a ≠ b) : (prV L).devRef a ≠ (prV L).devRef b :=
  fun e => h (Proc.devRef_injective _ e)

/-- The tile's buffers, each at some contents: the six scratch buffers one by one, then the others. -/
theorem ownBufs_flat :
    (ownBufs (thrV d L) : sProp 𝕄)
      = iprop((∃ f, (bA).view.loc (thrV d L) ↦{fullShare} f) ∗ (∃ f, (bB).view.loc (thrV d L) ↦{fullShare} f)
          ∗ (∃ f, (bPw).view.loc (thrV d L) ↦{fullShare} f) ∗ (∃ f, (bPw5).view.loc (thrV d L) ↦{fullShare} f)
          ∗ (∃ f, (bQw).view.loc (thrV d L) ↦{fullShare} f) ∗ (∃ f, (bRow0).view.loc (thrV d L) ↦{fullShare} f)
          ∗ bigSep (restRefs L) fun b => iprop(∃ f, ((d, b) : Loc nD τ sig) ↦{fullShare} f)) := by
  unfold SparseCore.Cfg.ownBufs restRefs
  have ne : ∀ {a b : Ref sig .scVector}, a ≠ b → (prV L).devRef a ≠ (prV L).devRef b := fun h => scratchRef_ne L h
  refine (SparseCore.bigSep_erase' (scratchRef_mem L cc0_scratch0 rfl)).trans ?_
  rw [SparseCore.bigSep_erase' (Finset.mem_erase.mpr ⟨ne (by decide), scratchRef_mem L cc0_scratch1 rfl⟩),
    SparseCore.bigSep_erase' (Finset.mem_erase.mpr ⟨ne (by decide), Finset.mem_erase.mpr ⟨ne (by decide), scratchRef_mem L cc0_scratch2 rfl⟩⟩),
    SparseCore.bigSep_erase' (Finset.mem_erase.mpr ⟨ne (by decide), Finset.mem_erase.mpr ⟨ne (by decide), Finset.mem_erase.mpr ⟨ne (by decide),
      scratchRef_mem L cc0_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), scratchRef_mem L cc0_scratch4 rfl⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), scratchRef_mem L cc0_scratch5 rfl⟩⟩⟩⟩⟩)]

/-- The same with the six scratch buffers grouped as the body's proof holds them. -/
theorem ownBufs_V :
    (ownBufs (thrV d L) : sProp 𝕄)
      = iprop(scratchAny d L ∗ bigSep (restRefs L) fun b => iprop(∃ f, ((d, b) : Loc nD τ sig) ↦{fullShare} f)) := by
  rw [ownBufs_flat]; unfold scratchAny
  simp only [sep_assoc_eq]

end Storage

/-! ## The operands as the tile's memrefs address them -/

section Tile

variable [FloatOps F] (m : (ℓ : Loc nD τ sig) → Buf (Elt F) ℓ) (d : Dev nD) (L : grid0.Coords)

/-- The tile's memrefs of the four HBM arrays address the TensorCore's arrays: the three inputs at share `q` and the
    worker's rows of the result, spelt through the memrefs. -/
theorem go_raw (q : PosShare TreeShare) (fo : Buf (Elt F) (oLoc d)) :
    (iprop(insAt m d q ∗ outAt d (wL L) fo) : sProp 𝕄)
      = iprop(((xW).view.loc (thrV d L) ↦{q} xT m d) ∗ ((qW).view.loc (thrV d L) ↦{q} m (qLoc d)) ∗ ((pW).view.loc (thrV d L) ↦{q} m (pLoc d))
          ∗ (oLoc d ↦[outSet (wL L)]{fullShare} fo)) := by
  simp only [sep_assoc_eq]

/-- The tile's resources, grouped as the launch hands them over: the task's operands, the scratch, the semaphores, the debt. -/
theorem tileRaw_eq (O : CellTallies nD τ sig (HIx 1)) (W : Waits sig (HIx 1)) (q : PosShare TreeShare) (fo : Buf (Elt F) (oLoc d)) :
    (tileRaw m d L O W q fo : sProp 𝕄)
      = iprop((insAt m d q ∗ outAt d (wL L) fo) ∗ scratchAny d L ∗ semsZero d L ∗ owes (thrV d L) O W) := by
  rw [go_raw]; unfold tileRaw
  simp only [sep_assoc_eq]

/-- The task at a tile, in the launch's words: from the task's operands and the tile's scoped storage, the body runs and
    brings the operands back with the worker's rows at the call's result, the storage as it was. -/
theorem tile_body (hb : BranchSpec m d L) (O : CellTallies nD τ sig (HIx 1)) (W : Waits sig (HIx 1)) (hO : ∀ g, O g none = 0) :
    iprop(levAts (K (F := F)).L (K (F := F)).lev ∗ iprop(emp) ∗ goOf m d (cL L) (sL L) (m (oLoc d))
        ∗ scopedBufs (thrV d L) ∗ scopedSems0 (thrV d L) ∗ owes (thrV d L) O W)
      ⊢ wp frame (wpE (defs₀ (F := F)) 𝒱₀ (thrV d L) none) Set.univ (body (F := F) L)
          fun _ => iprop(goOf m d (cL L) (sL L) (scBuf m d) ∗ scopedBufs (thrV d L) ∗ scopedSems0 (thrV d L)
            ∗ ∃ W', ⌜∀ p ∈ W', p ∈ W ∨ p.2 = none⌝ ∗ owes (thrV d L) O W') := by
  rw [(K (F := F)).scopedBufs_V facts d _ _, SparseCore.Cfg.scopedSems0_V (Val := Elt F) d _ _, ownSems0_V, ownBufs_V]
  iintro ⟨#Hlv, -, Hgo, ⟨Hscr, Hbufs⟩, ⟨Hsem, Hsems⟩, HO⟩
  ihave Hmw := ((K (F := F)).mayWaits_none (thr := thrV d L) hO) $$ Hlv
  iapply (wp_wand_r Idealize.ShloMosaic.frame (wpE (defs₀ (F := F)) 𝒱₀ (thrV d L) none) Set.univ)
  isplitl [Hmw Hgo Hscr Hsem HO]
  · iapply (hb O W (shT (cL L) (sL L)))
    isplitl [Hmw]; · iexact Hmw
    rw [tileRaw_eq]
    isplitl [Hgo]; · iexact Hgo
    isplitl [Hscr]; · iexact Hscr
    isplitl [Hsem]; · iexact Hsem
    iexact HO
  iintro %_ ⟨%W', %hW', Hraw⟩
  ihave Hraw' := (Entails.of_eq (tileRaw_eq m d L O W' (shT (cL L) (sL L)) (scBuf m d))) $$ Hraw
  icases Hraw' with ⟨Hgo, Hscr, Hsem, HO⟩
  isplitl [Hgo]; · iexact Hgo
  isplitl [Hscr Hbufs]
  · isplitl [Hscr]; · iexact Hscr
    iexact Hbufs
  isplitl [Hsem Hsems]
  · isplitl [Hsem]; · iexact Hsem
    iexact Hsems
  iexists W'; isplitr
  · ipureintro; exact hW'
  iexact HO

end Tile

/-! ## The launch theorem's obligation -/

/-- Grid coordinates from a SparseCore and a tile of the call's grid. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] (m : (ℓ : Loc nD τ sig) → Buf (Elt F) ℓ)

/-- The body table's row for a tile: the kernel's body at the tile's coordinates, on the whole arrays and the tile's scratch. -/
theorem defs₀_vector (c : Fin τ.nSC) (s : Fin τ.nSub) :
    defs₀ (F := F) (.scVector c s) 0 ⟨⟩ = SparseCore.onTile hcore0 hsub0 (fun c s => body (F := F) (coordsV c s)) ⟨⟩ c s := rfl

/-- A wait list that grew only by the kernel's own waits grew only by waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call's grid meets its obligation to the launch, given the body's cases. -/
theorem tileObl (hbody : ∀ (d : Dev nD) (L : grid0.Coords), BranchSpec m d L) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (hbody d _) O W hO).trans (wp_mono frame _ _ fun _ => obl_post)

end Cert.KI

end
-- ==== Proof.MainKI.lean ====
/-
  @main on the TensorCore, and the program's run. @main transposes the features to position-major,
  hands the SparseCores their part (batch entries 56..63 into their own array), runs the
  TensorCore's pipelined kernel over batch entries 0..55, writes the SparseCores' piece into the
  result at batch offset 56, and transposes back. Each stage's array is a pure function of the
  three arguments; the last is `Spec.G`.
-/
import proofs.«207362_g47132971107233_retrytranche2_1164_24_alg».proof.Proof.SetupKI
import proofs.«207362_g47132971107233_retrytranche2_1164_24_alg».proof.Proof.PayKI
import proofs.«207362_g47132971107233_retrytranche2_1164_24_alg».proof.Proof.RegionKI
import proofs.«207362_g47132971107233_retrytranche2_1164_24_alg».proof.Proof.SplitKI
import proofs.«207362_g47132971107233_retrytranche2_1164_24_alg».proof.Proof.HostTail
import proofs.«207362_g47132971107233_retrytranche2_1164_24_alg».proof.Proof.TileOblKI

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations -/

abbrev opT0 : HloOp τ sig (Elt F) :=
  StableHlo.unary main_arg0 main_v0 ((transpose S196x64x768 [1, 0, 2] · transposes_S64x196x768_S196x64x768_1_0_2) : (⟨S64x196x768, .f32⟩ : BufTy).Contents (Elt F) → (⟨S196x64x768, .f32⟩ : BufTy).Contents (Elt F))
abbrev opC0 : HloOp τ sig (Elt F) := StableHlo.nullary main_c (constantI S_ 32 0#32)
abbrev opC1 : HloOp τ sig (Elt F) := StableHlo.nullary main_c_0 (constantI S_ 32 56#32)
abbrev opC2 : HloOp τ sig (Elt F) := StableHlo.nullary main_c_1 (constantI S_ 32 0#32)
abbrev opDus : HloOp τ sig (Elt F) :=
  StableHlo.binaryIndexed main_v2 main_v1 ![main_c, main_c_0, main_c_1] ⟨S_, .i32⟩ main_v3 ((fun x u i => Host.dynamicUpdateSlice x u (fun k => (i k (Shape.Idx.first h_S_)).toInt) updateFits_S197x64x768_S197x8x768) : (⟨S197x64x768, .f32⟩ : BufTy).Contents (Elt F) → (⟨S197x8x768, .f32⟩ : BufTy).Contents (Elt F) → (Fin 3 → (⟨S_, .i32⟩ : BufTy).Contents (Elt F)) → (⟨S197x64x768, .f32⟩ : BufTy).Contents (Elt F))
abbrev opT1 : HloOp τ sig (Elt F) :=
  StableHlo.unary main_v3 main_v4 ((transpose S64x197x768 [1, 0, 2] · transposes_S197x64x768_S64x197x768_1_0_2) : (⟨S197x64x768, .f32⟩ : BufTy).Contents (Elt F) → (⟨S64x197x768, .f32⟩ : BufTy).Contents (Elt F))
abbrev tailOps : List (HloOp τ sig (Elt F)) := [opC0, opC1, opC2, opDus, opT1]

theorem main_eq (d : Dev nD) :
    main (F := F) d = (hlo rfl opT0 (fun _ => .ret PUnit.unit) >>= fun _ => (K (F := F)).run d 0 >>= fun _ =>
      Prog.lift (.customCall (SparseCore.inner (Pipeline.entry 0)) ()) >>= fun _ => (StableHlo.seq tailOps >>= fun _ => .ret PUnit.unit)) := rfl

/-! ## The arrays' contents, stage by stage -/

abbrev ucRefs : Finset (DevRef τ sig) := (StableHlo.tcRefs τ sig).filter fun b => ¬ b.isScoped

omit [FloatOps F] in
theorem unscopedBufs_held (d : Dev nD) (W : Valuation τ sig (Elt F)) :
    (unscopedBufs d (fun b => W b) : sProp 𝕄) = held (T d) ucRefs W := by
  unfold unscopedBufs held ucRefs StableHlo.tcRefs
  rw [Finset.filter_map, bigSep_map]
  rfl

abbrev f' : DevRef τ sig := Proc.devRef .tc (main_arg0 : Ref sig .tc)
abbrev q' : DevRef τ sig := Proc.devRef .tc (main_arg1 : Ref sig .tc)
abbrev p' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev t' : DevRef τ sig := Proc.devRef .tc (main_v2 : Ref sig .tc)
abbrev r' : DevRef τ sig := Proc.devRef .tc (main_v4 : Ref sig .tc)

/-- At launch; after the transpose; after the SparseCore call; after the TensorCore kernel; at the end. -/
def V0 (d : Dev nD) : Valuation τ sig (Elt F) := fun b => m (d, b)
def V1 (d : Dev nD) : Valuation τ sig (Elt F) := (opT0 (F := F)).result (V0 m d)
def V2 (d : Dev nD) : Valuation τ sig (Elt F) := Function.update (V1 m d) o' (scBuf m d)
abbrev tLoc (d : Dev nD) : Loc nD τ sig := (SparseCore.T d).loc main_v2
abbrev rLoc (d : Dev nD) : Loc nD τ sig := (SparseCore.T d).loc main_v4
def tcBuf (d : Dev nD) : Buf (Elt F) (tLoc d) :=
  Cert.Spec.tcOut (Cert.Spec.addF F) (xT m d) (m (qLoc d)) (m (pLoc d)) (m (tLoc d))
def V3 (d : Dev nD) : Valuation τ sig (Elt F) := Function.update (V2 m d) t' (tcBuf m d)
def V4 (d : Dev nD) : Valuation τ sig (Elt F) := StableHlo.after tailOps (V3 m d)

theorem V1_x (d : Dev nD) : V1 m d x' = xT m d := StableHlo.unary_result' _ _ _ _
theorem V1_ne (d : Dev nD) {r : Ref sig .tc} (h : r ≠ main_v0) : V1 m d (Proc.devRef .tc r) = V0 m d (Proc.devRef .tc r) :=
  StableHlo.unary_result_ne' _ _ _ _ h

/-! ## @main -/

/-- An operation's buffers are arrays of the TensorCore that no region scopes. -/
theorem sub_uc (op : HloOp τ sig (Elt F)) (h : op.bufs ⊆ StableHlo.tcRefs τ sig) : op.bufs ⊆ ucRefs :=
  fun b hb => Finset.mem_filter.mpr ⟨h hb, by rw [op.no_scoped b hb]; exact Bool.false_ne_true⟩

theorem htail_sub : ∀ op ∈ (tailOps (F := F)), op.bufs ⊆ ucRefs := by
  intro op hop
  simp only [List.mem_cons, List.not_mem_nil, or_false] at hop
  rcases hop with rfl | rfl | rfl | rfl | rfl
  · exact sub_uc _ (StableHlo.nullary_bufs_sub ..)
  · exact sub_uc _ (StableHlo.nullary_bufs_sub ..)
  · exact sub_uc _ (StableHlo.nullary_bufs_sub ..)
  · exact sub_uc _ (StableHlo.binaryIndexed_bufs_sub ..)
  · exact sub_uc _ (StableHlo.unary_bufs_sub ..)

theorem htail_fresh : ∀ op ∈ (tailOps (F := F)), op.fresh = ∅ := by
  intro op hop
  simp only [List.mem_cons, List.not_mem_nil, or_false] at hop
  rcases hop with rfl | rfl | rfl | rfl | rfl <;> rfl

theorem hT0 : (opT0 (F := F)).bufs ⊆ ucRefs := show ({f', x'} : Finset (DevRef τ sig)) ⊆ ucRefs by decide

abbrev four : Finset (DevRef τ sig) := {x', q', p', o'}
theorem hfour : four ⊆ ucRefs := by decide

omit [FloatOps F] in
theorem held_four (d : Dev nD) (W : Valuation τ sig (Elt F)) :
    (held (T d) four W : sProp 𝕄) = iprop((xLoc d ↦{fullShare} W x') ∗ (qLoc d ↦{fullShare} W q') ∗ (pLoc d ↦{fullShare} W p') ∗ (oLoc d ↦{fullShare} W o')) := by
  unfold held four
  rw [SparseCore.bigSep_insert' (by decide), SparseCore.bigSep_insert' (by decide), SparseCore.bigSep_insert' (by decide), bigSep_singleton]

/-- After the transpose: the four arrays of the SparseCore call, and the rest. -/
theorem held_V1 (d : Dev nD) :
    (held (SparseCore.T d) ucRefs ((opT0 (F := F)).result (V0 m d)) : sProp 𝕄)
      = iprop(((xLoc d ↦{fullShare} xT m d) ∗ (qLoc d ↦{fullShare} m (qLoc d)) ∗ (pLoc d ↦{fullShare} m (pLoc d)) ∗ (oLoc d ↦{fullShare} m (oLoc d))) ∗ held (SparseCore.T d) (ucRefs \ four) (V1 m d)) := by
  rw [show (held (SparseCore.T d) ucRefs ((opT0 (F := F)).result (V0 m d)) : sProp 𝕄) = held (T d) ucRefs (V1 m d) from rfl,
    held_sub_split (SparseCore.T d) hfour (V1 m d), held_four,
    V1_x, V1_ne m d (r := main_arg1) (by decide), V1_ne m d (r := main_arg2) (by decide), V1_ne m d (r := main_v1) (by decide)]
  rfl

theorem V2_o (d : Dev nD) : V2 m d o' = scBuf m d := Function.update_self _ _ _
theorem V2_ne (d : Dev nD) {b : DevRef τ sig} (h : b ≠ o') : V2 m d b = V1 m d b := Function.update_of_ne h _ _
theorem V3_t (d : Dev nD) : V3 m d t' = tcBuf m d := Function.update_self _ _ _
theorem V3_ne (d : Dev nD) {b : DevRef τ sig} (h : b ≠ t') : V3 m d b = V2 m d b := Function.update_of_ne h _ _

/-- After the SparseCore call: the four arrays back, the call's result at `scBuf`. -/
theorem held_V2 (d : Dev nD) :
    (held (SparseCore.T d) ucRefs (V2 m d) : sProp 𝕄)
      = iprop(((xLoc d ↦{fullShare} xT m d) ∗ (qLoc d ↦{fullShare} m (qLoc d)) ∗ (pLoc d ↦{fullShare} m (pLoc d)) ∗ (oLoc d ↦{fullShare} scBuf m d)) ∗ held (SparseCore.T d) (ucRefs \ four) (V1 m d)) := by
  rw [held_sub_split (SparseCore.T d) hfour (V2 m d), held_four,
    V2_o, V2_ne m d (b := x') (by decide), V2_ne m d (b := q') (by decide), V2_ne m d (b := p') (by decide),
    V1_x, V1_ne m d (r := main_arg1) (by decide), V1_ne m d (r := main_arg2) (by decide),
    held_congr (SparseCore.T d) (S := ucRefs \ four) (V := V2 m d) (V' := V1 m d) fun b hb => V2_ne m d fun e => by
      subst e; exact absurd hb (by decide)]
  rfl

/-- The arrays as the TensorCore kernel's region finds them and leaves them. -/
abbrev Vreg (c : Dev nD) (b : Ref sig .tc) : Buf (Elt F) ((c : Thread nD τ).loc b) := V2 m c b
abbrev Vpreg (c : Dev nD) (b : Ref sig .tc) : Buf (Elt F) ((c : Thread nD τ).loc b) := V3 m c b

theorem hVp_out (c : Dev nD) :
    Vpreg m c main_v2 = (Region.dat (Name := ℕ) (U := UU) (Lvl := ℕ) (Vreg m) (Set.univ : Set (SemLoc sig × HIx 1)) c).arrAt 3 cfg1.N := by
  rw [Region.arrAt_out]
  show V3 m c t' = Cert.Spec.tcOut (Cert.Spec.addF F) (V2 m c x') (V2 m c q') (V2 m c p') (V2 m c t')
  rw [V3_t, V2_ne m c (b := x') (by decide), V2_ne m c (b := q') (by decide), V2_ne m c (b := p') (by decide), V2_ne m c (b := t') (by decide),
    V1_x, V1_ne m c (r := main_arg1) (by decide), V1_ne m c (r := main_arg2) (by decide), V1_ne m c (r := main_v2) (by decide)]
  rfl

theorem hVp_ne (c : Dev nD) (b : Ref sig .tc) (h : b ≠ main_v2) : Vpreg m c b = Vreg m c b :=
  V3_ne m c (StableHlo.devRef_ne_of_ne h)

/-- The TensorCore kernel's region over the thread state "every array at its contents, the core's `owes`". -/
def theReg : Pipeline.RegionSeg (pcfgs (F := F)) adm (Region.pdats (Name := ℕ) (U := UU) (Lvl := ℕ) (Vreg m) (Set.univ : Set (SemLoc sig × HIx 1)) adm)
    (none : HIx 1) defs₀ Variants.none (K (F := F)).L (K (F := F)).lev 0 :=
  Region.reg (Vreg m) Set.univ adm none (K (F := F)).L (K (F := F)).lev (fun _ => iprop(emp)) (Vpreg m) (hVp_out m) (hVp_ne m)

theorem theReg_pre (d : Dev nD) : (theReg m).pre d
    = iprop(unscopedBufs d (Vreg m d) ∗ iprop(emp) ∗ Pipeline.owesWithin d (0 : CellTallies nD τ sig (HIx 1)) Set.univ) := rfl
theorem theReg_post (d : Dev nD) : (theReg m).post d
    = iprop(unscopedBufs d (Vpreg m d) ∗ iprop(emp) ∗ Pipeline.owesWithin d (0 : CellTallies nD τ sig (HIx 1)) (Set.univ ∪ cfg1.waitPairs (none : HIx 1))) := rfl

/-- What @main leaves the claim: every array of the TensorCore at its final contents. -/
abbrev FIN (d : Dev nD) : sProp 𝕄 := held (T d) ucRefs (V4 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) ucRefs (V0 m d) from unscopedBufs_held d (V0 m d), main_eq]
  rw [wp_bind, wp_bind, wp_bind]
  iintro ⟨#Hctx, Hst, ⟨Hb, Hheld, Hsems, Hprng⟩, HG⟩
  -- the transpose
  iapply (wp_hlo_within 𝒱 (SparseCore.T d) none Set.univ (op := opT0) (S := ucRefs) hT0 (V := V0 m d)) $$ [Hb Hheld]
  · isplitl [Hb] <;> iassumption
  iintro ⟨Hb, Hheld⟩
  rw [wp_ret]; imodintro
  ihave Hh := (Entails.of_eq (held_V1 m d)) $$ Hheld
  icases Hh with ⟨⟨Hx, Hq, Hp, Ho⟩, Hrest⟩
  ihave Hcall := (call_split m d) $$ [Hx Hq Hp Ho]
  · isplitl [Hx Hq Hp]
    · isplitl [Hx]; · iexact Hx
      isplitl [Hq]; · iexact Hq
      iexact Hp
    · iexact Ho
  icases Hcall with ⟨Hsts, Hrest4⟩
  iapply ((K (F := F)).wp_run (D (F := F)) 𝒱 (EH := EH) (P := P m) κ d 0) $$ [Hst Hsts Hb Hrest Hrest4 Hsems Hprng HG]
  isplitr; · iexact Hctx
  isplitl [Hst]; · iexact Hst
  isplitl [Hsts]; · iexact Hsts
  iintro ⟨Hst, Hdn⟩
  ihave Hj := (call_join m d) $$ [Hdn Hrest4]
  · isplitl [Hdn] <;> iassumption
  icases Hj with ⟨⟨Hx, Hq, Hp⟩, Ho⟩
  ihave Hheld := (Entails.of_eq (held_V2 m d).symm) $$ [Hx Hq Hp Ho Hrest]
  · isplitl [Hx Hq Hp Ho]
    · isplitl [Hx]; · iexact Hx
      isplitl [Hq]; · iexact Hq
      isplitl [Hp]; · iexact Hp
      iexact Ho
    · iexact Hrest
  ihave Hub := (Entails.of_eq (unscopedBufs_held d (V2 m d)).symm) $$ Hheld
  unfold SparseCore.Cfg.tcSt
  icases Hst with ⟨⟨%W, %hW, HO⟩, Hat, Hrd, Hrs, Htoks⟩
  ihave HG' := (Entails.of_eq (G_eq (F := F) d)) $$ HG
  icases HG' with ⟨Hcg, Htk⟩
  ihave Hlev := (SparseCore.Cfg.ctx_levAts κ) $$ Hctx
  iapply ((K (F := F)).wp_liftProg (D (F := F)) 𝒱 (SparseCore.T d) Set.univ none (Prog.lift (.customCall (Pipeline.entry 0) ())) _)
  ihave HO := (Entails.of_eq (show (owes (SparseCore.T d) ((K (F := F)).Otc d ((0 : Fin 1).val + 1)) W : sProp 𝕄) = owes (SparseCore.T d) 0 W from by
    rw [(K (F := F)).Otc_end d (n := (0 : Fin 1).val + 1) (by decide)])) $$ HO
  iapply (Pipeline.RegionSeg.wp (pcfgs (F := F)) adm (Region.pdats (Name := ℕ) (U := UU) (Lvl := ℕ) (Vreg m) Set.univ adm) (none : HIx 1)
    pcs_inj EP defs₀ 𝒱₀ (K (F := F)).L (K (F := F)).lev (theReg m) d none (fun _ h => nomatch h) (fun x => .ret x) _)
  isplitr [Hb Hub HO Hcg Htk]
  · iintro ⟨Hb, Hpost⟩
    ihave Hp := (Entails.of_eq (theReg_post m d)) $$ Hpost
    icases Hp with ⟨Hub, -, ⟨%W', -, HO⟩⟩
    rw [wp_ret]; imodintro
    ihave Hheld := (Entails.of_eq (unscopedBufs_held d (V3 m d))) $$ Hub
    iapply (wp_seq 𝒱 none Set.univ d ucRefs (fun _ => .ret PUnit.unit) tailOps htail_sub htail_fresh (V3 m d)) $$ [Hb Hheld]
    · isplitl [Hb] <;> iassumption
    iintro ⟨Hb, Hheld⟩
    rw [wp_ret]; imodintro
    isplitr [Hheld]
    · isplitl [HO]
      · iexists W'; isplitr
        · ipureintro; intro p _
          show (K (F := F)).lev (SparseCore.T d, p.1) p.2 ≤ 8 * 1
          generalize p.2 = ι
          cases ι with
          | none => exact Nat.zero_le _
          | some q => exact ((K (F := F)).lev_some_le _ q).trans (by have := q.isLt; omega)
        · iapply (Entails.of_eq (show (owes (SparseCore.T d) ((K (F := F)).Otc d 1) W' : sProp 𝕄) = owes (SparseCore.T d) 0 W' from by
            rw [(K (F := F)).Otc_end d (n := 1) le_rfl]).symm)
          iexact HO
      isplitl [Hat]; · iexact Hat
      isplitl [Hrd]; · iexact Hrd
      isplitl [Hrs]; · iexact Hrs
      iexact Htoks
    · iexact Hheld
  isplitl [Hb]; · iexact Hb
  isplitl [Hub HO]
  · iapply (Entails.of_eq (theReg_pre m d).symm)
    isplitl [Hub]; · iexact Hub
    isplitr; · iempintro
    iexists W; isplitr
    · ipureintro; exact Set.subset_univ _
    · iexact HO
  isplitr; · iexact Hlev
  isplitl [Hcg]; · iexact Hcg
  iexact Htk

/-! ## What the final memory holds -/

theorem V4_r (d : Dev nD) : V4 m d r' = Cert.Spec.G (Cert.Spec.addF F) (m (fLoc d)) (m (qLoc d)) (m (pLoc d)) := by
  unfold V4
  after_results
  rw [V3_t, V3_ne m d (b := o') (by decide), V2_o]
  unfold tcBuf scBuf xT
  refine Cert.HostTail.tail_is_G (Cert.Spec.addF F) (m (fLoc d)) (m (qLoc d)) (m (pLoc d)) (m (tLoc d)) _ _ _ _ ?_ ?_ ?_
  · rfl
  · rfl
  · rfl

theorem V4_keep (d : Dev nD) {r : Ref sig .tc} (h0 : r ≠ main_v0) (h1 : r ≠ main_v1) (h2 : r ≠ main_v2) (h3 : r ≠ main_v3) (h4 : r ≠ main_v4)
    (hc : r ≠ main_c) (hc0 : r ≠ main_c_0) (hc1 : r ≠ main_c_1) : V4 m d (Proc.devRef .tc r) = m ((SparseCore.T d).loc r) := by
  unfold V4
  rw [StableHlo.after_of_forall_not_mem]
  · rw [V3_ne m d (StableHlo.devRef_ne_of_ne h2), V2_ne m d (StableHlo.devRef_ne_of_ne h1), V1_ne m d h0]; rfl
  · intro op hop
    simp only [List.mem_cons, List.not_mem_nil, or_false] at hop
    rcases hop with rfl | rfl | rfl | rfl | rfl
    · simpa [StableHlo.nullary_writes] using StableHlo.devRef_ne_of_ne hc
    · simpa [StableHlo.nullary_writes] using StableHlo.devRef_ne_of_ne hc0
    · simpa [StableHlo.nullary_writes] using StableHlo.devRef_ne_of_ne hc1
    · exact fun hm => StableHlo.devRef_ne_of_ne h3 (Finset.mem_singleton.mp hm)
    · simpa [StableHlo.unary_writes] using StableHlo.devRef_ne_of_ne h4

abbrev fin4 : Finset (DevRef τ sig) := {r', f', q', p'}
theorem hfin4 : fin4 ⊆ ucRefs := by decide

omit [FloatOps F] in
theorem held_fin4 (d : Dev nD) (W : Valuation τ sig (Elt F)) :
    (held (T d) fin4 W : sProp 𝕄) = iprop((rLoc d ↦{fullShare} W r') ∗ (fLoc d ↦{fullShare} W f') ∗ (qLoc d ↦{fullShare} W q') ∗ (pLoc d ↦{fullShare} W p')) := by
  unfold held fin4
  rw [SparseCore.bigSep_insert' (by decide), SparseCore.bigSep_insert' (by decide), SparseCore.bigSep_insert' (by decide), bigSep_singleton]

/-- The result and the three arguments, as @main leaves them. -/
theorem FIN_four (d : Dev nD) :
    FIN m d ⊢ iprop((rLoc d ↦{fullShare} Cert.Spec.G (Cert.Spec.addF F) (m (fLoc d)) (m (qLoc d)) (m (pLoc d)))
      ∗ (fLoc d ↦{fullShare} m (fLoc d)) ∗ (qLoc d ↦{fullShare} m (qLoc d)) ∗ (pLoc d ↦{fullShare} m (pLoc d))) := by
  unfold FIN
  rw [held_sub_split (SparseCore.T d) hfin4 (V4 m d), held_fin4, V4_r,
    V4_keep m d (r := main_arg0) (by decide) (by decide) (by decide) (by decide) (by decide) (by decide) (by decide) (by decide),
    V4_keep m d (r := main_arg1) (by decide) (by decide) (by decide) (by decide) (by decide) (by decide) (by decide) (by decide),
    V4_keep m d (r := main_arg2) (by decide) (by decide) (by decide) (by decide) (by decide) (by decide) (by decide) (by decide)]
  exact sep_elim_left

/-- What the claim reads off device `d`'s final memory: the result at `Spec.G` of the arguments, the arguments unchanged. -/
def fq (d : Dev nD) (s' : Phys nD τ sig (Elt F)) : Prop :=
  s'.mem.mem (rLoc d) = Cert.Spec.G (Cert.Spec.addF F) (m (fLoc d)) (m (qLoc d)) (m (pLoc d))
    ∧ s'.mem.mem (fLoc d) = m (fLoc d) ∧ s'.mem.mem (qLoc d) = m (qLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨Hfin, HSI⟩
  ihave H4 := (FIN_four m d) $$ Hfin
  icases H4 with ⟨Hr, Hf, Hq, Hp⟩
  ihave H := (persistent_entails_right (SI_pointsTo_agree (st := s') (ℓ := rLoc d) (I := Finset.univ) (q := fullShare)
      (f := Cert.Spec.G (Cert.Spec.addF F) (m (fLoc d)) (m (qLoc d)) (m (pLoc d))))) $$ [HSI Hr]
  · isplitl [HSI] <;> iassumption
  icases H with ⟨%h1, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h2, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h3, HSI, -⟩
  ihave H := (SI_pointsTo_agree (st := s') (ℓ := pLoc d) (I := Finset.univ) (q := fullShare) (f := m (pLoc d))) $$ [HSI Hp]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (rLoc c) = Cert.Spec.G (Cert.Spec.addF F) (m (fLoc c)) (m (qLoc c)) (m (pLoc c))
    ∧ r.2.mem (fLoc c) = m (fLoc c) ∧ r.2.mem (qLoc c) = m (qLoc c) ∧ r.2.mem (pLoc c) = m (pLoc c)

/-- Every weakly fair execution of the device's threads terminates, nothing faulting, with the result at `Spec.G` of the
    arguments and the arguments unchanged — given the tile's body in each of its cases. -/
theorem run_main [∀ e, Nonempty (Elt F e)] (hbody : ∀ (d : Dev nD) (L : grid0.Coords), BranchSpec m d L) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (G (F := F)) (FIN m) (u₀ (F := F)) (hu₀ m) (hmain m ρ) (fq m) (hfin m) (QC m) (fun _ h => h)
    (lv := (K (F := F)).lev)

end Cert.KI

end
-- ==== Proof.SetupKB.lean ====
/-
  The kernel program as the SparseCore launch theorem sees it: the configuration of its one
  SparseCore call, the body table, the variants, and the resource algebra of the proof — the
  handshakes' rounds, the TensorCore pipeline's rounds, and the counters of the local copies.
  Generic in the float instance.
-/
import proofs.«207362_g47132971107233_retrytranche2_1164_24_alg».proof.Proof.Gen.Kernel
import proofs.«207362_g47132971107233_retrytranche2_1164_24_alg».proof.Proof.Gen.Kernel.Skeleton
import proofs.«207362_g47132971107233_retrytranche2_1164_24_alg».proof.Proof.Gen.Kernel.Launch
import proofs.«207362_g47132971107233_retrytranche2_1164_24_alg».proof.Proof.Gen.Kernel.Points
import proofs.«207362_g47132971107233_retrytranche2_1164_24_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL
/-- The pipeline's rounds: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KB

end
-- ==== Proof.PayKB.lean ====
/-
  What the SparseCore call carries between the threads: per SparseCore and per tile, read shares of
  the three input arrays and full ownership of the rows of the call's result that the tile writes.

  Tile `s` of SparseCore `c` is worker `w = 2 s + c`. Workers 0..26 each add seven position rows
  (`7 w + 1 .. 7 w + 7` of the result), worker 27 the last seven (`190 .. 196`), worker 28 the
  quality row (row 0); workers 29..31 do nothing. So worker `w < 28` owns result rows
  `7 w + 1 .. 7 w + 7`, worker 28 owns row 0, and these 29 row blocks tile the result.
  Before the call the result array holds its launch contents; after it, every worker's rows hold
  the ONE function `Spec.scOut` of the (transposed) features, the quality row and the position table.
-/
import proofs.«207362_g47132971107233_retrytranche2_1164_24_alg».proof.Proof.SetupKB
import Idealize.ShloMosaic.Lib.Transfers

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

local notation "𝕄" => MT nD τ sig (HIx 1) (Elt F) ℕ UU ℕ

variable (m : (ℓ : Loc nD τ sig) → Buf (Elt F) ℓ) (ρ : Dev nD → PrngReg)

/-! ## The arrays, as locations of device `d` -/

abbrev fLoc (d : Dev nD) : Loc nD τ sig := (SparseCore.T d).loc main_arg0
abbrev qLoc (d : Dev nD) : Loc nD τ sig := (SparseCore.T d).loc main_arg1
abbrev pLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1

variable [FloatOps F]

/-- The position-major features: what the host transpose leaves in `main_v0`. -/
def xT (d : Dev nD) : Buf (Elt F) (xLoc d) :=
  transpose S196x64x768 [1, 0, 2] (m (fLoc d)) transposes_S64x196x768_S196x64x768_1_0_2

/-- What the SparseCore call leaves in its result `[197, 8, 768]`: batch entries 56..63 of the position-major result. -/
def scBuf (d : Dev nD) : Buf (Elt F) (oLoc d) :=
  Cert.Spec.scOut (Cert.Spec.addF F) (xT m d) (m (qLoc d)) (m (pLoc d))

/-! ## Workers and the rows they own -/

/-- The worker number of tile `s` of SparseCore `c`. -/
def wid (c : Fin 2) (s : Fin 16) : Fin 32 := ⟨2 * s.val + c.val, by have := c.isLt; have := s.isLt; omega⟩

/-- First row, and number of rows, of the result that worker `w` owns. -/
def outOff (w : Fin 32) : Fin 3 → Nat := if w.val < 28 then ![7 * w.val + 1, 0, 0] else ![0, 0, 0]
def outSize (w : Fin 32) : Fin 3 → Nat := if w.val < 28 then ![7, 8, 768] else if w.val = 28 then ![1, 8, 768] else ![0, 8, 768]
theorem outInb : ∀ (w : Fin 32) a, outOff w a + outSize w a ≤ S197x8x768.size a := by decide
abbrev outRect (w : Fin 32) : Rect S197x8x768 := Rect.unit (s := S197x8x768) (outOff w) (outSize w) (outInb w)
/-- The result's elements worker `w` owns. -/
abbrev outSet (w : Fin 32) : Finset S197x8x768.Idx := ((Memref.whole main_v1_scv : Memref sig .scVector .hbm S197x8x768 .f32).view.slice (outRect w)).set

/-! ## The payloads -/

/-- Read shares: the SparseCore's of an array held whole by the TensorCore, and a tile's of its SparseCore's. -/
abbrev shC (c : Fin 2) : PosShare TreeShare := shareTok fullShare 2 c
abbrev shT (c : Fin 2) (s : Fin 16) : PosShare TreeShare := shareTok (shC c) 16 s

/-- The three inputs at share `q`. -/
abbrev insAt (d : Dev nD) (q : PosShare TreeShare) : sProp 𝕄 :=
  iprop((xLoc d ↦{q} xT m d) ∗ (qLoc d ↦{q} m (qLoc d)) ∗ (pLoc d ↦{q} m (pLoc d)))

/-- Worker `w`'s rows of the result, at contents `f`. -/
abbrev outAt (d : Dev nD) (w : Fin 32) (f : Buf (Elt F) (oLoc d)) : sProp 𝕄 := oLoc d ↦[outSet w]{fullShare} f

/-- A SparseCore of the call's grid and a tile of it, as plain numbers. -/
abbrev cOf (c : Fin ((K (F := F)).nCore 0)) : Fin 2 := Fin.cast nCore_zero c
abbrev sOf (i : Fin ((K (F := F)).nSub 0)) : Fin 16 := Fin.cast nSub_zero i

/-- What SparseCore `c` takes at the call and what it brings back. -/
abbrev stOf (d : Dev nD) (c : Fin 2) (f : Buf (Elt F) (oLoc d)) : sProp 𝕄 :=
  iprop(insAt m d (shC c) ∗ bigSep Finset.univ fun s : Fin 16 => outAt d (wid c s) f)
/-- What tile `s` of SparseCore `c` takes at its task and what it brings back. -/
abbrev goOf (d : Dev nD) (c : Fin 2) (s : Fin 16) (f : Buf (Elt F) (oLoc d)) : sProp 𝕄 :=
  iprop(insAt m d (shT c s) ∗ outAt d (wid c s) f)

/-- The one call: each SparseCore takes its share of the inputs and its tiles' rows of the result, each tile its share
    and its rows; they come back with the rows at `scBuf`. -/
def P : (K (F := F)).Pay (nD := nD) (Val := Elt F) (Name := ℕ) (U := UU) where
  st := fun q d c => match q with | 0 => stOf m d (cOf c) (m (oLoc d))
  dn := fun q d c => match q with | 0 => stOf m d (cOf c) (scBuf m d)
  go := fun q d c i => match q with | 0 => goOf m d (cOf c) (sOf i) (m (oLoc d))
  td := fun q d c i => match q with | 0 => goOf m d (cOf c) (sOf i) (scBuf m d)
  x := fun _ _ => iprop(emp)

instance P_storable : (P (F := F) m).IsStorable where
  st q d c := match q with | 0 => (inferInstance : BI.Storable (upEmb : UEmb _ 𝕄) (stOf m d (cOf c) (m (oLoc d))))
  dn q d c := match q with | 0 => (inferInstance : BI.Storable (upEmb : UEmb _ 𝕄) (stOf m d (cOf c) (scBuf m d)))
  go q d c i := match q with | 0 => (inferInstance : BI.Storable (upEmb : UEmb _ 𝕄) (goOf m d (cOf c) (sOf i) (m (oLoc d))))
  td q d c i := match q with | 0 => (inferInstance : BI.Storable (upEmb : UEmb _ 𝕄) (goOf m d (cOf c) (sOf i) (scBuf m d)))

end Cert.KB

end
-- ==== Proof.RegionKB.lean ====
/-
  The TensorCore piece of the position-major result.

  One pipelined kernel over a grid of 7 points. Point `g` works on batch entries `8 g .. 8 g + 7`: it is handed
  block `g` of the transposed features `X : [196, 64, 768]` (all positions, eight batch entries), the quality
  row `qw : [1, 768]` and the position table `pw : [197, 768]` whole, and fills block `g` of the result
  `[197, 64, 768]`:

      block[p + 1, b, h] = X_block[p, b, h] + pw[p + 1, h]          (196 positions)
      block[0, b, h]     = qw[0, h] + pw[0, h]                      (the quality row, the same for every b)

  The seven blocks are pairwise disjoint and fill batch entries 0..55; batch entries 56..63 of the result keep what
  the array held when the kernel was entered. This file states what one point leaves in the result's block as a
  function of the three input blocks, runs the kernel's body against that statement, collects the seven blocks
  into the array, and packages the kernel as a region of the host program.
-/
import proofs.«207362_g47132971107233_retrytranche2_1164_24_alg».proof.Proof.Gen.Kernel.Launch
import proofs.«207362_g47132971107233_retrytranche2_1164_24_alg».proof.Proof.Gen.Kernel.Points
import proofs.«207362_g47132971107233_retrytranche2_1164_24_alg».proof.Proof.Gen.Kernel.Skeleton
import proofs.«207362_g47132971107233_retrytranche2_1164_24_alg».proof.Proof.Spec
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

noncomputable section

namespace Cert.KB.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What one point leaves in the result's block -/

/-- The rectangles the body reads and writes: the feature block whole; rows 1..196 and row 0 of the position table;
    the quality row; rows 1..196 and row 0 of the result's block. -/
abbrev rX : Rect S196x8x768 := Rect.unit (s := S196x8x768) ![0, 0, 0] S196x8x768.size inb_S196x8x768_S196x8x768_0_0_0
abbrev rPwT : Rect S197x768 := Rect.unit (s := S197x768) ![1, 0] S196x768.size inb_S197x768_S196x768_1_0
abbrev rPw0 : Rect S197x768 := Rect.unit (s := S197x768) ![0, 0] S1x768.size inb_S197x768_S1x768_0_0
abbrev rQw : Rect S1x768 := Rect.unit (s := S1x768) ![0, 0] S1x768.size inb_S1x768_S1x768_0_0
abbrev rOutT : Rect S197x8x768 := Rect.unit (s := S197x8x768) ![1, 0, 0] S196x8x768.size inb_S197x8x768_S196x8x768_1_0_0
abbrev rOut0 : Rect S197x8x768 := Rect.unit (s := S197x8x768) ![0, 0, 0] S1x8x768.size inb_S197x8x768_S1x8x768_0_0_0

/-- The result's block after the body, from the three input blocks: its two stores as pieces, the later one first
    (row 0: the quality row plus the table's row 0, broadcast over the eight batch entries; rows 1..196: the feature
    block plus the table's rows 1..196, broadcast likewise). -/
def outBlk (x : Vec F S196x8x768 .f32) (q : Vec F S1x768 .f32) (p : Vec F S197x768 .f32) : Vec F S197x8x768 .f32 :=
  View.canon [⟨rOut0, k1_pay2 (View.ld q rQw) (View.ld p rPw0)⟩, ⟨rOutT, k1_pay1 (View.ld x rX) (View.ld p rPwT)⟩]

/-- The two stores cover the block: position 0 is under the first piece, every other position under the second. -/
theorem cover (p0 : rOut0.shape.Idx → Elt F .f32) (p1 : rOutT.shape.Idx → Elt F .f32) (y : S197x8x768.Idx) :
    ∃ pc ∈ ([⟨rOut0, p0⟩, ⟨rOutT, p1⟩] : List (View.Piece (Elt F) S197x8x768 .f32)), y ∈ pc.1.set := by
  have h0 : (y 0).val < 197 := (y 0).isLt
  have h1 : (y 1).val < 8 := (y 1).isLt
  have h2 : (y 2).val < 768 := (y 2).isLt
  by_cases h : (y 0).val = 0
  · refine ⟨_, List.mem_cons_self, ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 8; omega
    | ⟨2, _⟩ => show 0 ≤ (y 2).val ∧ (y 2).val < 0 + 768; omega
  · refine ⟨_, List.mem_cons_of_mem _ List.mem_cons_self, ?_⟩
    rw [Rect.mem_set_unit]
    intro a
    match a with
    | ⟨0, _⟩ => show 1 ≤ (y 0).val ∧ (y 0).val < 1 + 196; omega
    | ⟨1, _⟩ => show 0 ≤ (y 1).val ∧ (y 1).val < 0 + 8; omega
    | ⟨2, _⟩ => show 0 ≤ (y 2).val ∧ (y 2).val < 0 + 768; omega

/-! ## The body, run -/

set_option maxHeartbeats 1000000 in
/-- The kernel's body on whole staging buffers — the three inputs' at contents `x`, `q`, `p`, the result's at
    anything — runs to its return with the inputs' as they were and the result's at `outBlk x q p`. -/
theorem sound_kernel (c : Dev nD) (E : Set Name) (i : grid1.Coords)
    (arg1 : Memref sig .tc .vmem S196x8x768 .f32) (harg1 : arg1.IsWhole) (arg2 : Memref sig .tc .vmem S1x768 .f32) (harg2 : arg2.IsWhole)
    (arg3 : Memref sig .tc .vmem S197x768 .f32) (harg3 : arg3.IsWhole) (arg4 : Memref sig .tc .vmem S197x8x768 .f32) (harg4 : arg4.IsWhole)
    (x : Vec F S196x8x768 .f32) (q : Vec F S1x768 .f32) (p : Vec F S197x768 .f32) (K : PUnit → sProp 𝕄) :
    iprop(owns (c : Thread nD τ) arg1 fullShare x ∗ owns (c : Thread nD τ) arg2 fullShare q ∗ owns (c : Thread nD τ) arg3 fullShare p
        ∗ (∃ d, owns (c : Thread nD τ) arg4 fullShare d)
        ∗ (iprop(owns (c : Thread nD τ) arg1 fullShare x ∗ owns (c : Thread nD τ) arg2 fullShare q ∗ owns (c : Thread nD τ) arg3 fullShare p
            ∗ owns (c : Thread nD τ) arg4 fullShare (outBlk x q p)) -∗ K ⟨⟩))
      ⊢ wp frame (wpE (defs₀ (F := F)) Variants.none c none) E (cc1__tc_body i arg1 harg1 arg2 harg2 arg3 harg3 arg4 harg4) K := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-! ## The proof data, at an entry valuation -/

variable (V : (c : Dev nD) → (b : Ref sig .tc) → Buf (Elt F) ((c : Thread nD τ).loc b)) (B : Set (SemLoc sig × Ix))

/-- Window `w`'s block at point `t`, read off its array as the kernel finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of one entry of the kernel on core `c`, from the valuation `V`: the four arrays at `V`; after the
    body at point `t` each input's buffer at its block there and the result's at `outBlk` of the three input blocks;
    between points, the scoped buffers the kernel does not stage; nothing owed; full shares; the recorded pairs
    bounded by `B` throughout (the body waits on nothing). -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.scopedRest (Ix := Ix) (Name := Name) (U := U) (Lvl := Lvl) (Val := Elt F) spec1 c
  q _ := fullShare
  owed _ := 0
  recorded _ := B

local notation "𝔇" => dat (Ix := Ix) (Name := Name) (U := U) (Lvl := Lvl)

theorem A_eq (c : Dev nD) (w : Fin cfg1.W) : (dat (Name := Name) (U := U) (Lvl := Lvl) V B c).A w = V c (Pipeline.arrRef spec1 w) := by
  dsimp only [dat]

theorem after_0 (c : Dev nD) (t : Fin cfg1.N) : (dat (Name := Name) (U := U) (Lvl := Lvl) V B c).after 0 t = iblk V c 0 t := by dsimp only [dat]
theorem after_1 (c : Dev nD) (t : Fin cfg1.N) : (dat (Name := Name) (U := U) (Lvl := Lvl) V B c).after 1 t = iblk V c 1 t := by dsimp only [dat]
theorem after_2 (c : Dev nD) (t : Fin cfg1.N) : (dat (Name := Name) (U := U) (Lvl := Lvl) V B c).after 2 t = iblk V c 2 t := by dsimp only [dat]
theorem after_3 (c : Dev nD) (t : Fin cfg1.N) :
    (dat (Name := Name) (U := U) (Lvl := Lvl) V B c).after 3 t = outBlk (iblk V c 0 t) (iblk V c 1 t) (iblk V c 2 t) := by dsimp only [dat]

/-- Each input's current staging buffer holds its block at every point, fetched there or not: an input that is not
    fetched at a point has not moved, and the body leaves it as it found it. -/
theorem before_0 (c : Dev nD) (t : Fin cfg1.N) (d) : (dat (Name := Name) (U := U) (Lvl := Lvl) V B c).before 0 t d = iblk V c 0 t :=
  ((dat V B c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat (Name := Name) (U := U) (Lvl := Lvl) V B c).before 1 t d = iblk V c 1 t :=
  ((dat V B c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat (Name := Name) (U := U) (Lvl := Lvl) V B c).before 2 t d = iblk V c 2 t :=
  ((dat V B c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (ι : Ix) (c : Dev nD) (t : Fin cfg1.N) : sProp 𝕄 :=
  iprop((𝔇 V B c).Φ t.castSucc ∗ (𝔇 V B c).owesAt ι t.castSucc
    ∗ (∃ d, owns (c : Thread nD τ) (st1_0 t) fullShare ((𝔇 V B c).before 0 t d))
    ∗ (∃ d, owns (c : Thread nD τ) (st1_1 t) fullShare ((𝔇 V B c).before 1 t d))
    ∗ (∃ d, owns (c : Thread nD τ) (st1_2 t) fullShare ((𝔇 V B c).before 2 t d))
    ∗ (∃ d, owns (c : Thread nD τ) (st1_3 t) fullShare ((𝔇 V B c).before 3 t d)))

/-- and what it returns. -/
def bodyPost (ι : Ix) (c : Dev nD) (t : Fin cfg1.N) : sProp 𝕄 :=
  iprop((𝔇 V B c).Φ t.succ ∗ (𝔇 V B c).owesAt ι t.succ
    ∗ owns (c : Thread nD τ) (st1_0 t) fullShare ((𝔇 V B c).after 0 t)
    ∗ owns (c : Thread nD τ) (st1_1 t) fullShare ((𝔇 V B c).after 1 t)
    ∗ owns (c : Thread nD τ) (st1_2 t) fullShare ((𝔇 V B c).after 2 t)
    ∗ owns (c : Thread nD τ) (st1_3 t) fullShare ((𝔇 V B c).after 3 t))

/-- The body at any point: the inputs' buffers hold their blocks, so `sound_kernel` applies; the invariant and the
    core's `owes` pass through unread. -/
theorem sound_body (ι : Ix) (c : Dev nD) (t : Fin cfg1.N) :
    bodyPre (Name := Name) (U := U) (Lvl := Lvl) V B ι c t ⊢ wp frame (wpE (defs₀ (F := F)) Variants.none c none) Set.univ (bodyAt1 t) (fun _ => bodyPost (Name := Name) (U := U) (Lvl := Lvl) V B ι c t) := by
  unfold bodyPre bodyPost bodyAt1
  simp only [before_0, before_1, before_2]
  rw [show (𝔇 V B c).Φ t.succ = (𝔇 V B c).Φ t.castSucc from rfl,
    show (𝔇 V B c).owesAt ι t.succ = (𝔇 V B c).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (ι : Ix) (c : Dev nD) :
    BodyObligation (dat (Name := Name) (U := U) (Lvl := Lvl) V B c) (defs₀ (F := F)) Variants.none ι Set.univ := fun t => by
  rw [bigSep_W1, bigSep_W1]
  exact sound_body V B ι c t

/-! ## The arrays after the kernel -/

/-- The three inputs' arrays are never written. -/
theorem arrAt_in (c : Dev nD) : ∀ w : Fin 4, w ≠ 3 →
    (dat (Name := Name) (U := U) (Lvl := Lvl) V B c).arrAt w cfg1.N = V c (Pipeline.arrRef spec1 w)
  | ⟨0, _⟩, _ => ((dat V B c).arrAt_in 0 rfl _).trans (A_eq V B c 0)
  | ⟨1, _⟩, _ => ((dat V B c).arrAt_in 1 rfl _).trans (A_eq V B c 1)
  | ⟨2, _⟩, _ => ((dat V B c).arrAt_in 2 rfl _).trans (A_eq V B c 2)
  | ⟨3, _⟩, h => absurd rfl h

/-! ## The result's block, element by element -/

open Idealize.ShloMosaic.ValueIdx

/-- One element of what a point leaves in the result's block, from the three input blocks: position 0 is the quality
    row plus the table's row 0; position `j0 ≥ 1` is row `j0 - 1` of the feature block plus the table's row `j0`. -/
def blkFn (x : Vec F S196x8x768 .f32) (q : Vec F S1x768 .f32) (p : Vec F S197x768 .f32) (j0 : Fin 197) (j1 : Fin 8) (j2 : Fin 768) : F .f32 :=
  if hp : j0.val = 0 then FloatOps.addf (q (ix2 (0 : Fin 1) j2)) (p (ix2 (0 : Fin 197) j2))
  else FloatOps.addf (x (ix3 (⟨j0.val - 1, by have := j0.isLt; omega⟩ : Fin 196) j1 j2)) (p (ix2 j0 j2))

/-- The second store's value at an index: the sum of the two loaded rows at the hidden coordinate, whatever the batch
    entry (one row cast to `[1, 1, 768]` and broadcast over the eight entries). -/
theorem pay2_apply (v7 v8 : Vec F S1x768 .f32) (b : Fin 8) (h : Fin 768) :
    k1_pay2 v7 v8 (ix3 (0 : Fin 1) b h) = FloatOps.addf (v7 (ix2 (0 : Fin 1) h)) (v8 (ix2 (0 : Fin 1) h)) := by
  unfold k1_pay2
  refine (broadcastTo_apply _ _ (ix3 (0 : Fin 1) b h) (ix3 (0 : Fin 1) (0 : Fin 1) h) (fun a => ?_)).trans ?_
  · match a with
    | ⟨0, _⟩ => rfl
    | ⟨1, _⟩ => rfl
    | ⟨2, _⟩ => rfl
  refine (congrFun (shapeCast_self _ _) _).trans ?_
  refine (shapeCast_apply _ _ (ix3 (0 : Fin 1) (0 : Fin 1) h) (ix2 (0 : Fin 1) h) ?_).trans rfl
  rw [Shape.rowMajor_val_two, Shape.rowMajor_val_three]
  show 0 * 768 + h.val = (0 * 1 + 0) * 768 + h.val
  omega

/-- The first store's value at an index: the feature block's element plus the table row's element at the same position
    and hidden coordinate (the rows cast to `[196, 1, 768]` and broadcast over the eight entries). -/
theorem pay1_apply (v0 : Vec F S196x8x768 .f32) (v2 : Vec F S196x768 .f32) (r : Fin 196) (b : Fin 8) (h : Fin 768) :
    k1_pay1 v0 v2 (ix3 r b h) = FloatOps.addf (v0 (ix3 r b h)) (v2 (ix2 r h)) := by
  unfold k1_pay1
  refine congrArg₂ FloatOps.addf (congrFun (shapeCast_self _ _) _) ?_
  refine (broadcastTo_apply _ _ (ix3 r b h) (ix3 r (0 : Fin 1) h) (fun a => ?_)).trans ?_
  · match a with
    | ⟨0, _⟩ => rfl
    | ⟨1, _⟩ => rfl
    | ⟨2, _⟩ => rfl
  refine shapeCast_apply _ _ (ix3 r (0 : Fin 1) h) (ix2 r h) ?_
  rw [Shape.rowMajor_val_two, Shape.rowMajor_val_three]
  show r.val * 768 + h.val = (r.val * 1 + 0) * 768 + h.val
  omega

/-- Where the body's rectangles put an index: the whole-block and row-0 rectangles leave it, the rows-1..196
    rectangles shift the position by one. -/
theorem idx_rX (r : Fin 196) (b : Fin 8) (h : Fin 768) : rX.idx (ix3 r b h) = ix3 r b h := by
  funext a; apply Fin.ext
  match a with
  | ⟨0, _⟩ => show 0 + 1 * r.val = r.val; omega
  | ⟨1, _⟩ => show 0 + 1 * b.val = b.val; omega
  | ⟨2, _⟩ => show 0 + 1 * h.val = h.val; omega
theorem idx_rQw (h : Fin 768) : rQw.idx (ix2 (0 : Fin 1) h) = ix2 (0 : Fin 1) h := by
  funext a; apply Fin.ext
  match a with
  | ⟨0, _⟩ => show 0 + 1 * 0 = 0; rfl
  | ⟨1, _⟩ => show 0 + 1 * h.val = h.val; omega
theorem idx_rPw0 (h : Fin 768) : rPw0.idx (ix2 (0 : Fin 1) h) = ix2 (0 : Fin 197) h := by
  funext a; apply Fin.ext
  match a with
  | ⟨0, _⟩ => show 0 + 1 * 0 = 0; rfl
  | ⟨1, _⟩ => show 0 + 1 * h.val = h.val; omega
theorem idx_rPwT (r : Fin 196) (h : Fin 768) : rPwT.idx (ix2 r h) = ix2 (⟨r.val + 1, by have := r.isLt; omega⟩ : Fin 197) h := by
  funext a; apply Fin.ext
  match a with
  | ⟨0, _⟩ => show 1 + 1 * r.val = r.val + 1; omega
  | ⟨1, _⟩ => show 0 + 1 * h.val = h.val; omega
theorem emb_rOut0 (b : Fin 8) (h : Fin 768) : rOut0.emb (ix3 (0 : Fin 1) b h) = ix3 (0 : Fin 197) b h := by
  funext a; apply Fin.ext
  match a with
  | ⟨0, _⟩ => show 0 + 1 * 0 = 0; rfl
  | ⟨1, _⟩ => show 0 + 1 * b.val = b.val; omega
  | ⟨2, _⟩ => show 0 + 1 * h.val = h.val; omega
theorem emb_rOutT (r : Fin 196) (b : Fin 8) (h : Fin 768) :
    rOutT.emb (ix3 r b h) = ix3 (⟨r.val + 1, by have := r.isLt; omega⟩ : Fin 197) b h := by
  funext a; apply Fin.ext
  match a with
  | ⟨0, _⟩ => show 1 + 1 * r.val = r.val + 1; omega
  | ⟨1, _⟩ => show 0 + 1 * b.val = b.val; omega
  | ⟨2, _⟩ => show 0 + 1 * h.val = h.val; omega

/-- What the body leaves in the result's block, read at an index: each of the two stores' values is `blkFn` at the
    index its rectangle gives, and the two rectangles cover the block. -/
theorem outBlk_apply (x : Vec F S196x8x768 .f32) (q : Vec F S1x768 .f32) (p : Vec F S197x768 .f32) (j : S197x8x768.Idx) :
    outBlk x q p j = blkFn x q p (j 0) (j 1) (j 2) := by
  unfold outBlk
  refine View.canon_apply_of_pieces (fun j : S197x8x768.Idx => blkFn x q p (j 0) (j 1) (j 2)) _ ?_ j (cover _ _ j)
  intro pc hpc
  rcases List.mem_cons.mp hpc with rfl | hpc
  · intro y
    obtain ⟨b, h, rfl⟩ : ∃ (b : Fin 8) (h : Fin 768), y = ix3 (0 : Fin 1) b h :=
      ⟨y 1, y 2, (eq_ix3 y).trans (congrArg (fun a : Fin 1 => ix3 a (y 1) (y 2)) (Subsingleton.elim _ _))⟩
    refine (pay2_apply _ _ b h).trans ?_
    show _ = blkFn x q p (rOut0.emb (ix3 (0 : Fin 1) b h) 0) (rOut0.emb (ix3 (0 : Fin 1) b h) 1) (rOut0.emb (ix3 (0 : Fin 1) b h) 2)
    rw [emb_rOut0]
    show _ = blkFn x q p (0 : Fin 197) b h
    unfold blkFn
    rw [dif_pos (show ((0 : Fin 197) : Nat) = 0 from rfl)]
    show FloatOps.addf (q (rQw.idx (ix2 (0 : Fin 1) h))) (p (rPw0.idx (ix2 (0 : Fin 1) h))) = _
    rw [idx_rQw, idx_rPw0]
  · rcases List.mem_cons.mp hpc with rfl | hpc
    · intro y
      obtain ⟨r, b, h, rfl⟩ : ∃ (r : Fin 196) (b : Fin 8) (h : Fin 768), y = ix3 r b h := ⟨y 0, y 1, y 2, eq_ix3 y⟩
      refine (pay1_apply _ _ r b h).trans ?_
      show _ = blkFn x q p (rOutT.emb (ix3 r b h) 0) (rOutT.emb (ix3 r b h) 1) (rOutT.emb (ix3 r b h) 2)
      rw [emb_rOutT]
      show _ = blkFn x q p (⟨r.val + 1, by have := r.isLt; omega⟩ : Fin 197) b h
      unfold blkFn
      rw [dif_neg (Nat.succ_ne_zero _)]
      show FloatOps.addf (x (rX.idx (ix3 r b h))) (p (rPwT.idx (ix2 r h))) = _
      rw [idx_rX, idx_rPwT]
      exact congrArg (fun a : Fin 196 => FloatOps.addf (x (ix3 a b h)) (p (ix2 (⟨r.val + 1, by have := r.isLt; omega⟩ : Fin 197) h)))
        (Fin.ext (Nat.add_sub_cancel (n := r.val) (m := 1)).symm)
    · exact absurd hpc List.not_mem_nil

/-! ## From blocks to the array -/

/-- The printed index maps, decided over the seven points: the features' and the result's blocks are at batch block
    `t` and nowhere else displaced; the quality row and the position table are whole. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- The feature block at point `t` read at `(r, b, h)` is the transposed features at batch entry `8 t + b`. -/
theorem iblk0_apply (c : Dev nD) (t : Fin cfg1.N) (r : Fin 196) (b : Fin 8) (h : Fin 768) (b' : Fin 64) (hb : b'.val = t.val * 8 + b.val) :
    iblk V c 0 t (ix3 r b h) = V c main_v0 (ix3 r b' h) := by
  obtain ⟨e0, e1, e2, -⟩ := idx_facts t
  show V c main_v0 (((cfg1.win 0).blk t).view.emb (ix3 r b h)) = V c main_v0 (ix3 r b' h)
  refine congrArg (V c main_v0) ?_
  funext a; apply Fin.ext
  match a with
  | ⟨0, _⟩ => show win1_0.index t (0 : Fin 3) * 196 + 1 * r.val = r.val; omega
  | ⟨1, _⟩ => show win1_0.index t (1 : Fin 3) * 8 + 1 * b.val = b'.val; omega
  | ⟨2, _⟩ => show win1_0.index t (2 : Fin 3) * 768 + 1 * h.val = h.val; omega

/-- The quality row's block is the row. -/
theorem iblk1_apply (c : Dev nD) (t : Fin cfg1.N) (h : Fin 768) :
    iblk V c 1 t (ix2 (0 : Fin 1) h) = V c main_arg1 (ix2 (0 : Fin 1) h) := by
  obtain ⟨-, -, -, e0, e1, -⟩ := idx_facts t
  show V c main_arg1 (((cfg1.win 1).blk t).view.emb (ix2 (0 : Fin 1) h)) = V c main_arg1 (ix2 (0 : Fin 1) h)
  refine congrArg (V c main_arg1) ?_
  funext a; apply Fin.ext
  match a with
  | ⟨0, _⟩ => show win1_1.index t (0 : Fin 2) * 1 + 1 * 0 = 0; omega
  | ⟨1, _⟩ => show win1_1.index t (1 : Fin 2) * 768 + 1 * h.val = h.val; omega

/-- The position table's block is the table. -/
theorem iblk2_apply (c : Dev nD) (t : Fin cfg1.N) (p : Fin 197) (h : Fin 768) :
    iblk V c 2 t (ix2 p h) = V c main_arg2 (ix2 p h) := by
  obtain ⟨-, -, -, -, -, e0, e1, -⟩ := idx_facts t
  show V c main_arg2 (((cfg1.win 2).blk t).view.emb (ix2 p h)) = V c main_arg2 (ix2 p h)
  refine congrArg (V c main_arg2) ?_
  funext a; apply Fin.ext
  match a with
  | ⟨0, _⟩ => show win1_2.index t (0 : Fin 2) * 197 + 1 * p.val = p.val; omega
  | ⟨1, _⟩ => show win1_2.index t (1 : Fin 2) * 768 + 1 * h.val = h.val; omega

/-- An element of the result's block at point `t` sits in the array at batch entry `8 t + b`. -/
theorem emb_blk3 (t : Fin cfg1.N) (p : Fin 197) (b : Fin 8) (h : Fin 768) (b' : Fin 64) (hb : b'.val = t.val * 8 + b.val) :
    ((cfg1.win 3).blk t).view.emb (ix3 p b h) = (ix3 p b' h : S197x64x768.Idx) := by
  obtain ⟨-, -, -, -, -, -, -, e0, e1, e2⟩ := idx_facts t
  funext a; apply Fin.ext
  match a with
  | ⟨0, _⟩ => show win1_3.index t (0 : Fin 3) * 197 + 1 * p.val = p.val; omega
  | ⟨1, _⟩ => show win1_3.index t (1 : Fin 3) * 8 + 1 * b.val = b'.val; omega
  | ⟨2, _⟩ => show win1_3.index t (2 : Fin 3) * 768 + 1 * h.val = h.val; omega

/-- What point `t` writes back is block `t` of the position-major result, as a function of the arrays the kernel
    finds. -/
theorem flushed_eq (c : Dev nD) (t : Fin cfg1.N) :
    (𝔇 V B c).flushed 3 t = ((cfg1.win 3).blk t).view.read (Elt F)
      (Cert.Spec.outT (Cert.Spec.addF F) (V c main_v0) (V c main_arg1) (V c main_arg2)) := by
  show (cfg1.win 3).cut (grid1.coords t) ((𝔇 V B c).after 3 t) = _
  rw [after_3]
  refine funext fun (j : S197x8x768.Idx) => ?_
  obtain ⟨p, b, h, rfl⟩ : ∃ (p : Fin 197) (b : Fin 8) (h : Fin 768), j = ix3 p b h := ⟨j 0, j 1, j 2, eq_ix3 j⟩
  have ht : t.val < 7 := lt_of_lt_of_eq (show t.val < grid1.N from t.isLt) N_1
  have hb' : t.val * 8 + b.val < 64 := by have := b.isLt; omega
  show outBlk (iblk V c 0 t) (iblk V c 1 t) (iblk V c 2 t) (ix3 p b h)
    = Cert.Spec.outT (Cert.Spec.addF F) (V c main_v0) (V c main_arg1) (V c main_arg2) (((cfg1.win 3).blk t).view.emb (ix3 p b h))
  rw [outBlk_apply, emb_blk3 t p b h ⟨t.val * 8 + b.val, hb'⟩ rfl]
  show blkFn (iblk V c 0 t) (iblk V c 1 t) (iblk V c 2 t) p b h
    = Cert.Spec.rowT (Cert.Spec.addF F) (V c main_v0) (V c main_arg1) (V c main_arg2) p ⟨t.val * 8 + b.val, hb'⟩ h
  unfold blkFn Cert.Spec.rowT
  by_cases hp : p.val = 0
  · rw [dif_pos hp, dif_pos hp]
    exact congrArg₂ FloatOps.addf (iblk1_apply V c t h) (iblk2_apply V c t 0 h)
  · rw [dif_neg hp, dif_neg hp]
    exact congrArg₂ FloatOps.addf (iblk0_apply V c t _ b h ⟨t.val * 8 + b.val, hb'⟩ rfl) (iblk2_apply V c t p h)

/-- An index of the array is in point `t`'s block iff each coordinate is in the block's range on its axis. -/
theorem mem_blk (t : Fin cfg1.N) (i : S197x64x768.Idx) :
    i ∈ ((cfg1.win 3).blk t).view.set ↔ ∀ a : Fin 3, win1_3.index t a * S197x8x768.size a ≤ (i a).val
      ∧ (i a).val < win1_3.index t a * S197x8x768.size a + S197x8x768.size a := by
  show i ∈ ((View.whole main_v2).slice (win1_3.rect t)).set ↔ _
  rw [View.set_slice_whole, Rect.mem_set_unit]
  exact Iff.rfl

/-- The seven blocks fill exactly batch entries 0..55. -/
theorem covered_iff (i : S197x64x768.Idx) :
    (∃ t : Fin cfg1.N, (cfg1.win 3).flush t = true ∧ i ∈ ((cfg1.win 3).blk t).view.set) ↔ (i 1).val < 56 := by
  have h0 : (i 0).val < 197 := (i 0).isLt
  have h1 : (i 1).val < 64 := (i 1).isLt
  have h2 : (i 2).val < 768 := (i 2).isLt
  constructor
  · rintro ⟨t, -, hi⟩
    rw [mem_blk] at hi
    have b1 : win1_3.index t (1 : Fin 3) * 8 ≤ (i 1).val ∧ (i 1).val < win1_3.index t (1 : Fin 3) * 8 + 8 := hi 1
    obtain ⟨-, -, -, -, -, -, -, e0, e1, e2⟩ := idx_facts t
    have ht : t.val < 7 := lt_of_lt_of_eq (show t.val < grid1.N from t.isLt) N_1
    omega
  · intro h
    have hlt : (i 1).val / 8 < cfg1.N := by rw [show cfg1.N = grid1.N from rfl, N_1]; omega
    obtain ⟨-, -, -, -, -, -, -, e0, e1, e2⟩ := idx_facts ⟨(i 1).val / 8, hlt⟩
    refine ⟨⟨(i 1).val / 8, hlt⟩, flush1_3 _, ?_⟩
    rw [mem_blk]
    have e1' : win1_3.index ⟨(i 1).val / 8, hlt⟩ (1 : Fin 3) = (i 1).val / 8 := e1
    intro a
    match a with
    | ⟨0, _⟩ =>
      show win1_3.index ⟨(i 1).val / 8, hlt⟩ (0 : Fin 3) * 197 ≤ (i 0).val ∧ (i 0).val < win1_3.index ⟨(i 1).val / 8, hlt⟩ (0 : Fin 3) * 197 + 197
      omega
    | ⟨1, _⟩ =>
      show win1_3.index ⟨(i 1).val / 8, hlt⟩ (1 : Fin 3) * 8 ≤ (i 1).val ∧ (i 1).val < win1_3.index ⟨(i 1).val / 8, hlt⟩ (1 : Fin 3) * 8 + 8
      omega
    | ⟨2, _⟩ =>
      show win1_3.index ⟨(i 1).val / 8, hlt⟩ (2 : Fin 3) * 768 ≤ (i 2).val ∧ (i 2).val < win1_3.index ⟨(i 1).val / 8, hlt⟩ (2 : Fin 3) * 768 + 768
      omega

/-- The result's array after the kernel: the position-major result on batch entries 0..55, what the array held at
    entry on batch entries 56..63. -/
theorem arrAt_out (c : Dev nD) :
    (dat (Name := Name) (U := U) (Lvl := Lvl) V B c).arrAt 3 cfg1.N
      = Cert.Spec.tcOut (Cert.Spec.addF F) (V c main_v0) (V c main_arg1) (V c main_arg2) (V c main_v2) := by
  funext i
  rw [(𝔇 V B c).arrAt_eq_piecewise 3 (Cert.Spec.outT (Cert.Spec.addF F) (V c main_v0) (V c main_arg1) (V c main_arg2))
    (fun t _ => flushed_eq V B c t) i, A_eq]
  unfold Cert.Spec.tcOut Cert.Spec.outT
  exact if_congr (covered_iff i) rfl rfl

/-! ## The kernel as a region of the host program -/

variable (adm : (p : Fin 1) → (pcfgs (F := F) p).Adm)

/-- The proof data family of the program's pipelines: there is one. -/
def pdats : (p : Fin 1) → (c : Dev nD) → Dat τ (Elt F) Ix Name U Lvl (Pipeline.pin (pcfgs (F := F)) adm p) c
  | ⟨0, _⟩ => fun c => dat V B c

-- the library's entry and exit lemmas are stated over the pinned configuration `pin pcs a p`; they meet this
-- configuration only when unification may unfold plain definitions in a metavariable's type
set_option backward.isDefEq.respectTransparency.types false in
/-- The kernel at one entry, over the thread state "every unscoped buffer at `V c`, `R c`, and the core owing
    nothing with its recorded pairs within `B`": entered by splitting the four arrays out of the unscoped buffers,
    the rest bypassing; left with them put back at any valuation `Vp` that has the result's array at what the seven
    write-backs leave and agrees with `V` elsewhere, the recorded pairs now within `B` and the pipeline's own
    waits. Nothing enters the invariant but the scoped buffers the kernel does not stage; the kernel has no
    semaphore of its own. -/
def reg (ι : Ix) (L : GSem nD τ sig → Finset Ix) (lv : GSem nD τ sig → Ix → Lvl) (R : Dev nD → sProp 𝕄)
    (Vp : (c : Dev nD) → (b : Ref sig .tc) → Buf (Elt F) ((c : Thread nD τ).loc b))
    (hVp_out : ∀ c, Vp c main_v2 = (dat (Name := Name) (U := U) (Lvl := Lvl) V B c).arrAt 3 cfg1.N)
    (hVp_ne : ∀ c (b : Ref sig .tc), b ≠ main_v2 → Vp c b = V c b) :
    Pipeline.RegionSeg (pcfgs (F := F)) adm (pdats (Name := Name) (U := U) (Lvl := Lvl) V B adm) ι defs₀ Variants.none L lv 0 where
  win := launch1.win.to₀
  block_pos := launch1.block_pos
  stage_whole := launch1.stage_whole
  K := PEmpty
  osem k := k.elim
  ho := Pipeline.OwnSemFacts.none _
  hbody c := (body_obligation V B ι c).loose
  hwaits := Pipeline.hwaits_of_owed_zero _ _ _ _ L lv 0 fun _ _ => rfl
  pre c := iprop(unscopedBufs c (V c) ∗ R c ∗ Pipeline.owesWithin c (0 : CellTallies nD τ sig Ix) B)
  post c := iprop(unscopedBufs c (Vp c) ∗ R c ∗ Pipeline.owesWithin c (0 : CellTallies nD τ sig Ix) (B ∪ cfg1.waitPairs ι))
  X _ := BI.emp
  Y _ := BI.emp
  Z c := iprop(Pipeline.unscopedRest (Ix := Ix) (Name := Name) (U := U) (Lvl := Lvl) spec1 c (V c) ∗ R c)
  hentry c := by
    rw [Pipeline.ownSems0_none]
    have hsplit := Pipeline.arrays_of_unscopedBufs (p := 0) (pcfgs (F := F)) adm (pdats (Name := Name) (U := U) (Lvl := Lvl) V B adm)
      launch1.win launch1.arr_whole c
      ((pdats (Name := Name) (U := U) (Lvl := Lvl) V B adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (0 : CellTallies nD τ sig Ix) (B := B)
        (B' := (pdats (Name := Name) (U := U) (Lvl := Lvl) V B adm 0 c).bound ι 0) fun _ h => Or.inl h)
      iexact HO
    isplitr; · iempintro
    isplitl [Hrest] <;> iassumption
  hin c := by
    rw [show (pdats (Name := Name) (U := U) (Lvl := Lvl) V B adm 0 c).Φ 0
      = Pipeline.scopedRest (Ix := Ix) (Name := Name) (U := U) (Lvl := Lvl) (Val := Elt F) spec1 c from rfl]
    iintro ⟨-, -, Hr⟩; iexact Hr
  hout c := by
    rw [Pipeline.ownSems0_none, show (pdats (Name := Name) (U := U) (Lvl := Lvl) V B adm 0 c).Φ (Fin.last _)
      = Pipeline.scopedRest (Ix := Ix) (Name := Name) (U := U) (Lvl := Lvl) (Val := Elt F) spec1 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch1.win launch1.arr_whole c
      (pdats (Name := Name) (U := U) (Lvl := Lvl) V B adm) ((pdats (Name := Name) (U := U) (Lvl := Lvl) V B adm 0 c).share_full fun _ => rfl)
      (V c) (Vp c) ((pdats (Name := Name) (U := U) (Lvl := Lvl) V B adm 0 c).arrAt · cfg1.N)
      (fun w => by
        fin_cases w
        · exact (arrAt_in V B c 0 (by decide)).trans (hVp_ne c main_v0 (by decide)).symm
        · exact (arrAt_in V B c 1 (by decide)).trans (hVp_ne c main_arg1 (by decide)).symm
        · exact (arrAt_in V B c 2 (by decide)).trans (hVp_ne c main_arg2 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    iexact HO

/-- info: 'Cert.KB.Region.reg' depends on axioms: [propext, Classical.choice, Quot.sound] -/
#guard_msgs in #print axioms reg
/-- info: 'Cert.KB.Region.arrAt_out' depends on axioms: [propext, Classical.choice, Quot.sound] -/
#guard_msgs in #print axioms arrAt_out
/-- info: 'Cert.KB.Region.body_obligation' depends on axioms: [propext, Classical.choice, Quot.sound] -/
#guard_msgs in #print axioms body_obligation

end Cert.KB.Region

end
-- ==== Proof.SplitKB.lean ====
/-
  The launch-side bookkeeping of the SparseCore call: how the call's result splits into the rows
  the thirty-two workers own, how each SparseCore's read share of the three inputs splits into its
  sixteen tiles' shares and comes back, how the TensorCore's full ownership of the inputs and of the
  result splits into the two SparseCores' payloads and what it keeps, and the launch element of
  the ghost state (the handshakes' rounds, the TensorCore pipeline's rounds, the copies' counters).
-/
import proofs.«207362_g47132971107233_retrytranche2_1164_24_alg».proof.Proof.PayKB
import Idealize.ShloMosaic.Lib.Pipeline.Sound

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The rows the workers own tile the result -/

theorem outOff_zero (w : Fin 32) : outOff w 0 = if w.val < 28 then 7 * w.val + 1 else 0 := by
  unfold outOff; split <;> rfl
theorem outOff_one (w : Fin 32) : outOff w 1 = 0 := by
  unfold outOff; split <;> rfl
theorem outOff_two (w : Fin 32) : outOff w 2 = 0 := by
  unfold outOff; split <;> rfl
theorem outSize_zero (w : Fin 32) : outSize w 0 = if w.val < 28 then 7 else if w.val = 28 then 1 else 0 := by
  unfold outSize; split
  · rfl
  · split <;> rfl
theorem outSize_one (w : Fin 32) : outSize w 1 = 8 := by
  unfold outSize; split
  · rfl
  · split <;> rfl
theorem outSize_two (w : Fin 32) : outSize w 2 = 768 := by
  unfold outSize; split
  · rfl
  · split <;> rfl

/-- A worker's elements are its rectangle's, the result being a whole array. -/
theorem outSet_eq (w : Fin 32) : outSet w = (outRect w).set := by
  show ((View.whole (main_v1_scv : Ref sig .scVector)).slice (outRect w)).set = _
  rw [View.set_slice]; exact Finset.map_refl

/-- Two workers' row blocks are separated on the row axis. -/
theorem outSets_disjoint : ∀ w ∈ (Finset.univ : Finset (Fin 32)), ∀ w' ∈ (Finset.univ : Finset (Fin 32)), w ≠ w' → Disjoint (outSet w) (outSet w') := by
  intro w _ w' _ h
  rw [outSet_eq, outSet_eq]
  refine Rect.unit_disjoint (0 : Fin 3) ?_
  have hne : w.val ≠ w'.val := fun e => h (Fin.ext e)
  have hw := w.isLt
  have hw' := w'.isLt
  rw [outOff_zero, outOff_zero, outSize_zero, outSize_zero]
  split <;> split <;> (try split) <;> (try split) <;> omega

/-- Row 0 is worker 28's, row `p ≥ 1` worker `(p - 1) / 7`'s: the 29 row blocks cover the 197 rows. -/
theorem outSets_cover : (Finset.univ : Finset (Fin 32)).biUnion outSet = Finset.univ := by
  ext i
  simp only [Finset.mem_biUnion, Finset.mem_univ, true_and, iff_true]
  have h0 : (i 0).val < 197 := (i 0).isLt
  have h1 : (i 1).val < 8 := (i 1).isLt
  have h2 : (i 2).val < 768 := (i 2).isLt
  by_cases hp : (i 0).val = 0
  · refine ⟨⟨28, by omega⟩, ?_⟩
    rw [outSet_eq, Rect.mem_set_unit]
    intro a
    match a with
    | 0 => rw [outOff_zero, outSize_zero]; simp only [show ¬ (28 < 28) by omega, if_false, if_true]; omega
    | 1 => rw [outOff_one, outSize_one]; omega
    | 2 => rw [outOff_two, outSize_two]; omega
  · have hw : ((i 0).val - 1) / 7 < 28 := by omega
    refine ⟨⟨((i 0).val - 1) / 7, by omega⟩, ?_⟩
    rw [outSet_eq, Rect.mem_set_unit]
    intro a
    match a with
    | 0 => rw [outOff_zero, outSize_zero]; simp only [hw, if_true]; omega
    | 1 => rw [outOff_one, outSize_one]; omega
    | 2 => rw [outOff_two, outSize_two]; omega

/-! ## The result, whole, is the workers' rows -/

/-- Tile `s` of SparseCore `c` is worker `2 s + c`: a bijection of the 2 × 16 tiles with the 32 workers. -/
def widEquiv : Fin 2 × Fin 16 ≃ Fin 32 where
  toFun p := wid p.1 p.2
  invFun w := (⟨w.val % 2, Nat.mod_lt _ (by omega)⟩, ⟨w.val / 2, by have := w.isLt; omega⟩)
  left_inv p := by
    have h1 := p.1.isLt
    have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

theorem oPts_workers (d : Dev nD) (f : Buf (Elt F) (oLoc d)) :
    (oLoc d ↦{fullShare} f : sProp 𝕄) = bigSep Finset.univ fun c : Fin 2 => bigSep Finset.univ fun s : Fin 16 => outAt d (wid c s) f := by
  rw [← bigSep_univ_prod (fun p : Fin 2 × Fin 16 => outAt d (wid p.1 p.2) f)]
  rw [show (bigSep Finset.univ fun p : Fin 2 × Fin 16 => outAt d (wid p.1 p.2) f) = bigSep Finset.univ fun w : Fin 32 => (outAt d w f : sProp 𝕄) from
    (bigSep_univ_equiv widEquiv (fun w : Fin 32 => (outAt d w f : sProp 𝕄))).symm]
  rw [← pointsTo_biUnion Finset.univ (ℓ := oLoc d) outSet outSets_disjoint, outSets_cover]; try rfl

/-! ## The call: what the TensorCore hands the two SparseCores and what it keeps -/

/-- What the TensorCore keeps of the three inputs during the call: what is left of full ownership once the two
    SparseCores' read shares are split off. -/
def callRest (d : Dev nD) : sProp 𝕄 := insAt m d (shareDrop fullShare 2)

/-- The call's grid of SparseCores is the two of the device; -/
theorem bigSep_cores (Φ : Fin 2 → sProp 𝕄) :
    (bigSep Finset.univ fun c : Fin ((K (F := F)).nCore 0) => Φ (cOf c)) = bigSep Finset.univ Φ :=
  bigSep_congr fun _ _ => congrArg Φ (Fin.ext rfl)
/-- its grid of tiles the sixteen of a SparseCore. -/
theorem bigSep_tiles (Φ : Fin 16 → sProp 𝕄) :
    (bigSep Finset.univ fun i : Fin ((K (F := F)).nSub 0) => Φ (sOf i)) = bigSep Finset.univ Φ :=
  bigSep_congr fun _ _ => congrArg Φ (Fin.ext rfl)

variable [FloatOps F]

/-- Full ownership of the inputs and of the result (at any contents `f`) is the two SparseCores' payloads and the
    TensorCore's remainder of the inputs: each input's share splits in three, the result into the workers' rows. -/
theorem call_split' (d : Dev nD) (f : Buf (Elt F) (oLoc d)) :
    iprop(insAt m d fullShare ∗ (oLoc d ↦{fullShare} f)) ⊢ iprop((bigSep Finset.univ fun c : Fin 2 => stOf m d c f) ∗ callRest m d) := by
  unfold callRest
  rw [bigSep_sep', bigSep_sep', bigSep_sep', oPts_workers d f]
  iintro ⟨⟨Hx, Hq, Hp⟩, Ho⟩
  ihave Hx' := (pointsTo_toks_split (ℓ := xLoc d) (S := Finset.univ) (f := xT m d) fullShare 2) $$ Hx
  ihave Hq' := (pointsTo_toks_split (ℓ := qLoc d) (S := Finset.univ) (f := m (qLoc d)) fullShare 2) $$ Hq
  ihave Hp' := (pointsTo_toks_split (ℓ := pLoc d) (S := Finset.univ) (f := m (pLoc d)) fullShare 2) $$ Hp
  icases Hx' with ⟨Hxr, Hxs⟩
  icases Hq' with ⟨Hqr, Hqs⟩
  icases Hp' with ⟨Hpr, Hps⟩
  isplitl [Hxs Hqs Hps Ho]
  · isplitl [Hxs Hqs Hps]
    · isplitl [Hxs]; · iexact Hxs
      isplitl [Hqs]; · iexact Hqs
      iexact Hps
    · iexact Ho
  · isplitl [Hxr]; · iexact Hxr
    isplitl [Hqr]; · iexact Hqr
    iexact Hpr

/-- And back. -/
theorem call_join' (d : Dev nD) (f : Buf (Elt F) (oLoc d)) :
    iprop((bigSep Finset.univ fun c : Fin 2 => stOf m d c f) ∗ callRest m d) ⊢ iprop(insAt m d fullShare ∗ (oLoc d ↦{fullShare} f)) := by
  unfold callRest
  rw [bigSep_sep', bigSep_sep', bigSep_sep', oPts_workers d f]
  iintro ⟨⟨⟨Hxs, Hqs, Hps⟩, Ho⟩, Hxr, Hqr, Hpr⟩
  isplitl [Hxs Hqs Hps Hxr Hqr Hpr]
  · isplitl [Hxs Hxr]
    · iapply (pointsTo_toks_join (ℓ := xLoc d) (S := Finset.univ) (f := xT m d) fullShare 2)
      isplitl [Hxr]; · iexact Hxr
      iexact Hxs
    isplitl [Hqs Hqr]
    · iapply (pointsTo_toks_join (ℓ := qLoc d) (S := Finset.univ) (f := m (qLoc d)) fullShare 2)
      isplitl [Hqr]; · iexact Hqr
      iexact Hqs
    · iapply (pointsTo_toks_join (ℓ := pLoc d) (S := Finset.univ) (f := m (pLoc d)) fullShare 2)
      isplitl [Hpr]; · iexact Hpr
      iexact Hps
  · iexact Ho

theorem st0_eq (d : Dev nD) :
    (bigSep Finset.univ fun c : Fin ((K (F := F)).nCore 0) => (P m).st 0 d c) = bigSep Finset.univ fun c : Fin 2 => stOf m d c (m (oLoc d)) :=
  bigSep_cores (fun c => stOf m d c (m (oLoc d)))
theorem dn0_eq (d : Dev nD) :
    (bigSep Finset.univ fun c : Fin ((K (F := F)).nCore 0) => (P m).dn 0 d c) = bigSep Finset.univ fun c : Fin 2 => stOf m d c (scBuf m d) :=
  bigSep_cores (fun c => stOf m d c (scBuf m d))

/-- At the call: the inputs and the result at its launch contents, whole, are what the SparseCores start with, and the
    TensorCore's remainder. -/
theorem call_split (d : Dev nD) :
    iprop(insAt m d fullShare ∗ (oLoc d ↦{fullShare} m (oLoc d)))
      ⊢ iprop((bigSep Finset.univ fun c : Fin ((K (F := F)).nCore 0) => (P m).st 0 d c) ∗ callRest m d) := by
  rw [st0_eq]; exact call_split' m d _

/-- After it: what the SparseCores bring back and the remainder are the inputs, whole again, and the result at the
    call's contents. -/
theorem call_join (d : Dev nD) :
    iprop((bigSep Finset.univ fun c : Fin ((K (F := F)).nCore 0) => (P m).dn 0 d c) ∗ callRest m d)
      ⊢ iprop(insAt m d fullShare ∗ (oLoc d ↦{fullShare} scBuf m d)) := by
  rw [dn0_eq]; exact call_join' m d _

/-! ## A SparseCore's payload among its sixteen tiles -/

/-- A SparseCore's read share of each input splits into its tiles' shares and a remainder; its rows of the result are
    its tiles' rows already. -/
theorem tiles_split (d : Dev nD) (c : Fin 2) (f : Buf (Elt F) (oLoc d)) :
    stOf m d c f ⊢ iprop((bigSep Finset.univ fun s : Fin 16 => goOf m d c s f) ∗ insAt m d (shareDrop (shC c) 16)) := by
  rw [bigSep_sep', bigSep_sep', bigSep_sep']
  iintro ⟨⟨Hx, Hq, Hp⟩, Ho⟩
  ihave Hx' := (pointsTo_toks_split (ℓ := xLoc d) (S := Finset.univ) (f := xT m d) (shC c) 16) $$ Hx
  ihave Hq' := (pointsTo_toks_split (ℓ := qLoc d) (S := Finset.univ) (f := m (qLoc d)) (shC c) 16) $$ Hq
  ihave Hp' := (pointsTo_toks_split (ℓ := pLoc d) (S := Finset.univ) (f := m (pLoc d)) (shC c) 16) $$ Hp
  icases Hx' with ⟨Hxr, Hxs⟩
  icases Hq' with ⟨Hqr, Hqs⟩
  icases Hp' with ⟨Hpr, Hps⟩
  isplitl [Hxs Hqs Hps Ho]
  · isplitl [Hxs Hqs Hps]
    · isplitl [Hxs]; · iexact Hxs
      isplitl [Hqs]; · iexact Hqs
      iexact Hps
    · iexact Ho
  · isplitl [Hxr]; · iexact Hxr
    isplitl [Hqr]; · iexact Hqr
    iexact Hpr

/-- And back, the rows at whatever contents the tiles left them. -/
theorem tiles_join (d : Dev nD) (c : Fin 2) (f : Buf (Elt F) (oLoc d)) :
    iprop((bigSep Finset.univ fun s : Fin 16 => goOf m d c s f) ∗ insAt m d (shareDrop (shC c) 16)) ⊢ stOf m d c f := by
  rw [bigSep_sep', bigSep_sep', bigSep_sep']
  iintro ⟨⟨⟨Hxs, Hqs, Hps⟩, Ho⟩, Hxr, Hqr, Hpr⟩
  isplitl [Hxs Hqs Hps Hxr Hqr Hpr]
  · isplitl [Hxs Hxr]
    · iapply (pointsTo_toks_join (ℓ := xLoc d) (S := Finset.univ) (f := xT m d) (shC c) 16)
      isplitl [Hxr]; · iexact Hxr
      iexact Hxs
    isplitl [Hqs Hqr]
    · iapply (pointsTo_toks_join (ℓ := qLoc d) (S := Finset.univ) (f := m (qLoc d)) (shC c) 16)
      isplitl [Hqr]; · iexact Hqr
      iexact Hqs
    · iapply (pointsTo_toks_join (ℓ := pLoc d) (S := Finset.univ) (f := m (pLoc d)) (shC c) 16)
      isplitl [Hpr]; · iexact Hpr
      iexact Hps
  · iexact Ho

/-- The sequencer's dispatch: the SparseCore's payload to its tiles' and a remainder of the inputs' shares, which waits
    inside the returning wand for the tiles' shares to come back. -/
theorem vecSplit : (K (F := F)).VecSplit' (P m) 0 := by
  intro d c
  show stOf m d (cOf c) (m (oLoc d)) ⊢ |={Set.univ}=> iprop(
      (bigSep Finset.univ fun i : Fin ((K (F := F)).nSub 0) => goOf m d (cOf c) (sOf i) (m (oLoc d)))
      ∗ ((bigSep Finset.univ fun i : Fin ((K (F := F)).nSub 0) => goOf m d (cOf c) (sOf i) (scBuf m d)) -∗ stOf m d (cOf c) (scBuf m d)))
  rw [bigSep_tiles (F := F) (fun s => goOf m d (cOf c) s (m (oLoc d))), bigSep_tiles (F := F) (fun s => goOf m d (cOf c) s (scBuf m d))]
  iintro H
  ihave H' := (tiles_split m d (cOf c) (m (oLoc d))) $$ H
  icases H' with ⟨Hgo, Hrest⟩
  imodintro
  isplitl [Hgo]; · iexact Hgo
  iintro Htd
  iapply (tiles_join m d (cOf c) (scBuf m d))
  isplitl [Htd]; · iexact Htd
  iexact Hrest

/-! ## The launch element of the ghost state -/

omit [FloatOps F] in
/-- No pallas_call of the program reads a prefetched table: each has the one (empty) admissible contents. -/
def adm : (p : Fin 1) → (pcfgs (F := F) p).Adm := fun p => (cfgs p).toPCfg_adm

/-- The TensorCore pipelines at those contents: the printed configurations themselves. -/
abbrev pcs : Fin 1 → Pipeline.Cfg sig Λ₀ := Pipeline.pin (pcfgs (F := F)) adm

omit [FloatOps F] in
/-- Their staging cells are pairwise distinct (decided on the printed configurations). -/
theorem pcs_inj : Function.Injective (Pipeline.cellOf (nD := nD) (τ := τ) (pcs (F := F))) := cellOf_inj

/-- Pipeline 0's launch ghost state on device `d`: its staging cells' launch states and its transfers' duty tokens. -/
def G (d : Dev nD) : sProp 𝕄 := Pipeline.ghostOn (pcfgs (F := F)) adm EP {0} d

omit [FloatOps F] in
theorem G_eq (d : Dev nD) :
    (G (F := F) d : sProp 𝕄) = iprop(Pipeline.cellsGhost (pcs (F := F)) EP 0 d ∗ Pipeline.toksInit (pcs (F := F)) EP 0 d) := by
  unfold G Pipeline.ghostOn Pipeline.PerCore.ghostOn
  exact bigSep_singleton

/-- The launch element: the handshakes' cells and tokens, the pipeline's cells and tokens, and the unit of the
    local copies' counters. -/
def u₀ : UU :=
  (initOf (K (F := F)).hsCells (K (F := F)).hsToks,
    (initOf (Pipeline.cells (pcs (F := F)) pcs_inj) (Pipeline.launchToks (pcs (F := F)) pcs_inj), 1))

omit [FloatOps F] in
/-- The pipeline's rounds are owned through the right factor's left factor. -/
theorem own_EP (a : UP) :
    (BI.own (((Emb.inl : Emb UP (UP × Counters)).trans (embR : Emb (UP × Counters) 𝕄)) a) : sProp 𝕄) = BI.own (EP a) := rfl

omit [FloatOps F] in
theorem bigSep_emp' {I : Type} (s : Finset I) : (bigSep s fun _ => iprop(emp)) = (iprop(emp) : sProp 𝕄) := bigSep_emp_const s

/-- No thread starts with anything of the kernel's own. -/
theorem Px_emp : (bigSep Finset.univ fun thr : Thread nD τ => bigSep Finset.univ fun q : Fin 1 => (P (F := F) m).x q thr) = (iprop(emp) : sProp 𝕄) := by
  unfold P; dsimp only
  rw [bigSep_congr fun _ _ => bigSep_emp' _, bigSep_emp']

/-- From the launch element: the handshakes' part as the launch theorem takes it, the pipeline's part funds its
    staging cells' ghost state on every device, the counters' unit is dropped; nothing is dealt to the threads. -/
theorem hu₀ : iprop((ownU (u₀ (F := F)) : sProp 𝕄) ∗ (P m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  have hG : (bigSep Finset.univ (G (F := F)) : sProp 𝕄)
      = iprop((bigSep Finset.univ fun c : Dev nD => bigSep Finset.univ fun p : Fin 1 => Pipeline.cellsGhost (pcs (F := F)) EP p c)
          ∗ (bigSep Finset.univ fun c : Dev nD => bigSep Finset.univ fun p : Fin 1 => (Pipeline.toksInit (pcs (F := F)) EP p c : sProp 𝕄))) := by
    rw [← bigSep_sep']
    refine bigSep_congr fun d _ => ?_
    rw [G_eq, bigSep_univ_of_subsingleton (0 : Fin 1), bigSep_univ_of_subsingleton (0 : Fin 1)]
  rw [Px_emp, hG]
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (pcs (F := F)) EP pcs_inj) $$ HP' with ⟨Hg, Ht⟩
  imodintro
  isplitl [HH]; · iexact HH
  isplitl [Hg Ht]
  · isplitl [Hg]; · iexact Hg
    iexact Ht
  · iempintro

end Cert.KB

end
-- ==== Proof.TileDefsKB.lean ====
/-
  One tile's task, as the body's proof sees it: the thread, the worker number, the memrefs spelt as
  the body table passes them, and the tile's resources laid out one by one — read shares of the
  three inputs, the worker's rows of the result, the six scratch buffers and the nine DMA
  semaphores of the tile, and what the thread owes the launch.
-/
import proofs.«207362_g47132971107233_retrytranche2_1164_24_alg».proof.Proof.PayKB

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's memrefs, spelt as the body table passes them. -/
abbrev xW : Memref sig .scVector .hbm S196x64x768 .f32 := Memref.whole main_v0_scv
abbrev qW : Memref sig .scVector .hbm S1x768 .f32 := Memref.whole main_arg1_scv
abbrev pW : Memref sig .scVector .hbm S197x768 .f32 := Memref.whole main_arg2_scv
abbrev oW : Memref sig .scVector .hbm S197x8x768 .f32 := Memref.whole main_v1_scv
abbrev bA : Memref sig .scVector .vmem S7x8x768 .f32 := Memref.whole cc0_scratch0
abbrev bB : Memref sig .scVector .vmem S7x8x768 .f32 := Memref.whole cc0_scratch1
abbrev bPw : Memref sig .scVector .vmem S16x768 .f32 := Memref.whole cc0_scratch2
abbrev bPw5 : Memref sig .scVector .vmem S5x768 .f32 := Memref.whole cc0_scratch3
abbrev bQw : Memref sig .scVector .vmem S1x768 .f32 := Memref.whole cc0_scratch4
abbrev bRow0 : Memref sig .scVector .vmem S1x8x768 .f32 := Memref.whole cc0_scratch5

/-- The tile at grid coordinates `L` of device `d`, and its worker number `2 s + c`. -/
abbrev thrV (d : Dev nD) (L : grid0.Coords) : Thread nD τ := V d ((L 0).castLE hcore0) ((L 1).castLE hsub0)
theorem bound0 : grid0.bound 0 = 2 := rfl
theorem bound1 : grid0.bound 1 = 16 := rfl
abbrev cL (L : grid0.Coords) : Fin 2 := Fin.cast bound0 (L 0)
abbrev sL (L : grid0.Coords) : Fin 16 := Fin.cast bound1 (L 1)
abbrev wL (L : grid0.Coords) : Fin 32 := wid (cL L) (sL L)

variable [FloatOps F]

/-- The kernel's body at the tile, on the whole arrays and the tile's scratch. -/
abbrev body (L : grid0.Coords) : Prog (TpuEff nD τ sig (Elt F) Λ₀ (.scVector ((L 0).castLE hcore0) ((L 1).castLE hsub0))) PUnit :=
  cc0__sc_body L xW (Memref.isWhole_whole _) qW (Memref.isWhole_whole _) pW (Memref.isWhole_whole _) oW (Memref.isWhole_whole _)
    bA (Memref.isWhole_whole _) bB (Memref.isWhole_whole _) bPw (Memref.isWhole_whole _) bPw5 (Memref.isWhole_whole _)
    bQw (Memref.isWhole_whole _) bRow0 (Memref.isWhole_whole _) cc0_scratch6 cc0_scratch7 cc0_scratch8 cc0_scratch9
    cc0_scoped0 cc0_scoped1 cc0_scoped2 cc0_scoped3 cc0_scoped4

variable (m : (ℓ : Loc nD τ sig) → Buf (Elt F) ℓ)

/-- The tile's nine DMA semaphores, each reading zero. -/
def semsZero (d : Dev nD) (L : grid0.Coords) : sProp 𝕄 :=
  iprop(semVal (thrV d L, SemLoc.dma cc0_scratch6.sem) 0 ∗ semVal (thrV d L, SemLoc.dma cc0_scratch7.sem) 0
    ∗ semVal (thrV d L, SemLoc.dma cc0_scratch8.sem) 0 ∗ semVal (thrV d L, SemLoc.dma cc0_scratch9.sem) 0
    ∗ semVal (thrV d L, SemLoc.dma cc0_scoped0.sem) 0 ∗ semVal (thrV d L, SemLoc.dma cc0_scoped1.sem) 0
    ∗ semVal (thrV d L, SemLoc.dma cc0_scoped2.sem) 0 ∗ semVal (thrV d L, SemLoc.dma cc0_scoped3.sem) 0
    ∗ semVal (thrV d L, SemLoc.dma cc0_scoped4.sem) 0)

/-- The tile's six scratch buffers, each whole at some contents. -/
def scratchAny (d : Dev nD) (L : grid0.Coords) : sProp 𝕄 :=
  iprop((∃ f, (bA).view.loc (thrV d L) ↦{fullShare} f) ∗ (∃ f, (bB).view.loc (thrV d L) ↦{fullShare} f)
    ∗ (∃ f, (bPw).view.loc (thrV d L) ↦{fullShare} f) ∗ (∃ f, (bPw5).view.loc (thrV d L) ↦{fullShare} f)
    ∗ (∃ f, (bQw).view.loc (thrV d L) ↦{fullShare} f) ∗ (∃ f, (bRow0).view.loc (thrV d L) ↦{fullShare} f))

/-- The tile's resources one by one: the three inputs at share `q` (as the tile's memrefs address them), the
    worker's rows of the result at `fo`, the scratch, the semaphores at zero, and `owes`. -/
def tileRaw (d : Dev nD) (L : grid0.Coords) (O : CellTallies nD τ sig (HIx 1)) (W : Waits sig (HIx 1)) (q : PosShare TreeShare)
    (fo : Buf (Elt F) (oLoc d)) : sProp 𝕄 :=
  iprop(((xW).view.loc (thrV d L) ↦{q} xT m d) ∗ ((qW).view.loc (thrV d L) ↦{q} m (qLoc d)) ∗ ((pW).view.loc (thrV d L) ↦{q} m (pLoc d))
    ∗ (oLoc d ↦[outSet (wL L)]{fullShare} fo)
    ∗ scratchAny d L ∗ semsZero d L ∗ owes (thrV d L) O W)

/-- What every case of the body proves: from the tile's resources with the result rows at their launch contents
    (and the evidence that the tile's own waits are admissible), the body runs and leaves the rows at `scBuf`. -/
def BranchSpec (d : Dev nD) (L : grid0.Coords) : Prop :=
  ∀ (O : CellTallies nD τ sig (HIx 1)) (W : Waits sig (HIx 1)) (q : PosShare TreeShare),
    iprop(Transfers.MayWaits (thrV d L) (none : HIx 1) O ∗ tileRaw m d L O W q (m (oLoc d)))
      ⊢ wp frame (wpE (defs₀ (F := F)) 𝒱₀ (thrV d L) none) Set.univ (body (F := F) L)
          fun _ => iprop(∃ W', ⌜∀ p ∈ W', p ∈ W ∨ p.2 = none⌝ ∗ tileRaw m d L O W' q (scBuf m d))

end Cert.KB

end
-- ==== Proof.TileOblKB.lean ====
/-
  One tile's obligation to the launch of the SparseCore call, from the body's cases.

  The launch hands a tile its share of the call's operands (read shares of the position-major
  features, the quality row and the position table, and the worker's rows of the call's result) and
  the tile's scoped storage: every buffer and every semaphore cell of the tile, the cells at zero.
  Of that storage the body uses six scratch buffers and nine DMA semaphores; the rest is carried
  around the body untouched. This module splits the six buffers and the nine cells out of the
  tile's storage, spells the operands as the tile's memrefs address them, runs the body by the
  hypothesis on its cases, and puts everything back in the launch's own words.
-/
import proofs.«207362_g47132971107233_retrytranche2_1164_24_alg».proof.Proof.TileDefsKB
import Idealize.ShloMosaic.Lib.SparseCore.Launch

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Regrouping a separating conjunction -/

/-- Separating conjunction is associative, as an equation. -/
theorem sep_assoc_eq {A B C : sProp 𝕄} : (iprop((A ∗ B) ∗ C) : sProp 𝕄) = iprop(A ∗ B ∗ C) := by
  have h1 : (iprop((A ∗ B) ∗ C) : sProp 𝕄) ⊢ iprop(A ∗ B ∗ C) := by
    iintro ⟨⟨HA, HB⟩, HC⟩
    isplitl [HA]; · iexact HA
    isplitl [HB]; · iexact HB
    iexact HC
  have h2 : (iprop(A ∗ B ∗ C) : sProp 𝕄) ⊢ iprop((A ∗ B) ∗ C) := by
    iintro ⟨HA, HB, HC⟩
    isplitr [HC]
    · isplitl [HA]; · iexact HA
      iexact HB
    · iexact HC
  exact Idealize.SL.BI.Entails.antisymm h1 h2

/-! ## The tile's nine semaphore cells and six scratch buffers among its scoped storage -/

section Storage

variable (d : Dev nD) (L : grid0.Coords)

/-- Two DMA cells of one thread differ when their semaphores do. -/
theorem dmaCell_ne (thr : Thread nD τ) {a b : DmaSem sig} (h : a ≠ b) :
    ((thr, SemLoc.dma a) : GSem nD τ sig) ≠ (thr, SemLoc.dma b) :=
  fun e => h (SemLoc.dma.inj (congrArg Prod.snd e))

/-- A scoped DMA cell of the tile is one of the tile's own cells. -/
theorem dmaCell_mem (s : DmaSem sig) (h : (SemLoc.dma s : SemLoc sig).isScoped .scVector = true) :
    ((thrV d L, SemLoc.dma s) : GSem nD τ sig) ∈ ownCells (thrV d L) :=
  (mem_ownCells (g := ((thrV d L, SemLoc.dma s) : GSem nD τ sig))).mpr ⟨rfl, h⟩

/-- The tile's own cells other than the body's nine. -/
abbrev restCells : Finset (GSem nD τ sig) :=
  (((((((((ownCells (thrV d L)).erase (thrV d L, SemLoc.dma cc0_scratch6.sem)).erase (thrV d L, SemLoc.dma cc0_scratch7.sem)).erase
    (thrV d L, SemLoc.dma cc0_scratch8.sem)).erase (thrV d L, SemLoc.dma cc0_scratch9.sem)).erase (thrV d L, SemLoc.dma cc0_scoped0.sem)).erase
    (thrV d L, SemLoc.dma cc0_scoped1.sem)).erase (thrV d L, SemLoc.dma cc0_scoped2.sem)).erase (thrV d L, SemLoc.dma cc0_scoped3.sem)).erase
    (thrV d L, SemLoc.dma cc0_scoped4.sem)

/-- The tile's cells at zero are the body's nine at zero and the others at zero. -/
theorem ownSems0_V :
    (ownSems0 (thrV d L) : sProp 𝕄) = iprop(semsZero d L ∗ bigSep (restCells d L) fun g => semVal g 0) := by
  unfold SparseCore.Cfg.ownSems0 semsZero restCells
  have m6 := dmaCell_mem d L cc0_scratch6.sem (by decide)
  have m7 := dmaCell_mem d L cc0_scratch7.sem (by decide)
  have m8 := dmaCell_mem d L cc0_scratch8.sem (by decide)
  have m9 := dmaCell_mem d L cc0_scratch9.sem (by decide)
  have n0 := dmaCell_mem d L cc0_scoped0.sem (by decide)
  have n1 := dmaCell_mem d L cc0_scoped1.sem (by decide)
  have n2 := dmaCell_mem d L cc0_scoped2.sem (by decide)
  have n3 := dmaCell_mem d L cc0_scoped3.sem (by decide)
  have n4 := dmaCell_mem d L cc0_scoped4.sem (by decide)
  have ne : ∀ {a b : DmaSem sig}, a ≠ b → ((thrV d L, SemLoc.dma a) : GSem nD τ sig) ≠ (thrV d L, SemLoc.dma b) := fun h => dmaCell_ne _ h
  rw [SparseCore.bigSep_erase' m6,
    SparseCore.bigSep_erase' (Finset.mem_erase.mpr ⟨ne (by decide), m7⟩),
    SparseCore.bigSep_erase' (Finset.mem_erase.mpr ⟨ne (by decide), Finset.mem_erase.mpr ⟨ne (by decide), m8⟩⟩),
    SparseCore.bigSep_erase' (Finset.mem_erase.mpr ⟨ne (by decide), Finset.mem_erase.mpr ⟨ne (by decide), Finset.mem_erase.mpr ⟨ne (by decide), m9⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), n0⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), n1⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), n2⟩⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), Finset.mem_erase.mpr ⟨ne (by decide), n3⟩⟩⟩⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), Finset.mem_erase.mpr ⟨ne (by decide), Finset.mem_erase.mpr ⟨ne (by decide),
      Finset.mem_erase.mpr ⟨ne (by decide), n4⟩⟩⟩⟩⟩⟩⟩⟩)]
  simp only [sep_assoc_eq]

/-- The tile as a processor. -/
abbrev prV (L : grid0.Coords) : Proc τ := .scVector ((L 0).castLE hcore0) ((L 1).castLE hsub0)

/-- The tile's own buffers other than the body's six scratch buffers. -/
abbrev restRefs : Finset (DevRef τ sig) :=
  ((((((ownRefs (τ := τ) (prV L)).erase ((prV L).devRef cc0_scratch0)).erase ((prV L).devRef cc0_scratch1)).erase ((prV L).devRef cc0_scratch2)).erase
    ((prV L).devRef cc0_scratch3)).erase ((prV L).devRef cc0_scratch4)).erase ((prV L).devRef cc0_scratch5)

theorem scratchRef_mem (b : Ref sig .scVector) (h : ((prV L).devRef b).owner = .proc (prV L)) : (prV L).devRef b ∈ ownRefs (τ := τ) (prV L) :=
  SparseCore.Cfg.mem_ownRefs_of_owner (p := prV L) (b := (prV L).devRef b) h

theorem scratchRef_ne {a b : Ref sig .scVector} (h : a ≠ b) : (prV L).devRef a ≠ (prV L).devRef b :=
  fun e => h (Proc.devRef_injective _ e)

/-- The tile's buffers, each at some contents: the six scratch buffers one by one, then the others. -/
theorem ownBufs_flat :
    (ownBufs (thrV d L) : sProp 𝕄)
      = iprop((∃ f, (bA).view.loc (thrV d L) ↦{fullShare} f) ∗ (∃ f, (bB).view.loc (thrV d L) ↦{fullShare} f)
          ∗ (∃ f, (bPw).view.loc (thrV d L) ↦{fullShare} f) ∗ (∃ f, (bPw5).view.loc (thrV d L) ↦{fullShare} f)
          ∗ (∃ f, (bQw).view.loc (thrV d L) ↦{fullShare} f) ∗ (∃ f, (bRow0).view.loc (thrV d L) ↦{fullShare} f)
          ∗ bigSep (restRefs L) fun b => iprop(∃ f, ((d, b) : Loc nD τ sig) ↦{fullShare} f)) := by
  unfold SparseCore.Cfg.ownBufs restRefs
  have ne : ∀ {a b : Ref sig .scVector}, a ≠ b → (prV L).devRef a ≠ (prV L).devRef b := fun h => scratchRef_ne L h
  refine (SparseCore.bigSep_erase' (scratchRef_mem L cc0_scratch0 rfl)).trans ?_
  rw [SparseCore.bigSep_erase' (Finset.mem_erase.mpr ⟨ne (by decide), scratchRef_mem L cc0_scratch1 rfl⟩),
    SparseCore.bigSep_erase' (Finset.mem_erase.mpr ⟨ne (by decide), Finset.mem_erase.mpr ⟨ne (by decide), scratchRef_mem L cc0_scratch2 rfl⟩⟩),
    SparseCore.bigSep_erase' (Finset.mem_erase.mpr ⟨ne (by decide), Finset.mem_erase.mpr ⟨ne (by decide), Finset.mem_erase.mpr ⟨ne (by decide),
      scratchRef_mem L cc0_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), scratchRef_mem L cc0_scratch4 rfl⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), scratchRef_mem L cc0_scratch5 rfl⟩⟩⟩⟩⟩)]

/-- The same with the six scratch buffers grouped as the body's proof holds them. -/
theorem ownBufs_V :
    (ownBufs (thrV d L) : sProp 𝕄)
      = iprop(scratchAny d L ∗ bigSep (restRefs L) fun b => iprop(∃ f, ((d, b) : Loc nD τ sig) ↦{fullShare} f)) := by
  rw [ownBufs_flat]; unfold scratchAny
  simp only [sep_assoc_eq]

end Storage

/-! ## The operands as the tile's memrefs address them -/

section Tile

variable [FloatOps F] (m : (ℓ : Loc nD τ sig) → Buf (Elt F) ℓ) (d : Dev nD) (L : grid0.Coords)

/-- The tile's memrefs of the four HBM arrays address the TensorCore's arrays: the three inputs at share `q` and the
    worker's rows of the result, spelt through the memrefs. -/
theorem go_raw (q : PosShare TreeShare) (fo : Buf (Elt F) (oLoc d)) :
    (iprop(insAt m d q ∗ outAt d (wL L) fo) : sProp 𝕄)
      = iprop(((xW).view.loc (thrV d L) ↦{q} xT m d) ∗ ((qW).view.loc (thrV d L) ↦{q} m (qLoc d)) ∗ ((pW).view.loc (thrV d L) ↦{q} m (pLoc d))
          ∗ (oLoc d ↦[outSet (wL L)]{fullShare} fo)) := by
  simp only [sep_assoc_eq]

/-- The tile's resources, grouped as the launch hands them over: the task's operands, the scratch, the semaphores, the debt. -/
theorem tileRaw_eq (O : CellTallies nD τ sig (HIx 1)) (W : Waits sig (HIx 1)) (q : PosShare TreeShare) (fo : Buf (Elt F) (oLoc d)) :
    (tileRaw m d L O W q fo : sProp 𝕄)
      = iprop((insAt m d q ∗ outAt d (wL L) fo) ∗ scratchAny d L ∗ semsZero d L ∗ owes (thrV d L) O W) := by
  rw [go_raw]; unfold tileRaw
  simp only [sep_assoc_eq]

/-- The task at a tile, in the launch's words: from the task's operands and the tile's scoped storage, the body runs and
    brings the operands back with the worker's rows at the call's result, the storage as it was. -/
theorem tile_body (hb : BranchSpec m d L) (O : CellTallies nD τ sig (HIx 1)) (W : Waits sig (HIx 1)) (hO : ∀ g, O g none = 0) :
    iprop(levAts (K (F := F)).L (K (F := F)).lev ∗ iprop(emp) ∗ goOf m d (cL L) (sL L) (m (oLoc d))
        ∗ scopedBufs (thrV d L) ∗ scopedSems0 (thrV d L) ∗ owes (thrV d L) O W)
      ⊢ wp frame (wpE (defs₀ (F := F)) 𝒱₀ (thrV d L) none) Set.univ (body (F := F) L)
          fun _ => iprop(goOf m d (cL L) (sL L) (scBuf m d) ∗ scopedBufs (thrV d L) ∗ scopedSems0 (thrV d L)
            ∗ ∃ W', ⌜∀ p ∈ W', p ∈ W ∨ p.2 = none⌝ ∗ owes (thrV d L) O W') := by
  rw [(K (F := F)).scopedBufs_V facts d _ _, SparseCore.Cfg.scopedSems0_V (Val := Elt F) d _ _, ownSems0_V, ownBufs_V]
  iintro ⟨#Hlv, -, Hgo, ⟨Hscr, Hbufs⟩, ⟨Hsem, Hsems⟩, HO⟩
  ihave Hmw := ((K (F := F)).mayWaits_none (thr := thrV d L) hO) $$ Hlv
  iapply (wp_wand_r Idealize.ShloMosaic.frame (wpE (defs₀ (F := F)) 𝒱₀ (thrV d L) none) Set.univ)
  isplitl [Hmw Hgo Hscr Hsem HO]
  · iapply (hb O W (shT (cL L) (sL L)))
    isplitl [Hmw]; · iexact Hmw
    rw [tileRaw_eq]
    isplitl [Hgo]; · iexact Hgo
    isplitl [Hscr]; · iexact Hscr
    isplitl [Hsem]; · iexact Hsem
    iexact HO
  iintro %_ ⟨%W', %hW', Hraw⟩
  ihave Hraw' := (Entails.of_eq (tileRaw_eq m d L O W' (shT (cL L) (sL L)) (scBuf m d))) $$ Hraw
  icases Hraw' with ⟨Hgo, Hscr, Hsem, HO⟩
  isplitl [Hgo]; · iexact Hgo
  isplitl [Hscr Hbufs]
  · isplitl [Hscr]; · iexact Hscr
    iexact Hbufs
  isplitl [Hsem Hsems]
  · isplitl [Hsem]; · iexact Hsem
    iexact Hsems
  iexists W'; isplitr
  · ipureintro; exact hW'
  iexact HO

end Tile

/-! ## The launch theorem's obligation -/

/-- Grid coordinates from a SparseCore and a tile of the call's grid. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] (m : (ℓ : Loc nD τ sig) → Buf (Elt F) ℓ)

/-- The body table's row for a tile: the kernel's body at the tile's coordinates, on the whole arrays and the tile's scratch. -/
theorem defs₀_vector (c : Fin τ.nSC) (s : Fin τ.nSub) :
    defs₀ (F := F) (.scVector c s) 0 ⟨⟩ = SparseCore.onTile hcore0 hsub0 (fun c s => body (F := F) (coordsV c s)) ⟨⟩ c s := rfl

/-- A wait list that grew only by the kernel's own waits grew only by waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call's grid meets its obligation to the launch, given the body's cases. -/
theorem tileObl (hbody : ∀ (d : Dev nD) (L : grid0.Coords), BranchSpec m d L) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (hbody d _) O W hO).trans (wp_mono frame _ _ fun _ => obl_post)

end Cert.KB

end
-- ==== Proof.MainKB.lean ====
/-
  @main on the TensorCore, and the program's run. @main transposes the features to position-major,
  hands the SparseCores their part (batch entries 56..63 into their own array), runs the
  TensorCore's pipelined kernel over batch entries 0..55, writes the SparseCores' piece into the
  result at batch offset 56, and transposes back. Each stage's array is a pure function of the
  three arguments; the last is `Spec.G`.
-/
import proofs.«207362_g47132971107233_retrytranche2_1164_24_alg».proof.Proof.SetupKB
import proofs.«207362_g47132971107233_retrytranche2_1164_24_alg».proof.Proof.PayKB
import proofs.«207362_g47132971107233_retrytranche2_1164_24_alg».proof.Proof.RegionKB
import proofs.«207362_g47132971107233_retrytranche2_1164_24_alg».proof.Proof.SplitKB
import proofs.«207362_g47132971107233_retrytranche2_1164_24_alg».proof.Proof.HostTail
import proofs.«207362_g47132971107233_retrytranche2_1164_24_alg».proof.Proof.TileOblKB

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's host operations -/

abbrev opT0 : HloOp τ sig (Elt F) :=
  StableHlo.unary main_arg0 main_v0 ((transpose S196x64x768 [1, 0, 2] · transposes_S64x196x768_S196x64x768_1_0_2) : (⟨S64x196x768, .f32⟩ : BufTy).Contents (Elt F) → (⟨S196x64x768, .f32⟩ : BufTy).Contents (Elt F))
abbrev opC0 : HloOp τ sig (Elt F) := StableHlo.nullary main_c (constantI S_ 32 0#32)
abbrev opC1 : HloOp τ sig (Elt F) := StableHlo.nullary main_c_0 (constantI S_ 32 56#32)
abbrev opC2 : HloOp τ sig (Elt F) := StableHlo.nullary main_c_1 (constantI S_ 32 0#32)
abbrev opDus : HloOp τ sig (Elt F) :=
  StableHlo.binaryIndexed main_v2 main_v1 ![main_c, main_c_0, main_c_1] ⟨S_, .i32⟩ main_v3 ((fun x u i => Host.dynamicUpdateSlice x u (fun k => (i k (Shape.Idx.first h_S_)).toInt) updateFits_S197x64x768_S197x8x768) : (⟨S197x64x768, .f32⟩ : BufTy).Contents (Elt F) → (⟨S197x8x768, .f32⟩ : BufTy).Contents (Elt F) → (Fin 3 → (⟨S_, .i32⟩ : BufTy).Contents (Elt F)) → (⟨S197x64x768, .f32⟩ : BufTy).Contents (Elt F))
abbrev opT1 : HloOp τ sig (Elt F) :=
  StableHlo.unary main_v3 main_v4 ((transpose S64x197x768 [1, 0, 2] · transposes_S197x64x768_S64x197x768_1_0_2) : (⟨S197x64x768, .f32⟩ : BufTy).Contents (Elt F) → (⟨S64x197x768, .f32⟩ : BufTy).Contents (Elt F))
abbrev tailOps : List (HloOp τ sig (Elt F)) := [opC0, opC1, opC2, opDus, opT1]

theorem main_eq (d : Dev nD) :
    main (F := F) d = (hlo rfl opT0 (fun _ => .ret PUnit.unit) >>= fun _ => (K (F := F)).run d 0 >>= fun _ =>
      Prog.lift (.customCall (SparseCore.inner (Pipeline.entry 0)) ()) >>= fun _ => (StableHlo.seq tailOps >>= fun _ => .ret PUnit.unit)) := rfl

/-! ## The arrays' contents, stage by stage -/

abbrev ucRefs : Finset (DevRef τ sig) := (StableHlo.tcRefs τ sig).filter fun b => ¬ b.isScoped

omit [FloatOps F] in
theorem unscopedBufs_held (d : Dev nD) (W : Valuation τ sig (Elt F)) :
    (unscopedBufs d (fun b => W b) : sProp 𝕄) = held (T d) ucRefs W := by
  unfold unscopedBufs held ucRefs StableHlo.tcRefs
  rw [Finset.filter_map, bigSep_map]
  rfl

abbrev f' : DevRef τ sig := Proc.devRef .tc (main_arg0 : Ref sig .tc)
abbrev q' : DevRef τ sig := Proc.devRef .tc (main_arg1 : Ref sig .tc)
abbrev p' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev t' : DevRef τ sig := Proc.devRef .tc (main_v2 : Ref sig .tc)
abbrev r' : DevRef τ sig := Proc.devRef .tc (main_v4 : Ref sig .tc)

/-- At launch; after the transpose; after the SparseCore call; after the TensorCore kernel; at the end. -/
def V0 (d : Dev nD) : Valuation τ sig (Elt F) := fun b => m (d, b)
def V1 (d : Dev nD) : Valuation τ sig (Elt F) := (opT0 (F := F)).result (V0 m d)
def V2 (d : Dev nD) : Valuation τ sig (Elt F) := Function.update (V1 m d) o' (scBuf m d)
abbrev tLoc (d : Dev nD) : Loc nD τ sig := (SparseCore.T d).loc main_v2
abbrev rLoc (d : Dev nD) : Loc nD τ sig := (SparseCore.T d).loc main_v4
def tcBuf (d : Dev nD) : Buf (Elt F) (tLoc d) :=
  Cert.Spec.tcOut (Cert.Spec.addF F) (xT m d) (m (qLoc d)) (m (pLoc d)) (m (tLoc d))
def V3 (d : Dev nD) : Valuation τ sig (Elt F) := Function.update (V2 m d) t' (tcBuf m d)
def V4 (d : Dev nD) : Valuation τ sig (Elt F) := StableHlo.after tailOps (V3 m d)

theorem V1_x (d : Dev nD) : V1 m d x' = xT m d := StableHlo.unary_result' _ _ _ _
theorem V1_ne (d : Dev nD) {r : Ref sig .tc} (h : r ≠ main_v0) : V1 m d (Proc.devRef .tc r) = V0 m d (Proc.devRef .tc r) :=
  StableHlo.unary_result_ne' _ _ _ _ h

/-! ## @main -/

/-- An operation's buffers are arrays of the TensorCore that no region scopes. -/
theorem sub_uc (op : HloOp τ sig (Elt F)) (h : op.bufs ⊆ StableHlo.tcRefs τ sig) : op.bufs ⊆ ucRefs :=
  fun b hb => Finset.mem_filter.mpr ⟨h hb, by rw [op.no_scoped b hb]; exact Bool.false_ne_true⟩

theorem htail_sub : ∀ op ∈ (tailOps (F := F)), op.bufs ⊆ ucRefs := by
  intro op hop
  simp only [List.mem_cons, List.not_mem_nil, or_false] at hop
  rcases hop with rfl | rfl | rfl | rfl | rfl
  · exact sub_uc _ (StableHlo.nullary_bufs_sub ..)
  · exact sub_uc _ (StableHlo.nullary_bufs_sub ..)
  · exact sub_uc _ (StableHlo.nullary_bufs_sub ..)
  · exact sub_uc _ (StableHlo.binaryIndexed_bufs_sub ..)
  · exact sub_uc _ (StableHlo.unary_bufs_sub ..)

theorem htail_fresh : ∀ op ∈ (tailOps (F := F)), op.fresh = ∅ := by
  intro op hop
  simp only [List.mem_cons, List.not_mem_nil, or_false] at hop
  rcases hop with rfl | rfl | rfl | rfl | rfl <;> rfl

theorem hT0 : (opT0 (F := F)).bufs ⊆ ucRefs := show ({f', x'} : Finset (DevRef τ sig)) ⊆ ucRefs by decide

abbrev four : Finset (DevRef τ sig) := {x', q', p', o'}
theorem hfour : four ⊆ ucRefs := by decide

omit [FloatOps F] in
theorem held_four (d : Dev nD) (W : Valuation τ sig (Elt F)) :
    (held (T d) four W : sProp 𝕄) = iprop((xLoc d ↦{fullShare} W x') ∗ (qLoc d ↦{fullShare} W q') ∗ (pLoc d ↦{fullShare} W p') ∗ (oLoc d ↦{fullShare} W o')) := by
  unfold held four
  rw [SparseCore.bigSep_insert' (by decide), SparseCore.bigSep_insert' (by decide), SparseCore.bigSep_insert' (by decide), bigSep_singleton]

/-- After the transpose: the four arrays of the SparseCore call, and the rest. -/
theorem held_V1 (d : Dev nD) :
    (held (SparseCore.T d) ucRefs ((opT0 (F := F)).result (V0 m d)) : sProp 𝕄)
      = iprop(((xLoc d ↦{fullShare} xT m d) ∗ (qLoc d ↦{fullShare} m (qLoc d)) ∗ (pLoc d ↦{fullShare} m (pLoc d)) ∗ (oLoc d ↦{fullShare} m (oLoc d))) ∗ held (SparseCore.T d) (ucRefs \ four) (V1 m d)) := by
  rw [show (held (SparseCore.T d) ucRefs ((opT0 (F := F)).result (V0 m d)) : sProp 𝕄) = held (T d) ucRefs (V1 m d) from rfl,
    held_sub_split (SparseCore.T d) hfour (V1 m d), held_four,
    V1_x, V1_ne m d (r := main_arg1) (by decide), V1_ne m d (r := main_arg2) (by decide), V1_ne m d (r := main_v1) (by decide)]
  rfl

theorem V2_o (d : Dev nD) : V2 m d o' = scBuf m d := Function.update_self _ _ _
theorem V2_ne (d : Dev nD) {b : DevRef τ sig} (h : b ≠ o') : V2 m d b = V1 m d b := Function.update_of_ne h _ _
theorem V3_t (d : Dev nD) : V3 m d t' = tcBuf m d := Function.update_self _ _ _
theorem V3_ne (d : Dev nD) {b : DevRef τ sig} (h : b ≠ t') : V3 m d b = V2 m d b := Function.update_of_ne h _ _

/-- After the SparseCore call: the four arrays back, the call's result at `scBuf`. -/
theorem held_V2 (d : Dev nD) :
    (held (SparseCore.T d) ucRefs (V2 m d) : sProp 𝕄)
      = iprop(((xLoc d ↦{fullShare} xT m d) ∗ (qLoc d ↦{fullShare} m (qLoc d)) ∗ (pLoc d ↦{fullShare} m (pLoc d)) ∗ (oLoc d ↦{fullShare} scBuf m d)) ∗ held (SparseCore.T d) (ucRefs \ four) (V1 m d)) := by
  rw [held_sub_split (SparseCore.T d) hfour (V2 m d), held_four,
    V2_o, V2_ne m d (b := x') (by decide), V2_ne m d (b := q') (by decide), V2_ne m d (b := p') (by decide),
    V1_x, V1_ne m d (r := main_arg1) (by decide), V1_ne m d (r := main_arg2) (by decide),
    held_congr (SparseCore.T d) (S := ucRefs \ four) (V := V2 m d) (V' := V1 m d) fun b hb => V2_ne m d fun e => by
      subst e; exact absurd hb (by decide)]
  rfl

/-- The arrays as the TensorCore kernel's region finds them and leaves them. -/
abbrev Vreg (c : Dev nD) (b : Ref sig .tc) : Buf (Elt F) ((c : Thread nD τ).loc b) := V2 m c b
abbrev Vpreg (c : Dev nD) (b : Ref sig .tc) : Buf (Elt F) ((c : Thread nD τ).loc b) := V3 m c b

theorem hVp_out (c : Dev nD) :
    Vpreg m c main_v2 = (Region.dat (Name := ℕ) (U := UU) (Lvl := ℕ) (Vreg m) (Set.univ : Set (SemLoc sig × HIx 1)) c).arrAt 3 cfg1.N := by
  rw [Region.arrAt_out]
  show V3 m c t' = Cert.Spec.tcOut (Cert.Spec.addF F) (V2 m c x') (V2 m c q') (V2 m c p') (V2 m c t')
  rw [V3_t, V2_ne m c (b := x') (by decide), V2_ne m c (b := q') (by decide), V2_ne m c (b := p') (by decide), V2_ne m c (b := t') (by decide),
    V1_x, V1_ne m c (r := main_arg1) (by decide), V1_ne m c (r := main_arg2) (by decide), V1_ne m c (r := main_v2) (by decide)]
  rfl

theorem hVp_ne (c : Dev nD) (b : Ref sig .tc) (h : b ≠ main_v2) : Vpreg m c b = Vreg m c b :=
  V3_ne m c (StableHlo.devRef_ne_of_ne h)

/-- The TensorCore kernel's region over the thread state "every array at its contents, the core's `owes`". -/
def theReg : Pipeline.RegionSeg (pcfgs (F := F)) adm (Region.pdats (Name := ℕ) (U := UU) (Lvl := ℕ) (Vreg m) (Set.univ : Set (SemLoc sig × HIx 1)) adm)
    (none : HIx 1) defs₀ Variants.none (K (F := F)).L (K (F := F)).lev 0 :=
  Region.reg (Vreg m) Set.univ adm none (K (F := F)).L (K (F := F)).lev (fun _ => iprop(emp)) (Vpreg m) (hVp_out m) (hVp_ne m)

theorem theReg_pre (d : Dev nD) : (theReg m).pre d
    = iprop(unscopedBufs d (Vreg m d) ∗ iprop(emp) ∗ Pipeline.owesWithin d (0 : CellTallies nD τ sig (HIx 1)) Set.univ) := rfl
theorem theReg_post (d : Dev nD) : (theReg m).post d
    = iprop(unscopedBufs d (Vpreg m d) ∗ iprop(emp) ∗ Pipeline.owesWithin d (0 : CellTallies nD τ sig (HIx 1)) (Set.univ ∪ cfg1.waitPairs (none : HIx 1))) := rfl

/-- What @main leaves the claim: every array of the TensorCore at its final contents. -/
abbrev FIN (d : Dev nD) : sProp 𝕄 := held (T d) ucRefs (V4 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) ucRefs (V0 m d) from unscopedBufs_held d (V0 m d), main_eq]
  rw [wp_bind, wp_bind, wp_bind]
  iintro ⟨#Hctx, Hst, ⟨Hb, Hheld, Hsems, Hprng⟩, HG⟩
  -- the transpose
  iapply (wp_hlo_within 𝒱 (SparseCore.T d) none Set.univ (op := opT0) (S := ucRefs) hT0 (V := V0 m d)) $$ [Hb Hheld]
  · isplitl [Hb] <;> iassumption
  iintro ⟨Hb, Hheld⟩
  rw [wp_ret]; imodintro
  ihave Hh := (Entails.of_eq (held_V1 m d)) $$ Hheld
  icases Hh with ⟨⟨Hx, Hq, Hp, Ho⟩, Hrest⟩
  ihave Hcall := (call_split m d) $$ [Hx Hq Hp Ho]
  · isplitl [Hx Hq Hp]
    · isplitl [Hx]; · iexact Hx
      isplitl [Hq]; · iexact Hq
      iexact Hp
    · iexact Ho
  icases Hcall with ⟨Hsts, Hrest4⟩
  iapply ((K (F := F)).wp_run (D (F := F)) 𝒱 (EH := EH) (P := P m) κ d 0) $$ [Hst Hsts Hb Hrest Hrest4 Hsems Hprng HG]
  isplitr; · iexact Hctx
  isplitl [Hst]; · iexact Hst
  isplitl [Hsts]; · iexact Hsts
  iintro ⟨Hst, Hdn⟩
  ihave Hj := (call_join m d) $$ [Hdn Hrest4]
  · isplitl [Hdn] <;> iassumption
  icases Hj with ⟨⟨Hx, Hq, Hp⟩, Ho⟩
  ihave Hheld := (Entails.of_eq (held_V2 m d).symm) $$ [Hx Hq Hp Ho Hrest]
  · isplitl [Hx Hq Hp Ho]
    · isplitl [Hx]; · iexact Hx
      isplitl [Hq]; · iexact Hq
      isplitl [Hp]; · iexact Hp
      iexact Ho
    · iexact Hrest
  ihave Hub := (Entails.of_eq (unscopedBufs_held d (V2 m d)).symm) $$ Hheld
  unfold SparseCore.Cfg.tcSt
  icases Hst with ⟨⟨%W, %hW, HO⟩, Hat, Hrd, Hrs, Htoks⟩
  ihave HG' := (Entails.of_eq (G_eq (F := F) d)) $$ HG
  icases HG' with ⟨Hcg, Htk⟩
  ihave Hlev := (SparseCore.Cfg.ctx_levAts κ) $$ Hctx
  iapply ((K (F := F)).wp_liftProg (D (F := F)) 𝒱 (SparseCore.T d) Set.univ none (Prog.lift (.customCall (Pipeline.entry 0) ())) _)
  ihave HO := (Entails.of_eq (show (owes (SparseCore.T d) ((K (F := F)).Otc d ((0 : Fin 1).val + 1)) W : sProp 𝕄) = owes (SparseCore.T d) 0 W from by
    rw [(K (F := F)).Otc_end d (n := (0 : Fin 1).val + 1) (by decide)])) $$ HO
  iapply (Pipeline.RegionSeg.wp (pcfgs (F := F)) adm (Region.pdats (Name := ℕ) (U := UU) (Lvl := ℕ) (Vreg m) Set.univ adm) (none : HIx 1)
    pcs_inj EP defs₀ 𝒱₀ (K (F := F)).L (K (F := F)).lev (theReg m) d none (fun _ h => nomatch h) (fun x => .ret x) _)
  isplitr [Hb Hub HO Hcg Htk]
  · iintro ⟨Hb, Hpost⟩
    ihave Hp := (Entails.of_eq (theReg_post m d)) $$ Hpost
    icases Hp with ⟨Hub, -, ⟨%W', -, HO⟩⟩
    rw [wp_ret]; imodintro
    ihave Hheld := (Entails.of_eq (unscopedBufs_held d (V3 m d))) $$ Hub
    iapply (wp_seq 𝒱 none Set.univ d ucRefs (fun _ => .ret PUnit.unit) tailOps htail_sub htail_fresh (V3 m d)) $$ [Hb Hheld]
    · isplitl [Hb] <;> iassumption
    iintro ⟨Hb, Hheld⟩
    rw [wp_ret]; imodintro
    isplitr [Hheld]
    · isplitl [HO]
      · iexists W'; isplitr
        · ipureintro; intro p _
          show (K (F := F)).lev (SparseCore.T d, p.1) p.2 ≤ 8 * 1
          generalize p.2 = ι
          cases ι with
          | none => exact Nat.zero_le _
          | some q => exact ((K (F := F)).lev_some_le _ q).trans (by have := q.isLt; omega)
        · iapply (Entails.of_eq (show (owes (SparseCore.T d) ((K (F := F)).Otc d 1) W' : sProp 𝕄) = owes (SparseCore.T d) 0 W' from by
            rw [(K (F := F)).Otc_end d (n := 1) le_rfl]).symm)
          iexact HO
      isplitl [Hat]; · iexact Hat
      isplitl [Hrd]; · iexact Hrd
      isplitl [Hrs]; · iexact Hrs
      iexact Htoks
    · iexact Hheld
  isplitl [Hb]; · iexact Hb
  isplitl [Hub HO]
  · iapply (Entails.of_eq (theReg_pre m d).symm)
    isplitl [Hub]; · iexact Hub
    isplitr; · iempintro
    iexists W; isplitr
    · ipureintro; exact Set.subset_univ _
    · iexact HO
  isplitr; · iexact Hlev
  isplitl [Hcg]; · iexact Hcg
  iexact Htk

/-! ## What the final memory holds -/

theorem V4_r (d : Dev nD) : V4 m d r' = Cert.Spec.G (Cert.Spec.addF F) (m (fLoc d)) (m (qLoc d)) (m (pLoc d)) := by
  unfold V4
  after_results
  rw [V3_t, V3_ne m d (b := o') (by decide), V2_o]
  unfold tcBuf scBuf xT
  refine Cert.HostTail.tail_is_G (Cert.Spec.addF F) (m (fLoc d)) (m (qLoc d)) (m (pLoc d)) (m (tLoc d)) _ _ _ _ ?_ ?_ ?_
  · rfl
  · rfl
  · rfl

theorem V4_keep (d : Dev nD) {r : Ref sig .tc} (h0 : r ≠ main_v0) (h1 : r ≠ main_v1) (h2 : r ≠ main_v2) (h3 : r ≠ main_v3) (h4 : r ≠ main_v4)
    (hc : r ≠ main_c) (hc0 : r ≠ main_c_0) (hc1 : r ≠ main_c_1) : V4 m d (Proc.devRef .tc r) = m ((SparseCore.T d).loc r) := by
  unfold V4
  rw [StableHlo.after_of_forall_not_mem]
  · rw [V3_ne m d (StableHlo.devRef_ne_of_ne h2), V2_ne m d (StableHlo.devRef_ne_of_ne h1), V1_ne m d h0]; rfl
  · intro op hop
    simp only [List.mem_cons, List.not_mem_nil, or_false] at hop
    rcases hop with rfl | rfl | rfl | rfl | rfl
    · simpa [StableHlo.nullary_writes] using StableHlo.devRef_ne_of_ne hc
    · simpa [StableHlo.nullary_writes] using StableHlo.devRef_ne_of_ne hc0
    · simpa [StableHlo.nullary_writes] using StableHlo.devRef_ne_of_ne hc1
    · exact fun hm => StableHlo.devRef_ne_of_ne h3 (Finset.mem_singleton.mp hm)
    · simpa [StableHlo.unary_writes] using StableHlo.devRef_ne_of_ne h4

abbrev fin4 : Finset (DevRef τ sig) := {r', f', q', p'}
theorem hfin4 : fin4 ⊆ ucRefs := by decide

omit [FloatOps F] in
theorem held_fin4 (d : Dev nD) (W : Valuation τ sig (Elt F)) :
    (held (T d) fin4 W : sProp 𝕄) = iprop((rLoc d ↦{fullShare} W r') ∗ (fLoc d ↦{fullShare} W f') ∗ (qLoc d ↦{fullShare} W q') ∗ (pLoc d ↦{fullShare} W p')) := by
  unfold held fin4
  rw [SparseCore.bigSep_insert' (by decide), SparseCore.bigSep_insert' (by decide), SparseCore.bigSep_insert' (by decide), bigSep_singleton]

/-- The result and the three arguments, as @main leaves them. -/
theorem FIN_four (d : Dev nD) :
    FIN m d ⊢ iprop((rLoc d ↦{fullShare} Cert.Spec.G (Cert.Spec.addF F) (m (fLoc d)) (m (qLoc d)) (m (pLoc d)))
      ∗ (fLoc d ↦{fullShare} m (fLoc d)) ∗ (qLoc d ↦{fullShare} m (qLoc d)) ∗ (pLoc d ↦{fullShare} m (pLoc d))) := by
  unfold FIN
  rw [held_sub_split (SparseCore.T d) hfin4 (V4 m d), held_fin4, V4_r,
    V4_keep m d (r := main_arg0) (by decide) (by decide) (by decide) (by decide) (by decide) (by decide) (by decide) (by decide),
    V4_keep m d (r := main_arg1) (by decide) (by decide) (by decide) (by decide) (by decide) (by decide) (by decide) (by decide),
    V4_keep m d (r := main_arg2) (by decide) (by decide) (by decide) (by decide) (by decide) (by decide) (by decide) (by decide)]
  exact sep_elim_left

/-- What the claim reads off device `d`'s final memory: the result at `Spec.G` of the arguments, the arguments unchanged. -/
def fq (d : Dev nD) (s' : Phys nD τ sig (Elt F)) : Prop :=
  s'.mem.mem (rLoc d) = Cert.Spec.G (Cert.Spec.addF F) (m (fLoc d)) (m (qLoc d)) (m (pLoc d))
    ∧ s'.mem.mem (fLoc d) = m (fLoc d) ∧ s'.mem.mem (qLoc d) = m (qLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨Hfin, HSI⟩
  ihave H4 := (FIN_four m d) $$ Hfin
  icases H4 with ⟨Hr, Hf, Hq, Hp⟩
  ihave H := (persistent_entails_right (SI_pointsTo_agree (st := s') (ℓ := rLoc d) (I := Finset.univ) (q := fullShare)
      (f := Cert.Spec.G (Cert.Spec.addF F) (m (fLoc d)) (m (qLoc d)) (m (pLoc d))))) $$ [HSI Hr]
  · isplitl [HSI] <;> iassumption
  icases H with ⟨%h1, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h2, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h3, HSI, -⟩
  ihave H := (SI_pointsTo_agree (st := s') (ℓ := pLoc d) (I := Finset.univ) (q := fullShare) (f := m (pLoc d))) $$ [HSI Hp]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (rLoc c) = Cert.Spec.G (Cert.Spec.addF F) (m (fLoc c)) (m (qLoc c)) (m (pLoc c))
    ∧ r.2.mem (fLoc c) = m (fLoc c) ∧ r.2.mem (qLoc c) = m (qLoc c) ∧ r.2.mem (pLoc c) = m (pLoc c)

/-- Every weakly fair execution of the device's threads terminates, nothing faulting, with the result at `Spec.G` of the
    arguments and the arguments unchanged — given the tile's body in each of its cases. -/
theorem run_main [∀ e, Nonempty (Elt F e)] (hbody : ∀ (d : Dev nD) (L : grid0.Coords), BranchSpec m d L) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (G (F := F)) (FIN m) (u₀ (F := F)) (hu₀ m) (hmain m ρ) (fq m) (hfin m) (QC m) (fun _ h => h)
    (lv := (K (F := F)).lev)

end Cert.KB

end
-- ==== Proof.TileMainKI.lean ====
/-
  The main case of one tile's task: workers 0..26.

  Worker `w = 2 s + c < 27` owns result rows `7 w + 1 .. 7 w + 7`. It copies sixteen rows of the position table,
  from the aligned row `a0 = 8 ((7 w + 1) / 8)`, into one scratch, and its seven feature rows `7 w .. 7 w + 6`
  (batch entries 56..63) into another; row `r` of the features needs position row `7 w + 1 + r = a0 + widx + r`
  with `widx = (7 w + 1) mod 8`. Then 48 trips: trip `k` adds, for every scratch row `r` and batch entry `b`,
  the sixteen columns `16 k .. 16 k + 15` of position row `widx + r` to the same columns of the features — 56
  stores, pairwise disjoint, each reading what was copied in. So before trip `k` the feature scratch is ONE function
  `bufK k` of the two copied blocks: columns below `16 k` are sums, the rest as copied. After trip 48 every column is
  a sum, and the scratch, copied to the worker's rows, is the specification `Spec.scOut` there: the same addition
  with the same operands in the same order, so only indices are compared.
-/
import proofs.«207362_g47132971107233_retrytranche2_1164_24_alg».proof.Proof.TileDefsKI
import Idealize.ShloMosaic.Lib.Pipeline.Value
import Idealize.ShloMosaic.Lib.Writes
import Idealize.ShloMosaic.Lib.ValueIdx

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace TileMain

/-! ## The worker's slices, as the body spells them -/

/-- The worker's rows of the result. -/
abbrev outSl (L : grid0.Coords) (h : k0_cond1 L = 1#1) : Memref sig .scVector .hbm S7x8x768 .f32 :=
  (oW).slice (Rect.unit (s := S197x8x768) (k0_off60 L) S7x8x768.size (k0_off60_inb L h)) (fun _ => rfl)
/-- The worker's seven feature rows, batch entries 56..63. -/
abbrev inSl (L : grid0.Coords) (h : k0_cond1 L = 1#1) : Memref sig .scVector .hbm S7x8x768 .f32 :=
  (xW).slice (Rect.unit (s := S196x64x768) (k0_off2 L) S7x8x768.size (k0_off2_inb L h)) (fun _ => rfl)
/-- Sixteen rows of the position table from the aligned row below the worker's first. -/
abbrev pwSl (L : grid0.Coords) (h : k0_cond1 L = 1#1) : Memref sig .scVector .hbm S16x768 .f32 :=
  (pW).slice (Rect.unit (s := S197x768) (k0_off1 L) S16x768.size (k0_off1_inb L h)) (fun _ => rfl)

set_option Elab.async false in
theorem cond1_lt : ∀ L : grid0.Coords, k0_cond1 L = 1#1 → 2 * (L 1).val + (L 0).val < 27 := by decide +kernel

theorem outRect_main (L : grid0.Coords) (h : k0_cond1 L = 1#1) :
    Rect.unit (s := S197x8x768) (k0_off60 L) S7x8x768.size (k0_off60_inb L h) = outRect (wL L) := by
  have hw : 2 * (L 1).val + (L 0).val < 27 := cond1_lt L h
  have hv : (wL L).val = 2 * (L 1).val + (L 0).val := rfl
  unfold outRect
  congr 1
  · rw [k0_off60_eq]; unfold outOff; rw [if_pos (by omega), hv]
    funext a
    match a with
    | 0 => show 14 * (L 1).val + 7 * (L 0).val + 1 = 7 * (2 * (L 1).val + (L 0).val) + 1; omega
    | 1 => rfl
    | 2 => rfl
  · unfold outSize; rw [if_pos (by omega)]

theorem set_outSl (L : grid0.Coords) (h : k0_cond1 L = 1#1) : (outSl L h).view.set = outSet (wL L) := by
  show ((oW).view.slice (Rect.unit (s := S197x8x768) (k0_off60 L) S7x8x768.size (k0_off60_inb L h))).set = ((oW).view.slice (outRect (wL L))).set
  rw [outRect_main L h]

set_option Elab.async false in
theorem k0_off3_eq : ∀ (i : grid0.Coords) (k0_t1 : Fin k0_t1_loop.trips), k0_cond1 i = 1#1 → ∀ (r : Fin 7),
    k0_off3 i k0_t1 (BitVec.ofNat 32 r.val) = ![(14 * (i 1).val + 7 * (i 0).val + 1) % 8 + r.val, 16 * k0_t1.val] := by decide +kernel
set_option Elab.async false in
theorem trips1 : k0_t1_loop.trips = 48 := by decide +kernel

/-- The row of the 16-row position scratch that holds the worker's first position row. -/
abbrev wix (L : grid0.Coords) : Nat := (14 * (L 1).val + 7 * (L 0).val + 1) % 8

/-! ## One store's payload -/

section Pay
variable [FloatOps F]

/-- The value every store of a trip writes: sixteen lanes of the feature scratch plus sixteen lanes of one row of the
    position scratch. -/
def payF (g0 : S7x8x768.Idx → F .f32) (g2 : S16x768.Idx → F .f32) (offA : Fin 3 → Nat) (inbA : ∀ a, offA a + S1x1x16.size a ≤ S7x8x768.size a)
    (offP : Fin 2 → Nat) (inbP : ∀ a, offP a + S1x16.size a ≤ S16x768.size a) : FVec F S1x1x16 .f32 :=
  shapeCast S1x1x16 (addf (shapeCast S16 (View.readAt (Elt F) (bA).view (Rect.unit (s := S7x8x768) offA S1x1x16.size inbA).toLoadRect g0) shapeCasts_S1x1x16_S16)
    (shapeCast S16 (View.readAt (Elt F) (bPw).view (Rect.unit (s := S16x768) offP S1x16.size inbP).toLoadRect g2) shapeCasts_S1x16_S16)) shapeCasts_S16_S1x1x16

theorem payF_apply (g0 : S7x8x768.Idx → F .f32) (g2 : S16x768.Idx → F .f32) (offA : Fin 3 → Nat) (inbA : ∀ a, offA a + S1x1x16.size a ≤ S7x8x768.size a)
    (offP : Fin 2 → Nat) (inbP : ∀ a, offP a + S1x16.size a ≤ S16x768.size a) (x : S1x1x16.Idx) :
    payF g0 g2 offA inbA offP inbP x
      = FloatOps.addf (g0 ((Rect.unit (s := S7x8x768) offA S1x1x16.size inbA).emb x))
          (g2 ((Rect.unit (s := S16x768) offP S1x16.size inbP).emb (ValueIdx.ix2 (0 : Fin 1) (⟨(x 2).val, (x 2).isLt⟩ : Fin 16)))) := by
  have h0 : (x 0).val = 0 := by have : (x 0).val < 1 := (x 0).isLt; omega
  have h1 : (x 1).val = 0 := by have : (x 1).val < 1 := (x 1).isLt; omega
  unfold payF
  refine (shapeCast_apply _ _ x (ValueIdx.ix1 (⟨(x 2).val, (x 2).isLt⟩ : Fin 16)) ?_).trans ?_
  · rw [Shape.rowMajor_val_one, Shape.rowMajor_val_three, h0, h1]; simp
  show FloatOps.addf (shapeCast S16 _ _ (ValueIdx.ix1 (⟨(x 2).val, (x 2).isLt⟩ : Fin 16))) (shapeCast S16 _ _ (ValueIdx.ix1 (⟨(x 2).val, (x 2).isLt⟩ : Fin 16))) = _
  refine congrArg₂ FloatOps.addf ((shapeCast_apply _ _ _ x ?_).trans rfl) ((shapeCast_apply _ _ _ (ValueIdx.ix2 (0 : Fin 1) (⟨(x 2).val, (x 2).isLt⟩ : Fin 16)) ?_).trans rfl)
  · rw [Shape.rowMajor_val_one, Shape.rowMajor_val_three, h0, h1]; simp
  · rw [Shape.rowMajor_val_one, Shape.rowMajor_val_two]; simp

end Pay

/-! ## The scratch contents along the loop -/

section Val
variable [FloatOps F]
variable (m : (ℓ : Loc nD τ sig) → Buf (Elt F) ℓ) (d : Dev nD) (L : grid0.Coords) (h : k0_cond1 L = 1#1)

/-- What the copy-in leaves in the feature scratch: the worker's seven rows, batch entries 56..63. -/
def A0 : S7x8x768.Idx → F .f32 := (inSl L h).view.read (Elt F) (xT m d)
/-- What the copy-in leaves in the position scratch: sixteen rows of the table. -/
def P0 : S16x768.Idx → F .f32 := (pwSl L h).view.read (Elt F) (m (pLoc d))

theorem wix_add_lt (i : S7x8x768.Idx) : wix L + (i 0).val < 16 := by
  have : (i 0).val < 7 := (i 0).isLt
  have : wix L < 8 := Nat.mod_lt _ (by decide)
  omega

/-- The feature scratch before trip `k`: the columns below `16 k` have had their position row added. -/
def bufK (k : Nat) : S7x8x768.Idx → F .f32 := fun i =>
  if (i 2).val < 16 * k then
    Cert.Spec.addF F (A0 m d L h i) (P0 m d L h (ValueIdx.ix2 (⟨wix L + (i 0).val, wix_add_lt L i⟩ : Fin 16) (⟨(i 2).val, (i 2).isLt⟩ : Fin 768)))
  else A0 m d L h i

end Val

/-! ## One trip: 56 stores, one per scratch row and batch entry -/

section Trip
variable [FloatOps F]
variable (m : (ℓ : Loc nD τ sig) → Buf (Elt F) ℓ) (d : Dev nD) (L : grid0.Coords) (h : k0_cond1 L = 1#1)

/-- The offsets of a trip's 56 stores, by scratch row and batch entry. -/
def offAt (k : Fin k0_t1_loop.trips) (r : Fin 7) (b : Fin 8) : Fin 3 → Nat :=
  (![![k0_off4 k, k0_off5 k, k0_off6 k, k0_off7 k, k0_off8 k, k0_off9 k, k0_off10 k, k0_off11 k],
     ![k0_off12 k, k0_off13 k, k0_off14 k, k0_off15 k, k0_off16 k, k0_off17 k, k0_off18 k, k0_off19 k],
     ![k0_off20 k, k0_off21 k, k0_off22 k, k0_off23 k, k0_off24 k, k0_off25 k, k0_off26 k, k0_off27 k],
     ![k0_off28 k, k0_off29 k, k0_off30 k, k0_off31 k, k0_off32 k, k0_off33 k, k0_off34 k, k0_off35 k],
     ![k0_off36 k, k0_off37 k, k0_off38 k, k0_off39 k, k0_off40 k, k0_off41 k, k0_off42 k, k0_off43 k],
     ![k0_off44 k, k0_off45 k, k0_off46 k, k0_off47 k, k0_off48 k, k0_off49 k, k0_off50 k, k0_off51 k],
     ![k0_off52 k, k0_off53 k, k0_off54 k, k0_off55 k, k0_off56 k, k0_off57 k, k0_off58 k, k0_off59 k]] r) b

theorem offAt_eq (k : Fin k0_t1_loop.trips) (r : Fin 7) (b : Fin 8) : offAt k r b = ![r.val, b.val, 16 * k.val] := by
  fin_cases r <;> fin_cases b
  · exact k0_off4_eq k
  · exact k0_off5_eq k
  · exact k0_off6_eq k
  · exact k0_off7_eq k
  · exact k0_off8_eq k
  · exact k0_off9_eq k
  · exact k0_off10_eq k
  · exact k0_off11_eq k
  · exact k0_off12_eq k
  · exact k0_off13_eq k
  · exact k0_off14_eq k
  · exact k0_off15_eq k
  · exact k0_off16_eq k
  · exact k0_off17_eq k
  · exact k0_off18_eq k
  · exact k0_off19_eq k
  · exact k0_off20_eq k
  · exact k0_off21_eq k
  · exact k0_off22_eq k
  · exact k0_off23_eq k
  · exact k0_off24_eq k
  · exact k0_off25_eq k
  · exact k0_off26_eq k
  · exact k0_off27_eq k
  · exact k0_off28_eq k
  · exact k0_off29_eq k
  · exact k0_off30_eq k
  · exact k0_off31_eq k
  · exact k0_off32_eq k
  · exact k0_off33_eq k
  · exact k0_off34_eq k
  · exact k0_off35_eq k
  · exact k0_off36_eq k
  · exact k0_off37_eq k
  · exact k0_off38_eq k
  · exact k0_off39_eq k
  · exact k0_off40_eq k
  · exact k0_off41_eq k
  · exact k0_off42_eq k
  · exact k0_off43_eq k
  · exact k0_off44_eq k
  · exact k0_off45_eq k
  · exact k0_off46_eq k
  · exact k0_off47_eq k
  · exact k0_off48_eq k
  · exact k0_off49_eq k
  · exact k0_off50_eq k
  · exact k0_off51_eq k
  · exact k0_off52_eq k
  · exact k0_off53_eq k
  · exact k0_off54_eq k
  · exact k0_off55_eq k
  · exact k0_off56_eq k
  · exact k0_off57_eq k
  · exact k0_off58_eq k
  · exact k0_off59_eq k

theorem offAt_inb (k : Fin k0_t1_loop.trips) (r : Fin 7) (b : Fin 8) : ∀ a, offAt k r b a + S1x1x16.size a ≤ S7x8x768.size a := by
  rw [offAt_eq]; intro a
  have hk : k.val < 48 := lt_of_lt_of_eq k.isLt trips1
  have := r.isLt; have := b.isLt
  match a with
  | 0 => show r.val + 1 ≤ 7; omega
  | 1 => show b.val + 1 ≤ 8; omega
  | 2 => show 16 * k.val + 16 ≤ 768; omega

/-- The store of scratch row `rb.1`, batch entry `rb.2`, over scratch contents `g0` and position rows `g2`. -/
def piece (g0 : S7x8x768.Idx → F .f32) (g2 : S16x768.Idx → F .f32) (k : Fin k0_t1_loop.trips) (rb : Fin 7 × Fin 8) : View.Piece (Elt F) S7x8x768 .f32 :=
  ⟨Rect.unit (s := S7x8x768) (offAt k rb.1 rb.2) S1x1x16.size (offAt_inb k rb.1 rb.2),
   payF g0 g2 (offAt k rb.1 rb.2) (offAt_inb k rb.1 rb.2) (k0_off3 L k (BitVec.ofNat 32 rb.1.val)) (k0_off3_inb L k h rb.1)⟩

theorem piece_fst (g0 : S7x8x768.Idx → F .f32) (g2 : S16x768.Idx → F .f32) (k : Fin k0_t1_loop.trips) (rb : Fin 7 × Fin 8) :
    (piece L h g0 g2 k rb).1 = Rect.unit (s := S7x8x768) (offAt k rb.1 rb.2) S1x1x16.size (offAt_inb k rb.1 rb.2) := rfl

/-- The stores in the order the trip leaves them: the last store first. -/
def storeOrder : List (Fin 7 × Fin 8) := [(6, 7), (6, 6), (6, 5), (6, 4), (6, 3), (6, 2), (6, 1), (6, 0), (5, 7), (5, 6), (5, 5), (5, 4), (5, 3), (5, 2), (5, 1), (5, 0), (4, 7), (4, 6), (4, 5), (4, 4), (4, 3), (4, 2), (4, 1), (4, 0), (3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)]
theorem mem_storeOrder : ∀ rb : Fin 7 × Fin 8, rb ∈ storeOrder := by decide

def listK (g0 : S7x8x768.Idx → F .f32) (g2 : S16x768.Idx → F .f32) (k : Fin k0_t1_loop.trips) : List (View.Piece (Elt F) S7x8x768 .f32) :=
  storeOrder.map (piece L h g0 g2 k)

theorem piece_ok (k : Fin k0_t1_loop.trips) (rb : Fin 7 × Fin 8) (x : S1x1x16.Idx) :
    payF (bufK m d L h k.val) (P0 m d L h) (offAt k rb.1 rb.2) (offAt_inb k rb.1 rb.2) (k0_off3 L k (BitVec.ofNat 32 rb.1.val)) (k0_off3_inb L k h rb.1) x
      = bufK m d L h (k.val + 1) ((Rect.unit (s := S7x8x768) (offAt k rb.1 rb.2) S1x1x16.size (offAt_inb k rb.1 rb.2)).emb x) := by
  rw [payF_apply]
  have h0 : (x 0).val = 0 := by have : (x 0).val < 1 := (x 0).isLt; omega
  have hx2 : (x 2).val < 16 := (x 2).isLt
  have y0 : (((Rect.unit (s := S7x8x768) (offAt k rb.1 rb.2) S1x1x16.size (offAt_inb k rb.1 rb.2)).emb x) 0).val = rb.1.val := by
    show offAt k rb.1 rb.2 0 + 1 * (x 0).val = _
    rw [offAt_eq, h0]; simp
  have y2 : (((Rect.unit (s := S7x8x768) (offAt k rb.1 rb.2) S1x1x16.size (offAt_inb k rb.1 rb.2)).emb x) 2).val = 16 * k.val + (x 2).val := by
    show offAt k rb.1 rb.2 2 + 1 * (x 2).val = _
    rw [offAt_eq]; simp
  unfold bufK
  rw [if_neg (by rw [y2]; omega), if_pos (by rw [y2]; omega)]
  show FloatOps.addf _ _ = FloatOps.addf _ _
  congr 2
  funext a
  match a with
  | ⟨0, _⟩ =>
    apply Fin.ext
    show k0_off3 L k (BitVec.ofNat 32 rb.1.val) 0 + 1 * 0 = wix L + _
    rw [k0_off3_eq L k h rb.1, y0]; simp
  | ⟨1, _⟩ =>
    apply Fin.ext
    show k0_off3 L k (BitVec.ofNat 32 rb.1.val) 1 + 1 * (x 2).val = _
    rw [k0_off3_eq L k h rb.1, y2]; simp

theorem trip_eq (k : Fin k0_t1_loop.trips) :
    (bA).view.writes (Elt F) (bufK m d L h k.val) (listK L h (bufK m d L h k.val) (P0 m d L h) k) = bufK m d L h (k.val + 1) := by
  suffices key : ∀ i : S7x8x768.Idx, (bA).view.read (Elt F) ((bA).view.writes (Elt F) (bufK m d L h k.val) (listK L h (bufK m d L h k.val) (P0 m d L h) k)) i
      = bufK m d L h (k.val + 1) i from funext key
  intro i
  by_cases hc : 16 * k.val ≤ (i 2).val ∧ (i 2).val < 16 * k.val + 16
  · refine View.read_writes_apply_of_pieces _ _ (bufK m d L h (k.val + 1)) _ ?_ i
      ⟨piece L h _ _ k ((⟨(i 0).val, (i 0).isLt⟩ : Fin 7), (⟨(i 1).val, (i 1).isLt⟩ : Fin 8)), List.mem_map_of_mem (mem_storeOrder _), ?_⟩
    · intro p hp x
      obtain ⟨rb, -, rfl⟩ := List.mem_map.1 hp
      exact piece_ok m d L h k rb x
    · rw [piece_fst, Rect.mem_set_unit]
      intro a
      rw [offAt_eq]
      match a with
      | 0 => exact ⟨le_refl _, Nat.lt_succ_self _⟩
      | 1 => exact ⟨le_refl _, Nat.lt_succ_self _⟩
      | 2 => exact ⟨hc.1, hc.2⟩
  · rw [View.read_writes_apply_of_forall_not_mem _ _ i _ ?_]
    · show bufK m d L h k.val i = bufK m d L h (k.val + 1) i
      unfold bufK
      by_cases hlt : (i 2).val < 16 * k.val
      · rw [if_pos hlt, if_pos (by omega)]
      · rw [if_neg hlt, if_neg (by omega)]
    · intro p hp
      obtain ⟨rb, -, rfl⟩ := List.mem_map.1 hp
      intro hmem
      rw [piece_fst] at hmem
      have hall := Rect.mem_set_unit.1 hmem 2
      rw [offAt_eq] at hall
      exact hc ⟨hall.1, hall.2⟩

end Trip

/-! ## Before the first trip and after the last -/

section Ends
variable [FloatOps F]
variable (m : (ℓ : Loc nD τ sig) → Buf (Elt F) ℓ) (d : Dev nD) (L : grid0.Coords) (h : k0_cond1 L = 1#1)

theorem base_A (f0 : S7x8x768.Idx → F .f32) : View.write (Elt F) (bA).view f0 (A0 m d L h) Finset.univ = bufK m d L h 0 := by
  refine (View.write_whole_univ (Val := Elt F) cc0_scratch0 f0 (A0 m d L h)).trans ?_
  funext i; unfold bufK; rw [if_neg (by omega)]

theorem base_P (f2 : S16x768.Idx → F .f32) : View.write (Elt F) (bPw).view f2 (P0 m d L h) Finset.univ = P0 m d L h :=
  View.write_whole_univ (Val := Elt F) cc0_scratch2 f2 (P0 m d L h)

/-- One store of a whole block `w` through the worker's slice of the result leaves `w` there. -/
theorem writes_whole_apply (fo : Buf (Elt F) (oLoc d)) (w : S7x8x768.Idx → F .f32) (y : S7x8x768.Idx) :
    (outSl L h).view.writes (Elt F) fo [⟨Rect.whole S7x8x768, (w : (Rect.whole S7x8x768).shape.Idx → Elt F .f32)⟩] ((outSl L h).view.emb y) = w y := by
  have hy : (Rect.whole S7x8x768).emb y = y := by
    funext a; apply Fin.ext
    show 0 + 1 * (y a).val = (y a).val
    omega
  have he : ((outSl L h).view.slice (Rect.whole S7x8x768)).emb y = (outSl L h).view.emb y := by
    show (outSl L h).view.emb ((Rect.whole S7x8x768).emb y) = _
    rw [hy]
  have hrd := View.write_emb_of_mem (v := (outSl L h).view.slice (Rect.whole S7x8x768)) (Val := Elt F) fo w (Finset.mem_univ y)
  rw [he] at hrd
  exact hrd.trans (cast_eq _ _)

/-- After the last trip the scratch, copied to the worker's rows of the result, is the specification there. -/
theorem out_eq (n : Nat) (hn : n = 48) (fo : Buf (Elt F) (oLoc d)) :
    ∀ i ∈ (outSl L h).view.set,
      (outSl L h).view.writes (Elt F) fo [⟨Rect.whole S7x8x768, (bufK m d L h n : (Rect.whole S7x8x768).shape.Idx → Elt F .f32)⟩] i = scBuf m d i := by
  intro i hi
  obtain ⟨y, -, rfl⟩ := Finset.mem_map.mp hi
  refine (writes_whole_apply d L h fo (bufK m d L h n) y).trans ?_
  have hw := cond1_lt L h
  have hy0 : (y 0).val < 7 := (y 0).isLt
  have hy1 : (y 1).val < 8 := (y 1).isLt
  have hy2 : (y 2).val < 768 := (y 2).isLt
  have e0 : (((outSl L h).view.emb y) 0).val = 14 * (L 1).val + 7 * (L 0).val + 1 + (y 0).val := by
    show k0_off60 L 0 + 1 * (y 0).val = _
    rw [k0_off60_eq]; simp
  have e1 : (((outSl L h).view.emb y) 1).val = (y 1).val := by
    show k0_off60 L 1 + 1 * (y 1).val = _
    rw [k0_off60_eq]; simp
  have e2 : (((outSl L h).view.emb y) 2).val = (y 2).val := by
    show k0_off60 L 2 + 1 * (y 2).val = _
    rw [k0_off60_eq]; simp
  unfold bufK scBuf Cert.Spec.scOut Cert.Spec.rowT
  rw [if_pos (by omega), dif_neg (by rw [e0]; omega)]
  congr 1
  · unfold A0
    rw [View.read_apply]
    refine (cast_eq _ _).trans ?_
    congr 1
    funext a
    match a with
    | ⟨0, _⟩ =>
      apply Fin.ext
      show k0_off2 L 0 + 1 * (y 0).val = (((outSl L h).view.emb y) 0).val - 1
      rw [k0_off2_eq, e0]; simp
    | ⟨1, _⟩ =>
      apply Fin.ext
      show k0_off2 L 1 + 1 * (y 1).val = 56 + (((outSl L h).view.emb y) 1).val
      rw [k0_off2_eq, e1]; simp
    | ⟨2, _⟩ =>
      apply Fin.ext
      show k0_off2 L 2 + 1 * (y 2).val = (((outSl L h).view.emb y) 2).val
      rw [k0_off2_eq, e2]; simp
  · unfold P0
    rw [View.read_apply]
    refine (cast_eq _ _).trans ?_
    congr 1
    funext a
    match a with
    | ⟨0, _⟩ =>
      apply Fin.ext
      show k0_off1 L 0 + 1 * (wix L + (y 0).val) = (((outSl L h).view.emb y) 0).val
      rw [k0_off1_eq, e0]; simp
      have := Nat.div_add_mod (14 * (L 1).val + 7 * (L 0).val + 1) 8
      have hwix : wix L = (14 * (L 1).val + 7 * (L 0).val + 1) % 8 := rfl
      omega
    | ⟨1, _⟩ =>
      apply Fin.ext
      show k0_off1 L 1 + 1 * (y 2).val = (((outSl L h).view.emb y) 2).val
      rw [k0_off1_eq, e2]; simp

/-- The same as an equation of assertions: the slice's elements at what the copy leaves are the worker's rows at the specification. -/
theorem out_pts (n : Nat) (hn : n = 48) (fo : Buf (Elt F) (oLoc d)) :
    ((outSl L h).view.loc (thrV d L) ↦[(outSl L h).view.set]{fullShare}
        (outSl L h).view.writes (Elt F) fo [⟨Rect.whole S7x8x768, (bufK m d L h n : (Rect.whole S7x8x768).shape.Idx → Elt F .f32)⟩] : sProp 𝕄)
      = (oLoc d ↦[outSet (wL L)]{fullShare} scBuf m d) := by
  rw [pointsTo_congr (out_eq m d L h n hn fo), set_outSl]

end Ends

/-! ## The loop's invariant -/

section Inv
variable [FloatOps F]
variable (m : (ℓ : Loc nD τ sig) → Buf (Elt F) ℓ)

/-- The loop's invariant before trip `k`: the feature scratch with the columns below `16 k` done, the position scratch
    as copied in, and what the thread owes (its waits so far all at index `none`). -/
def invM (d : Dev nD) (L : grid0.Coords) (h : k0_cond1 L = 1#1) (O : CellTallies nD τ sig (HIx 1)) (W : Waits sig (HIx 1)) (k : Nat) (_ : BitVec 32) : sProp 𝕄 :=
  iprop(Transfers.MayWaits (thrV d L) (none : HIx 1) O
    ∗ ((bA).view.loc (thrV d L) ↦{fullShare} bufK m d L h k)
    ∗ ((bPw).view.loc (thrV d L) ↦{fullShare} P0 m d L h)
    ∗ ∃ W', ⌜∀ p ∈ W', p ∈ W ∨ p.2 = none⌝ ∗ owes (thrV d L) O W')

end Inv

end TileMain

/-! ## The body's run -/

section Exec
variable [FloatOps F]
variable (m : (ℓ : Loc nD τ sig) → Buf (Elt F) ℓ)

open TileMain in
/-- The main case of the body: from the tile's resources with the worker's rows at their launch contents, the body
    runs and leaves the rows at the specification. -/
theorem branch_main (d : Dev nD) (L : grid0.Coords) (k0_h1 : k0_cond1 L = 1#1) : BranchSpec m d L := by
  have k0_h2 : ¬ k0_cond2 L = 1#1 := (by decide +kernel : ∀ L : grid0.Coords, k0_cond1 L = 1#1 → ¬ k0_cond2 L = 1#1) L k0_h1
  have k0_h3 : ¬ k0_cond3 L = 1#1 := (by decide +kernel : ∀ L : grid0.Coords, k0_cond1 L = 1#1 → ¬ k0_cond3 L = 1#1) L k0_h1
  intro O W q
  unfold tileRaw scratchAny semsZero body
  iintro ⟨Hmw, Hx, Hq, Hp, Ho, ⟨⟨%f0, H0⟩, ⟨%f1, H1⟩, ⟨%f2, H2⟩, ⟨%f3, H3⟩, ⟨%f4, H4⟩, ⟨%f5, H5⟩⟩, ⟨S6, S7, S8, S9, T0, T1, T2, T3, T4⟩, HO⟩
  ihave Ho' := (Entails.of_eq (show (oLoc d ↦[outSet (wL L)]{fullShare} m (oLoc d) : sProp 𝕄) = ((outSl L k0_h1).view.loc (thrV d L) ↦[(outSl L k0_h1).view.set]{fullShare} m (oLoc d)) from by rw [set_outSl])) $$ Ho
  rw [cc0__sc_body_eq_skeleton]; unfold cc0__sc_body_skel
  sl_exec (disch := first | exact View.amount_pos _ _ (by decide) | exact View.dmaCredit_pos _ (by decide))
  sl_for (invM m d L k0_h1 O W) $$ [Hmw H0 H2 HO]
  case region =>
    intro k _
    unfold invM
    iintro ⟨Hmw, H0, H2, %W', %hW', HO⟩
    sl_exec
    sl_step
    isplitl [Hmw]; · iexact Hmw
    isplitl [H0]
    · irw [← trip_eq m d L k0_h1 k]; iexact H0
    isplitl [H2]; · iexact H2
    iexists W'; isplitr
    · ipureintro; exact hW'
    · iexact HO
  · unfold invM
    isplitl [Hmw]; · iexact Hmw
    isplitl [H0]
    · irw [← base_A m d L k0_h1 f0]; iexact H0
    isplitl [H2]
    · irw [← base_P m d L k0_h1 f2]; iexact H2
    iexists (insert (SemLoc.dma cc0_scratch6.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %acc HI
  unfold invM
  icases HI with ⟨Hmw, H0, H2, %W', %hW', HO⟩
  sl_exec (disch := first | exact View.amount_pos _ _ (by decide) | exact View.dmaCredit_pos _ (by decide))
  sl_step
  iexists (insert (SemLoc.dma cc0_scratch8.sem, (default : HIx 1)) W'); isplitr
  · ipureintro; intro p hp
    rcases Finset.mem_insert.mp hp with hp | hp
    · exact .inr (hp ▸ rfl)
    · exact hW' p hp
  isplitl [Hx]; · iexact Hx
  isplitl [Hq]; · iexact Hq
  isplitl [Hp]; · iexact Hp
  isplitl [Ho']
  · iapply (Entails.of_eq (out_pts m d L k0_h1 _ trips1 (m (oLoc d)))); iexact Ho'
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

end Exec

end Cert.KI

end
-- ==== Proof.TileRestKILib.lean ====
/-
  Small facts about one sixteen-lane strip of a vector scratch, shared by the cases of the tile's task:
  the vector casts between `[16]`, `[1, 16]` and `[1, 1, 16]` read at an index, membership of an index in a
  one-strip cell, and a whole buffer read after a list of stores.
-/
import proofs.«207362_g47132971107233_retrytranche2_1164_24_alg».proof.Proof.TileDefsKI
import Idealize.ShloMosaic.Lib.Writes
import Idealize.ShloMosaic.Lib.Pipeline.Value
import Idealize.ShloMosaic.Lib.ValueIdx

noncomputable section

namespace Cert.KI.Rest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## Reading the vector casts of one 16-lane strip -/

theorem cast16_1x1x16 {α : Type} (v : S16.Idx → α) (h : S16.ShapeCasts S1x1x16) (a b : Fin 1) (c : Fin 16) :
    shapeCast S1x1x16 v h (ix3 a b c) = v (ix1 c) := by
  refine shapeCast_apply v h _ _ ?_
  rw [Shape.rowMajor_val_one, Shape.rowMajor_val_three]
  show c.val = (a.val * 1 + b.val) * 16 + c.val
  have := a.isLt; have := b.isLt; omega

theorem cast1x16_16 {α : Type} (v : S1x16.Idx → α) (h : S1x16.ShapeCasts S16) (j : Fin 16) :
    shapeCast S16 v h (ix1 j) = v (ix2 (0 : Fin 1) j) := by
  refine shapeCast_apply v h _ _ ?_
  rw [Shape.rowMajor_val_one, Shape.rowMajor_val_two]
  show (0 : Nat) * 16 + j.val = j.val
  omega

theorem cast1x1x16_16 {α : Type} (v : S1x1x16.Idx → α) (h : S1x1x16.ShapeCasts S16) (j : Fin 16) :
    shapeCast S16 v h (ix1 j) = v (ix3 (0 : Fin 1) (0 : Fin 1) j) := by
  refine shapeCast_apply v h _ _ ?_
  rw [Shape.rowMajor_val_one, Shape.rowMajor_val_three]
  show ((0 : Nat) * 1 + 0) * 16 + j.val = j.val
  omega

/-- Every index of a one-strip vector is `ix3 0 0 c`. -/
theorem strip_idx (x : S1x1x16.Idx) : ∃ c : Fin 16, x = ix3 (0 : Fin 1) (0 : Fin 1) c :=
  ⟨x 2, by
    have e := eq_ix3 x
    have h0 : x 0 = (0 : Fin 1) := Fin.ext (by have h : (x 0).val < 1 := (x 0).isLt; show (x 0).val = 0; omega)
    have h1 : x 1 = (0 : Fin 1) := Fin.ext (by have h : (x 1).val < 1 := (x 1).isLt; show (x 1).val = 0; omega)
    rw [h0, h1] at e; exact e⟩

/-- Membership of an index in a one-strip cell of a rank-3 shape: rows equal, lane within the strip. -/
theorem mem_cell {n0 n1 n2 : Nat} (o0 o1 o2 : Nat) (inb : ∀ a, (![o0, o1, o2] : Fin 3 → Nat) a + S1x1x16.size a ≤ (⟨3, ![n0, n1, n2]⟩ : Shape).size a)
    (y0 : Fin n0) (y1 : Fin n1) (y2 : Fin n2) :
    ix3 y0 y1 y2 ∈ (Rect.unit (s := ⟨3, ![n0, n1, n2]⟩) ![o0, o1, o2] S1x1x16.size inb).set
      ↔ (o0 = y0.val ∧ o1 = y1.val ∧ o2 ≤ y2.val ∧ y2.val < o2 + 16) := by
  rw [Rect.mem_set_unit]
  constructor
  · intro h
    have h0 : o0 ≤ y0.val ∧ y0.val < o0 + 1 := h 0
    have h1 : o1 ≤ y1.val ∧ y1.val < o1 + 1 := h 1
    have h2 : o2 ≤ y2.val ∧ y2.val < o2 + 16 := h 2
    omega
  · rintro ⟨h0, h1, h2, h3⟩ a
    match a with
    | ⟨0, _⟩ => exact (show o0 ≤ y0.val ∧ y0.val < o0 + 1 by omega)
    | ⟨1, _⟩ => exact (show o1 ≤ y1.val ∧ y1.val < o1 + 1 by omega)
    | ⟨2, _⟩ => exact (show o2 ≤ y2.val ∧ y2.val < o2 + 16 by omega)

/-- The row-0 value of one strip: the sum of the two loaded strips, lane by lane. -/
theorem row0_pay (v20 v24 : Vec F S1x16 .f32) (a b : Fin 1) (c : Fin 16) :
    shapeCast S1x1x16 (k0_pay148 v20 v24) shapeCasts_S16_S1x1x16 (ix3 a b c)
      = Cert.Spec.addF F (v20 (ix2 (0 : Fin 1) c)) (v24 (ix2 (0 : Fin 1) c)) := by
  rw [cast16_1x1x16]
  show FloatOps.addf (shapeCast S16 v20 shapeCasts_S1x16_S16 (ix1 c)) (shapeCast S16 v24 shapeCasts_S1x16_S16 (ix1 c)) = _
  rw [cast1x16_16, cast1x16_16]

/-- A whole buffer after a list of writes, at an index no piece covers: its prior contents. -/
theorem whole_writes_of_not_mem {κ : Kind} {Val : EltTy → Type} (b : Ref sig κ) (f : b.ty.Contents Val) (y : b.ty.shape.Idx)
    (L : List (View.Piece Val b.ty.shape b.ty.elt)) (h : ∀ p ∈ L, y ∉ p.1.set) :
    (View.whole b).writes Val f L y = f y :=
  View.read_writes_apply_of_forall_not_mem (View.whole b) f y L h

/-- A whole buffer after a list of writes whose pieces all agree with one function, at an index some piece covers. -/
theorem whole_writes_of_pieces {κ : Kind} {Val : EltTy → Type} (b : Ref sig κ) (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (hc : ∃ p ∈ L, y ∈ p.1.set) :
    (View.whole b).writes Val f L y = G y :=
  View.read_writes_apply_of_pieces (View.whole b) f G L hG y hc

end Cert.KI.Rest

end
-- ==== Proof.TileRestKIRow0.lean ====
/-
  Worker 28 of the SparseCore call writes row 0 of the call's result: the quality row plus row 0 of the
  position table, the same for each of the eight batch entries of the piece. Its loop fills a one-row scratch
  sixteen lanes per trip. Here: the value `row0Val`, what one trip's eight stores do to the scratch, what the
  two copies before the loop and the copy after it leave, and the loop's invariant.
-/
import proofs.«207362_g47132971107233_retrytranche2_1164_24_alg».proof.Proof.TileRestKILib

noncomputable section

namespace Cert.KI.Rest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

set_option Elab.async false in
theorem trips3 : k0_t3_loop.trips = 48 := by decide +kernel

variable (m : (ℓ : Loc nD τ sig) → Buf (Elt F) ℓ)

/-- The quality row plus row 0 of the position table, at hidden coordinate `c`. -/
def row0Val (d : Dev nD) (c : Fin 768) : F .f32 :=
  Cert.Spec.addF F (m (qLoc d) (ix2 (0 : Fin 1) c)) (m (pLoc d) (ix2 (0 : Fin 197) c))

/-- One piece of a trip: the stored strip, at the one function `row0Val` of the hidden coordinate. -/
theorem row0_piece (d : Dev nD) (L : grid0.Coords) (k : Nat) (o1 : Nat)
    (inb : ∀ a, (![0, o1, 16 * k] : Fin 3 → Nat) a + S1x1x16.size a ≤ S1x8x768.size a)
    (inbQ : ∀ a, (![0, 16 * k] : Fin 2 → Nat) a + S1x16.size a ≤ S1x768.size a)
    (inbP : ∀ a, (![0, 16 * k] : Fin 2 → Nat) a + S1x16.size a ≤ S16x768.size a)
    (gQ : Buf (Elt F) ((bQw).view.loc (thrV d L))) (gP : Buf (Elt F) ((bPw).view.loc (thrV d L)))
    (hQ : ∀ c : Fin 768, gQ (ix2 (0 : Fin 1) c) = m (qLoc d) (ix2 (0 : Fin 1) c))
    (hP : ∀ c : Fin 768, gP (ix2 (0 : Fin 16) c) = m (pLoc d) (ix2 (0 : Fin 197) c))
    (x : S1x1x16.Idx) :
    shapeCast S1x1x16 (k0_pay148
        (View.readAt (Elt F) (bQw).view (Rect.unit (s := S1x768) ![0, 16 * k] S1x16.size inbQ).toLoadRect gQ)
        (View.readAt (Elt F) (bPw).view (Rect.unit (s := S16x768) ![0, 16 * k] S1x16.size inbP).toLoadRect gP)) shapeCasts_S16_S1x1x16 x
      = row0Val m d ((Rect.unit (s := S1x8x768) ![0, o1, 16 * k] S1x1x16.size inb).emb x 2) := by
  obtain ⟨c, rfl⟩ := strip_idx x
  rw [row0_pay]
  have hc : 16 * k + c.val < 768 := by
    have h2 : 16 * k + 16 ≤ 768 := inb 2
    have := c.isLt; omega
  have eQ : View.readAt (Elt F) (bQw).view (Rect.unit (s := S1x768) ![0, 16 * k] S1x16.size inbQ).toLoadRect gQ (ix2 (0 : Fin 1) c)
      = gQ (ix2 (0 : Fin 1) (⟨16 * k + c.val, hc⟩ : Fin 768)) := by
    show gQ _ = gQ _
    refine congrArg gQ (funext fun a => ?_)
    match a with
    | ⟨0, _⟩ => exact Fin.ext (by show 0 + 1 * 0 = 0; omega)
    | ⟨1, _⟩ => exact Fin.ext (by show 16 * k + 1 * c.val = 16 * k + c.val; omega)
  have eP : View.readAt (Elt F) (bPw).view (Rect.unit (s := S16x768) ![0, 16 * k] S1x16.size inbP).toLoadRect gP (ix2 (0 : Fin 1) c)
      = gP (ix2 (0 : Fin 16) (⟨16 * k + c.val, hc⟩ : Fin 768)) := by
    show gP _ = gP _
    refine congrArg gP (funext fun a => ?_)
    match a with
    | ⟨0, _⟩ => exact Fin.ext (by show 0 + 1 * 0 = 0; omega)
    | ⟨1, _⟩ => exact Fin.ext (by show 16 * k + 1 * c.val = 16 * k + c.val; omega)
  rw [eQ, eP, hQ, hP]
  unfold row0Val
  have e2 : (Rect.unit (s := S1x8x768) ![0, o1, 16 * k] S1x1x16.size inb).emb (ix3 (0 : Fin 1) (0 : Fin 1) c) 2 = (⟨16 * k + c.val, hc⟩ : Fin 768) :=
    Fin.ext (by show 16 * k + 1 * c.val = 16 * k + c.val; omega)
  rw [e2]

/-- One trip of the row-0 loop, the strips' offsets as variables: the eight stored strips extend the finished lanes by sixteen. -/
theorem row0_step_aux (d : Dev nD) (L : grid0.Coords) (k : Nat) (hk : k < 48)
    (gQ : Buf (Elt F) ((bQw).view.loc (thrV d L))) (gP : Buf (Elt F) ((bPw).view.loc (thrV d L)))
    (g0 : Buf (Elt F) ((bRow0).view.loc (thrV d L)))
    (hQ : ∀ c : Fin 768, gQ (ix2 (0 : Fin 1) c) = m (qLoc d) (ix2 (0 : Fin 1) c))
    (hP : ∀ c : Fin 768, gP (ix2 (0 : Fin 16) c) = m (pLoc d) (ix2 (0 : Fin 197) c))
    (h0 : ∀ (b : Fin 8) (c : Fin 768), c.val < 16 * k → g0 (ix3 (0 : Fin 1) b c) = row0Val m d c)
    (oQ oP : Fin 2 → Nat) (o0 o1 o2 o3 o4 o5 o6 o7 : Fin 3 → Nat)
    (eQ : oQ = ![0, 16 * k]) (eP : oP = ![0, 16 * k])
    (e0 : o0 = ![0, 0, 16 * k]) (e1 : o1 = ![0, 1, 16 * k]) (e2 : o2 = ![0, 2, 16 * k]) (e3 : o3 = ![0, 3, 16 * k])
    (e4 : o4 = ![0, 4, 16 * k]) (e5 : o5 = ![0, 5, 16 * k]) (e6 : o6 = ![0, 6, 16 * k]) (e7 : o7 = ![0, 7, 16 * k])
    (iQ : ∀ a, oQ a + S1x16.size a ≤ S1x768.size a) (iP : ∀ a, oP a + S1x16.size a ≤ S16x768.size a)
    (i0 : ∀ a, o0 a + S1x1x16.size a ≤ S1x8x768.size a) (i1 : ∀ a, o1 a + S1x1x16.size a ≤ S1x8x768.size a)
    (i2 : ∀ a, o2 a + S1x1x16.size a ≤ S1x8x768.size a) (i3 : ∀ a, o3 a + S1x1x16.size a ≤ S1x8x768.size a)
    (i4 : ∀ a, o4 a + S1x1x16.size a ≤ S1x8x768.size a) (i5 : ∀ a, o5 a + S1x1x16.size a ≤ S1x8x768.size a)
    (i6 : ∀ a, o6 a + S1x1x16.size a ≤ S1x8x768.size a) (i7 : ∀ a, o7 a + S1x1x16.size a ≤ S1x8x768.size a)
    (b : Fin 8) (c : Fin 768) (hc : c.val < 16 * (k + 1)) :
    (bRow0).view.writes (Elt F) g0
      [⟨Rect.unit (s := S1x8x768) o7 S1x1x16.size i7,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o6 S1x1x16.size i6,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o5 S1x1x16.size i5,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o4 S1x1x16.size i4,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o3 S1x1x16.size i3,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o2 S1x1x16.size i2,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o1 S1x1x16.size i1,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o0 S1x1x16.size i0,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩]
      (ix3 (0 : Fin 1) b c) = row0Val m d c := by
  subst eQ eP e0 e1 e2 e3 e4 e5 e6 e7
  by_cases hlt : c.val < 16 * k
  · refine (whole_writes_of_not_mem cc0_scratch5 g0 (ix3 (0 : Fin 1) b c) _ ?_).trans (h0 b c hlt)
    intro p hp
    simp only [List.mem_cons, List.mem_nil_iff, or_false] at hp
    rcases hp with rfl | rfl | rfl | rfl | rfl | rfl | rfl | rfl <;>
    · rw [mem_cell]; omega
  · refine whole_writes_of_pieces cc0_scratch5 g0 (fun i => row0Val m d (i 2)) _ ?_ (ix3 (0 : Fin 1) b c) ?_
    · intro p hp x
      simp only [List.mem_cons, List.mem_nil_iff, or_false] at hp
      rcases hp with rfl | rfl | rfl | rfl | rfl | rfl | rfl | rfl
      · exact row0_piece m d L k 7 i7 iQ iP gQ gP hQ hP x
      · exact row0_piece m d L k 6 i6 iQ iP gQ gP hQ hP x
      · exact row0_piece m d L k 5 i5 iQ iP gQ gP hQ hP x
      · exact row0_piece m d L k 4 i4 iQ iP gQ gP hQ hP x
      · exact row0_piece m d L k 3 i3 iQ iP gQ gP hQ hP x
      · exact row0_piece m d L k 2 i2 iQ iP gQ gP hQ hP x
      · exact row0_piece m d L k 1 i1 iQ iP gQ gP hQ hP x
      · exact row0_piece m d L k 0 i0 iQ iP gQ gP hQ hP x
    · have hb := b.isLt
      have hmem : ∀ (o1 : Nat) (inb : ∀ a, (![0, o1, 16 * k] : Fin 3 → Nat) a + S1x1x16.size a ≤ S1x8x768.size a), o1 = b.val →
          ix3 (0 : Fin 1) b c ∈ (Rect.unit (s := S1x8x768) ![0, o1, 16 * k] S1x1x16.size inb).set := by
        intro o1 inb ho
        rw [mem_cell]; exact ⟨rfl, ho, by omega, by omega⟩
      match b, hb with
      | ⟨0, _⟩, _ => exact ⟨_, List.Mem.tail _ (List.Mem.tail _ (List.Mem.tail _ (List.Mem.tail _ (List.Mem.tail _ (List.Mem.tail _ (List.Mem.tail _ (List.Mem.head _))))))), hmem 0 i0 rfl⟩
      | ⟨1, _⟩, _ => exact ⟨_, List.Mem.tail _ (List.Mem.tail _ (List.Mem.tail _ (List.Mem.tail _ (List.Mem.tail _ (List.Mem.tail _ (List.Mem.head _)))))), hmem 1 i1 rfl⟩
      | ⟨2, _⟩, _ => exact ⟨_, List.Mem.tail _ (List.Mem.tail _ (List.Mem.tail _ (List.Mem.tail _ (List.Mem.tail _ (List.Mem.head _))))), hmem 2 i2 rfl⟩
      | ⟨3, _⟩, _ => exact ⟨_, List.Mem.tail _ (List.Mem.tail _ (List.Mem.tail _ (List.Mem.tail _ (List.Mem.head _)))), hmem 3 i3 rfl⟩
      | ⟨4, _⟩, _ => exact ⟨_, List.Mem.tail _ (List.Mem.tail _ (List.Mem.tail _ (List.Mem.head _))), hmem 4 i4 rfl⟩
      | ⟨5, _⟩, _ => exact ⟨_, List.Mem.tail _ (List.Mem.tail _ (List.Mem.head _)), hmem 5 i5 rfl⟩
      | ⟨6, _⟩, _ => exact ⟨_, List.Mem.tail _ (List.Mem.head _), hmem 6 i6 rfl⟩
      | ⟨7, _⟩, _ => exact ⟨_, List.Mem.head _, hmem 7 i7 rfl⟩

/-! ## The quality row's worker -/

/-- The result's row 0, as the body slices it. -/
abbrev outSl0 : Memref sig .scVector .hbm S1x8x768 .f32 :=
  (oW).slice (Rect.unit (s := S197x8x768) ![0, 0, 0] S1x8x768.size inb_S197x8x768_S1x8x768_0_0_0) (fun _ => rfl)

set_option Elab.async false in
theorem row0_w : ∀ L : grid0.Coords, k0_cond3 L = 1#1 → wL L = (28 : Fin 32) := by decide +kernel

theorem outSet_row0 (L : grid0.Coords) (h3 : k0_cond3 L = 1#1) : outSet (wL L) = (outSl0).view.set := by
  rw [row0_w L h3]; rfl

theorem pts_out0 (d : Dev nD) (L : grid0.Coords) (h3 : k0_cond3 L = 1#1) (f : Buf (Elt F) (oLoc d)) :
    ((outSl0).view.loc (thrV d L) ↦[(outSl0).view.set]{fullShare} f : sProp 𝕄) = (oLoc d ↦[outSet (wL L)]{fullShare} f) := by
  rw [outSet_row0 L h3]

/-- The call's result at row 0: the quality row plus the position table's row 0, for every batch entry of the piece. -/
theorem scBuf_row0 (d : Dev nD) (i : S197x8x768.Idx) (hi : (i 0).val = 0) : scBuf m d i = row0Val m d (i 2) := by
  unfold scBuf Cert.Spec.scOut Cert.Spec.rowT
  rw [dif_pos hi]
  rfl

/-- The position scratch after its first eight rows were copied in: row 0 is the position table's row 0. -/
theorem pw_rows0 (d : Dev nD) (L : grid0.Coords) (fPw : Buf (Elt F) ((bPw).view.loc (thrV d L)))
    (inb1 : ∀ a, (![0, 0] : Fin 2 → Nat) a + S8x768.size a ≤ S16x768.size a)
    (inb2 : ∀ a, (![0, 0] : Fin 2 → Nat) a + S8x768.size a ≤ S197x768.size a)
    (hst : ∀ a, (Rect.unit (s := S197x768) ![0, 0] S8x768.size inb2).stride a = 1)
    (c : Fin 768) :
    (bPw).view.writes (Elt F) fPw
      [⟨Rect.unit (s := S16x768) ![0, 0] S8x768.size inb1, ReadAs.same.apply (View.read (Elt F) ((pW).slice (Rect.unit (s := S197x768) ![0, 0] S8x768.size inb2) hst).view (m (pLoc d)))⟩]
      (ix2 (0 : Fin 16) c) = m (pLoc d) (ix2 (0 : Fin 197) c) := by
  refine whole_writes_of_pieces cc0_scratch2 fPw (fun i => m (pLoc d) (ix2 (⟨(i 0).val, by have h : (i 0).val < 16 := (i 0).isLt; omega⟩ : Fin 197) (i 1))) _ ?_ (ix2 (0 : Fin 16) c) ?_
  · intro p hp x
    rw [List.mem_singleton] at hp
    subst hp
    show m (pLoc d) _ = m (pLoc d) _
    refine congrArg (m (pLoc d)) (funext fun a => ?_)
    match a with
    | ⟨0, _⟩ => exact Fin.ext (by show 0 + 1 * (x 0).val = 0 + 1 * (x 0).val; rfl)
    | ⟨1, _⟩ => exact Fin.ext (by show 0 + 1 * (x 1).val = 0 + 1 * (x 1).val; rfl)
  · refine ⟨⟨Rect.unit (s := S16x768) ![0, 0] S8x768.size inb1, _⟩, List.Mem.head _, (Rect.mem_set_unit (s := S16x768) (off := ![0, 0]) (size := S8x768.size) (inb := inb1)).mpr fun a => ?_⟩
    match a with
    | ⟨0, _⟩ => exact (show 0 ≤ 0 ∧ 0 < 0 + 8 by omega)
    | ⟨1, _⟩ => exact (show 0 ≤ c.val ∧ c.val < 0 + 768 from ⟨Nat.zero_le _, by have := c.isLt; omega⟩)

/-- What the last copy leaves in the result's row 0 is the call's result there. -/
theorem row0_final (d : Dev nD) (L : grid0.Coords) (f0 : Buf (Elt F) (oLoc d)) (g0 : Buf (Elt F) ((bRow0).view.loc (thrV d L)))
    (h0 : ∀ (b : Fin 8) (c : Fin 768), c.val < 16 * 48 → g0 (ix3 (0 : Fin 1) b c) = row0Val m d c) :
    ∀ i ∈ (outSl0).view.set,
      (outSl0).view.writes (Elt F) f0 [⟨Rect.whole S1x8x768, ReadAs.same.apply (View.read (Elt F) (bRow0).view g0)⟩] i = scBuf m d i := by
  intro i hi
  obtain ⟨x, -, rfl⟩ := Finset.mem_map.mp hi
  obtain ⟨a, b, c, rfl⟩ : ∃ (a : Fin 1) (b : Fin 8) (c : Fin 768), x = ix3 a b c := ⟨x 0, x 1, x 2, eq_ix3 x⟩
  obtain rfl : a = 0 := Subsingleton.elim _ _
  have e : (outSl0).view.emb (ix3 (0 : Fin 1) b c) = ((outSl0).view.slice (Rect.whole S1x8x768)).emb (ix3 (0 : Fin 1) b c) := by
    show (outSl0).view.emb _ = (outSl0).view.emb ((Rect.whole S1x8x768).emb _)
    rw [Rect.emb_whole_apply]
  rw [View.writes_singleton]
  conv_lhs => rw [e, View.write_emb_of_mem _ _ (Finset.mem_univ _)]
  rw [scBuf_row0 m d _ (by show 0 + 1 * 0 = 0; rfl)]
  have e2 : (outSl0).view.emb (ix3 (0 : Fin 1) b c) 2 = c := Fin.ext (by show 0 + 1 * c.val = c.val; omega)
  rw [e2, ← h0 b c (by have := c.isLt; omega)]
  rfl

/-- The result's row 0 after the last copy, as a points-to at the call's result. -/
theorem pts_row0_final (d : Dev nD) (L : grid0.Coords) (f0 : Buf (Elt F) (oLoc d)) (g0 : Buf (Elt F) ((bRow0).view.loc (thrV d L)))
    (h0 : ∀ (b : Fin 8) (c : Fin 768), c.val < 16 * 48 → g0 (ix3 (0 : Fin 1) b c) = row0Val m d c) :
    ((outSl0).view.loc (thrV d L) ↦[(outSl0).view.set]{fullShare}
        (outSl0).view.writes (Elt F) f0 [⟨Rect.whole S1x8x768, ReadAs.same.apply (View.read (Elt F) (bRow0).view g0)⟩] : sProp 𝕄)
      = ((outSl0).view.loc (thrV d L) ↦[(outSl0).view.set]{fullShare} scBuf m d) :=
  pointsTo_congr (row0_final m d L f0 g0 h0)

/-- The loop's invariant: the quality scratch holds the quality row, the position scratch's row 0 the position
    table's row 0, and the row scratch holds the finished value on the lanes below `16 k`. -/
def invR (d : Dev nD) (L : grid0.Coords) (O : CellTallies nD τ sig (HIx 1)) (W' : Waits sig (HIx 1)) (k : Nat) (_ : BitVec 32) : sProp 𝕄 :=
  iprop(Transfers.MayWaits (thrV d L) (none : HIx 1) O
      ∗ (∃ g : Buf (Elt F) ((bQw).view.loc (thrV d L)), ((bQw).view.loc (thrV d L) ↦{fullShare} g) ∗ ⌜∀ c : Fin 768, g (ix2 (0 : Fin 1) c) = m (qLoc d) (ix2 (0 : Fin 1) c)⌝)
      ∗ (∃ g : Buf (Elt F) ((bPw).view.loc (thrV d L)), ((bPw).view.loc (thrV d L) ↦{fullShare} g) ∗ ⌜∀ c : Fin 768, g (ix2 (0 : Fin 16) c) = m (pLoc d) (ix2 (0 : Fin 197) c)⌝)
      ∗ (∃ g : Buf (Elt F) ((bRow0).view.loc (thrV d L)), ((bRow0).view.loc (thrV d L) ↦{fullShare} g)
            ∗ ⌜∀ (b : Fin 8) (c : Fin 768), c.val < 16 * k → g (ix3 (0 : Fin 1) b c) = row0Val m d c⌝)
      ∗ owes (thrV d L) O W')

end Cert.KI.Rest

end
-- ==== Proof.TileRestKILastStep.lean ====
/-
  Worker 27 of the SparseCore call adds the position table's rows 190 to 196 to feature rows 189 to 195 of batch
  entries 56 to 63, sixteen lanes per trip, in place in a seven-row scratch; position rows 190, 191 sit in rows
  6, 7 of the sixteen-row scratch and rows 192 to 196 in the five-row scratch. Here: the value `lastVal`, one
  stored strip read at a lane, and what one trip's fifty-six stores do to the scratch.
-/
import proofs.«207362_g47132971107233_retrytranche2_1164_24_alg».proof.Proof.TileRestKILib

noncomputable section

namespace Cert.KI.Rest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

theorem mem_of_eq {α : Type} {a : α} {l l' : List α} (h : l = l') (ha : a ∈ l') : a ∈ l := h ▸ ha

variable (m : (ℓ : Loc nD τ sig) → Buf (Elt F) ℓ)

/-! ## The last seven position rows' worker -/

set_option Elab.async false in
theorem trips2 : k0_t2_loop.trips = 48 := by decide +kernel

/-- A stored strip: the row scratch's strip plus the position strip, lane by lane. -/
abbrev stripSum (vA : Vec F S1x1x16 .f32) (vP : Vec F S1x16 .f32) : FVec F S1x1x16 .f32 :=
  shapeCast S1x1x16 (addf (shapeCast S16 vA shapeCasts_S1x1x16_S16) (shapeCast S16 vP shapeCasts_S1x16_S16)) shapeCasts_S16_S1x1x16

theorem stripSum_apply (vA : Vec F S1x1x16 .f32) (vP : Vec F S1x16 .f32) (a b : Fin 1) (c : Fin 16) :
    stripSum vA vP (ix3 a b c) = Cert.Spec.addF F (vA (ix3 (0 : Fin 1) (0 : Fin 1) c)) (vP (ix2 (0 : Fin 1) c)) := by
  unfold stripSum
  rw [cast16_1x1x16]
  show FloatOps.addf (shapeCast S16 vA shapeCasts_S1x1x16_S16 (ix1 c)) (shapeCast S16 vP shapeCasts_S1x16_S16 (ix1 c)) = _
  rw [cast1x1x16_16, cast1x16_16]

/-- Position `190 + r` of the result for batch entry `56 + b`: feature row `189 + r` plus the position table's row `190 + r`. -/
def lastVal (d : Dev nD) (r : Fin 7) (b : Fin 8) (c : Fin 768) : F .f32 :=
  Cert.Spec.addF F (xT m d (ix3 (⟨189 + r.val, by have := r.isLt; omega⟩ : Fin 196) (⟨56 + b.val, by have := b.isLt; omega⟩ : Fin 64) c))
    (m (pLoc d) (ix2 (⟨190 + r.val, by have := r.isLt; omega⟩ : Fin 197) c))

/-- A position strip read from rows 6, 7 of the sixteen-row scratch, which hold the table's rows 190, 191. -/
theorem posStrip16 (d : Dev nD) (L : grid0.Coords) (k : Nat) (hk : k < 48) (r : Nat) (hr : r < 2)
    (iP : ∀ a, (![6 + r, 16 * k] : Fin 2 → Nat) a + S1x16.size a ≤ S16x768.size a)
    (gP : Buf (Elt F) ((bPw).view.loc (thrV d L)))
    (hP : ∀ (j : Fin 2) (c : Fin 768), gP (ix2 (⟨6 + j.val, by have := j.isLt; omega⟩ : Fin 16) c) = m (pLoc d) (ix2 (⟨190 + j.val, by have := j.isLt; omega⟩ : Fin 197) c))
    (j : Fin 16) :
    View.readAt (Elt F) (bPw).view (Rect.unit (s := S16x768) ![6 + r, 16 * k] S1x16.size iP).toLoadRect gP (ix2 (0 : Fin 1) j)
      = m (pLoc d) (ix2 (⟨190 + r, by omega⟩ : Fin 197) (⟨16 * k + j.val, by have := j.isLt; omega⟩ : Fin 768)) := by
  refine Eq.trans ?_ (hP ⟨r, hr⟩ ⟨16 * k + j.val, by have := j.isLt; omega⟩)
  show gP _ = gP _
  refine congrArg gP (funext fun a => ?_)
  match a with
  | ⟨0, _⟩ => exact Fin.ext (by show 6 + r + 1 * 0 = 6 + r; omega)
  | ⟨1, _⟩ => exact Fin.ext (by show 16 * k + 1 * j.val = 16 * k + j.val; omega)

/-- A position strip read from the five-row scratch, which holds the table's rows 192 to 196. -/
theorem posStrip5 (d : Dev nD) (L : grid0.Coords) (k : Nat) (hk : k < 48) (s : Nat) (hs : s < 5)
    (iP : ∀ a, (![s, 16 * k] : Fin 2 → Nat) a + S1x16.size a ≤ S5x768.size a)
    (gP5 : Buf (Elt F) ((bPw5).view.loc (thrV d L)))
    (hP5 : ∀ (j : Fin 5) (c : Fin 768), gP5 (ix2 j c) = m (pLoc d) (ix2 (⟨192 + j.val, by have := j.isLt; omega⟩ : Fin 197) c))
    (j : Fin 16) :
    View.readAt (Elt F) (bPw5).view (Rect.unit (s := S5x768) ![s, 16 * k] S1x16.size iP).toLoadRect gP5 (ix2 (0 : Fin 1) j)
      = m (pLoc d) (ix2 (⟨190 + (s + 2), by omega⟩ : Fin 197) (⟨16 * k + j.val, by have := j.isLt; omega⟩ : Fin 768)) := by
  refine Eq.trans ?_ ((hP5 ⟨s, hs⟩ ⟨16 * k + j.val, by have := j.isLt; omega⟩).trans ?_)
  · show gP5 _ = gP5 _
    refine congrArg gP5 (funext fun a => ?_)
    match a with
    | ⟨0, _⟩ => exact Fin.ext (by show s + 1 * 0 = s; omega)
    | ⟨1, _⟩ => exact Fin.ext (by show 16 * k + 1 * j.val = 16 * k + j.val; omega)
  · refine congrArg (m (pLoc d)) (funext fun a => ?_)
    match a with
    | ⟨0, _⟩ => exact Fin.ext (by show 192 + s = 190 + (s + 2); omega)
    | ⟨1, _⟩ => rfl

/-- One piece of a trip: the stored strip at cell `(r, b)`, at the one function `lastVal`. -/
theorem last_piece (d : Dev nD) (L : grid0.Coords) (k : Nat) (hk : k < 48) (r b : Nat) (hr : r < 7) (hb : b < 8)
    (iC : ∀ a, (![r, b, 16 * k] : Fin 3 → Nat) a + S1x1x16.size a ≤ S7x8x768.size a)
    (gA : Buf (Elt F) ((bA).view.loc (thrV d L)))
    (hA : ∀ (r : Fin 7) (b : Fin 8) (c : Fin 768), 16 * k ≤ c.val →
      gA (ix3 r b c) = xT m d (ix3 (⟨189 + r.val, by have := r.isLt; omega⟩ : Fin 196) (⟨56 + b.val, by have := b.isLt; omega⟩ : Fin 64) c))
    (vP : Vec F S1x16 .f32)
    (hvP : ∀ j : Fin 16, vP (ix2 (0 : Fin 1) j) = m (pLoc d) (ix2 (⟨190 + r, by omega⟩ : Fin 197) (⟨16 * k + j.val, by have := j.isLt; omega⟩ : Fin 768)))
    (x : S1x1x16.Idx) :
    stripSum (View.readAt (Elt F) (bA).view (Rect.unit (s := S7x8x768) ![r, b, 16 * k] S1x1x16.size iC).toLoadRect gA) vP x
      = lastVal m d ((Rect.unit (s := S7x8x768) ![r, b, 16 * k] S1x1x16.size iC).emb x 0)
          ((Rect.unit (s := S7x8x768) ![r, b, 16 * k] S1x1x16.size iC).emb x 1)
          ((Rect.unit (s := S7x8x768) ![r, b, 16 * k] S1x1x16.size iC).emb x 2) := by
  obtain ⟨c, rfl⟩ := strip_idx x
  have hc : 16 * k + c.val < 768 := by have := c.isLt; omega
  rw [stripSum_apply, hvP]
  have eA : View.readAt (Elt F) (bA).view (Rect.unit (s := S7x8x768) ![r, b, 16 * k] S1x1x16.size iC).toLoadRect gA (ix3 (0 : Fin 1) (0 : Fin 1) c)
      = gA (ix3 (⟨r, hr⟩ : Fin 7) (⟨b, hb⟩ : Fin 8) (⟨16 * k + c.val, hc⟩ : Fin 768)) := by
    show gA _ = gA _
    refine congrArg gA (funext fun a => ?_)
    match a with
    | ⟨0, _⟩ => exact Fin.ext (by show r + 1 * 0 = r; omega)
    | ⟨1, _⟩ => exact Fin.ext (by show b + 1 * 0 = b; omega)
    | ⟨2, _⟩ => exact Fin.ext (by show 16 * k + 1 * c.val = 16 * k + c.val; omega)
  rw [eA, hA ⟨r, hr⟩ ⟨b, hb⟩ ⟨16 * k + c.val, hc⟩ (by show 16 * k ≤ 16 * k + c.val; omega)]
  have e0 : (Rect.unit (s := S7x8x768) ![r, b, 16 * k] S1x1x16.size iC).emb (ix3 (0 : Fin 1) (0 : Fin 1) c) 0 = (⟨r, hr⟩ : Fin 7) :=
    Fin.ext (by show r + 1 * 0 = r; omega)
  have e1 : (Rect.unit (s := S7x8x768) ![r, b, 16 * k] S1x1x16.size iC).emb (ix3 (0 : Fin 1) (0 : Fin 1) c) 1 = (⟨b, hb⟩ : Fin 8) :=
    Fin.ext (by show b + 1 * 0 = b; omega)
  have e2 : (Rect.unit (s := S7x8x768) ![r, b, 16 * k] S1x1x16.size iC).emb (ix3 (0 : Fin 1) (0 : Fin 1) c) 2 = (⟨16 * k + c.val, hc⟩ : Fin 768) :=
    Fin.ext (by show 16 * k + 1 * c.val = 16 * k + c.val; omega)
  rw [e0, e1, e2]
  rfl

/-- One trip of the last worker's loop, the strips' offsets as variables: the fifty-six stored strips (seven position
    rows by eight batch entries) extend the finished lanes by sixteen; the other lanes keep the copied-in features. -/
theorem last_step_aux (d : Dev nD) (L : grid0.Coords) (k : Nat) (hk : k < 48)
    (gP : Buf (Elt F) ((bPw).view.loc (thrV d L))) (gP5 : Buf (Elt F) ((bPw5).view.loc (thrV d L)))
    (gA : Buf (Elt F) ((bA).view.loc (thrV d L)))
    (hP : ∀ (j : Fin 2) (c : Fin 768), gP (ix2 (⟨6 + j.val, by have := j.isLt; omega⟩ : Fin 16) c) = m (pLoc d) (ix2 (⟨190 + j.val, by have := j.isLt; omega⟩ : Fin 197) c))
    (hP5 : ∀ (j : Fin 5) (c : Fin 768), gP5 (ix2 j c) = m (pLoc d) (ix2 (⟨192 + j.val, by have := j.isLt; omega⟩ : Fin 197) c))
    (hA : ∀ (r : Fin 7) (b : Fin 8) (c : Fin 768), gA (ix3 r b c) = if c.val < 16 * k then lastVal m d r b c else xT m d (ix3 (⟨189 + r.val, by have := r.isLt; omega⟩ : Fin 196) (⟨56 + b.val, by have := b.isLt; omega⟩ : Fin 64) c))
    (oP0 oP1 oP2 oP3 oP4 oP5 oP6 : Fin 2 → Nat)
    (oC0_0 oC0_1 oC0_2 oC0_3 oC0_4 oC0_5 oC0_6 oC0_7 oC1_0 oC1_1 oC1_2 oC1_3 oC1_4 oC1_5 oC1_6 oC1_7 oC2_0 oC2_1 oC2_2 oC2_3 oC2_4 oC2_5 oC2_6 oC2_7 oC3_0 oC3_1 oC3_2 oC3_3 oC3_4 oC3_5 oC3_6 oC3_7 oC4_0 oC4_1 oC4_2 oC4_3 oC4_4 oC4_5 oC4_6 oC4_7 oC5_0 oC5_1 oC5_2 oC5_3 oC5_4 oC5_5 oC5_6 oC5_7 oC6_0 oC6_1 oC6_2 oC6_3 oC6_4 oC6_5 oC6_6 oC6_7 : Fin 3 → Nat)
    (eP0 : oP0 = ![6, 16 * k]) (eP1 : oP1 = ![7, 16 * k]) (eP2 : oP2 = ![0, 16 * k]) (eP3 : oP3 = ![1, 16 * k]) (eP4 : oP4 = ![2, 16 * k]) (eP5 : oP5 = ![3, 16 * k]) (eP6 : oP6 = ![4, 16 * k])
    (eC0_0 : oC0_0 = ![0, 0, 16 * k]) (eC0_1 : oC0_1 = ![0, 1, 16 * k]) (eC0_2 : oC0_2 = ![0, 2, 16 * k]) (eC0_3 : oC0_3 = ![0, 3, 16 * k]) (eC0_4 : oC0_4 = ![0, 4, 16 * k]) (eC0_5 : oC0_5 = ![0, 5, 16 * k]) (eC0_6 : oC0_6 = ![0, 6, 16 * k]) (eC0_7 : oC0_7 = ![0, 7, 16 * k])
    (eC1_0 : oC1_0 = ![1, 0, 16 * k]) (eC1_1 : oC1_1 = ![1, 1, 16 * k]) (eC1_2 : oC1_2 = ![1, 2, 16 * k]) (eC1_3 : oC1_3 = ![1, 3, 16 * k]) (eC1_4 : oC1_4 = ![1, 4, 16 * k]) (eC1_5 : oC1_5 = ![1, 5, 16 * k]) (eC1_6 : oC1_6 = ![1, 6, 16 * k]) (eC1_7 : oC1_7 = ![1, 7, 16 * k])
    (eC2_0 : oC2_0 = ![2, 0, 16 * k]) (eC2_1 : oC2_1 = ![2, 1, 16 * k]) (eC2_2 : oC2_2 = ![2, 2, 16 * k]) (eC2_3 : oC2_3 = ![2, 3, 16 * k]) (eC2_4 : oC2_4 = ![2, 4, 16 * k]) (eC2_5 : oC2_5 = ![2, 5, 16 * k]) (eC2_6 : oC2_6 = ![2, 6, 16 * k]) (eC2_7 : oC2_7 = ![2, 7, 16 * k])
    (eC3_0 : oC3_0 = ![3, 0, 16 * k]) (eC3_1 : oC3_1 = ![3, 1, 16 * k]) (eC3_2 : oC3_2 = ![3, 2, 16 * k]) (eC3_3 : oC3_3 = ![3, 3, 16 * k]) (eC3_4 : oC3_4 = ![3, 4, 16 * k]) (eC3_5 : oC3_5 = ![3, 5, 16 * k]) (eC3_6 : oC3_6 = ![3, 6, 16 * k]) (eC3_7 : oC3_7 = ![3, 7, 16 * k])
    (eC4_0 : oC4_0 = ![4, 0, 16 * k]) (eC4_1 : oC4_1 = ![4, 1, 16 * k]) (eC4_2 : oC4_2 = ![4, 2, 16 * k]) (eC4_3 : oC4_3 = ![4, 3, 16 * k]) (eC4_4 : oC4_4 = ![4, 4, 16 * k]) (eC4_5 : oC4_5 = ![4, 5, 16 * k]) (eC4_6 : oC4_6 = ![4, 6, 16 * k]) (eC4_7 : oC4_7 = ![4, 7, 16 * k])
    (eC5_0 : oC5_0 = ![5, 0, 16 * k]) (eC5_1 : oC5_1 = ![5, 1, 16 * k]) (eC5_2 : oC5_2 = ![5, 2, 16 * k]) (eC5_3 : oC5_3 = ![5, 3, 16 * k]) (eC5_4 : oC5_4 = ![5, 4, 16 * k]) (eC5_5 : oC5_5 = ![5, 5, 16 * k]) (eC5_6 : oC5_6 = ![5, 6, 16 * k]) (eC5_7 : oC5_7 = ![5, 7, 16 * k])
    (eC6_0 : oC6_0 = ![6, 0, 16 * k]) (eC6_1 : oC6_1 = ![6, 1, 16 * k]) (eC6_2 : oC6_2 = ![6, 2, 16 * k]) (eC6_3 : oC6_3 = ![6, 3, 16 * k]) (eC6_4 : oC6_4 = ![6, 4, 16 * k]) (eC6_5 : oC6_5 = ![6, 5, 16 * k]) (eC6_6 : oC6_6 = ![6, 6, 16 * k]) (eC6_7 : oC6_7 = ![6, 7, 16 * k])
    (iP0 : ∀ a, oP0 a + S1x16.size a ≤ S16x768.size a)
    (iP1 : ∀ a, oP1 a + S1x16.size a ≤ S16x768.size a)
    (iP2 : ∀ a, oP2 a + S1x16.size a ≤ S5x768.size a)
    (iP3 : ∀ a, oP3 a + S1x16.size a ≤ S5x768.size a)
    (iP4 : ∀ a, oP4 a + S1x16.size a ≤ S5x768.size a)
    (iP5 : ∀ a, oP5 a + S1x16.size a ≤ S5x768.size a)
    (iP6 : ∀ a, oP6 a + S1x16.size a ≤ S5x768.size a)
    (iC0_0 : ∀ a, oC0_0 a + S1x1x16.size a ≤ S7x8x768.size a)
    (iC0_1 : ∀ a, oC0_1 a + S1x1x16.size a ≤ S7x8x768.size a)
    (iC0_2 : ∀ a, oC0_2 a + S1x1x16.size a ≤ S7x8x768.size a)
    (iC0_3 : ∀ a, oC0_3 a + S1x1x16.size a ≤ S7x8x768.size a)
    (iC0_4 : ∀ a, oC0_4 a + S1x1x16.size a ≤ S7x8x768.size a)
    (iC0_5 : ∀ a, oC0_5 a + S1x1x16.size a ≤ S7x8x768.size a)
    (iC0_6 : ∀ a, oC0_6 a + S1x1x16.size a ≤ S7x8x768.size a)
    (iC0_7 : ∀ a, oC0_7 a + S1x1x16.size a ≤ S7x8x768.size a)
    (iC1_0 : ∀ a, oC1_0 a + S1x1x16.size a ≤ S7x8x768.size a)
    (iC1_1 : ∀ a, oC1_1 a + S1x1x16.size a ≤ S7x8x768.size a)
    (iC1_2 : ∀ a, oC1_2 a + S1x1x16.size a ≤ S7x8x768.size a)
    (iC1_3 : ∀ a, oC1_3 a + S1x1x16.size a ≤ S7x8x768.size a)
    (iC1_4 : ∀ a, oC1_4 a + S1x1x16.size a ≤ S7x8x768.size a)
    (iC1_5 : ∀ a, oC1_5 a + S1x1x16.size a ≤ S7x8x768.size a)
    (iC1_6 : ∀ a, oC1_6 a + S1x1x16.size a ≤ S7x8x768.size a)
    (iC1_7 : ∀ a, oC1_7 a + S1x1x16.size a ≤ S7x8x768.size a)
    (iC2_0 : ∀ a, oC2_0 a + S1x1x16.size a ≤ S7x8x768.size a)
    (iC2_1 : ∀ a, oC2_1 a + S1x1x16.size a ≤ S7x8x768.size a)
    (iC2_2 : ∀ a, oC2_2 a + S1x1x16.size a ≤ S7x8x768.size a)
    (iC2_3 : ∀ a, oC2_3 a + S1x1x16.size a ≤ S7x8x768.size a)
    (iC2_4 : ∀ a, oC2_4 a + S1x1x16.size a ≤ S7x8x768.size a)
    (iC2_5 : ∀ a, oC2_5 a + S1x1x16.size a ≤ S7x8x768.size a)
    (iC2_6 : ∀ a, oC2_6 a + S1x1x16.size a ≤ S7x8x768.size a)
    (iC2_7 : ∀ a, oC2_7 a + S1x1x16.size a ≤ S7x8x768.size a)
    (iC3_0 : ∀ a, oC3_0 a + S1x1x16.size a ≤ S7x8x768.size a)
    (iC3_1 : ∀ a, oC3_1 a + S1x1x16.size a ≤ S7x8x768.size a)
    (iC3_2 : ∀ a, oC3_2 a + S1x1x16.size a ≤ S7x8x768.size a)
    (iC3_3 : ∀ a, oC3_3 a + S1x1x16.size a ≤ S7x8x768.size a)
    (iC3_4 : ∀ a, oC3_4 a + S1x1x16.size a ≤ S7x8x768.size a)
    (iC3_5 : ∀ a, oC3_5 a + S1x1x16.size a ≤ S7x8x768.size a)
    (iC3_6 : ∀ a, oC3_6 a + S1x1x16.size a ≤ S7x8x768.size a)
    (iC3_7 : ∀ a, oC3_7 a + S1x1x16.size a ≤ S7x8x768.size a)
    (iC4_0 : ∀ a, oC4_0 a + S1x1x16.size a ≤ S7x8x768.size a)
    (iC4_1 : ∀ a, oC4_1 a + S1x1x16.size a ≤ S7x8x768.size a)
    (iC4_2 : ∀ a, oC4_2 a + S1x1x16.size a ≤ S7x8x768.size a)
    (iC4_3 : ∀ a, oC4_3 a + S1x1x16.size a ≤ S7x8x768.size a)
    (iC4_4 : ∀ a, oC4_4 a + S1x1x16.size a ≤ S7x8x768.size a)
    (iC4_5 : ∀ a, oC4_5 a + S1x1x16.size a ≤ S7x8x768.size a)
    (iC4_6 : ∀ a, oC4_6 a + S1x1x16.size a ≤ S7x8x768.size a)
    (iC4_7 : ∀ a, oC4_7 a + S1x1x16.size a ≤ S7x8x768.size a)
    (iC5_0 : ∀ a, oC5_0 a + S1x1x16.size a ≤ S7x8x768.size a)
    (iC5_1 : ∀ a, oC5_1 a + S1x1x16.size a ≤ S7x8x768.size a)
    (iC5_2 : ∀ a, oC5_2 a + S1x1x16.size a ≤ S7x8x768.size a)
    (iC5_3 : ∀ a, oC5_3 a + S1x1x16.size a ≤ S7x8x768.size a)
    (iC5_4 : ∀ a, oC5_4 a + S1x1x16.size a ≤ S7x8x768.size a)
    (iC5_5 : ∀ a, oC5_5 a + S1x1x16.size a ≤ S7x8x768.size a)
    (iC5_6 : ∀ a, oC5_6 a + S1x1x16.size a ≤ S7x8x768.size a)
    (iC5_7 : ∀ a, oC5_7 a + S1x1x16.size a ≤ S7x8x768.size a)
    (iC6_0 : ∀ a, oC6_0 a + S1x1x16.size a ≤ S7x8x768.size a)
    (iC6_1 : ∀ a, oC6_1 a + S1x1x16.size a ≤ S7x8x768.size a)
    (iC6_2 : ∀ a, oC6_2 a + S1x1x16.size a ≤ S7x8x768.size a)
    (iC6_3 : ∀ a, oC6_3 a + S1x1x16.size a ≤ S7x8x768.size a)
    (iC6_4 : ∀ a, oC6_4 a + S1x1x16.size a ≤ S7x8x768.size a)
    (iC6_5 : ∀ a, oC6_5 a + S1x1x16.size a ≤ S7x8x768.size a)
    (iC6_6 : ∀ a, oC6_6 a + S1x1x16.size a ≤ S7x8x768.size a)
    (iC6_7 : ∀ a, oC6_7 a + S1x1x16.size a ≤ S7x8x768.size a)
    (Lst : List (View.Piece (Elt F) S7x8x768 .f32))
    (hL : Lst =
      [⟨Rect.unit (s := S7x8x768) oC6_7 S1x1x16.size iC6_7,
          stripSum (View.readAt (Elt F) (bA).view (Rect.unit (s := S7x8x768) oC6_7 S1x1x16.size iC6_7).toLoadRect gA)
            (View.readAt (Elt F) (bPw5).view (Rect.unit (s := S5x768) oP6 S1x16.size iP6).toLoadRect gP5)⟩,
        ⟨Rect.unit (s := S7x8x768) oC6_6 S1x1x16.size iC6_6,
          stripSum (View.readAt (Elt F) (bA).view (Rect.unit (s := S7x8x768) oC6_6 S1x1x16.size iC6_6).toLoadRect gA)
            (View.readAt (Elt F) (bPw5).view (Rect.unit (s := S5x768) oP6 S1x16.size iP6).toLoadRect gP5)⟩,
        ⟨Rect.unit (s := S7x8x768) oC6_5 S1x1x16.size iC6_5,
          stripSum (View.readAt (Elt F) (bA).view (Rect.unit (s := S7x8x768) oC6_5 S1x1x16.size iC6_5).toLoadRect gA)
            (View.readAt (Elt F) (bPw5).view (Rect.unit (s := S5x768) oP6 S1x16.size iP6).toLoadRect gP5)⟩,
        ⟨Rect.unit (s := S7x8x768) oC6_4 S1x1x16.size iC6_4,
          stripSum (View.readAt (Elt F) (bA).view (Rect.unit (s := S7x8x768) oC6_4 S1x1x16.size iC6_4).toLoadRect gA)
            (View.readAt (Elt F) (bPw5).view (Rect.unit (s := S5x768) oP6 S1x16.size iP6).toLoadRect gP5)⟩,
        ⟨Rect.unit (s := S7x8x768) oC6_3 S1x1x16.size iC6_3,
          stripSum (View.readAt (Elt F) (bA).view (Rect.unit (s := S7x8x768) oC6_3 S1x1x16.size iC6_3).toLoadRect gA)
            (View.readAt (Elt F) (bPw5).view (Rect.unit (s := S5x768) oP6 S1x16.size iP6).toLoadRect gP5)⟩,
        ⟨Rect.unit (s := S7x8x768) oC6_2 S1x1x16.size iC6_2,
          stripSum (View.readAt (Elt F) (bA).view (Rect.unit (s := S7x8x768) oC6_2 S1x1x16.size iC6_2).toLoadRect gA)
            (View.readAt (Elt F) (bPw5).view (Rect.unit (s := S5x768) oP6 S1x16.size iP6).toLoadRect gP5)⟩,
        ⟨Rect.unit (s := S7x8x768) oC6_1 S1x1x16.size iC6_1,
          stripSum (View.readAt (Elt F) (bA).view (Rect.unit (s := S7x8x768) oC6_1 S1x1x16.size iC6_1).toLoadRect gA)
            (View.readAt (Elt F) (bPw5).view (Rect.unit (s := S5x768) oP6 S1x16.size iP6).toLoadRect gP5)⟩,
        ⟨Rect.unit (s := S7x8x768) oC6_0 S1x1x16.size iC6_0,
          stripSum (View.readAt (Elt F) (bA).view (Rect.unit (s := S7x8x768) oC6_0 S1x1x16.size iC6_0).toLoadRect gA)
            (View.readAt (Elt F) (bPw5).view (Rect.unit (s := S5x768) oP6 S1x16.size iP6).toLoadRect gP5)⟩,
        ⟨Rect.unit (s := S7x8x768) oC5_7 S1x1x16.size iC5_7,
          stripSum (View.readAt (Elt F) (bA).view (Rect.unit (s := S7x8x768) oC5_7 S1x1x16.size iC5_7).toLoadRect gA)
            (View.readAt (Elt F) (bPw5).view (Rect.unit (s := S5x768) oP5 S1x16.size iP5).toLoadRect gP5)⟩,
        ⟨Rect.unit (s := S7x8x768) oC5_6 S1x1x16.size iC5_6,
          stripSum (View.readAt (Elt F) (bA).view (Rect.unit (s := S7x8x768) oC5_6 S1x1x16.size iC5_6).toLoadRect gA)
            (View.readAt (Elt F) (bPw5).view (Rect.unit (s := S5x768) oP5 S1x16.size iP5).toLoadRect gP5)⟩,
        ⟨Rect.unit (s := S7x8x768) oC5_5 S1x1x16.size iC5_5,
          stripSum (View.readAt (Elt F) (bA).view (Rect.unit (s := S7x8x768) oC5_5 S1x1x16.size iC5_5).toLoadRect gA)
            (View.readAt (Elt F) (bPw5).view (Rect.unit (s := S5x768) oP5 S1x16.size iP5).toLoadRect gP5)⟩,
        ⟨Rect.unit (s := S7x8x768) oC5_4 S1x1x16.size iC5_4,
          stripSum (View.readAt (Elt F) (bA).view (Rect.unit (s := S7x8x768) oC5_4 S1x1x16.size iC5_4).toLoadRect gA)
            (View.readAt (Elt F) (bPw5).view (Rect.unit (s := S5x768) oP5 S1x16.size iP5).toLoadRect gP5)⟩,
        ⟨Rect.unit (s := S7x8x768) oC5_3 S1x1x16.size iC5_3,
          stripSum (View.readAt (Elt F) (bA).view (Rect.unit (s := S7x8x768) oC5_3 S1x1x16.size iC5_3).toLoadRect gA)
            (View.readAt (Elt F) (bPw5).view (Rect.unit (s := S5x768) oP5 S1x16.size iP5).toLoadRect gP5)⟩,
        ⟨Rect.unit (s := S7x8x768) oC5_2 S1x1x16.size iC5_2,
          stripSum (View.readAt (Elt F) (bA).view (Rect.unit (s := S7x8x768) oC5_2 S1x1x16.size iC5_2).toLoadRect gA)
            (View.readAt (Elt F) (bPw5).view (Rect.unit (s := S5x768) oP5 S1x16.size iP5).toLoadRect gP5)⟩,
        ⟨Rect.unit (s := S7x8x768) oC5_1 S1x1x16.size iC5_1,
          stripSum (View.readAt (Elt F) (bA).view (Rect.unit (s := S7x8x768) oC5_1 S1x1x16.size iC5_1).toLoadRect gA)
            (View.readAt (Elt F) (bPw5).view (Rect.unit (s := S5x768) oP5 S1x16.size iP5).toLoadRect gP5)⟩,
        ⟨Rect.unit (s := S7x8x768) oC5_0 S1x1x16.size iC5_0,
          stripSum (View.readAt (Elt F) (bA).view (Rect.unit (s := S7x8x768) oC5_0 S1x1x16.size iC5_0).toLoadRect gA)
            (View.readAt (Elt F) (bPw5).view (Rect.unit (s := S5x768) oP5 S1x16.size iP5).toLoadRect gP5)⟩,
        ⟨Rect.unit (s := S7x8x768) oC4_7 S1x1x16.size iC4_7,
          stripSum (View.readAt (Elt F) (bA).view (Rect.unit (s := S7x8x768) oC4_7 S1x1x16.size iC4_7).toLoadRect gA)
            (View.readAt (Elt F) (bPw5).view (Rect.unit (s := S5x768) oP4 S1x16.size iP4).toLoadRect gP5)⟩,
        ⟨Rect.unit (s := S7x8x768) oC4_6 S1x1x16.size iC4_6,
          stripSum (View.readAt (Elt F) (bA).view (Rect.unit (s := S7x8x768) oC4_6 S1x1x16.size iC4_6).toLoadRect gA)
            (View.readAt (Elt F) (bPw5).view (Rect.unit (s := S5x768) oP4 S1x16.size iP4).toLoadRect gP5)⟩,
        ⟨Rect.unit (s := S7x8x768) oC4_5 S1x1x16.size iC4_5,
          stripSum (View.readAt (Elt F) (bA).view (Rect.unit (s := S7x8x768) oC4_5 S1x1x16.size iC4_5).toLoadRect gA)
            (View.readAt (Elt F) (bPw5).view (Rect.unit (s := S5x768) oP4 S1x16.size iP4).toLoadRect gP5)⟩,
        ⟨Rect.unit (s := S7x8x768) oC4_4 S1x1x16.size iC4_4,
          stripSum (View.readAt (Elt F) (bA).view (Rect.unit (s := S7x8x768) oC4_4 S1x1x16.size iC4_4).toLoadRect gA)
            (View.readAt (Elt F) (bPw5).view (Rect.unit (s := S5x768) oP4 S1x16.size iP4).toLoadRect gP5)⟩,
        ⟨Rect.unit (s := S7x8x768) oC4_3 S1x1x16.size iC4_3,
          stripSum (View.readAt (Elt F) (bA).view (Rect.unit (s := S7x8x768) oC4_3 S1x1x16.size iC4_3).toLoadRect gA)
            (View.readAt (Elt F) (bPw5).view (Rect.unit (s := S5x768) oP4 S1x16.size iP4).toLoadRect gP5)⟩,
        ⟨Rect.unit (s := S7x8x768) oC4_2 S1x1x16.size iC4_2,
          stripSum (View.readAt (Elt F) (bA).view (Rect.unit (s := S7x8x768) oC4_2 S1x1x16.size iC4_2).toLoadRect gA)
            (View.readAt (Elt F) (bPw5).view (Rect.unit (s := S5x768) oP4 S1x16.size iP4).toLoadRect gP5)⟩,
        ⟨Rect.unit (s := S7x8x768) oC4_1 S1x1x16.size iC4_1,
          stripSum (View.readAt (Elt F) (bA).view (Rect.unit (s := S7x8x768) oC4_1 S1x1x16.size iC4_1).toLoadRect gA)
            (View.readAt (Elt F) (bPw5).view (Rect.unit (s := S5x768) oP4 S1x16.size iP4).toLoadRect gP5)⟩,
        ⟨Rect.unit (s := S7x8x768) oC4_0 S1x1x16.size iC4_0,
          stripSum (View.readAt (Elt F) (bA).view (Rect.unit (s := S7x8x768) oC4_0 S1x1x16.size iC4_0).toLoadRect gA)
            (View.readAt (Elt F) (bPw5).view (Rect.unit (s := S5x768) oP4 S1x16.size iP4).toLoadRect gP5)⟩,
        ⟨Rect.unit (s := S7x8x768) oC3_7 S1x1x16.size iC3_7,
          stripSum (View.readAt (Elt F) (bA).view (Rect.unit (s := S7x8x768) oC3_7 S1x1x16.size iC3_7).toLoadRect gA)
            (View.readAt (Elt F) (bPw5).view (Rect.unit (s := S5x768) oP3 S1x16.size iP3).toLoadRect gP5)⟩,
        ⟨Rect.unit (s := S7x8x768) oC3_6 S1x1x16.size iC3_6,
          stripSum (View.readAt (Elt F) (bA).view (Rect.unit (s := S7x8x768) oC3_6 S1x1x16.size iC3_6).toLoadRect gA)
            (View.readAt (Elt F) (bPw5).view (Rect.unit (s := S5x768) oP3 S1x16.size iP3).toLoadRect gP5)⟩,
        ⟨Rect.unit (s := S7x8x768) oC3_5 S1x1x16.size iC3_5,
          stripSum (View.readAt (Elt F) (bA).view (Rect.unit (s := S7x8x768) oC3_5 S1x1x16.size iC3_5).toLoadRect gA)
            (View.readAt (Elt F) (bPw5).view (Rect.unit (s := S5x768) oP3 S1x16.size iP3).toLoadRect gP5)⟩,
        ⟨Rect.unit (s := S7x8x768) oC3_4 S1x1x16.size iC3_4,
          stripSum (View.readAt (Elt F) (bA).view (Rect.unit (s := S7x8x768) oC3_4 S1x1x16.size iC3_4).toLoadRect gA)
            (View.readAt (Elt F) (bPw5).view (Rect.unit (s := S5x768) oP3 S1x16.size iP3).toLoadRect gP5)⟩,
        ⟨Rect.unit (s := S7x8x768) oC3_3 S1x1x16.size iC3_3,
          stripSum (View.readAt (Elt F) (bA).view (Rect.unit (s := S7x8x768) oC3_3 S1x1x16.size iC3_3).toLoadRect gA)
            (View.readAt (Elt F) (bPw5).view (Rect.unit (s := S5x768) oP3 S1x16.size iP3).toLoadRect gP5)⟩,
        ⟨Rect.unit (s := S7x8x768) oC3_2 S1x1x16.size iC3_2,
          stripSum (View.readAt (Elt F) (bA).view (Rect.unit (s := S7x8x768) oC3_2 S1x1x16.size iC3_2).toLoadRect gA)
            (View.readAt (Elt F) (bPw5).view (Rect.unit (s := S5x768) oP3 S1x16.size iP3).toLoadRect gP5)⟩,
        ⟨Rect.unit (s := S7x8x768) oC3_1 S1x1x16.size iC3_1,
          stripSum (View.readAt (Elt F) (bA).view (Rect.unit (s := S7x8x768) oC3_1 S1x1x16.size iC3_1).toLoadRect gA)
            (View.readAt (Elt F) (bPw5).view (Rect.unit (s := S5x768) oP3 S1x16.size iP3).toLoadRect gP5)⟩,
        ⟨Rect.unit (s := S7x8x768) oC3_0 S1x1x16.size iC3_0,
          stripSum (View.readAt (Elt F) (bA).view (Rect.unit (s := S7x8x768) oC3_0 S1x1x16.size iC3_0).toLoadRect gA)
            (View.readAt (Elt F) (bPw5).view (Rect.unit (s := S5x768) oP3 S1x16.size iP3).toLoadRect gP5)⟩,
        ⟨Rect.unit (s := S7x8x768) oC2_7 S1x1x16.size iC2_7,
          stripSum (View.readAt (Elt F) (bA).view (Rect.unit (s := S7x8x768) oC2_7 S1x1x16.size iC2_7).toLoadRect gA)
            (View.readAt (Elt F) (bPw5).view (Rect.unit (s := S5x768) oP2 S1x16.size iP2).toLoadRect gP5)⟩,
        ⟨Rect.unit (s := S7x8x768) oC2_6 S1x1x16.size iC2_6,
          stripSum (View.readAt (Elt F) (bA).view (Rect.unit (s := S7x8x768) oC2_6 S1x1x16.size iC2_6).toLoadRect gA)
            (View.readAt (Elt F) (bPw5).view (Rect.unit (s := S5x768) oP2 S1x16.size iP2).toLoadRect gP5)⟩,
        ⟨Rect.unit (s := S7x8x768) oC2_5 S1x1x16.size iC2_5,
          stripSum (View.readAt (Elt F) (bA).view (Rect.unit (s := S7x8x768) oC2_5 S1x1x16.size iC2_5).toLoadRect gA)
            (View.readAt (Elt F) (bPw5).view (Rect.unit (s := S5x768) oP2 S1x16.size iP2).toLoadRect gP5)⟩,
        ⟨Rect.unit (s := S7x8x768) oC2_4 S1x1x16.size iC2_4,
          stripSum (View.readAt (Elt F) (bA).view (Rect.unit (s := S7x8x768) oC2_4 S1x1x16.size iC2_4).toLoadRect gA)
            (View.readAt (Elt F) (bPw5).view (Rect.unit (s := S5x768) oP2 S1x16.size iP2).toLoadRect gP5)⟩,
        ⟨Rect.unit (s := S7x8x768) oC2_3 S1x1x16.size iC2_3,
          stripSum (View.readAt (Elt F) (bA).view (Rect.unit (s := S7x8x768) oC2_3 S1x1x16.size iC2_3).toLoadRect gA)
            (View.readAt (Elt F) (bPw5).view (Rect.unit (s := S5x768) oP2 S1x16.size iP2).toLoadRect gP5)⟩,
        ⟨Rect.unit (s := S7x8x768) oC2_2 S1x1x16.size iC2_2,
          stripSum (View.readAt (Elt F) (bA).view (Rect.unit (s := S7x8x768) oC2_2 S1x1x16.size iC2_2).toLoadRect gA)
            (View.readAt (Elt F) (bPw5).view (Rect.unit (s := S5x768) oP2 S1x16.size iP2).toLoadRect gP5)⟩,
        ⟨Rect.unit (s := S7x8x768) oC2_1 S1x1x16.size iC2_1,
          stripSum (View.readAt (Elt F) (bA).view (Rect.unit (s := S7x8x768) oC2_1 S1x1x16.size iC2_1).toLoadRect gA)
            (View.readAt (Elt F) (bPw5).view (Rect.unit (s := S5x768) oP2 S1x16.size iP2).toLoadRect gP5)⟩,
        ⟨Rect.unit (s := S7x8x768) oC2_0 S1x1x16.size iC2_0,
          stripSum (View.readAt (Elt F) (bA).view (Rect.unit (s := S7x8x768) oC2_0 S1x1x16.size iC2_0).toLoadRect gA)
            (View.readAt (Elt F) (bPw5).view (Rect.unit (s := S5x768) oP2 S1x16.size iP2).toLoadRect gP5)⟩,
        ⟨Rect.unit (s := S7x8x768) oC1_7 S1x1x16.size iC1_7,
          stripSum (View.readAt (Elt F) (bA).view (Rect.unit (s := S7x8x768) oC1_7 S1x1x16.size iC1_7).toLoadRect gA)
            (View.readAt (Elt F) (bPw).view (Rect.unit (s := S16x768) oP1 S1x16.size iP1).toLoadRect gP)⟩,
        ⟨Rect.unit (s := S7x8x768) oC1_6 S1x1x16.size iC1_6,
          stripSum (View.readAt (Elt F) (bA).view (Rect.unit (s := S7x8x768) oC1_6 S1x1x16.size iC1_6).toLoadRect gA)
            (View.readAt (Elt F) (bPw).view (Rect.unit (s := S16x768) oP1 S1x16.size iP1).toLoadRect gP)⟩,
        ⟨Rect.unit (s := S7x8x768) oC1_5 S1x1x16.size iC1_5,
          stripSum (View.readAt (Elt F) (bA).view (Rect.unit (s := S7x8x768) oC1_5 S1x1x16.size iC1_5).toLoadRect gA)
            (View.readAt (Elt F) (bPw).view (Rect.unit (s := S16x768) oP1 S1x16.size iP1).toLoadRect gP)⟩,
        ⟨Rect.unit (s := S7x8x768) oC1_4 S1x1x16.size iC1_4,
          stripSum (View.readAt (Elt F) (bA).view (Rect.unit (s := S7x8x768) oC1_4 S1x1x16.size iC1_4).toLoadRect gA)
            (View.readAt (Elt F) (bPw).view (Rect.unit (s := S16x768) oP1 S1x16.size iP1).toLoadRect gP)⟩,
        ⟨Rect.unit (s := S7x8x768) oC1_3 S1x1x16.size iC1_3,
          stripSum (View.readAt (Elt F) (bA).view (Rect.unit (s := S7x8x768) oC1_3 S1x1x16.size iC1_3).toLoadRect gA)
            (View.readAt (Elt F) (bPw).view (Rect.unit (s := S16x768) oP1 S1x16.size iP1).toLoadRect gP)⟩,
        ⟨Rect.unit (s := S7x8x768) oC1_2 S1x1x16.size iC1_2,
          stripSum (View.readAt (Elt F) (bA).view (Rect.unit (s := S7x8x768) oC1_2 S1x1x16.size iC1_2).toLoadRect gA)
            (View.readAt (Elt F) (bPw).view (Rect.unit (s := S16x768) oP1 S1x16.size iP1).toLoadRect gP)⟩,
        ⟨Rect.unit (s := S7x8x768) oC1_1 S1x1x16.size iC1_1,
          stripSum (View.readAt (Elt F) (bA).view (Rect.unit (s := S7x8x768) oC1_1 S1x1x16.size iC1_1).toLoadRect gA)
            (View.readAt (Elt F) (bPw).view (Rect.unit (s := S16x768) oP1 S1x16.size iP1).toLoadRect gP)⟩,
        ⟨Rect.unit (s := S7x8x768) oC1_0 S1x1x16.size iC1_0,
          stripSum (View.readAt (Elt F) (bA).view (Rect.unit (s := S7x8x768) oC1_0 S1x1x16.size iC1_0).toLoadRect gA)
            (View.readAt (Elt F) (bPw).view (Rect.unit (s := S16x768) oP1 S1x16.size iP1).toLoadRect gP)⟩,
        ⟨Rect.unit (s := S7x8x768) oC0_7 S1x1x16.size iC0_7,
          stripSum (View.readAt (Elt F) (bA).view (Rect.unit (s := S7x8x768) oC0_7 S1x1x16.size iC0_7).toLoadRect gA)
            (View.readAt (Elt F) (bPw).view (Rect.unit (s := S16x768) oP0 S1x16.size iP0).toLoadRect gP)⟩,
        ⟨Rect.unit (s := S7x8x768) oC0_6 S1x1x16.size iC0_6,
          stripSum (View.readAt (Elt F) (bA).view (Rect.unit (s := S7x8x768) oC0_6 S1x1x16.size iC0_6).toLoadRect gA)
            (View.readAt (Elt F) (bPw).view (Rect.unit (s := S16x768) oP0 S1x16.size iP0).toLoadRect gP)⟩,
        ⟨Rect.unit (s := S7x8x768) oC0_5 S1x1x16.size iC0_5,
          stripSum (View.readAt (Elt F) (bA).view (Rect.unit (s := S7x8x768) oC0_5 S1x1x16.size iC0_5).toLoadRect gA)
            (View.readAt (Elt F) (bPw).view (Rect.unit (s := S16x768) oP0 S1x16.size iP0).toLoadRect gP)⟩,
        ⟨Rect.unit (s := S7x8x768) oC0_4 S1x1x16.size iC0_4,
          stripSum (View.readAt (Elt F) (bA).view (Rect.unit (s := S7x8x768) oC0_4 S1x1x16.size iC0_4).toLoadRect gA)
            (View.readAt (Elt F) (bPw).view (Rect.unit (s := S16x768) oP0 S1x16.size iP0).toLoadRect gP)⟩,
        ⟨Rect.unit (s := S7x8x768) oC0_3 S1x1x16.size iC0_3,
          stripSum (View.readAt (Elt F) (bA).view (Rect.unit (s := S7x8x768) oC0_3 S1x1x16.size iC0_3).toLoadRect gA)
            (View.readAt (Elt F) (bPw).view (Rect.unit (s := S16x768) oP0 S1x16.size iP0).toLoadRect gP)⟩,
        ⟨Rect.unit (s := S7x8x768) oC0_2 S1x1x16.size iC0_2,
          stripSum (View.readAt (Elt F) (bA).view (Rect.unit (s := S7x8x768) oC0_2 S1x1x16.size iC0_2).toLoadRect gA)
            (View.readAt (Elt F) (bPw).view (Rect.unit (s := S16x768) oP0 S1x16.size iP0).toLoadRect gP)⟩,
        ⟨Rect.unit (s := S7x8x768) oC0_1 S1x1x16.size iC0_1,
          stripSum (View.readAt (Elt F) (bA).view (Rect.unit (s := S7x8x768) oC0_1 S1x1x16.size iC0_1).toLoadRect gA)
            (View.readAt (Elt F) (bPw).view (Rect.unit (s := S16x768) oP0 S1x16.size iP0).toLoadRect gP)⟩,
        ⟨Rect.unit (s := S7x8x768) oC0_0 S1x1x16.size iC0_0,
          stripSum (View.readAt (Elt F) (bA).view (Rect.unit (s := S7x8x768) oC0_0 S1x1x16.size iC0_0).toLoadRect gA)
            (View.readAt (Elt F) (bPw).view (Rect.unit (s := S16x768) oP0 S1x16.size iP0).toLoadRect gP)⟩])
    (r : Fin 7) (b : Fin 8) (c : Fin 768) :
    (bA).view.writes (Elt F) gA Lst
      (ix3 r b c) = if c.val < 16 * (k + 1) then lastVal m d r b c else xT m d (ix3 (⟨189 + r.val, by have := r.isLt; omega⟩ : Fin 196) (⟨56 + b.val, by have := b.isLt; omega⟩ : Fin 64) c) := by
  subst eP0 eP1 eP2 eP3 eP4 eP5 eP6
  subst eC0_0 eC0_1 eC0_2 eC0_3 eC0_4 eC0_5 eC0_6 eC0_7 eC1_0 eC1_1 eC1_2 eC1_3 eC1_4 eC1_5 eC1_6 eC1_7 eC2_0 eC2_1 eC2_2 eC2_3 eC2_4 eC2_5 eC2_6 eC2_7 eC3_0 eC3_1 eC3_2 eC3_3 eC3_4 eC3_5 eC3_6 eC3_7 eC4_0 eC4_1 eC4_2 eC4_3 eC4_4 eC4_5 eC4_6 eC4_7 eC5_0 eC5_1 eC5_2 eC5_3 eC5_4 eC5_5 eC5_6 eC5_7 eC6_0 eC6_1 eC6_2 eC6_3 eC6_4 eC6_5 eC6_6 eC6_7
  have hA' : ∀ (r : Fin 7) (b : Fin 8) (c : Fin 768), 16 * k ≤ c.val →
      gA (ix3 r b c) = xT m d (ix3 (⟨189 + r.val, by have := r.isLt; omega⟩ : Fin 196) (⟨56 + b.val, by have := b.isLt; omega⟩ : Fin 64) c) :=
    fun r b c h => by rw [hA, if_neg (by omega)]
  by_cases hin : 16 * k ≤ c.val ∧ c.val < 16 * k + 16
  · rw [if_pos (by omega)]
    refine whole_writes_of_pieces cc0_scratch0 gA (fun i => lastVal m d (i 0) (i 1) (i 2)) _ ?_ (ix3 r b c) ?_
    · intro p hp x
      rw [hL] at hp
      simp only [List.mem_cons, List.mem_nil_iff, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      · exact last_piece m d L k hk 6 7 (by decide) (by decide) iC6_7 gA hA' _ (posStrip5 m d L k hk 4 (by decide) iP6 gP5 hP5) x
      · exact last_piece m d L k hk 6 6 (by decide) (by decide) iC6_6 gA hA' _ (posStrip5 m d L k hk 4 (by decide) iP6 gP5 hP5) x
      · exact last_piece m d L k hk 6 5 (by decide) (by decide) iC6_5 gA hA' _ (posStrip5 m d L k hk 4 (by decide) iP6 gP5 hP5) x
      · exact last_piece m d L k hk 6 4 (by decide) (by decide) iC6_4 gA hA' _ (posStrip5 m d L k hk 4 (by decide) iP6 gP5 hP5) x
      · exact last_piece m d L k hk 6 3 (by decide) (by decide) iC6_3 gA hA' _ (posStrip5 m d L k hk 4 (by decide) iP6 gP5 hP5) x
      · exact last_piece m d L k hk 6 2 (by decide) (by decide) iC6_2 gA hA' _ (posStrip5 m d L k hk 4 (by decide) iP6 gP5 hP5) x
      · exact last_piece m d L k hk 6 1 (by decide) (by decide) iC6_1 gA hA' _ (posStrip5 m d L k hk 4 (by decide) iP6 gP5 hP5) x
      · exact last_piece m d L k hk 6 0 (by decide) (by decide) iC6_0 gA hA' _ (posStrip5 m d L k hk 4 (by decide) iP6 gP5 hP5) x
      · exact last_piece m d L k hk 5 7 (by decide) (by decide) iC5_7 gA hA' _ (posStrip5 m d L k hk 3 (by decide) iP5 gP5 hP5) x
      · exact last_piece m d L k hk 5 6 (by decide) (by decide) iC5_6 gA hA' _ (posStrip5 m d L k hk 3 (by decide) iP5 gP5 hP5) x
      · exact last_piece m d L k hk 5 5 (by decide) (by decide) iC5_5 gA hA' _ (posStrip5 m d L k hk 3 (by decide) iP5 gP5 hP5) x
      · exact last_piece m d L k hk 5 4 (by decide) (by decide) iC5_4 gA hA' _ (posStrip5 m d L k hk 3 (by decide) iP5 gP5 hP5) x
      · exact last_piece m d L k hk 5 3 (by decide) (by decide) iC5_3 gA hA' _ (posStrip5 m d L k hk 3 (by decide) iP5 gP5 hP5) x
      · exact last_piece m d L k hk 5 2 (by decide) (by decide) iC5_2 gA hA' _ (posStrip5 m d L k hk 3 (by decide) iP5 gP5 hP5) x
      · exact last_piece m d L k hk 5 1 (by decide) (by decide) iC5_1 gA hA' _ (posStrip5 m d L k hk 3 (by decide) iP5 gP5 hP5) x
      · exact last_piece m d L k hk 5 0 (by decide) (by decide) iC5_0 gA hA' _ (posStrip5 m d L k hk 3 (by decide) iP5 gP5 hP5) x
      · exact last_piece m d L k hk 4 7 (by decide) (by decide) iC4_7 gA hA' _ (posStrip5 m d L k hk 2 (by decide) iP4 gP5 hP5) x
      · exact last_piece m d L k hk 4 6 (by decide) (by decide) iC4_6 gA hA' _ (posStrip5 m d L k hk 2 (by decide) iP4 gP5 hP5) x
      · exact last_piece m d L k hk 4 5 (by decide) (by decide) iC4_5 gA hA' _ (posStrip5 m d L k hk 2 (by decide) iP4 gP5 hP5) x
      · exact last_piece m d L k hk 4 4 (by decide) (by decide) iC4_4 gA hA' _ (posStrip5 m d L k hk 2 (by decide) iP4 gP5 hP5) x
      · exact last_piece m d L k hk 4 3 (by decide) (by decide) iC4_3 gA hA' _ (posStrip5 m d L k hk 2 (by decide) iP4 gP5 hP5) x
      · exact last_piece m d L k hk 4 2 (by decide) (by decide) iC4_2 gA hA' _ (posStrip5 m d L k hk 2 (by decide) iP4 gP5 hP5) x
      · exact last_piece m d L k hk 4 1 (by decide) (by decide) iC4_1 gA hA' _ (posStrip5 m d L k hk 2 (by decide) iP4 gP5 hP5) x
      · exact last_piece m d L k hk 4 0 (by decide) (by decide) iC4_0 gA hA' _ (posStrip5 m d L k hk 2 (by decide) iP4 gP5 hP5) x
      · exact last_piece m d L k hk 3 7 (by decide) (by decide) iC3_7 gA hA' _ (posStrip5 m d L k hk 1 (by decide) iP3 gP5 hP5) x
      · exact last_piece m d L k hk 3 6 (by decide) (by decide) iC3_6 gA hA' _ (posStrip5 m d L k hk 1 (by decide) iP3 gP5 hP5) x
      · exact last_piece m d L k hk 3 5 (by decide) (by decide) iC3_5 gA hA' _ (posStrip5 m d L k hk 1 (by decide) iP3 gP5 hP5) x
      · exact last_piece m d L k hk 3 4 (by decide) (by decide) iC3_4 gA hA' _ (posStrip5 m d L k hk 1 (by decide) iP3 gP5 hP5) x
      · exact last_piece m d L k hk 3 3 (by decide) (by decide) iC3_3 gA hA' _ (posStrip5 m d L k hk 1 (by decide) iP3 gP5 hP5) x
      · exact last_piece m d L k hk 3 2 (by decide) (by decide) iC3_2 gA hA' _ (posStrip5 m d L k hk 1 (by decide) iP3 gP5 hP5) x
      · exact last_piece m d L k hk 3 1 (by decide) (by decide) iC3_1 gA hA' _ (posStrip5 m d L k hk 1 (by decide) iP3 gP5 hP5) x
      · exact last_piece m d L k hk 3 0 (by decide) (by decide) iC3_0 gA hA' _ (posStrip5 m d L k hk 1 (by decide) iP3 gP5 hP5) x
      · exact last_piece m d L k hk 2 7 (by decide) (by decide) iC2_7 gA hA' _ (posStrip5 m d L k hk 0 (by decide) iP2 gP5 hP5) x
      · exact last_piece m d L k hk 2 6 (by decide) (by decide) iC2_6 gA hA' _ (posStrip5 m d L k hk 0 (by decide) iP2 gP5 hP5) x
      · exact last_piece m d L k hk 2 5 (by decide) (by decide) iC2_5 gA hA' _ (posStrip5 m d L k hk 0 (by decide) iP2 gP5 hP5) x
      · exact last_piece m d L k hk 2 4 (by decide) (by decide) iC2_4 gA hA' _ (posStrip5 m d L k hk 0 (by decide) iP2 gP5 hP5) x
      · exact last_piece m d L k hk 2 3 (by decide) (by decide) iC2_3 gA hA' _ (posStrip5 m d L k hk 0 (by decide) iP2 gP5 hP5) x
      · exact last_piece m d L k hk 2 2 (by decide) (by decide) iC2_2 gA hA' _ (posStrip5 m d L k hk 0 (by decide) iP2 gP5 hP5) x
      · exact last_piece m d L k hk 2 1 (by decide) (by decide) iC2_1 gA hA' _ (posStrip5 m d L k hk 0 (by decide) iP2 gP5 hP5) x
      · exact last_piece m d L k hk 2 0 (by decide) (by decide) iC2_0 gA hA' _ (posStrip5 m d L k hk 0 (by decide) iP2 gP5 hP5) x
      · exact last_piece m d L k hk 1 7 (by decide) (by decide) iC1_7 gA hA' _ (posStrip16 m d L k hk 1 (by decide) iP1 gP hP) x
      · exact last_piece m d L k hk 1 6 (by decide) (by decide) iC1_6 gA hA' _ (posStrip16 m d L k hk 1 (by decide) iP1 gP hP) x
      · exact last_piece m d L k hk 1 5 (by decide) (by decide) iC1_5 gA hA' _ (posStrip16 m d L k hk 1 (by decide) iP1 gP hP) x
      · exact last_piece m d L k hk 1 4 (by decide) (by decide) iC1_4 gA hA' _ (posStrip16 m d L k hk 1 (by decide) iP1 gP hP) x
      · exact last_piece m d L k hk 1 3 (by decide) (by decide) iC1_3 gA hA' _ (posStrip16 m d L k hk 1 (by decide) iP1 gP hP) x
      · exact last_piece m d L k hk 1 2 (by decide) (by decide) iC1_2 gA hA' _ (posStrip16 m d L k hk 1 (by decide) iP1 gP hP) x
      · exact last_piece m d L k hk 1 1 (by decide) (by decide) iC1_1 gA hA' _ (posStrip16 m d L k hk 1 (by decide) iP1 gP hP) x
      · exact last_piece m d L k hk 1 0 (by decide) (by decide) iC1_0 gA hA' _ (posStrip16 m d L k hk 1 (by decide) iP1 gP hP) x
      · exact last_piece m d L k hk 0 7 (by decide) (by decide) iC0_7 gA hA' _ (posStrip16 m d L k hk 0 (by decide) iP0 gP hP) x
      · exact last_piece m d L k hk 0 6 (by decide) (by decide) iC0_6 gA hA' _ (posStrip16 m d L k hk 0 (by decide) iP0 gP hP) x
      · exact last_piece m d L k hk 0 5 (by decide) (by decide) iC0_5 gA hA' _ (posStrip16 m d L k hk 0 (by decide) iP0 gP hP) x
      · exact last_piece m d L k hk 0 4 (by decide) (by decide) iC0_4 gA hA' _ (posStrip16 m d L k hk 0 (by decide) iP0 gP hP) x
      · exact last_piece m d L k hk 0 3 (by decide) (by decide) iC0_3 gA hA' _ (posStrip16 m d L k hk 0 (by decide) iP0 gP hP) x
      · exact last_piece m d L k hk 0 2 (by decide) (by decide) iC0_2 gA hA' _ (posStrip16 m d L k hk 0 (by decide) iP0 gP hP) x
      · exact last_piece m d L k hk 0 1 (by decide) (by decide) iC0_1 gA hA' _ (posStrip16 m d L k hk 0 (by decide) iP0 gP hP) x
      · exact last_piece m d L k hk 0 0 (by decide) (by decide) iC0_0 gA hA' _ (posStrip16 m d L k hk 0 (by decide) iP0 gP hP) x
    · have hmem : ∀ (r' b' : Nat) (inb : ∀ a, (![r', b', 16 * k] : Fin 3 → Nat) a + S1x1x16.size a ≤ S7x8x768.size a), r' = r.val → b' = b.val →
          ix3 r b c ∈ (Rect.unit (s := S7x8x768) ![r', b', 16 * k] S1x1x16.size inb).set := by
        intro r' b' inb h1 h2
        rw [mem_cell]; exact ⟨h1, h2, hin.1, hin.2⟩
      have hr := r.isLt
      have hb := b.isLt
      match r, hr with
      | ⟨0, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))), hmem 0 0 iC0_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))), hmem 0 1 iC0_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))), hmem 0 2 iC0_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))), hmem 0 3 iC0_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))), hmem 0 4 iC0_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))), hmem 0 5 iC0_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))), hmem 0 6 iC0_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))), hmem 0 7 iC0_7 rfl rfl⟩
      | ⟨1, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))), hmem 1 0 iC1_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))), hmem 1 1 iC1_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))), hmem 1 2 iC1_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))), hmem 1 3 iC1_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))), hmem 1 4 iC1_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))), hmem 1 5 iC1_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))), hmem 1 6 iC1_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))), hmem 1 7 iC1_7 rfl rfl⟩
      | ⟨2, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))), hmem 2 0 iC2_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))), hmem 2 1 iC2_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))), hmem 2 2 iC2_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))), hmem 2 3 iC2_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))), hmem 2 4 iC2_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))), hmem 2 5 iC2_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))), hmem 2 6 iC2_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))), hmem 2 7 iC2_7 rfl rfl⟩
      | ⟨3, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), hmem 3 0 iC3_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), hmem 3 1 iC3_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), hmem 3 2 iC3_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), hmem 3 3 iC3_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), hmem 3 4 iC3_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), hmem 3 5 iC3_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), hmem 3 6 iC3_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), hmem 3 7 iC3_7 rfl rfl⟩
      | ⟨4, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), hmem 4 0 iC4_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), hmem 4 1 iC4_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), hmem 4 2 iC4_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), hmem 4 3 iC4_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), hmem 4 4 iC4_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), hmem 4 5 iC4_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), hmem 4 6 iC4_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), hmem 4 7 iC4_7 rfl rfl⟩
      | ⟨5, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), hmem 5 0 iC5_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), hmem 5 1 iC5_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), hmem 5 2 iC5_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), hmem 5 3 iC5_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), hmem 5 4 iC5_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), hmem 5 5 iC5_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.head _)))))))))), hmem 5 6 iC5_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.head _))))))))), hmem 5 7 iC5_7 rfl rfl⟩
      | ⟨6, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.head _)))))))), hmem 6 0 iC6_0 rfl rfl⟩
        | ⟨1, _⟩, _ => exact ⟨_, mem_of_eq hL (List.Mem.tail _ (List.Mem.tail _ (List.Mem.tail _ (List.Mem.tail _ (List.Mem.tail _ (List.Mem.tail _ (List.Mem.head _))))))), hmem 6 1 iC6_1 rfl rfl⟩
        | ⟨2, _⟩, _ => exact ⟨_, mem_of_eq hL (List.Mem.tail _ (List.Mem.tail _ (List.Mem.tail _ (List.Mem.tail _ (List.Mem.tail _ (List.Mem.head _)))))), hmem 6 2 iC6_2 rfl rfl⟩
        | ⟨3, _⟩, _ => exact ⟨_, mem_of_eq hL (List.Mem.tail _ (List.Mem.tail _ (List.Mem.tail _ (List.Mem.tail _ (List.Mem.head _))))), hmem 6 3 iC6_3 rfl rfl⟩
        | ⟨4, _⟩, _ => exact ⟨_, mem_of_eq hL (List.Mem.tail _ (List.Mem.tail _ (List.Mem.tail _ (List.Mem.head _)))), hmem 6 4 iC6_4 rfl rfl⟩
        | ⟨5, _⟩, _ => exact ⟨_, mem_of_eq hL (List.Mem.tail _ (List.Mem.tail _ (List.Mem.head _))), hmem 6 5 iC6_5 rfl rfl⟩
        | ⟨6, _⟩, _ => exact ⟨_, mem_of_eq hL (List.Mem.tail _ (List.Mem.head _)), hmem 6 6 iC6_6 rfl rfl⟩
        | ⟨7, _⟩, _ => exact ⟨_, mem_of_eq hL (List.Mem.head _), hmem 6 7 iC6_7 rfl rfl⟩
  · refine (whole_writes_of_not_mem cc0_scratch0 gA (ix3 r b c) _ ?_).trans ?_
    · intro p hp
      rw [hL] at hp
      simp only [List.mem_cons, List.mem_nil_iff, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      · rw [mem_cell]; omega
    · rw [hA]
      by_cases h : c.val < 16 * k
      · rw [if_pos h, if_pos (by omega)]
      · rw [if_neg h, if_neg (by omega)]

end Cert.KI.Rest

end
-- ==== Proof.TileRestKILast.lean ====
/-
  Worker 27, before and after its loop: what the three copies in leave in the scratch buffers, what the copy out
  leaves in rows 190 to 196 of the call's result, and the loop's invariant.
-/
import proofs.«207362_g47132971107233_retrytranche2_1164_24_alg».proof.Proof.TileRestKILastStep

noncomputable section

namespace Cert.KI.Rest

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]
variable (m : (ℓ : Loc nD τ sig) → Buf (Elt F) ℓ)

/-! ## Before and after the loop -/

/-- The result's rows 190 to 196, as the body slices them. -/
abbrev outSl190 : Memref sig .scVector .hbm S7x8x768 .f32 :=
  (oW).slice (Rect.unit (s := S197x8x768) ![190, 0, 0] S7x8x768.size inb_S197x8x768_S7x8x768_190_0_0) (fun _ => rfl)

set_option Elab.async false in
theorem last_w : ∀ L : grid0.Coords, k0_cond2 L = 1#1 → wL L = (27 : Fin 32) := by decide +kernel

theorem outSet_last (L : grid0.Coords) (h2 : k0_cond2 L = 1#1) : outSet (wL L) = (outSl190).view.set := by
  rw [last_w L h2]; rfl

theorem pts_out190 (d : Dev nD) (L : grid0.Coords) (h2 : k0_cond2 L = 1#1) (f : Buf (Elt F) (oLoc d)) :
    ((outSl190).view.loc (thrV d L) ↦[(outSl190).view.set]{fullShare} f : sProp 𝕄) = (oLoc d ↦[outSet (wL L)]{fullShare} f) := by
  rw [outSet_last L h2]

/-- The sixteen-row scratch after its first eight rows were copied from the position table's rows `base` to `base + 7`. -/
theorem pw_rows (d : Dev nD) (L : grid0.Coords) (fPw : Buf (Elt F) ((bPw).view.loc (thrV d L))) (base : Nat) (hbase : base + 8 ≤ 197)
    (inb1 : ∀ a, (![0, 0] : Fin 2 → Nat) a + S8x768.size a ≤ S16x768.size a)
    (inb2 : ∀ a, (![base, 0] : Fin 2 → Nat) a + S8x768.size a ≤ S197x768.size a)
    (hst : ∀ a, (Rect.unit (s := S197x768) ![base, 0] S8x768.size inb2).stride a = 1)
    (j : Fin 8) (c : Fin 768) :
    (bPw).view.writes (Elt F) fPw
      [⟨Rect.unit (s := S16x768) ![0, 0] S8x768.size inb1,
          ReadAs.same.apply (View.read (Elt F) ((pW).slice (Rect.unit (s := S197x768) ![base, 0] S8x768.size inb2) hst).view (m (pLoc d)))⟩]
      (ix2 (⟨j.val, by have := j.isLt; omega⟩ : Fin 16) c) = m (pLoc d) (ix2 (⟨base + j.val, by have := j.isLt; omega⟩ : Fin 197) c) := by
  refine (whole_writes_of_pieces cc0_scratch2 fPw
    (fun i => m (pLoc d) (ix2 (⟨base + (i 0).val % 8, by have := Nat.mod_lt (i 0).val (show 0 < 8 by omega); omega⟩ : Fin 197) (i 1))) _ ?_
    (ix2 (⟨j.val, by have := j.isLt; omega⟩ : Fin 16) c) ?_).trans ?_
  · intro p hp x
    rw [List.mem_singleton] at hp
    subst hp
    show m (pLoc d) _ = m (pLoc d) _
    refine congrArg (m (pLoc d)) (funext fun a => ?_)
    have hx0 : (x 0).val < 8 := (x 0).isLt
    match a with
    | ⟨0, _⟩ => exact Fin.ext (by show base + 1 * (x 0).val = base + (0 + 1 * (x 0).val) % 8; omega)
    | ⟨1, _⟩ => exact Fin.ext (by show 0 + 1 * (x 1).val = 0 + 1 * (x 1).val; rfl)
  · refine ⟨⟨Rect.unit (s := S16x768) ![0, 0] S8x768.size inb1, _⟩, List.Mem.head _,
      (Rect.mem_set_unit (s := S16x768) (off := ![0, 0]) (size := S8x768.size) (inb := inb1)).mpr fun a => ?_⟩
    match a with
    | ⟨0, _⟩ => exact (show 0 ≤ j.val ∧ j.val < 0 + 8 from ⟨Nat.zero_le _, by have := j.isLt; omega⟩)
    | ⟨1, _⟩ => exact (show 0 ≤ c.val ∧ c.val < 0 + 768 from ⟨Nat.zero_le _, by have := c.isLt; omega⟩)
  · refine congrArg (m (pLoc d)) (funext fun a => ?_)
    match a with
    | ⟨0, _⟩ => exact Fin.ext (by show base + j.val % 8 = base + j.val; have := j.isLt; omega)
    | ⟨1, _⟩ => rfl

/-- The five-row scratch after the position table's rows 192 to 196 were copied in. -/
theorem pw5_rows (d : Dev nD) (L : grid0.Coords) (fPw5 : Buf (Elt F) ((bPw5).view.loc (thrV d L)))
    (inb2 : ∀ a, (![192, 0] : Fin 2 → Nat) a + S5x768.size a ≤ S197x768.size a)
    (hst : ∀ a, (Rect.unit (s := S197x768) ![192, 0] S5x768.size inb2).stride a = 1)
    (j : Fin 5) (c : Fin 768) :
    View.write (Elt F) (bPw5).view fPw5
      (ReadAs.same.apply (View.read (Elt F) ((pW).slice (Rect.unit (s := S197x768) ![192, 0] S5x768.size inb2) hst).view (m (pLoc d)))) Finset.univ
      (ix2 j c) = m (pLoc d) (ix2 (⟨192 + j.val, by have := j.isLt; omega⟩ : Fin 197) c) := by
  refine (congrFun (View.write_whole_univ (Val := Elt F) cc0_scratch3 fPw5 _) (ix2 j c)).trans ?_
  show m (pLoc d) _ = m (pLoc d) _
  refine congrArg (m (pLoc d)) (funext fun a => ?_)
  match a with
  | ⟨0, _⟩ => exact Fin.ext (by show 192 + 1 * j.val = 192 + j.val; omega)
  | ⟨1, _⟩ => exact Fin.ext (by show 0 + 1 * c.val = c.val; omega)

/-- The seven-row scratch after feature rows 189 to 195 of batch entries 56 to 63 were copied in. -/
theorem feats_rows (d : Dev nD) (L : grid0.Coords) (fA : Buf (Elt F) ((bA).view.loc (thrV d L)))
    (inb2 : ∀ a, (![189, 56, 0] : Fin 3 → Nat) a + S7x8x768.size a ≤ S196x64x768.size a)
    (hst : ∀ a, (Rect.unit (s := S196x64x768) ![189, 56, 0] S7x8x768.size inb2).stride a = 1)
    (r : Fin 7) (b : Fin 8) (c : Fin 768) :
    View.write (Elt F) (bA).view fA
      (ReadAs.same.apply (View.read (Elt F) ((xW).slice (Rect.unit (s := S196x64x768) ![189, 56, 0] S7x8x768.size inb2) hst).view (xT m d))) Finset.univ
      (ix3 r b c) = xT m d (ix3 (⟨189 + r.val, by have := r.isLt; omega⟩ : Fin 196) (⟨56 + b.val, by have := b.isLt; omega⟩ : Fin 64) c) := by
  refine (congrFun (View.write_whole_univ (Val := Elt F) cc0_scratch0 fA _) (ix3 r b c)).trans ?_
  show xT m d _ = xT m d _
  refine congrArg (xT m d) (funext fun a => ?_)
  match a with
  | ⟨0, _⟩ => exact Fin.ext (by show 189 + 1 * r.val = 189 + r.val; omega)
  | ⟨1, _⟩ => exact Fin.ext (by show 56 + 1 * b.val = 56 + b.val; omega)
  | ⟨2, _⟩ => exact Fin.ext (by show 0 + 1 * c.val = c.val; omega)

/-- The call's result at a position other than 0: the feature row before it plus the position table's row. -/
theorem scBuf_pos (d : Dev nD) (i : S197x8x768.Idx) (hi : ¬ (i 0).val = 0) :
    scBuf m d i = Cert.Spec.addF F
      (xT m d (ix3 (⟨(i 0).val - 1, by have h : (i 0).val < 197 := (i 0).isLt; omega⟩ : Fin 196) (⟨56 + (i 1).val, by have h : (i 1).val < 8 := (i 1).isLt; omega⟩ : Fin 64) (i 2)))
      (m (pLoc d) (ix2 (i 0) (i 2))) := by
  unfold scBuf Cert.Spec.scOut Cert.Spec.rowT
  rw [dif_neg hi]

/-- What the last copy leaves in the result's rows 190 to 196 is the call's result there. -/
theorem last_final (d : Dev nD) (L : grid0.Coords) (f0 : Buf (Elt F) (oLoc d)) (gA : Buf (Elt F) ((bA).view.loc (thrV d L)))
    (hA : ∀ (r : Fin 7) (b : Fin 8) (c : Fin 768), gA (ix3 r b c) = lastVal m d r b c) :
    ∀ i ∈ (outSl190).view.set,
      (outSl190).view.writes (Elt F) f0 [⟨Rect.whole S7x8x768, ReadAs.same.apply (View.read (Elt F) (bA).view gA)⟩] i = scBuf m d i := by
  intro i hi
  obtain ⟨x, -, rfl⟩ := Finset.mem_map.mp hi
  obtain ⟨r, b, c, rfl⟩ : ∃ (r : Fin 7) (b : Fin 8) (c : Fin 768), x = ix3 r b c := ⟨x 0, x 1, x 2, eq_ix3 x⟩
  have e : (outSl190).view.emb (ix3 r b c) = ((outSl190).view.slice (Rect.whole S7x8x768)).emb (ix3 r b c) := by
    show (outSl190).view.emb _ = (outSl190).view.emb ((Rect.whole S7x8x768).emb _)
    rw [Rect.emb_whole_apply]
  rw [View.writes_singleton]
  conv_lhs => rw [e, View.write_emb_of_mem _ _ (Finset.mem_univ _)]
  rw [scBuf_pos m d _ (by show ¬ 190 + 1 * r.val = 0; omega)]
  refine Eq.trans (b := lastVal m d r b c) ?_ ?_
  · rw [← hA r b c]; rfl
  · unfold lastVal
    have eX : (ix3 (⟨189 + r.val, by have := r.isLt; omega⟩ : Fin 196) (⟨56 + b.val, by have := b.isLt; omega⟩ : Fin 64) c : S196x64x768.Idx)
        = ix3 (⟨((outSl190).view.emb (ix3 r b c) 0).val - 1, by have h : ((outSl190).view.emb (ix3 r b c) 0).val < 197 := ((outSl190).view.emb (ix3 r b c) 0).isLt; omega⟩ : Fin 196)
            (⟨56 + ((outSl190).view.emb (ix3 r b c) 1).val, by have h : ((outSl190).view.emb (ix3 r b c) 1).val < 8 := ((outSl190).view.emb (ix3 r b c) 1).isLt; omega⟩ : Fin 64)
            ((outSl190).view.emb (ix3 r b c) 2) := by
      funext a
      match a with
      | ⟨0, _⟩ => exact Fin.ext (by show 189 + r.val = 190 + 1 * r.val - 1; omega)
      | ⟨1, _⟩ => exact Fin.ext (by show 56 + b.val = 56 + (0 + 1 * b.val); omega)
      | ⟨2, _⟩ => exact Fin.ext (by show c.val = 0 + 1 * c.val; omega)
    have eP : (ix2 (⟨190 + r.val, by have := r.isLt; omega⟩ : Fin 197) c : S197x768.Idx)
        = ix2 ((outSl190).view.emb (ix3 r b c) 0) ((outSl190).view.emb (ix3 r b c) 2) := by
      funext a
      match a with
      | ⟨0, _⟩ => exact Fin.ext (by show 190 + r.val = 190 + 1 * r.val; omega)
      | ⟨1, _⟩ => exact Fin.ext (by show c.val = 0 + 1 * c.val; omega)
    rw [eX, eP]
    rfl

/-- The result's rows 190 to 196 after the last copy, as a points-to at the call's result. -/
theorem pts_last_final (d : Dev nD) (L : grid0.Coords) (f0 : Buf (Elt F) (oLoc d)) (gA : Buf (Elt F) ((bA).view.loc (thrV d L)))
    (hA : ∀ (r : Fin 7) (b : Fin 8) (c : Fin 768), gA (ix3 r b c) = lastVal m d r b c) :
    ((outSl190).view.loc (thrV d L) ↦[(outSl190).view.set]{fullShare}
        (outSl190).view.writes (Elt F) f0 [⟨Rect.whole S7x8x768, ReadAs.same.apply (View.read (Elt F) (bA).view gA)⟩] : sProp 𝕄)
      = ((outSl190).view.loc (thrV d L) ↦[(outSl190).view.set]{fullShare} scBuf m d) :=
  pointsTo_congr (last_final m d L f0 gA hA)

/-- The loop's invariant: rows 6, 7 of the sixteen-row scratch hold the position table's rows 190, 191, the five-row
    scratch its rows 192 to 196, and the seven-row scratch holds the finished value on the lanes below `16 k` and the
    copied-in features on the others. -/
def invL (d : Dev nD) (L : grid0.Coords) (O : CellTallies nD τ sig (HIx 1)) (W' : Waits sig (HIx 1)) (k : Nat) (_ : BitVec 32) : sProp 𝕄 :=
  iprop(Transfers.MayWaits (thrV d L) (none : HIx 1) O
      ∗ (∃ g : Buf (Elt F) ((bPw).view.loc (thrV d L)), ((bPw).view.loc (thrV d L) ↦{fullShare} g)
            ∗ ⌜∀ (j : Fin 2) (c : Fin 768), g (ix2 (⟨6 + j.val, by have := j.isLt; omega⟩ : Fin 16) c) = m (pLoc d) (ix2 (⟨190 + j.val, by have := j.isLt; omega⟩ : Fin 197) c)⌝)
      ∗ (∃ g : Buf (Elt F) ((bPw5).view.loc (thrV d L)), ((bPw5).view.loc (thrV d L) ↦{fullShare} g)
            ∗ ⌜∀ (j : Fin 5) (c : Fin 768), g (ix2 j c) = m (pLoc d) (ix2 (⟨192 + j.val, by have := j.isLt; omega⟩ : Fin 197) c)⌝)
      ∗ (∃ g : Buf (Elt F) ((bA).view.loc (thrV d L)), ((bA).view.loc (thrV d L) ↦{fullShare} g)
            ∗ ⌜∀ (r : Fin 7) (b : Fin 8) (c : Fin 768), g (ix3 r b c) = if c.val < 16 * k then lastVal m d r b c else xT m d (ix3 (⟨189 + r.val, by have := r.isLt; omega⟩ : Fin 196) (⟨56 + b.val, by have := b.isLt; omega⟩ : Fin 64) c)⌝)
      ∗ owes (thrV d L) O W')

end Cert.KI.Rest

end
-- ==== Proof.TileRestKI.lean ====
/-
  The three cases of one tile's task other than the main one: worker 28 (the quality row, row 0 of the call's
  result), workers 29 to 31 (nothing to do), and worker 27 (the last seven position rows, 190 to 196). Each
  runs the printed body at the tile from the tile's resources with the result rows at their launch contents
  and leaves those rows at the one function `scBuf`: the kernel's additions are the specification's, operand
  for operand, so only the indices are matched.
-/
import proofs.«207362_g47132971107233_retrytranche2_1164_24_alg».proof.Proof.TileRestKIRow0
import proofs.«207362_g47132971107233_retrytranche2_1164_24_alg».proof.Proof.TileRestKILast

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace Rest

/-! ## Workers 29 to 31: nothing to do -/

set_option Elab.async false in
theorem idle_size : ∀ L : grid0.Coords, ¬ k0_cond1 L = 1#1 → ¬ k0_cond2 L = 1#1 → ¬ k0_cond3 L = 1#1 → outSize (wL L) 0 = 0 := by
  decide +kernel

/-- A worker that takes none of the three cases owns no row of the result. -/
theorem idle_outSet (L : grid0.Coords) (h1 : ¬ k0_cond1 L = 1#1) (h2 : ¬ k0_cond2 L = 1#1) (h3 : ¬ k0_cond3 L = 1#1) :
    outSet (wL L) = ∅ := by
  ext i
  simp only [Finset.notMem_empty, iff_false]
  intro hi
  have hi' : i ∈ (outRect (wL L)).set := (View.set_slice_whole main_v1_scv (outRect (wL L))) ▸ hi
  have h0 := (Rect.mem_set_unit.mp hi') 0
  rw [idle_size L h1 h2 h3] at h0
  omega

/-- So its rows at the launch contents are its rows at the call's result: there are none. -/
theorem tileRaw_idle [FloatOps F] (m : (ℓ : Loc nD τ sig) → Buf (Elt F) ℓ) (d : Dev nD) (L : grid0.Coords)
    (h1 : ¬ k0_cond1 L = 1#1) (h2 : ¬ k0_cond2 L = 1#1) (h3 : ¬ k0_cond3 L = 1#1)
    (O : CellTallies nD τ sig (HIx 1)) (W : Waits sig (HIx 1)) (q : PosShare TreeShare) :
    tileRaw m d L O W q (m (oLoc d)) = tileRaw m d L O W q (scBuf m d) := by
  unfold tileRaw
  rw [pointsTo_congr (I := outSet (wL L)) (f := m (oLoc d)) (g := scBuf m d)
    (by rw [idle_outSet L h1 h2 h3]; intro i hi; exact absurd hi (Finset.notMem_empty i))]

end Rest

open Rest

variable [FloatOps F]
variable (m : (ℓ : Loc nD τ sig) → Buf (Elt F) ℓ)

/-- Worker 28: the quality row and the position table's rows 0 to 7 are copied in, the loop adds row 0 of the
    table to the quality row sixteen lanes per trip into the eight batch entries of a one-row scratch, and the
    scratch is copied to row 0 of the result. -/
theorem branch_row0 (d : Dev nD) (L : grid0.Coords) (k0_h3 : k0_cond3 L = 1#1) : BranchSpec m d L := by
  intro O W q
  have k0_h1 : ¬ k0_cond1 L = 1#1 := (by decide +kernel : ∀ L : grid0.Coords, k0_cond3 L = 1#1 → ¬ k0_cond1 L = 1#1) L k0_h3
  have k0_h2 : ¬ k0_cond2 L = 1#1 := (by decide +kernel : ∀ L : grid0.Coords, k0_cond3 L = 1#1 → ¬ k0_cond2 L = 1#1) L k0_h3
  unfold tileRaw scratchAny semsZero
  iintro ⟨Hmw, Hx, Hq, Hp, Ho, ⟨⟨%fA, HA⟩, ⟨%fB, HB⟩, ⟨%fPw, HPw⟩, ⟨%fPw5, HPw5⟩, ⟨%fQw, HQw⟩, ⟨%fR0, HR0⟩⟩, ⟨S6, S7, S8, S9, T0, T1, T2, T3, T4⟩, HO⟩
  ihave HoS := (Entails.of_eq (pts_out0 (F := F) d L k0_h3 _).symm) $$ Ho
  unfold body
  rw [cc0__sc_body_eq_skeleton]; unfold cc0__sc_body_skel
  sl_exec (disch := first | exact View.amount_pos _ _ (by decide) | exact View.dmaCredit_pos _ (by decide))
  sl_unfold_run_names
  sl_for (invR m d L O (insert (SemLoc.dma cc0_scoped4.sem, (default : HIx 1)) (insert (SemLoc.dma cc0_scoped3.sem, (default : HIx 1)) W))) $$ [Hmw HQw HPw HR0 HO]
  case region =>
    intro k _
    unfold invR
    iintro ⟨Hmw, ⟨%gQ, HQw, %hQ⟩, ⟨%gP, HPw, %hP⟩, ⟨%g0, HR0, %h0⟩, HO⟩
    sl_exec
    sl_unfold_run_names
    sl_step
    isplitl [Hmw]; · iexact Hmw
    isplitl [HQw]
    · iexists gQ; isplitl [HQw]; · iexact HQw
      ipureintro; exact hQ
    isplitl [HPw]
    · iexists gP; isplitl [HPw]; · iexact HPw
      ipureintro; exact hP
    isplitl [HR0]
    · iexists _; isplitl [HR0]; · iexact HR0
      ipureintro
      intro b c hc
      exact row0_step_aux m d L k.val (lt_of_lt_of_eq k.isLt trips3) gQ gP g0 hQ hP h0 _ _ _ _ _ _ _ _ _ _
        (k0_off124_eq k) (k0_off125_eq k) (k0_off126_eq k) (k0_off127_eq k) (k0_off128_eq k) (k0_off129_eq k)
        (k0_off130_eq k) (k0_off131_eq k) (k0_off132_eq k) (k0_off133_eq k) _ _ _ _ _ _ _ _ _ _ b c hc
    · iexact HO
  · unfold invR
    isplitl [Hmw]; · iexact Hmw
    isplitl [HQw]
    · iexists _; isplitl [HQw]; · iexact HQw
      ipureintro; intro c
      exact congrFun (View.write_whole_univ (Val := Elt F) cc0_scratch4 fQw _) (ix2 (0 : Fin 1) c)
    isplitl [HPw]
    · iexists _; isplitl [HPw]; · iexact HPw
      ipureintro; intro c
      exact pw_rows0 m d L fPw _ _ _ c
    isplitl [HR0]
    · iexists _; isplitl [HR0]; · iexact HR0
      ipureintro; intro b c hc; omega
    · iexact HO
  iintro %_ HI
  unfold invR
  icases HI with ⟨Hmw, ⟨%gQ, HQw, %hQ⟩, ⟨%gP, HPw, %hP⟩, ⟨%g0, HR0, %h0⟩, HO⟩
  sl_exec (disch := first | exact View.amount_pos _ _ (by decide) | exact View.dmaCredit_pos _ (by decide))
  sl_unfold_run_names
  sl_step
  have e48 : Scf.trips k0_t3_loop.lb k0_t3_loop.ub k0_t3_loop.st = 48 := trips3
  rw [e48] at h0
  iexists (insert (SemLoc.dma cc0_scratch8.sem, (default : HIx 1)) (insert (SemLoc.dma cc0_scoped4.sem, (default : HIx 1)) (insert (SemLoc.dma cc0_scoped3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  isplitl [Hx]; · iexact Hx
  isplitl [Hq]; · iexact Hq
  isplitl [Hp]; · iexact Hp
  isplitl [HoS]
  · ihave Ho2 := (Entails.of_eq (pts_row0_final (F := F) m d L (m (oLoc d)) g0 h0)) $$ HoS
    ihave Ho3 := (Entails.of_eq (pts_out0 (F := F) d L k0_h3 (scBuf m d))) $$ Ho2
    iexact Ho3
  isplitl [HA HB HPw HPw5 HQw HR0]
  · isplitl [HA]; · iexists _; iexact HA
    isplitl [HB]; · iexists _; iexact HB
    isplitl [HPw]; · iexists _; iexact HPw
    isplitl [HPw5]; · iexists _; iexact HPw5
    isplitl [HQw]; · iexists _; iexact HQw
    iexists _; iexact HR0
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

/-- Workers 29 to 31 take none of the three cases: the body does nothing, and they own no row of the result. -/
theorem branch_idle (d : Dev nD) (L : grid0.Coords) (h1 : ¬ k0_cond1 L = 1#1) (h2 : ¬ k0_cond2 L = 1#1) (h3 : ¬ k0_cond3 L = 1#1) :
    BranchSpec m d L := by
  intro O W q
  iintro ⟨Hmw, HT⟩
  unfold body
  rw [cc0__sc_body_eq_skeleton]; unfold cc0__sc_body_skel
  sl_exec
  sl_step
  iexists W; isplitr
  · ipureintro; exact fun p hp => .inl hp
  · rw [← tileRaw_idle m d L h1 h2 h3]; iexact HT

/-- Worker 27: the position table's rows 184 to 191 and 192 to 196 and feature rows 189 to 195 of batch entries 56 to 63
    are copied in, the loop adds position row `190 + r` to feature row `189 + r` sixteen lanes per trip in place, and
    the scratch is copied to rows 190 to 196 of the result. -/
theorem branch_last (d : Dev nD) (L : grid0.Coords) (k0_h2 : k0_cond2 L = 1#1) : BranchSpec m d L := by
  intro O W q
  have k0_h1 : ¬ k0_cond1 L = 1#1 := (by decide +kernel : ∀ L : grid0.Coords, k0_cond2 L = 1#1 → ¬ k0_cond1 L = 1#1) L k0_h2
  have k0_h3 : ¬ k0_cond3 L = 1#1 := (by decide +kernel : ∀ L : grid0.Coords, k0_cond2 L = 1#1 → ¬ k0_cond3 L = 1#1) L k0_h2
  unfold tileRaw scratchAny semsZero
  iintro ⟨Hmw, Hx, Hq, Hp, Ho, ⟨⟨%fA, HA⟩, ⟨%fB, HB⟩, ⟨%fPw, HPw⟩, ⟨%fPw5, HPw5⟩, ⟨%fQw, HQw⟩, ⟨%fR0, HR0⟩⟩, ⟨S6, S7, S8, S9, T0, T1, T2, T3, T4⟩, HO⟩
  ihave HoS := (Entails.of_eq (pts_out190 (F := F) d L k0_h2 _).symm) $$ Ho
  unfold body
  rw [cc0__sc_body_eq_skeleton]; unfold cc0__sc_body_skel
  sl_exec (disch := first | exact View.amount_pos _ _ (by decide) | exact View.dmaCredit_pos _ (by decide))
  sl_unfold_run_names
  sl_for (invL m d L O (insert (SemLoc.dma cc0_scratch6.sem, (default : HIx 1)) (insert (SemLoc.dma cc0_scoped2.sem, (default : HIx 1)) (insert (SemLoc.dma cc0_scoped1.sem, (default : HIx 1)) W)))) $$ [Hmw HPw HPw5 HA HO]
  case region =>
    intro k _
    unfold invL
    iintro ⟨Hmw, ⟨%gP, HPw, %hP⟩, ⟨%gP5, HPw5, %hP5⟩, ⟨%gA, HA, %hA⟩, HO⟩
    sl_exec
    sl_unfold_run_names
    sl_step
    isplitl [Hmw]; · iexact Hmw
    isplitl [HPw]
    · iexists gP; isplitl [HPw]; · iexact HPw
      ipureintro; exact hP
    isplitl [HPw5]
    · iexists gP5; isplitl [HPw5]; · iexact HPw5
      ipureintro; exact hP5
    isplitl [HA]
    · iexists _; isplitl [HA]; · iexact HA
      ipureintro
      intro r b c
      exact last_step_aux m d L k.val (lt_of_lt_of_eq k.isLt trips2) gP gP5 gA hP hP5 hA
        (k0_off61 k) (k0_off70 k) (k0_off79 k) (k0_off88 k) (k0_off97 k) (k0_off106 k) (k0_off115 k)
        (k0_off62 k) (k0_off63 k) (k0_off64 k) (k0_off65 k) (k0_off66 k) (k0_off67 k) (k0_off68 k) (k0_off69 k)
        (k0_off71 k) (k0_off72 k) (k0_off73 k) (k0_off74 k) (k0_off75 k) (k0_off76 k) (k0_off77 k) (k0_off78 k)
        (k0_off80 k) (k0_off81 k) (k0_off82 k) (k0_off83 k) (k0_off84 k) (k0_off85 k) (k0_off86 k) (k0_off87 k)
        (k0_off89 k) (k0_off90 k) (k0_off91 k) (k0_off92 k) (k0_off93 k) (k0_off94 k) (k0_off95 k) (k0_off96 k)
        (k0_off98 k) (k0_off99 k) (k0_off100 k) (k0_off101 k) (k0_off102 k) (k0_off103 k) (k0_off104 k) (k0_off105 k)
        (k0_off107 k) (k0_off108 k) (k0_off109 k) (k0_off110 k) (k0_off111 k) (k0_off112 k) (k0_off113 k) (k0_off114 k)
        (k0_off116 k) (k0_off117 k) (k0_off118 k) (k0_off119 k) (k0_off120 k) (k0_off121 k) (k0_off122 k) (k0_off123 k)
        (k0_off61_eq k) (k0_off70_eq k) (k0_off79_eq k) (k0_off88_eq k) (k0_off97_eq k) (k0_off106_eq k) (k0_off115_eq k)
        (k0_off62_eq k) (k0_off63_eq k) (k0_off64_eq k) (k0_off65_eq k) (k0_off66_eq k) (k0_off67_eq k) (k0_off68_eq k) (k0_off69_eq k)
        (k0_off71_eq k) (k0_off72_eq k) (k0_off73_eq k) (k0_off74_eq k) (k0_off75_eq k) (k0_off76_eq k) (k0_off77_eq k) (k0_off78_eq k)
        (k0_off80_eq k) (k0_off81_eq k) (k0_off82_eq k) (k0_off83_eq k) (k0_off84_eq k) (k0_off85_eq k) (k0_off86_eq k) (k0_off87_eq k)
        (k0_off89_eq k) (k0_off90_eq k) (k0_off91_eq k) (k0_off92_eq k) (k0_off93_eq k) (k0_off94_eq k) (k0_off95_eq k) (k0_off96_eq k)
        (k0_off98_eq k) (k0_off99_eq k) (k0_off100_eq k) (k0_off101_eq k) (k0_off102_eq k) (k0_off103_eq k) (k0_off104_eq k) (k0_off105_eq k)
        (k0_off107_eq k) (k0_off108_eq k) (k0_off109_eq k) (k0_off110_eq k) (k0_off111_eq k) (k0_off112_eq k) (k0_off113_eq k) (k0_off114_eq k)
        (k0_off116_eq k) (k0_off117_eq k) (k0_off118_eq k) (k0_off119_eq k) (k0_off120_eq k) (k0_off121_eq k) (k0_off122_eq k) (k0_off123_eq k)
        _ _ _ _ _ _ _
        _ _ _ _ _ _ _ _
        _ _ _ _ _ _ _ _
        _ _ _ _ _ _ _ _
        _ _ _ _ _ _ _ _
        _ _ _ _ _ _ _ _
        _ _ _ _ _ _ _ _
        _ _ _ _ _ _ _ _
        _ rfl r b c
    · iexact HO
  · unfold invL
    isplitl [Hmw]; · iexact Hmw
    isplitl [HPw]
    · iexists _; isplitl [HPw]; · iexact HPw
      ipureintro; intro j c
      refine (pw_rows m d L fPw 184 (by omega) _ _ _ ⟨6 + j.val, by have := j.isLt; omega⟩ c).trans ?_
      refine congrArg (m (pLoc d)) (funext fun a => ?_)
      match a with
      | ⟨0, _⟩ => exact Fin.ext (by show 184 + (6 + j.val) = 190 + j.val; omega)
      | ⟨1, _⟩ => rfl
    isplitl [HPw5]
    · iexists _; isplitl [HPw5]; · iexact HPw5
      ipureintro; intro j c
      exact pw5_rows m d L fPw5 _ _ j c
    isplitl [HA]
    · iexists _; isplitl [HA]; · iexact HA
      ipureintro; intro r b c
      rw [if_neg (by omega)]
      exact feats_rows m d L fA _ _ r b c
    · iexact HO
  iintro %_ HI
  unfold invL
  icases HI with ⟨Hmw, ⟨%gP, HPw, %hP⟩, ⟨%gP5, HPw5, %hP5⟩, ⟨%gA, HA, %hA⟩, HO⟩
  sl_exec (disch := first | exact View.amount_pos _ _ (by decide) | exact View.dmaCredit_pos _ (by decide))
  sl_unfold_run_names
  sl_step
  have e48 : Scf.trips k0_t2_loop.lb k0_t2_loop.ub k0_t2_loop.st = 48 := trips2
  rw [e48] at hA
  have hA48 : ∀ (r : Fin 7) (b : Fin 8) (c : Fin 768), gA (ix3 r b c) = lastVal m d r b c :=
    fun r b c => by rw [hA, if_pos (by have := c.isLt; omega)]
  iexists (insert (SemLoc.dma cc0_scratch8.sem, (default : HIx 1)) (insert (SemLoc.dma cc0_scratch6.sem, (default : HIx 1)) (insert (SemLoc.dma cc0_scoped2.sem, (default : HIx 1)) (insert (SemLoc.dma cc0_scoped1.sem, (default : HIx 1)) W)))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  isplitl [Hx]; · iexact Hx
  isplitl [Hq]; · iexact Hq
  isplitl [Hp]; · iexact Hp
  isplitl [HoS]
  · ihave Ho2 := (Entails.of_eq (pts_last_final (F := F) m d L (m (oLoc d)) gA hA48)) $$ HoS
    ihave Ho3 := (Entails.of_eq (pts_out190 (F := F) d L k0_h2 (scBuf m d))) $$ Ho2
    iexact Ho3
  isplitl [HA HB HPw HPw5 HQw HR0]
  · isplitl [HA]; · iexists _; iexact HA
    isplitl [HB]; · iexists _; iexact HB
    isplitl [HPw]; · iexists _; iexact HPw
    isplitl [HPw5]; · iexists _; iexact HPw5
    isplitl [HQw]; · iexists _; iexact HQw
    iexists _; iexact HR0
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

end Cert.KI

end
-- ==== Proof.BodyKI.lean ====
/-
  The tile's body in every case: a worker below 27 adds its seven position rows, worker 27 the last
  seven, worker 28 writes the quality row, the others do nothing; the three conditions exclude one
  another, so exactly one case's proof applies at each tile.
-/
import proofs.«207362_g47132971107233_retrytranche2_1164_24_alg».proof.Proof.TileMainKI
import proofs.«207362_g47132971107233_retrytranche2_1164_24_alg».proof.Proof.TileRestKI

noncomputable section

namespace Cert.KI

open Cert.KernelIdeal Cert.KernelIdeal.Gen
open Idealize.ShloMosaic Idealize.SL.Sem

variable {F : FTy → Type} [FloatOps F]

theorem hbody (m : (ℓ : Loc nD τ sig) → Buf (Elt F) ℓ) (d : Dev nD) (L : grid0.Coords) : BranchSpec m d L := by
  by_cases h1 : k0_cond1 L = 1#1
  · exact branch_main m d L h1
  by_cases h2 : k0_cond2 L = 1#1
  · exact branch_last m d L h2
  by_cases h3 : k0_cond3 L = 1#1
  · exact branch_row0 m d L h3
  exact branch_idle m d L h1 h2 h3

end Cert.KI

end
-- ==== Proof.TileMainKB.lean ====
/-
  The main case of one tile's task: workers 0..26.

  Worker `w = 2 s + c < 27` owns result rows `7 w + 1 .. 7 w + 7`. It copies sixteen rows of the position table,
  from the aligned row `a0 = 8 ((7 w + 1) / 8)`, into one scratch, and its seven feature rows `7 w .. 7 w + 6`
  (batch entries 56..63) into another; row `r` of the features needs position row `7 w + 1 + r = a0 + widx + r`
  with `widx = (7 w + 1) mod 8`. Then 48 trips: trip `k` adds, for every scratch row `r` and batch entry `b`,
  the sixteen columns `16 k .. 16 k + 15` of position row `widx + r` to the same columns of the features — 56
  stores, pairwise disjoint, each reading what was copied in. So before trip `k` the feature scratch is ONE function
  `bufK k` of the two copied blocks: columns below `16 k` are sums, the rest as copied. After trip 48 every column is
  a sum, and the scratch, copied to the worker's rows, is the specification `Spec.scOut` there: the same addition
  with the same operands in the same order, so only indices are compared.
-/
import proofs.«207362_g47132971107233_retrytranche2_1164_24_alg».proof.Proof.TileDefsKB
import Idealize.ShloMosaic.Lib.Pipeline.Value
import Idealize.ShloMosaic.Lib.Writes
import Idealize.ShloMosaic.Lib.ValueIdx

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace TileMain

/-! ## The worker's slices, as the body spells them -/

/-- The worker's rows of the result. -/
abbrev outSl (L : grid0.Coords) (h : k0_cond1 L = 1#1) : Memref sig .scVector .hbm S7x8x768 .f32 :=
  (oW).slice (Rect.unit (s := S197x8x768) (k0_off60 L) S7x8x768.size (k0_off60_inb L h)) (fun _ => rfl)
/-- The worker's seven feature rows, batch entries 56..63. -/
abbrev inSl (L : grid0.Coords) (h : k0_cond1 L = 1#1) : Memref sig .scVector .hbm S7x8x768 .f32 :=
  (xW).slice (Rect.unit (s := S196x64x768) (k0_off2 L) S7x8x768.size (k0_off2_inb L h)) (fun _ => rfl)
/-- Sixteen rows of the position table from the aligned row below the worker's first. -/
abbrev pwSl (L : grid0.Coords) (h : k0_cond1 L = 1#1) : Memref sig .scVector .hbm S16x768 .f32 :=
  (pW).slice (Rect.unit (s := S197x768) (k0_off1 L) S16x768.size (k0_off1_inb L h)) (fun _ => rfl)

set_option Elab.async false in
theorem cond1_lt : ∀ L : grid0.Coords, k0_cond1 L = 1#1 → 2 * (L 1).val + (L 0).val < 27 := by decide +kernel

theorem outRect_main (L : grid0.Coords) (h : k0_cond1 L = 1#1) :
    Rect.unit (s := S197x8x768) (k0_off60 L) S7x8x768.size (k0_off60_inb L h) = outRect (wL L) := by
  have hw : 2 * (L 1).val + (L 0).val < 27 := cond1_lt L h
  have hv : (wL L).val = 2 * (L 1).val + (L 0).val := rfl
  unfold outRect
  congr 1
  · rw [k0_off60_eq]; unfold outOff; rw [if_pos (by omega), hv]
    funext a
    match a with
    | 0 => show 14 * (L 1).val + 7 * (L 0).val + 1 = 7 * (2 * (L 1).val + (L 0).val) + 1; omega
    | 1 => rfl
    | 2 => rfl
  · unfold outSize; rw [if_pos (by omega)]

theorem set_outSl (L : grid0.Coords) (h : k0_cond1 L = 1#1) : (outSl L h).view.set = outSet (wL L) := by
  show ((oW).view.slice (Rect.unit (s := S197x8x768) (k0_off60 L) S7x8x768.size (k0_off60_inb L h))).set = ((oW).view.slice (outRect (wL L))).set
  rw [outRect_main L h]

set_option Elab.async false in
theorem k0_off3_eq : ∀ (i : grid0.Coords) (k0_t1 : Fin k0_t1_loop.trips), k0_cond1 i = 1#1 → ∀ (r : Fin 7),
    k0_off3 i k0_t1 (BitVec.ofNat 32 r.val) = ![(14 * (i 1).val + 7 * (i 0).val + 1) % 8 + r.val, 16 * k0_t1.val] := by decide +kernel
set_option Elab.async false in
theorem trips1 : k0_t1_loop.trips = 48 := by decide +kernel

/-- The row of the 16-row position scratch that holds the worker's first position row. -/
abbrev wix (L : grid0.Coords) : Nat := (14 * (L 1).val + 7 * (L 0).val + 1) % 8

/-! ## One store's payload -/

section Pay
variable [FloatOps F]

/-- The value every store of a trip writes: sixteen lanes of the feature scratch plus sixteen lanes of one row of the
    position scratch. -/
def payF (g0 : S7x8x768.Idx → F .f32) (g2 : S16x768.Idx → F .f32) (offA : Fin 3 → Nat) (inbA : ∀ a, offA a + S1x1x16.size a ≤ S7x8x768.size a)
    (offP : Fin 2 → Nat) (inbP : ∀ a, offP a + S1x16.size a ≤ S16x768.size a) : FVec F S1x1x16 .f32 :=
  shapeCast S1x1x16 (addf (shapeCast S16 (View.readAt (Elt F) (bA).view (Rect.unit (s := S7x8x768) offA S1x1x16.size inbA).toLoadRect g0) shapeCasts_S1x1x16_S16)
    (shapeCast S16 (View.readAt (Elt F) (bPw).view (Rect.unit (s := S16x768) offP S1x16.size inbP).toLoadRect g2) shapeCasts_S1x16_S16)) shapeCasts_S16_S1x1x16

theorem payF_apply (g0 : S7x8x768.Idx → F .f32) (g2 : S16x768.Idx → F .f32) (offA : Fin 3 → Nat) (inbA : ∀ a, offA a + S1x1x16.size a ≤ S7x8x768.size a)
    (offP : Fin 2 → Nat) (inbP : ∀ a, offP a + S1x16.size a ≤ S16x768.size a) (x : S1x1x16.Idx) :
    payF g0 g2 offA inbA offP inbP x
      = FloatOps.addf (g0 ((Rect.unit (s := S7x8x768) offA S1x1x16.size inbA).emb x))
          (g2 ((Rect.unit (s := S16x768) offP S1x16.size inbP).emb (ValueIdx.ix2 (0 : Fin 1) (⟨(x 2).val, (x 2).isLt⟩ : Fin 16)))) := by
  have h0 : (x 0).val = 0 := by have : (x 0).val < 1 := (x 0).isLt; omega
  have h1 : (x 1).val = 0 := by have : (x 1).val < 1 := (x 1).isLt; omega
  unfold payF
  refine (shapeCast_apply _ _ x (ValueIdx.ix1 (⟨(x 2).val, (x 2).isLt⟩ : Fin 16)) ?_).trans ?_
  · rw [Shape.rowMajor_val_one, Shape.rowMajor_val_three, h0, h1]; simp
  show FloatOps.addf (shapeCast S16 _ _ (ValueIdx.ix1 (⟨(x 2).val, (x 2).isLt⟩ : Fin 16))) (shapeCast S16 _ _ (ValueIdx.ix1 (⟨(x 2).val, (x 2).isLt⟩ : Fin 16))) = _
  refine congrArg₂ FloatOps.addf ((shapeCast_apply _ _ _ x ?_).trans rfl) ((shapeCast_apply _ _ _ (ValueIdx.ix2 (0 : Fin 1) (⟨(x 2).val, (x 2).isLt⟩ : Fin 16)) ?_).trans rfl)
  · rw [Shape.rowMajor_val_one, Shape.rowMajor_val_three, h0, h1]; simp
  · rw [Shape.rowMajor_val_one, Shape.rowMajor_val_two]; simp

end Pay

/-! ## The scratch contents along the loop -/

section Val
variable [FloatOps F]
variable (m : (ℓ : Loc nD τ sig) → Buf (Elt F) ℓ) (d : Dev nD) (L : grid0.Coords) (h : k0_cond1 L = 1#1)

/-- What the copy-in leaves in the feature scratch: the worker's seven rows, batch entries 56..63. -/
def A0 : S7x8x768.Idx → F .f32 := (inSl L h).view.read (Elt F) (xT m d)
/-- What the copy-in leaves in the position scratch: sixteen rows of the table. -/
def P0 : S16x768.Idx → F .f32 := (pwSl L h).view.read (Elt F) (m (pLoc d))

theorem wix_add_lt (i : S7x8x768.Idx) : wix L + (i 0).val < 16 := by
  have : (i 0).val < 7 := (i 0).isLt
  have : wix L < 8 := Nat.mod_lt _ (by decide)
  omega

/-- The feature scratch before trip `k`: the columns below `16 k` have had their position row added. -/
def bufK (k : Nat) : S7x8x768.Idx → F .f32 := fun i =>
  if (i 2).val < 16 * k then
    Cert.Spec.addF F (A0 m d L h i) (P0 m d L h (ValueIdx.ix2 (⟨wix L + (i 0).val, wix_add_lt L i⟩ : Fin 16) (⟨(i 2).val, (i 2).isLt⟩ : Fin 768)))
  else A0 m d L h i

end Val

/-! ## One trip: 56 stores, one per scratch row and batch entry -/

section Trip
variable [FloatOps F]
variable (m : (ℓ : Loc nD τ sig) → Buf (Elt F) ℓ) (d : Dev nD) (L : grid0.Coords) (h : k0_cond1 L = 1#1)

/-- The offsets of a trip's 56 stores, by scratch row and batch entry. -/
def offAt (k : Fin k0_t1_loop.trips) (r : Fin 7) (b : Fin 8) : Fin 3 → Nat :=
  (![![k0_off4 k, k0_off5 k, k0_off6 k, k0_off7 k, k0_off8 k, k0_off9 k, k0_off10 k, k0_off11 k],
     ![k0_off12 k, k0_off13 k, k0_off14 k, k0_off15 k, k0_off16 k, k0_off17 k, k0_off18 k, k0_off19 k],
     ![k0_off20 k, k0_off21 k, k0_off22 k, k0_off23 k, k0_off24 k, k0_off25 k, k0_off26 k, k0_off27 k],
     ![k0_off28 k, k0_off29 k, k0_off30 k, k0_off31 k, k0_off32 k, k0_off33 k, k0_off34 k, k0_off35 k],
     ![k0_off36 k, k0_off37 k, k0_off38 k, k0_off39 k, k0_off40 k, k0_off41 k, k0_off42 k, k0_off43 k],
     ![k0_off44 k, k0_off45 k, k0_off46 k, k0_off47 k, k0_off48 k, k0_off49 k, k0_off50 k, k0_off51 k],
     ![k0_off52 k, k0_off53 k, k0_off54 k, k0_off55 k, k0_off56 k, k0_off57 k, k0_off58 k, k0_off59 k]] r) b

theorem offAt_eq (k : Fin k0_t1_loop.trips) (r : Fin 7) (b : Fin 8) : offAt k r b = ![r.val, b.val, 16 * k.val] := by
  fin_cases r <;> fin_cases b
  · exact k0_off4_eq k
  · exact k0_off5_eq k
  · exact k0_off6_eq k
  · exact k0_off7_eq k
  · exact k0_off8_eq k
  · exact k0_off9_eq k
  · exact k0_off10_eq k
  · exact k0_off11_eq k
  · exact k0_off12_eq k
  · exact k0_off13_eq k
  · exact k0_off14_eq k
  · exact k0_off15_eq k
  · exact k0_off16_eq k
  · exact k0_off17_eq k
  · exact k0_off18_eq k
  · exact k0_off19_eq k
  · exact k0_off20_eq k
  · exact k0_off21_eq k
  · exact k0_off22_eq k
  · exact k0_off23_eq k
  · exact k0_off24_eq k
  · exact k0_off25_eq k
  · exact k0_off26_eq k
  · exact k0_off27_eq k
  · exact k0_off28_eq k
  · exact k0_off29_eq k
  · exact k0_off30_eq k
  · exact k0_off31_eq k
  · exact k0_off32_eq k
  · exact k0_off33_eq k
  · exact k0_off34_eq k
  · exact k0_off35_eq k
  · exact k0_off36_eq k
  · exact k0_off37_eq k
  · exact k0_off38_eq k
  · exact k0_off39_eq k
  · exact k0_off40_eq k
  · exact k0_off41_eq k
  · exact k0_off42_eq k
  · exact k0_off43_eq k
  · exact k0_off44_eq k
  · exact k0_off45_eq k
  · exact k0_off46_eq k
  · exact k0_off47_eq k
  · exact k0_off48_eq k
  · exact k0_off49_eq k
  · exact k0_off50_eq k
  · exact k0_off51_eq k
  · exact k0_off52_eq k
  · exact k0_off53_eq k
  · exact k0_off54_eq k
  · exact k0_off55_eq k
  · exact k0_off56_eq k
  · exact k0_off57_eq k
  · exact k0_off58_eq k
  · exact k0_off59_eq k

theorem offAt_inb (k : Fin k0_t1_loop.trips) (r : Fin 7) (b : Fin 8) : ∀ a, offAt k r b a + S1x1x16.size a ≤ S7x8x768.size a := by
  rw [offAt_eq]; intro a
  have hk : k.val < 48 := lt_of_lt_of_eq k.isLt trips1
  have := r.isLt; have := b.isLt
  match a with
  | 0 => show r.val + 1 ≤ 7; omega
  | 1 => show b.val + 1 ≤ 8; omega
  | 2 => show 16 * k.val + 16 ≤ 768; omega

/-- The store of scratch row `rb.1`, batch entry `rb.2`, over scratch contents `g0` and position rows `g2`. -/
def piece (g0 : S7x8x768.Idx → F .f32) (g2 : S16x768.Idx → F .f32) (k : Fin k0_t1_loop.trips) (rb : Fin 7 × Fin 8) : View.Piece (Elt F) S7x8x768 .f32 :=
  ⟨Rect.unit (s := S7x8x768) (offAt k rb.1 rb.2) S1x1x16.size (offAt_inb k rb.1 rb.2),
   payF g0 g2 (offAt k rb.1 rb.2) (offAt_inb k rb.1 rb.2) (k0_off3 L k (BitVec.ofNat 32 rb.1.val)) (k0_off3_inb L k h rb.1)⟩

theorem piece_fst (g0 : S7x8x768.Idx → F .f32) (g2 : S16x768.Idx → F .f32) (k : Fin k0_t1_loop.trips) (rb : Fin 7 × Fin 8) :
    (piece L h g0 g2 k rb).1 = Rect.unit (s := S7x8x768) (offAt k rb.1 rb.2) S1x1x16.size (offAt_inb k rb.1 rb.2) := rfl

/-- The stores in the order the trip leaves them: the last store first. -/
def storeOrder : List (Fin 7 × Fin 8) := [(6, 7), (6, 6), (6, 5), (6, 4), (6, 3), (6, 2), (6, 1), (6, 0), (5, 7), (5, 6), (5, 5), (5, 4), (5, 3), (5, 2), (5, 1), (5, 0), (4, 7), (4, 6), (4, 5), (4, 4), (4, 3), (4, 2), (4, 1), (4, 0), (3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)]
theorem mem_storeOrder : ∀ rb : Fin 7 × Fin 8, rb ∈ storeOrder := by decide

def listK (g0 : S7x8x768.Idx → F .f32) (g2 : S16x768.Idx → F .f32) (k : Fin k0_t1_loop.trips) : List (View.Piece (Elt F) S7x8x768 .f32) :=
  storeOrder.map (piece L h g0 g2 k)

theorem piece_ok (k : Fin k0_t1_loop.trips) (rb : Fin 7 × Fin 8) (x : S1x1x16.Idx) :
    payF (bufK m d L h k.val) (P0 m d L h) (offAt k rb.1 rb.2) (offAt_inb k rb.1 rb.2) (k0_off3 L k (BitVec.ofNat 32 rb.1.val)) (k0_off3_inb L k h rb.1) x
      = bufK m d L h (k.val + 1) ((Rect.unit (s := S7x8x768) (offAt k rb.1 rb.2) S1x1x16.size (offAt_inb k rb.1 rb.2)).emb x) := by
  rw [payF_apply]
  have h0 : (x 0).val = 0 := by have : (x 0).val < 1 := (x 0).isLt; omega
  have hx2 : (x 2).val < 16 := (x 2).isLt
  have y0 : (((Rect.unit (s := S7x8x768) (offAt k rb.1 rb.2) S1x1x16.size (offAt_inb k rb.1 rb.2)).emb x) 0).val = rb.1.val := by
    show offAt k rb.1 rb.2 0 + 1 * (x 0).val = _
    rw [offAt_eq, h0]; simp
  have y2 : (((Rect.unit (s := S7x8x768) (offAt k rb.1 rb.2) S1x1x16.size (offAt_inb k rb.1 rb.2)).emb x) 2).val = 16 * k.val + (x 2).val := by
    show offAt k rb.1 rb.2 2 + 1 * (x 2).val = _
    rw [offAt_eq]; simp
  unfold bufK
  rw [if_neg (by rw [y2]; omega), if_pos (by rw [y2]; omega)]
  show FloatOps.addf _ _ = FloatOps.addf _ _
  congr 2
  funext a
  match a with
  | ⟨0, _⟩ =>
    apply Fin.ext
    show k0_off3 L k (BitVec.ofNat 32 rb.1.val) 0 + 1 * 0 = wix L + _
    rw [k0_off3_eq L k h rb.1, y0]; simp
  | ⟨1, _⟩ =>
    apply Fin.ext
    show k0_off3 L k (BitVec.ofNat 32 rb.1.val) 1 + 1 * (x 2).val = _
    rw [k0_off3_eq L k h rb.1, y2]; simp

theorem trip_eq (k : Fin k0_t1_loop.trips) :
    (bA).view.writes (Elt F) (bufK m d L h k.val) (listK L h (bufK m d L h k.val) (P0 m d L h) k) = bufK m d L h (k.val + 1) := by
  suffices key : ∀ i : S7x8x768.Idx, (bA).view.read (Elt F) ((bA).view.writes (Elt F) (bufK m d L h k.val) (listK L h (bufK m d L h k.val) (P0 m d L h) k)) i
      = bufK m d L h (k.val + 1) i from funext key
  intro i
  by_cases hc : 16 * k.val ≤ (i 2).val ∧ (i 2).val < 16 * k.val + 16
  · refine View.read_writes_apply_of_pieces _ _ (bufK m d L h (k.val + 1)) _ ?_ i
      ⟨piece L h _ _ k ((⟨(i 0).val, (i 0).isLt⟩ : Fin 7), (⟨(i 1).val, (i 1).isLt⟩ : Fin 8)), List.mem_map_of_mem (mem_storeOrder _), ?_⟩
    · intro p hp x
      obtain ⟨rb, -, rfl⟩ := List.mem_map.1 hp
      exact piece_ok m d L h k rb x
    · rw [piece_fst, Rect.mem_set_unit]
      intro a
      rw [offAt_eq]
      match a with
      | 0 => exact ⟨le_refl _, Nat.lt_succ_self _⟩
      | 1 => exact ⟨le_refl _, Nat.lt_succ_self _⟩
      | 2 => exact ⟨hc.1, hc.2⟩
  · rw [View.read_writes_apply_of_forall_not_mem _ _ i _ ?_]
    · show bufK m d L h k.val i = bufK m d L h (k.val + 1) i
      unfold bufK
      by_cases hlt : (i 2).val < 16 * k.val
      · rw [if_pos hlt, if_pos (by omega)]
      · rw [if_neg hlt, if_neg (by omega)]
    · intro p hp
      obtain ⟨rb, -, rfl⟩ := List.mem_map.1 hp
      intro hmem
      rw [piece_fst] at hmem
      have hall := Rect.mem_set_unit.1 hmem 2
      rw [offAt_eq] at hall
      exact hc ⟨hall.1, hall.2⟩

end Trip

/-! ## Before the first trip and after the last -/

section Ends
variable [FloatOps F]
variable (m : (ℓ : Loc nD τ sig) → Buf (Elt F) ℓ) (d : Dev nD) (L : grid0.Coords) (h : k0_cond1 L = 1#1)

theorem base_A (f0 : S7x8x768.Idx → F .f32) : View.write (Elt F) (bA).view f0 (A0 m d L h) Finset.univ = bufK m d L h 0 := by
  refine (View.write_whole_univ (Val := Elt F) cc0_scratch0 f0 (A0 m d L h)).trans ?_
  funext i; unfold bufK; rw [if_neg (by omega)]

theorem base_P (f2 : S16x768.Idx → F .f32) : View.write (Elt F) (bPw).view f2 (P0 m d L h) Finset.univ = P0 m d L h :=
  View.write_whole_univ (Val := Elt F) cc0_scratch2 f2 (P0 m d L h)

/-- One store of a whole block `w` through the worker's slice of the result leaves `w` there. -/
theorem writes_whole_apply (fo : Buf (Elt F) (oLoc d)) (w : S7x8x768.Idx → F .f32) (y : S7x8x768.Idx) :
    (outSl L h).view.writes (Elt F) fo [⟨Rect.whole S7x8x768, (w : (Rect.whole S7x8x768).shape.Idx → Elt F .f32)⟩] ((outSl L h).view.emb y) = w y := by
  have hy : (Rect.whole S7x8x768).emb y = y := by
    funext a; apply Fin.ext
    show 0 + 1 * (y a).val = (y a).val
    omega
  have he : ((outSl L h).view.slice (Rect.whole S7x8x768)).emb y = (outSl L h).view.emb y := by
    show (outSl L h).view.emb ((Rect.whole S7x8x768).emb y) = _
    rw [hy]
  have hrd := View.write_emb_of_mem (v := (outSl L h).view.slice (Rect.whole S7x8x768)) (Val := Elt F) fo w (Finset.mem_univ y)
  rw [he] at hrd
  exact hrd.trans (cast_eq _ _)

/-- After the last trip the scratch, copied to the worker's rows of the result, is the specification there. -/
theorem out_eq (n : Nat) (hn : n = 48) (fo : Buf (Elt F) (oLoc d)) :
    ∀ i ∈ (outSl L h).view.set,
      (outSl L h).view.writes (Elt F) fo [⟨Rect.whole S7x8x768, (bufK m d L h n : (Rect.whole S7x8x768).shape.Idx → Elt F .f32)⟩] i = scBuf m d i := by
  intro i hi
  obtain ⟨y, -, rfl⟩ := Finset.mem_map.mp hi
  refine (writes_whole_apply d L h fo (bufK m d L h n) y).trans ?_
  have hw := cond1_lt L h
  have hy0 : (y 0).val < 7 := (y 0).isLt
  have hy1 : (y 1).val < 8 := (y 1).isLt
  have hy2 : (y 2).val < 768 := (y 2).isLt
  have e0 : (((outSl L h).view.emb y) 0).val = 14 * (L 1).val + 7 * (L 0).val + 1 + (y 0).val := by
    show k0_off60 L 0 + 1 * (y 0).val = _
    rw [k0_off60_eq]; simp
  have e1 : (((outSl L h).view.emb y) 1).val = (y 1).val := by
    show k0_off60 L 1 + 1 * (y 1).val = _
    rw [k0_off60_eq]; simp
  have e2 : (((outSl L h).view.emb y) 2).val = (y 2).val := by
    show k0_off60 L 2 + 1 * (y 2).val = _
    rw [k0_off60_eq]; simp
  unfold bufK scBuf Cert.Spec.scOut Cert.Spec.rowT
  rw [if_pos (by omega), dif_neg (by rw [e0]; omega)]
  congr 1
  · unfold A0
    rw [View.read_apply]
    refine (cast_eq _ _).trans ?_
    congr 1
    funext a
    match a with
    | ⟨0, _⟩ =>
      apply Fin.ext
      show k0_off2 L 0 + 1 * (y 0).val = (((outSl L h).view.emb y) 0).val - 1
      rw [k0_off2_eq, e0]; simp
    | ⟨1, _⟩ =>
      apply Fin.ext
      show k0_off2 L 1 + 1 * (y 1).val = 56 + (((outSl L h).view.emb y) 1).val
      rw [k0_off2_eq, e1]; simp
    | ⟨2, _⟩ =>
      apply Fin.ext
      show k0_off2 L 2 + 1 * (y 2).val = (((outSl L h).view.emb y) 2).val
      rw [k0_off2_eq, e2]; simp
  · unfold P0
    rw [View.read_apply]
    refine (cast_eq _ _).trans ?_
    congr 1
    funext a
    match a with
    | ⟨0, _⟩ =>
      apply Fin.ext
      show k0_off1 L 0 + 1 * (wix L + (y 0).val) = (((outSl L h).view.emb y) 0).val
      rw [k0_off1_eq, e0]; simp
      have := Nat.div_add_mod (14 * (L 1).val + 7 * (L 0).val + 1) 8
      have hwix : wix L = (14 * (L 1).val + 7 * (L 0).val + 1) % 8 := rfl
      omega
    | ⟨1, _⟩ =>
      apply Fin.ext
      show k0_off1 L 1 + 1 * (y 2).val = (((outSl L h).view.emb y) 2).val
      rw [k0_off1_eq, e2]; simp

/-- The same as an equation of assertions: the slice's elements at what the copy leaves are the worker's rows at the specification. -/
theorem out_pts (n : Nat) (hn : n = 48) (fo : Buf (Elt F) (oLoc d)) :
    ((outSl L h).view.loc (thrV d L) ↦[(outSl L h).view.set]{fullShare}
        (outSl L h).view.writes (Elt F) fo [⟨Rect.whole S7x8x768, (bufK m d L h n : (Rect.whole S7x8x768).shape.Idx → Elt F .f32)⟩] : sProp 𝕄)
      = (oLoc d ↦[outSet (wL L)]{fullShare} scBuf m d) := by
  rw [pointsTo_congr (out_eq m d L h n hn fo), set_outSl]

end Ends

/-! ## The loop's invariant -/

section Inv
variable [FloatOps F]
variable (m : (ℓ : Loc nD τ sig) → Buf (Elt F) ℓ)

/-- The loop's invariant before trip `k`: the feature scratch with the columns below `16 k` done, the position scratch
    as copied in, and what the thread owes (its waits so far all at index `none`). -/
def invM (d : Dev nD) (L : grid0.Coords) (h : k0_cond1 L = 1#1) (O : CellTallies nD τ sig (HIx 1)) (W : Waits sig (HIx 1)) (k : Nat) (_ : BitVec 32) : sProp 𝕄 :=
  iprop(Transfers.MayWaits (thrV d L) (none : HIx 1) O
    ∗ ((bA).view.loc (thrV d L) ↦{fullShare} bufK m d L h k)
    ∗ ((bPw).view.loc (thrV d L) ↦{fullShare} P0 m d L h)
    ∗ ∃ W', ⌜∀ p ∈ W', p ∈ W ∨ p.2 = none⌝ ∗ owes (thrV d L) O W')

end Inv

end TileMain

/-! ## The body's run -/

section Exec
variable [FloatOps F]
variable (m : (ℓ : Loc nD τ sig) → Buf (Elt F) ℓ)

open TileMain in
/-- The main case of the body: from the tile's resources with the worker's rows at their launch contents, the body
    runs and leaves the rows at the specification. -/
theorem branch_main (d : Dev nD) (L : grid0.Coords) (k0_h1 : k0_cond1 L = 1#1) : BranchSpec m d L := by
  have k0_h2 : ¬ k0_cond2 L = 1#1 := (by decide +kernel : ∀ L : grid0.Coords, k0_cond1 L = 1#1 → ¬ k0_cond2 L = 1#1) L k0_h1
  have k0_h3 : ¬ k0_cond3 L = 1#1 := (by decide +kernel : ∀ L : grid0.Coords, k0_cond1 L = 1#1 → ¬ k0_cond3 L = 1#1) L k0_h1
  intro O W q
  unfold tileRaw scratchAny semsZero body
  iintro ⟨Hmw, Hx, Hq, Hp, Ho, ⟨⟨%f0, H0⟩, ⟨%f1, H1⟩, ⟨%f2, H2⟩, ⟨%f3, H3⟩, ⟨%f4, H4⟩, ⟨%f5, H5⟩⟩, ⟨S6, S7, S8, S9, T0, T1, T2, T3, T4⟩, HO⟩
  ihave Ho' := (Entails.of_eq (show (oLoc d ↦[outSet (wL L)]{fullShare} m (oLoc d) : sProp 𝕄) = ((outSl L k0_h1).view.loc (thrV d L) ↦[(outSl L k0_h1).view.set]{fullShare} m (oLoc d)) from by rw [set_outSl])) $$ Ho
  rw [cc0__sc_body_eq_skeleton]; unfold cc0__sc_body_skel
  sl_exec (disch := first | exact View.amount_pos _ _ (by decide) | exact View.dmaCredit_pos _ (by decide))
  sl_for (invM m d L k0_h1 O W) $$ [Hmw H0 H2 HO]
  case region =>
    intro k _
    unfold invM
    iintro ⟨Hmw, H0, H2, %W', %hW', HO⟩
    sl_exec
    sl_step
    isplitl [Hmw]; · iexact Hmw
    isplitl [H0]
    · irw [← trip_eq m d L k0_h1 k]; iexact H0
    isplitl [H2]; · iexact H2
    iexists W'; isplitr
    · ipureintro; exact hW'
    · iexact HO
  · unfold invM
    isplitl [Hmw]; · iexact Hmw
    isplitl [H0]
    · irw [← base_A m d L k0_h1 f0]; iexact H0
    isplitl [H2]
    · irw [← base_P m d L k0_h1 f2]; iexact H2
    iexists (insert (SemLoc.dma cc0_scratch6.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %acc HI
  unfold invM
  icases HI with ⟨Hmw, H0, H2, %W', %hW', HO⟩
  sl_exec (disch := first | exact View.amount_pos _ _ (by decide) | exact View.dmaCredit_pos _ (by decide))
  sl_step
  iexists (insert (SemLoc.dma cc0_scratch8.sem, (default : HIx 1)) W'); isplitr
  · ipureintro; intro p hp
    rcases Finset.mem_insert.mp hp with hp | hp
    · exact .inr (hp ▸ rfl)
    · exact hW' p hp
  isplitl [Hx]; · iexact Hx
  isplitl [Hq]; · iexact Hq
  isplitl [Hp]; · iexact Hp
  isplitl [Ho']
  · iapply (Entails.of_eq (out_pts m d L k0_h1 _ trips1 (m (oLoc d)))); iexact Ho'
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

end Exec

end Cert.KB

end
-- ==== Proof.TileRestKBLib.lean ====
/-
  Small facts about one sixteen-lane strip of a vector scratch, shared by the cases of the tile's task:
  the vector casts between `[16]`, `[1, 16]` and `[1, 1, 16]` read at an index, membership of an index in a
  one-strip cell, and a whole buffer read after a list of stores.
-/
import proofs.«207362_g47132971107233_retrytranche2_1164_24_alg».proof.Proof.TileDefsKB
import Idealize.ShloMosaic.Lib.Writes
import Idealize.ShloMosaic.Lib.Pipeline.Value
import Idealize.ShloMosaic.Lib.ValueIdx

noncomputable section

namespace Cert.KB.Rest

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## Reading the vector casts of one 16-lane strip -/

theorem cast16_1x1x16 {α : Type} (v : S16.Idx → α) (h : S16.ShapeCasts S1x1x16) (a b : Fin 1) (c : Fin 16) :
    shapeCast S1x1x16 v h (ix3 a b c) = v (ix1 c) := by
  refine shapeCast_apply v h _ _ ?_
  rw [Shape.rowMajor_val_one, Shape.rowMajor_val_three]
  show c.val = (a.val * 1 + b.val) * 16 + c.val
  have := a.isLt; have := b.isLt; omega

theorem cast1x16_16 {α : Type} (v : S1x16.Idx → α) (h : S1x16.ShapeCasts S16) (j : Fin 16) :
    shapeCast S16 v h (ix1 j) = v (ix2 (0 : Fin 1) j) := by
  refine shapeCast_apply v h _ _ ?_
  rw [Shape.rowMajor_val_one, Shape.rowMajor_val_two]
  show (0 : Nat) * 16 + j.val = j.val
  omega

theorem cast1x1x16_16 {α : Type} (v : S1x1x16.Idx → α) (h : S1x1x16.ShapeCasts S16) (j : Fin 16) :
    shapeCast S16 v h (ix1 j) = v (ix3 (0 : Fin 1) (0 : Fin 1) j) := by
  refine shapeCast_apply v h _ _ ?_
  rw [Shape.rowMajor_val_one, Shape.rowMajor_val_three]
  show ((0 : Nat) * 1 + 0) * 16 + j.val = j.val
  omega

/-- Every index of a one-strip vector is `ix3 0 0 c`. -/
theorem strip_idx (x : S1x1x16.Idx) : ∃ c : Fin 16, x = ix3 (0 : Fin 1) (0 : Fin 1) c :=
  ⟨x 2, by
    have e := eq_ix3 x
    have h0 : x 0 = (0 : Fin 1) := Fin.ext (by have h : (x 0).val < 1 := (x 0).isLt; show (x 0).val = 0; omega)
    have h1 : x 1 = (0 : Fin 1) := Fin.ext (by have h : (x 1).val < 1 := (x 1).isLt; show (x 1).val = 0; omega)
    rw [h0, h1] at e; exact e⟩

/-- Membership of an index in a one-strip cell of a rank-3 shape: rows equal, lane within the strip. -/
theorem mem_cell {n0 n1 n2 : Nat} (o0 o1 o2 : Nat) (inb : ∀ a, (![o0, o1, o2] : Fin 3 → Nat) a + S1x1x16.size a ≤ (⟨3, ![n0, n1, n2]⟩ : Shape).size a)
    (y0 : Fin n0) (y1 : Fin n1) (y2 : Fin n2) :
    ix3 y0 y1 y2 ∈ (Rect.unit (s := ⟨3, ![n0, n1, n2]⟩) ![o0, o1, o2] S1x1x16.size inb).set
      ↔ (o0 = y0.val ∧ o1 = y1.val ∧ o2 ≤ y2.val ∧ y2.val < o2 + 16) := by
  rw [Rect.mem_set_unit]
  constructor
  · intro h
    have h0 : o0 ≤ y0.val ∧ y0.val < o0 + 1 := h 0
    have h1 : o1 ≤ y1.val ∧ y1.val < o1 + 1 := h 1
    have h2 : o2 ≤ y2.val ∧ y2.val < o2 + 16 := h 2
    omega
  · rintro ⟨h0, h1, h2, h3⟩ a
    match a with
    | ⟨0, _⟩ => exact (show o0 ≤ y0.val ∧ y0.val < o0 + 1 by omega)
    | ⟨1, _⟩ => exact (show o1 ≤ y1.val ∧ y1.val < o1 + 1 by omega)
    | ⟨2, _⟩ => exact (show o2 ≤ y2.val ∧ y2.val < o2 + 16 by omega)

/-- The row-0 value of one strip: the sum of the two loaded strips, lane by lane. -/
theorem row0_pay (v20 v24 : Vec F S1x16 .f32) (a b : Fin 1) (c : Fin 16) :
    shapeCast S1x1x16 (k0_pay148 v20 v24) shapeCasts_S16_S1x1x16 (ix3 a b c)
      = Cert.Spec.addF F (v20 (ix2 (0 : Fin 1) c)) (v24 (ix2 (0 : Fin 1) c)) := by
  rw [cast16_1x1x16]
  show FloatOps.addf (shapeCast S16 v20 shapeCasts_S1x16_S16 (ix1 c)) (shapeCast S16 v24 shapeCasts_S1x16_S16 (ix1 c)) = _
  rw [cast1x16_16, cast1x16_16]

/-- A whole buffer after a list of writes, at an index no piece covers: its prior contents. -/
theorem whole_writes_of_not_mem {κ : Kind} {Val : EltTy → Type} (b : Ref sig κ) (f : b.ty.Contents Val) (y : b.ty.shape.Idx)
    (L : List (View.Piece Val b.ty.shape b.ty.elt)) (h : ∀ p ∈ L, y ∉ p.1.set) :
    (View.whole b).writes Val f L y = f y :=
  View.read_writes_apply_of_forall_not_mem (View.whole b) f y L h

/-- A whole buffer after a list of writes whose pieces all agree with one function, at an index some piece covers. -/
theorem whole_writes_of_pieces {κ : Kind} {Val : EltTy → Type} (b : Ref sig κ) (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (hc : ∃ p ∈ L, y ∈ p.1.set) :
    (View.whole b).writes Val f L y = G y :=
  View.read_writes_apply_of_pieces (View.whole b) f G L hG y hc

end Cert.KB.Rest

end
-- ==== Proof.TileRestKBRow0.lean ====
/-
  Worker 28 of the SparseCore call writes row 0 of the call's result: the quality row plus row 0 of the
  position table, the same for each of the eight batch entries of the piece. Its loop fills a one-row scratch
  sixteen lanes per trip. Here: the value `row0Val`, what one trip's eight stores do to the scratch, what the
  two copies before the loop and the copy after it leave, and the loop's invariant.
-/
import proofs.«207362_g47132971107233_retrytranche2_1164_24_alg».proof.Proof.TileRestKBLib

noncomputable section

namespace Cert.KB.Rest

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

set_option Elab.async false in
theorem trips3 : k0_t3_loop.trips = 48 := by decide +kernel

variable (m : (ℓ : Loc nD τ sig) → Buf (Elt F) ℓ)

/-- The quality row plus row 0 of the position table, at hidden coordinate `c`. -/
def row0Val (d : Dev nD) (c : Fin 768) : F .f32 :=
  Cert.Spec.addF F (m (qLoc d) (ix2 (0 : Fin 1) c)) (m (pLoc d) (ix2 (0 : Fin 197) c))

/-- One piece of a trip: the stored strip, at the one function `row0Val` of the hidden coordinate. -/
theorem row0_piece (d : Dev nD) (L : grid0.Coords) (k : Nat) (o1 : Nat)
    (inb : ∀ a, (![0, o1, 16 * k] : Fin 3 → Nat) a + S1x1x16.size a ≤ S1x8x768.size a)
    (inbQ : ∀ a, (![0, 16 * k] : Fin 2 → Nat) a + S1x16.size a ≤ S1x768.size a)
    (inbP : ∀ a, (![0, 16 * k] : Fin 2 → Nat) a + S1x16.size a ≤ S16x768.size a)
    (gQ : Buf (Elt F) ((bQw).view.loc (thrV d L))) (gP : Buf (Elt F) ((bPw).view.loc (thrV d L)))
    (hQ : ∀ c : Fin 768, gQ (ix2 (0 : Fin 1) c) = m (qLoc d) (ix2 (0 : Fin 1) c))
    (hP : ∀ c : Fin 768, gP (ix2 (0 : Fin 16) c) = m (pLoc d) (ix2 (0 : Fin 197) c))
    (x : S1x1x16.Idx) :
    shapeCast S1x1x16 (k0_pay148
        (View.readAt (Elt F) (bQw).view (Rect.unit (s := S1x768) ![0, 16 * k] S1x16.size inbQ).toLoadRect gQ)
        (View.readAt (Elt F) (bPw).view (Rect.unit (s := S16x768) ![0, 16 * k] S1x16.size inbP).toLoadRect gP)) shapeCasts_S16_S1x1x16 x
      = row0Val m d ((Rect.unit (s := S1x8x768) ![0, o1, 16 * k] S1x1x16.size inb).emb x 2) := by
  obtain ⟨c, rfl⟩ := strip_idx x
  rw [row0_pay]
  have hc : 16 * k + c.val < 768 := by
    have h2 : 16 * k + 16 ≤ 768 := inb 2
    have := c.isLt; omega
  have eQ : View.readAt (Elt F) (bQw).view (Rect.unit (s := S1x768) ![0, 16 * k] S1x16.size inbQ).toLoadRect gQ (ix2 (0 : Fin 1) c)
      = gQ (ix2 (0 : Fin 1) (⟨16 * k + c.val, hc⟩ : Fin 768)) := by
    show gQ _ = gQ _
    refine congrArg gQ (funext fun a => ?_)
    match a with
    | ⟨0, _⟩ => exact Fin.ext (by show 0 + 1 * 0 = 0; omega)
    | ⟨1, _⟩ => exact Fin.ext (by show 16 * k + 1 * c.val = 16 * k + c.val; omega)
  have eP : View.readAt (Elt F) (bPw).view (Rect.unit (s := S16x768) ![0, 16 * k] S1x16.size inbP).toLoadRect gP (ix2 (0 : Fin 1) c)
      = gP (ix2 (0 : Fin 16) (⟨16 * k + c.val, hc⟩ : Fin 768)) := by
    show gP _ = gP _
    refine congrArg gP (funext fun a => ?_)
    match a with
    | ⟨0, _⟩ => exact Fin.ext (by show 0 + 1 * 0 = 0; omega)
    | ⟨1, _⟩ => exact Fin.ext (by show 16 * k + 1 * c.val = 16 * k + c.val; omega)
  rw [eQ, eP, hQ, hP]
  unfold row0Val
  have e2 : (Rect.unit (s := S1x8x768) ![0, o1, 16 * k] S1x1x16.size inb).emb (ix3 (0 : Fin 1) (0 : Fin 1) c) 2 = (⟨16 * k + c.val, hc⟩ : Fin 768) :=
    Fin.ext (by show 16 * k + 1 * c.val = 16 * k + c.val; omega)
  rw [e2]

/-- One trip of the row-0 loop, the strips' offsets as variables: the eight stored strips extend the finished lanes by sixteen. -/
theorem row0_step_aux (d : Dev nD) (L : grid0.Coords) (k : Nat) (hk : k < 48)
    (gQ : Buf (Elt F) ((bQw).view.loc (thrV d L))) (gP : Buf (Elt F) ((bPw).view.loc (thrV d L)))
    (g0 : Buf (Elt F) ((bRow0).view.loc (thrV d L)))
    (hQ : ∀ c : Fin 768, gQ (ix2 (0 : Fin 1) c) = m (qLoc d) (ix2 (0 : Fin 1) c))
    (hP : ∀ c : Fin 768, gP (ix2 (0 : Fin 16) c) = m (pLoc d) (ix2 (0 : Fin 197) c))
    (h0 : ∀ (b : Fin 8) (c : Fin 768), c.val < 16 * k → g0 (ix3 (0 : Fin 1) b c) = row0Val m d c)
    (oQ oP : Fin 2 → Nat) (o0 o1 o2 o3 o4 o5 o6 o7 : Fin 3 → Nat)
    (eQ : oQ = ![0, 16 * k]) (eP : oP = ![0, 16 * k])
    (e0 : o0 = ![0, 0, 16 * k]) (e1 : o1 = ![0, 1, 16 * k]) (e2 : o2 = ![0, 2, 16 * k]) (e3 : o3 = ![0, 3, 16 * k])
    (e4 : o4 = ![0, 4, 16 * k]) (e5 : o5 = ![0, 5, 16 * k]) (e6 : o6 = ![0, 6, 16 * k]) (e7 : o7 = ![0, 7, 16 * k])
    (iQ : ∀ a, oQ a + S1x16.size a ≤ S1x768.size a) (iP : ∀ a, oP a + S1x16.size a ≤ S16x768.size a)
    (i0 : ∀ a, o0 a + S1x1x16.size a ≤ S1x8x768.size a) (i1 : ∀ a, o1 a + S1x1x16.size a ≤ S1x8x768.size a)
    (i2 : ∀ a, o2 a + S1x1x16.size a ≤ S1x8x768.size a) (i3 : ∀ a, o3 a + S1x1x16.size a ≤ S1x8x768.size a)
    (i4 : ∀ a, o4 a + S1x1x16.size a ≤ S1x8x768.size a) (i5 : ∀ a, o5 a + S1x1x16.size a ≤ S1x8x768.size a)
    (i6 : ∀ a, o6 a + S1x1x16.size a ≤ S1x8x768.size a) (i7 : ∀ a, o7 a + S1x1x16.size a ≤ S1x8x768.size a)
    (b : Fin 8) (c : Fin 768) (hc : c.val < 16 * (k + 1)) :
    (bRow0).view.writes (Elt F) g0
      [⟨Rect.unit (s := S1x8x768) o7 S1x1x16.size i7,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o6 S1x1x16.size i6,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o5 S1x1x16.size i5,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o4 S1x1x16.size i4,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o3 S1x1x16.size i3,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o2 S1x1x16.size i2,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o1 S1x1x16.size i1,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩,
        ⟨Rect.unit (s := S1x8x768) o0 S1x1x16.size i0,
          shapeCast S1x1x16 (k0_pay148
            (View.readAt (Elt F) (bQw).view (Rect.unit (s := S1x768) oQ S1x16.size iQ).toLoadRect gQ)
            (View.readAt (Elt F) (bPw).view (Rect.unit (s := S16x768) oP S1x16.size iP).toLoadRect gP)) shapeCasts_S16_S1x1x16⟩]
      (ix3 (0 : Fin 1) b c) = row0Val m d c := by
  subst eQ eP e0 e1 e2 e3 e4 e5 e6 e7
  by_cases hlt : c.val < 16 * k
  · refine (whole_writes_of_not_mem cc0_scratch5 g0 (ix3 (0 : Fin 1) b c) _ ?_).trans (h0 b c hlt)
    intro p hp
    simp only [List.mem_cons, List.mem_nil_iff, or_false] at hp
    rcases hp with rfl | rfl | rfl | rfl | rfl | rfl | rfl | rfl <;>
    · rw [mem_cell]; omega
  · refine whole_writes_of_pieces cc0_scratch5 g0 (fun i => row0Val m d (i 2)) _ ?_ (ix3 (0 : Fin 1) b c) ?_
    · intro p hp x
      simp only [List.mem_cons, List.mem_nil_iff, or_false] at hp
      rcases hp with rfl | rfl | rfl | rfl | rfl | rfl | rfl | rfl
      · exact row0_piece m d L k 7 i7 iQ iP gQ gP hQ hP x
      · exact row0_piece m d L k 6 i6 iQ iP gQ gP hQ hP x
      · exact row0_piece m d L k 5 i5 iQ iP gQ gP hQ hP x
      · exact row0_piece m d L k 4 i4 iQ iP gQ gP hQ hP x
      · exact row0_piece m d L k 3 i3 iQ iP gQ gP hQ hP x
      · exact row0_piece m d L k 2 i2 iQ iP gQ gP hQ hP x
      · exact row0_piece m d L k 1 i1 iQ iP gQ gP hQ hP x
      · exact row0_piece m d L k 0 i0 iQ iP gQ gP hQ hP x
    · have hb := b.isLt
      have hmem : ∀ (o1 : Nat) (inb : ∀ a, (![0, o1, 16 * k] : Fin 3 → Nat) a + S1x1x16.size a ≤ S1x8x768.size a), o1 = b.val →
          ix3 (0 : Fin 1) b c ∈ (Rect.unit (s := S1x8x768) ![0, o1, 16 * k] S1x1x16.size inb).set := by
        intro o1 inb ho
        rw [mem_cell]; exact ⟨rfl, ho, by omega, by omega⟩
      match b, hb with
      | ⟨0, _⟩, _ => exact ⟨_, List.Mem.tail _ (List.Mem.tail _ (List.Mem.tail _ (List.Mem.tail _ (List.Mem.tail _ (List.Mem.tail _ (List.Mem.tail _ (List.Mem.head _))))))), hmem 0 i0 rfl⟩
      | ⟨1, _⟩, _ => exact ⟨_, List.Mem.tail _ (List.Mem.tail _ (List.Mem.tail _ (List.Mem.tail _ (List.Mem.tail _ (List.Mem.tail _ (List.Mem.head _)))))), hmem 1 i1 rfl⟩
      | ⟨2, _⟩, _ => exact ⟨_, List.Mem.tail _ (List.Mem.tail _ (List.Mem.tail _ (List.Mem.tail _ (List.Mem.tail _ (List.Mem.head _))))), hmem 2 i2 rfl⟩
      | ⟨3, _⟩, _ => exact ⟨_, List.Mem.tail _ (List.Mem.tail _ (List.Mem.tail _ (List.Mem.tail _ (List.Mem.head _)))), hmem 3 i3 rfl⟩
      | ⟨4, _⟩, _ => exact ⟨_, List.Mem.tail _ (List.Mem.tail _ (List.Mem.tail _ (List.Mem.head _))), hmem 4 i4 rfl⟩
      | ⟨5, _⟩, _ => exact ⟨_, List.Mem.tail _ (List.Mem.tail _ (List.Mem.head _)), hmem 5 i5 rfl⟩
      | ⟨6, _⟩, _ => exact ⟨_, List.Mem.tail _ (List.Mem.head _), hmem 6 i6 rfl⟩
      | ⟨7, _⟩, _ => exact ⟨_, List.Mem.head _, hmem 7 i7 rfl⟩

/-! ## The quality row's worker -/

/-- The result's row 0, as the body slices it. -/
abbrev outSl0 : Memref sig .scVector .hbm S1x8x768 .f32 :=
  (oW).slice (Rect.unit (s := S197x8x768) ![0, 0, 0] S1x8x768.size inb_S197x8x768_S1x8x768_0_0_0) (fun _ => rfl)

set_option Elab.async false in
theorem row0_w : ∀ L : grid0.Coords, k0_cond3 L = 1#1 → wL L = (28 : Fin 32) := by decide +kernel

theorem outSet_row0 (L : grid0.Coords) (h3 : k0_cond3 L = 1#1) : outSet (wL L) = (outSl0).view.set := by
  rw [row0_w L h3]; rfl

theorem pts_out0 (d : Dev nD) (L : grid0.Coords) (h3 : k0_cond3 L = 1#1) (f : Buf (Elt F) (oLoc d)) :
    ((outSl0).view.loc (thrV d L) ↦[(outSl0).view.set]{fullShare} f : sProp 𝕄) = (oLoc d ↦[outSet (wL L)]{fullShare} f) := by
  rw [outSet_row0 L h3]

/-- The call's result at row 0: the quality row plus the position table's row 0, for every batch entry of the piece. -/
theorem scBuf_row0 (d : Dev nD) (i : S197x8x768.Idx) (hi : (i 0).val = 0) : scBuf m d i = row0Val m d (i 2) := by
  unfold scBuf Cert.Spec.scOut Cert.Spec.rowT
  rw [dif_pos hi]
  rfl

/-- The position scratch after its first eight rows were copied in: row 0 is the position table's row 0. -/
theorem pw_rows0 (d : Dev nD) (L : grid0.Coords) (fPw : Buf (Elt F) ((bPw).view.loc (thrV d L)))
    (inb1 : ∀ a, (![0, 0] : Fin 2 → Nat) a + S8x768.size a ≤ S16x768.size a)
    (inb2 : ∀ a, (![0, 0] : Fin 2 → Nat) a + S8x768.size a ≤ S197x768.size a)
    (hst : ∀ a, (Rect.unit (s := S197x768) ![0, 0] S8x768.size inb2).stride a = 1)
    (c : Fin 768) :
    (bPw).view.writes (Elt F) fPw
      [⟨Rect.unit (s := S16x768) ![0, 0] S8x768.size inb1, ReadAs.same.apply (View.read (Elt F) ((pW).slice (Rect.unit (s := S197x768) ![0, 0] S8x768.size inb2) hst).view (m (pLoc d)))⟩]
      (ix2 (0 : Fin 16) c) = m (pLoc d) (ix2 (0 : Fin 197) c) := by
  refine whole_writes_of_pieces cc0_scratch2 fPw (fun i => m (pLoc d) (ix2 (⟨(i 0).val, by have h : (i 0).val < 16 := (i 0).isLt; omega⟩ : Fin 197) (i 1))) _ ?_ (ix2 (0 : Fin 16) c) ?_
  · intro p hp x
    rw [List.mem_singleton] at hp
    subst hp
    show m (pLoc d) _ = m (pLoc d) _
    refine congrArg (m (pLoc d)) (funext fun a => ?_)
    match a with
    | ⟨0, _⟩ => exact Fin.ext (by show 0 + 1 * (x 0).val = 0 + 1 * (x 0).val; rfl)
    | ⟨1, _⟩ => exact Fin.ext (by show 0 + 1 * (x 1).val = 0 + 1 * (x 1).val; rfl)
  · refine ⟨⟨Rect.unit (s := S16x768) ![0, 0] S8x768.size inb1, _⟩, List.Mem.head _, (Rect.mem_set_unit (s := S16x768) (off := ![0, 0]) (size := S8x768.size) (inb := inb1)).mpr fun a => ?_⟩
    match a with
    | ⟨0, _⟩ => exact (show 0 ≤ 0 ∧ 0 < 0 + 8 by omega)
    | ⟨1, _⟩ => exact (show 0 ≤ c.val ∧ c.val < 0 + 768 from ⟨Nat.zero_le _, by have := c.isLt; omega⟩)

/-- What the last copy leaves in the result's row 0 is the call's result there. -/
theorem row0_final (d : Dev nD) (L : grid0.Coords) (f0 : Buf (Elt F) (oLoc d)) (g0 : Buf (Elt F) ((bRow0).view.loc (thrV d L)))
    (h0 : ∀ (b : Fin 8) (c : Fin 768), c.val < 16 * 48 → g0 (ix3 (0 : Fin 1) b c) = row0Val m d c) :
    ∀ i ∈ (outSl0).view.set,
      (outSl0).view.writes (Elt F) f0 [⟨Rect.whole S1x8x768, ReadAs.same.apply (View.read (Elt F) (bRow0).view g0)⟩] i = scBuf m d i := by
  intro i hi
  obtain ⟨x, -, rfl⟩ := Finset.mem_map.mp hi
  obtain ⟨a, b, c, rfl⟩ : ∃ (a : Fin 1) (b : Fin 8) (c : Fin 768), x = ix3 a b c := ⟨x 0, x 1, x 2, eq_ix3 x⟩
  obtain rfl : a = 0 := Subsingleton.elim _ _
  have e : (outSl0).view.emb (ix3 (0 : Fin 1) b c) = ((outSl0).view.slice (Rect.whole S1x8x768)).emb (ix3 (0 : Fin 1) b c) := by
    show (outSl0).view.emb _ = (outSl0).view.emb ((Rect.whole S1x8x768).emb _)
    rw [Rect.emb_whole_apply]
  rw [View.writes_singleton]
  conv_lhs => rw [e, View.write_emb_of_mem _ _ (Finset.mem_univ _)]
  rw [scBuf_row0 m d _ (by show 0 + 1 * 0 = 0; rfl)]
  have e2 : (outSl0).view.emb (ix3 (0 : Fin 1) b c) 2 = c := Fin.ext (by show 0 + 1 * c.val = c.val; omega)
  rw [e2, ← h0 b c (by have := c.isLt; omega)]
  rfl

/-- The result's row 0 after the last copy, as a points-to at the call's result. -/
theorem pts_row0_final (d : Dev nD) (L : grid0.Coords) (f0 : Buf (Elt F) (oLoc d)) (g0 : Buf (Elt F) ((bRow0).view.loc (thrV d L)))
    (h0 : ∀ (b : Fin 8) (c : Fin 768), c.val < 16 * 48 → g0 (ix3 (0 : Fin 1) b c) = row0Val m d c) :
    ((outSl0).view.loc (thrV d L) ↦[(outSl0).view.set]{fullShare}
        (outSl0).view.writes (Elt F) f0 [⟨Rect.whole S1x8x768, ReadAs.same.apply (View.read (Elt F) (bRow0).view g0)⟩] : sProp 𝕄)
      = ((outSl0).view.loc (thrV d L) ↦[(outSl0).view.set]{fullShare} scBuf m d) :=
  pointsTo_congr (row0_final m d L f0 g0 h0)

/-- The loop's invariant: the quality scratch holds the quality row, the position scratch's row 0 the position
    table's row 0, and the row scratch holds the finished value on the lanes below `16 k`. -/
def invR (d : Dev nD) (L : grid0.Coords) (O : CellTallies nD τ sig (HIx 1)) (W' : Waits sig (HIx 1)) (k : Nat) (_ : BitVec 32) : sProp 𝕄 :=
  iprop(Transfers.MayWaits (thrV d L) (none : HIx 1) O
      ∗ (∃ g : Buf (Elt F) ((bQw).view.loc (thrV d L)), ((bQw).view.loc (thrV d L) ↦{fullShare} g) ∗ ⌜∀ c : Fin 768, g (ix2 (0 : Fin 1) c) = m (qLoc d) (ix2 (0 : Fin 1) c)⌝)
      ∗ (∃ g : Buf (Elt F) ((bPw).view.loc (thrV d L)), ((bPw).view.loc (thrV d L) ↦{fullShare} g) ∗ ⌜∀ c : Fin 768, g (ix2 (0 : Fin 16) c) = m (pLoc d) (ix2 (0 : Fin 197) c)⌝)
      ∗ (∃ g : Buf (Elt F) ((bRow0).view.loc (thrV d L)), ((bRow0).view.loc (thrV d L) ↦{fullShare} g)
            ∗ ⌜∀ (b : Fin 8) (c : Fin 768), c.val < 16 * k → g (ix3 (0 : Fin 1) b c) = row0Val m d c⌝)
      ∗ owes (thrV d L) O W')

end Cert.KB.Rest

end
-- ==== Proof.TileRestKBLastStep.lean ====
/-
  Worker 27 of the SparseCore call adds the position table's rows 190 to 196 to feature rows 189 to 195 of batch
  entries 56 to 63, sixteen lanes per trip, in place in a seven-row scratch; position rows 190, 191 sit in rows
  6, 7 of the sixteen-row scratch and rows 192 to 196 in the five-row scratch. Here: the value `lastVal`, one
  stored strip read at a lane, and what one trip's fifty-six stores do to the scratch.
-/
import proofs.«207362_g47132971107233_retrytranche2_1164_24_alg».proof.Proof.TileRestKBLib

noncomputable section

namespace Cert.KB.Rest

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

theorem mem_of_eq {α : Type} {a : α} {l l' : List α} (h : l = l') (ha : a ∈ l') : a ∈ l := h ▸ ha

variable (m : (ℓ : Loc nD τ sig) → Buf (Elt F) ℓ)

/-! ## The last seven position rows' worker -/

set_option Elab.async false in
theorem trips2 : k0_t2_loop.trips = 48 := by decide +kernel

/-- A stored strip: the row scratch's strip plus the position strip, lane by lane. -/
abbrev stripSum (vA : Vec F S1x1x16 .f32) (vP : Vec F S1x16 .f32) : FVec F S1x1x16 .f32 :=
  shapeCast S1x1x16 (addf (shapeCast S16 vA shapeCasts_S1x1x16_S16) (shapeCast S16 vP shapeCasts_S1x16_S16)) shapeCasts_S16_S1x1x16

theorem stripSum_apply (vA : Vec F S1x1x16 .f32) (vP : Vec F S1x16 .f32) (a b : Fin 1) (c : Fin 16) :
    stripSum vA vP (ix3 a b c) = Cert.Spec.addF F (vA (ix3 (0 : Fin 1) (0 : Fin 1) c)) (vP (ix2 (0 : Fin 1) c)) := by
  unfold stripSum
  rw [cast16_1x1x16]
  show FloatOps.addf (shapeCast S16 vA shapeCasts_S1x1x16_S16 (ix1 c)) (shapeCast S16 vP shapeCasts_S1x16_S16 (ix1 c)) = _
  rw [cast1x1x16_16, cast1x16_16]

/-- Position `190 + r` of the result for batch entry `56 + b`: feature row `189 + r` plus the position table's row `190 + r`. -/
def lastVal (d : Dev nD) (r : Fin 7) (b : Fin 8) (c : Fin 768) : F .f32 :=
  Cert.Spec.addF F (xT m d (ix3 (⟨189 + r.val, by have := r.isLt; omega⟩ : Fin 196) (⟨56 + b.val, by have := b.isLt; omega⟩ : Fin 64) c))
    (m (pLoc d) (ix2 (⟨190 + r.val, by have := r.isLt; omega⟩ : Fin 197) c))

/-- A position strip read from rows 6, 7 of the sixteen-row scratch, which hold the table's rows 190, 191. -/
theorem posStrip16 (d : Dev nD) (L : grid0.Coords) (k : Nat) (hk : k < 48) (r : Nat) (hr : r < 2)
    (iP : ∀ a, (![6 + r, 16 * k] : Fin 2 → Nat) a + S1x16.size a ≤ S16x768.size a)
    (gP : Buf (Elt F) ((bPw).view.loc (thrV d L)))
    (hP : ∀ (j : Fin 2) (c : Fin 768), gP (ix2 (⟨6 + j.val, by have := j.isLt; omega⟩ : Fin 16) c) = m (pLoc d) (ix2 (⟨190 + j.val, by have := j.isLt; omega⟩ : Fin 197) c))
    (j : Fin 16) :
    View.readAt (Elt F) (bPw).view (Rect.unit (s := S16x768) ![6 + r, 16 * k] S1x16.size iP).toLoadRect gP (ix2 (0 : Fin 1) j)
      = m (pLoc d) (ix2 (⟨190 + r, by omega⟩ : Fin 197) (⟨16 * k + j.val, by have := j.isLt; omega⟩ : Fin 768)) := by
  refine Eq.trans ?_ (hP ⟨r, hr⟩ ⟨16 * k + j.val, by have := j.isLt; omega⟩)
  show gP _ = gP _
  refine congrArg gP (funext fun a => ?_)
  match a with
  | ⟨0, _⟩ => exact Fin.ext (by show 6 + r + 1 * 0 = 6 + r; omega)
  | ⟨1, _⟩ => exact Fin.ext (by show 16 * k + 1 * j.val = 16 * k + j.val; omega)

/-- A position strip read from the five-row scratch, which holds the table's rows 192 to 196. -/
theorem posStrip5 (d : Dev nD) (L : grid0.Coords) (k : Nat) (hk : k < 48) (s : Nat) (hs : s < 5)
    (iP : ∀ a, (![s, 16 * k] : Fin 2 → Nat) a + S1x16.size a ≤ S5x768.size a)
    (gP5 : Buf (Elt F) ((bPw5).view.loc (thrV d L)))
    (hP5 : ∀ (j : Fin 5) (c : Fin 768), gP5 (ix2 j c) = m (pLoc d) (ix2 (⟨192 + j.val, by have := j.isLt; omega⟩ : Fin 197) c))
    (j : Fin 16) :
    View.readAt (Elt F) (bPw5).view (Rect.unit (s := S5x768) ![s, 16 * k] S1x16.size iP).toLoadRect gP5 (ix2 (0 : Fin 1) j)
      = m (pLoc d) (ix2 (⟨190 + (s + 2), by omega⟩ : Fin 197) (⟨16 * k + j.val, by have := j.isLt; omega⟩ : Fin 768)) := by
  refine Eq.trans ?_ ((hP5 ⟨s, hs⟩ ⟨16 * k + j.val, by have := j.isLt; omega⟩).trans ?_)
  · show gP5 _ = gP5 _
    refine congrArg gP5 (funext fun a => ?_)
    match a with
    | ⟨0, _⟩ => exact Fin.ext (by show s + 1 * 0 = s; omega)
    | ⟨1, _⟩ => exact Fin.ext (by show 16 * k + 1 * j.val = 16 * k + j.val; omega)
  · refine congrArg (m (pLoc d)) (funext fun a => ?_)
    match a with
    | ⟨0, _⟩ => exact Fin.ext (by show 192 + s = 190 + (s + 2); omega)
    | ⟨1, _⟩ => rfl

/-- One piece of a trip: the stored strip at cell `(r, b)`, at the one function `lastVal`. -/
theorem last_piece (d : Dev nD) (L : grid0.Coords) (k : Nat) (hk : k < 48) (r b : Nat) (hr : r < 7) (hb : b < 8)
    (iC : ∀ a, (![r, b, 16 * k] : Fin 3 → Nat) a + S1x1x16.size a ≤ S7x8x768.size a)
    (gA : Buf (Elt F) ((bA).view.loc (thrV d L)))
    (hA : ∀ (r : Fin 7) (b : Fin 8) (c : Fin 768), 16 * k ≤ c.val →
      gA (ix3 r b c) = xT m d (ix3 (⟨189 + r.val, by have := r.isLt; omega⟩ : Fin 196) (⟨56 + b.val, by have := b.isLt; omega⟩ : Fin 64) c))
    (vP : Vec F S1x16 .f32)
    (hvP : ∀ j : Fin 16, vP (ix2 (0 : Fin 1) j) = m (pLoc d) (ix2 (⟨190 + r, by omega⟩ : Fin 197) (⟨16 * k + j.val, by have := j.isLt; omega⟩ : Fin 768)))
    (x : S1x1x16.Idx) :
    stripSum (View.readAt (Elt F) (bA).view (Rect.unit (s := S7x8x768) ![r, b, 16 * k] S1x1x16.size iC).toLoadRect gA) vP x
      = lastVal m d ((Rect.unit (s := S7x8x768) ![r, b, 16 * k] S1x1x16.size iC).emb x 0)
          ((Rect.unit (s := S7x8x768) ![r, b, 16 * k] S1x1x16.size iC).emb x 1)
          ((Rect.unit (s := S7x8x768) ![r, b, 16 * k] S1x1x16.size iC).emb x 2) := by
  obtain ⟨c, rfl⟩ := strip_idx x
  have hc : 16 * k + c.val < 768 := by have := c.isLt; omega
  rw [stripSum_apply, hvP]
  have eA : View.readAt (Elt F) (bA).view (Rect.unit (s := S7x8x768) ![r, b, 16 * k] S1x1x16.size iC).toLoadRect gA (ix3 (0 : Fin 1) (0 : Fin 1) c)
      = gA (ix3 (⟨r, hr⟩ : Fin 7) (⟨b, hb⟩ : Fin 8) (⟨16 * k + c.val, hc⟩ : Fin 768)) := by
    show gA _ = gA _
    refine congrArg gA (funext fun a => ?_)
    match a with
    | ⟨0, _⟩ => exact Fin.ext (by show r + 1 * 0 = r; omega)
    | ⟨1, _⟩ => exact Fin.ext (by show b + 1 * 0 = b; omega)
    | ⟨2, _⟩ => exact Fin.ext (by show 16 * k + 1 * c.val = 16 * k + c.val; omega)
  rw [eA, hA ⟨r, hr⟩ ⟨b, hb⟩ ⟨16 * k + c.val, hc⟩ (by show 16 * k ≤ 16 * k + c.val; omega)]
  have e0 : (Rect.unit (s := S7x8x768) ![r, b, 16 * k] S1x1x16.size iC).emb (ix3 (0 : Fin 1) (0 : Fin 1) c) 0 = (⟨r, hr⟩ : Fin 7) :=
    Fin.ext (by show r + 1 * 0 = r; omega)
  have e1 : (Rect.unit (s := S7x8x768) ![r, b, 16 * k] S1x1x16.size iC).emb (ix3 (0 : Fin 1) (0 : Fin 1) c) 1 = (⟨b, hb⟩ : Fin 8) :=
    Fin.ext (by show b + 1 * 0 = b; omega)
  have e2 : (Rect.unit (s := S7x8x768) ![r, b, 16 * k] S1x1x16.size iC).emb (ix3 (0 : Fin 1) (0 : Fin 1) c) 2 = (⟨16 * k + c.val, hc⟩ : Fin 768) :=
    Fin.ext (by show 16 * k + 1 * c.val = 16 * k + c.val; omega)
  rw [e0, e1, e2]
  rfl

/-- One trip of the last worker's loop, the strips' offsets as variables: the fifty-six stored strips (seven position
    rows by eight batch entries) extend the finished lanes by sixteen; the other lanes keep the copied-in features. -/
theorem last_step_aux (d : Dev nD) (L : grid0.Coords) (k : Nat) (hk : k < 48)
    (gP : Buf (Elt F) ((bPw).view.loc (thrV d L))) (gP5 : Buf (Elt F) ((bPw5).view.loc (thrV d L)))
    (gA : Buf (Elt F) ((bA).view.loc (thrV d L)))
    (hP : ∀ (j : Fin 2) (c : Fin 768), gP (ix2 (⟨6 + j.val, by have := j.isLt; omega⟩ : Fin 16) c) = m (pLoc d) (ix2 (⟨190 + j.val, by have := j.isLt; omega⟩ : Fin 197) c))
    (hP5 : ∀ (j : Fin 5) (c : Fin 768), gP5 (ix2 j c) = m (pLoc d) (ix2 (⟨192 + j.val, by have := j.isLt; omega⟩ : Fin 197) c))
    (hA : ∀ (r : Fin 7) (b : Fin 8) (c : Fin 768), gA (ix3 r b c) = if c.val < 16 * k then lastVal m d r b c else xT m d (ix3 (⟨189 + r.val, by have := r.isLt; omega⟩ : Fin 196) (⟨56 + b.val, by have := b.isLt; omega⟩ : Fin 64) c))
    (oP0 oP1 oP2 oP3 oP4 oP5 oP6 : Fin 2 → Nat)
    (oC0_0 oC0_1 oC0_2 oC0_3 oC0_4 oC0_5 oC0_6 oC0_7 oC1_0 oC1_1 oC1_2 oC1_3 oC1_4 oC1_5 oC1_6 oC1_7 oC2_0 oC2_1 oC2_2 oC2_3 oC2_4 oC2_5 oC2_6 oC2_7 oC3_0 oC3_1 oC3_2 oC3_3 oC3_4 oC3_5 oC3_6 oC3_7 oC4_0 oC4_1 oC4_2 oC4_3 oC4_4 oC4_5 oC4_6 oC4_7 oC5_0 oC5_1 oC5_2 oC5_3 oC5_4 oC5_5 oC5_6 oC5_7 oC6_0 oC6_1 oC6_2 oC6_3 oC6_4 oC6_5 oC6_6 oC6_7 : Fin 3 → Nat)
    (eP0 : oP0 = ![6, 16 * k]) (eP1 : oP1 = ![7, 16 * k]) (eP2 : oP2 = ![0, 16 * k]) (eP3 : oP3 = ![1, 16 * k]) (eP4 : oP4 = ![2, 16 * k]) (eP5 : oP5 = ![3, 16 * k]) (eP6 : oP6 = ![4, 16 * k])
    (eC0_0 : oC0_0 = ![0, 0, 16 * k]) (eC0_1 : oC0_1 = ![0, 1, 16 * k]) (eC0_2 : oC0_2 = ![0, 2, 16 * k]) (eC0_3 : oC0_3 = ![0, 3, 16 * k]) (eC0_4 : oC0_4 = ![0, 4, 16 * k]) (eC0_5 : oC0_5 = ![0, 5, 16 * k]) (eC0_6 : oC0_6 = ![0, 6, 16 * k]) (eC0_7 : oC0_7 = ![0, 7, 16 * k])
    (eC1_0 : oC1_0 = ![1, 0, 16 * k]) (eC1_1 : oC1_1 = ![1, 1, 16 * k]) (eC1_2 : oC1_2 = ![1, 2, 16 * k]) (eC1_3 : oC1_3 = ![1, 3, 16 * k]) (eC1_4 : oC1_4 = ![1, 4, 16 * k]) (eC1_5 : oC1_5 = ![1, 5, 16 * k]) (eC1_6 : oC1_6 = ![1, 6, 16 * k]) (eC1_7 : oC1_7 = ![1, 7, 16 * k])
    (eC2_0 : oC2_0 = ![2, 0, 16 * k]) (eC2_1 : oC2_1 = ![2, 1, 16 * k]) (eC2_2 : oC2_2 = ![2, 2, 16 * k]) (eC2_3 : oC2_3 = ![2, 3, 16 * k]) (eC2_4 : oC2_4 = ![2, 4, 16 * k]) (eC2_5 : oC2_5 = ![2, 5, 16 * k]) (eC2_6 : oC2_6 = ![2, 6, 16 * k]) (eC2_7 : oC2_7 = ![2, 7, 16 * k])
    (eC3_0 : oC3_0 = ![3, 0, 16 * k]) (eC3_1 : oC3_1 = ![3, 1, 16 * k]) (eC3_2 : oC3_2 = ![3, 2, 16 * k]) (eC3_3 : oC3_3 = ![3, 3, 16 * k]) (eC3_4 : oC3_4 = ![3, 4, 16 * k]) (eC3_5 : oC3_5 = ![3, 5, 16 * k]) (eC3_6 : oC3_6 = ![3, 6, 16 * k]) (eC3_7 : oC3_7 = ![3, 7, 16 * k])
    (eC4_0 : oC4_0 = ![4, 0, 16 * k]) (eC4_1 : oC4_1 = ![4, 1, 16 * k]) (eC4_2 : oC4_2 = ![4, 2, 16 * k]) (eC4_3 : oC4_3 = ![4, 3, 16 * k]) (eC4_4 : oC4_4 = ![4, 4, 16 * k]) (eC4_5 : oC4_5 = ![4, 5, 16 * k]) (eC4_6 : oC4_6 = ![4, 6, 16 * k]) (eC4_7 : oC4_7 = ![4, 7, 16 * k])
    (eC5_0 : oC5_0 = ![5, 0, 16 * k]) (eC5_1 : oC5_1 = ![5, 1, 16 * k]) (eC5_2 : oC5_2 = ![5, 2, 16 * k]) (eC5_3 : oC5_3 = ![5, 3, 16 * k]) (eC5_4 : oC5_4 = ![5, 4, 16 * k]) (eC5_5 : oC5_5 = ![5, 5, 16 * k]) (eC5_6 : oC5_6 = ![5, 6, 16 * k]) (eC5_7 : oC5_7 = ![5, 7, 16 * k])
    (eC6_0 : oC6_0 = ![6, 0, 16 * k]) (eC6_1 : oC6_1 = ![6, 1, 16 * k]) (eC6_2 : oC6_2 = ![6, 2, 16 * k]) (eC6_3 : oC6_3 = ![6, 3, 16 * k]) (eC6_4 : oC6_4 = ![6, 4, 16 * k]) (eC6_5 : oC6_5 = ![6, 5, 16 * k]) (eC6_6 : oC6_6 = ![6, 6, 16 * k]) (eC6_7 : oC6_7 = ![6, 7, 16 * k])
    (iP0 : ∀ a, oP0 a + S1x16.size a ≤ S16x768.size a)
    (iP1 : ∀ a, oP1 a + S1x16.size a ≤ S16x768.size a)
    (iP2 : ∀ a, oP2 a + S1x16.size a ≤ S5x768.size a)
    (iP3 : ∀ a, oP3 a + S1x16.size a ≤ S5x768.size a)
    (iP4 : ∀ a, oP4 a + S1x16.size a ≤ S5x768.size a)
    (iP5 : ∀ a, oP5 a + S1x16.size a ≤ S5x768.size a)
    (iP6 : ∀ a, oP6 a + S1x16.size a ≤ S5x768.size a)
    (iC0_0 : ∀ a, oC0_0 a + S1x1x16.size a ≤ S7x8x768.size a)
    (iC0_1 : ∀ a, oC0_1 a + S1x1x16.size a ≤ S7x8x768.size a)
    (iC0_2 : ∀ a, oC0_2 a + S1x1x16.size a ≤ S7x8x768.size a)
    (iC0_3 : ∀ a, oC0_3 a + S1x1x16.size a ≤ S7x8x768.size a)
    (iC0_4 : ∀ a, oC0_4 a + S1x1x16.size a ≤ S7x8x768.size a)
    (iC0_5 : ∀ a, oC0_5 a + S1x1x16.size a ≤ S7x8x768.size a)
    (iC0_6 : ∀ a, oC0_6 a + S1x1x16.size a ≤ S7x8x768.size a)
    (iC0_7 : ∀ a, oC0_7 a + S1x1x16.size a ≤ S7x8x768.size a)
    (iC1_0 : ∀ a, oC1_0 a + S1x1x16.size a ≤ S7x8x768.size a)
    (iC1_1 : ∀ a, oC1_1 a + S1x1x16.size a ≤ S7x8x768.size a)
    (iC1_2 : ∀ a, oC1_2 a + S1x1x16.size a ≤ S7x8x768.size a)
    (iC1_3 : ∀ a, oC1_3 a + S1x1x16.size a ≤ S7x8x768.size a)
    (iC1_4 : ∀ a, oC1_4 a + S1x1x16.size a ≤ S7x8x768.size a)
    (iC1_5 : ∀ a, oC1_5 a + S1x1x16.size a ≤ S7x8x768.size a)
    (iC1_6 : ∀ a, oC1_6 a + S1x1x16.size a ≤ S7x8x768.size a)
    (iC1_7 : ∀ a, oC1_7 a + S1x1x16.size a ≤ S7x8x768.size a)
    (iC2_0 : ∀ a, oC2_0 a + S1x1x16.size a ≤ S7x8x768.size a)
    (iC2_1 : ∀ a, oC2_1 a + S1x1x16.size a ≤ S7x8x768.size a)
    (iC2_2 : ∀ a, oC2_2 a + S1x1x16.size a ≤ S7x8x768.size a)
    (iC2_3 : ∀ a, oC2_3 a + S1x1x16.size a ≤ S7x8x768.size a)
    (iC2_4 : ∀ a, oC2_4 a + S1x1x16.size a ≤ S7x8x768.size a)
    (iC2_5 : ∀ a, oC2_5 a + S1x1x16.size a ≤ S7x8x768.size a)
    (iC2_6 : ∀ a, oC2_6 a + S1x1x16.size a ≤ S7x8x768.size a)
    (iC2_7 : ∀ a, oC2_7 a + S1x1x16.size a ≤ S7x8x768.size a)
    (iC3_0 : ∀ a, oC3_0 a + S1x1x16.size a ≤ S7x8x768.size a)
    (iC3_1 : ∀ a, oC3_1 a + S1x1x16.size a ≤ S7x8x768.size a)
    (iC3_2 : ∀ a, oC3_2 a + S1x1x16.size a ≤ S7x8x768.size a)
    (iC3_3 : ∀ a, oC3_3 a + S1x1x16.size a ≤ S7x8x768.size a)
    (iC3_4 : ∀ a, oC3_4 a + S1x1x16.size a ≤ S7x8x768.size a)
    (iC3_5 : ∀ a, oC3_5 a + S1x1x16.size a ≤ S7x8x768.size a)
    (iC3_6 : ∀ a, oC3_6 a + S1x1x16.size a ≤ S7x8x768.size a)
    (iC3_7 : ∀ a, oC3_7 a + S1x1x16.size a ≤ S7x8x768.size a)
    (iC4_0 : ∀ a, oC4_0 a + S1x1x16.size a ≤ S7x8x768.size a)
    (iC4_1 : ∀ a, oC4_1 a + S1x1x16.size a ≤ S7x8x768.size a)
    (iC4_2 : ∀ a, oC4_2 a + S1x1x16.size a ≤ S7x8x768.size a)
    (iC4_3 : ∀ a, oC4_3 a + S1x1x16.size a ≤ S7x8x768.size a)
    (iC4_4 : ∀ a, oC4_4 a + S1x1x16.size a ≤ S7x8x768.size a)
    (iC4_5 : ∀ a, oC4_5 a + S1x1x16.size a ≤ S7x8x768.size a)
    (iC4_6 : ∀ a, oC4_6 a + S1x1x16.size a ≤ S7x8x768.size a)
    (iC4_7 : ∀ a, oC4_7 a + S1x1x16.size a ≤ S7x8x768.size a)
    (iC5_0 : ∀ a, oC5_0 a + S1x1x16.size a ≤ S7x8x768.size a)
    (iC5_1 : ∀ a, oC5_1 a + S1x1x16.size a ≤ S7x8x768.size a)
    (iC5_2 : ∀ a, oC5_2 a + S1x1x16.size a ≤ S7x8x768.size a)
    (iC5_3 : ∀ a, oC5_3 a + S1x1x16.size a ≤ S7x8x768.size a)
    (iC5_4 : ∀ a, oC5_4 a + S1x1x16.size a ≤ S7x8x768.size a)
    (iC5_5 : ∀ a, oC5_5 a + S1x1x16.size a ≤ S7x8x768.size a)
    (iC5_6 : ∀ a, oC5_6 a + S1x1x16.size a ≤ S7x8x768.size a)
    (iC5_7 : ∀ a, oC5_7 a + S1x1x16.size a ≤ S7x8x768.size a)
    (iC6_0 : ∀ a, oC6_0 a + S1x1x16.size a ≤ S7x8x768.size a)
    (iC6_1 : ∀ a, oC6_1 a + S1x1x16.size a ≤ S7x8x768.size a)
    (iC6_2 : ∀ a, oC6_2 a + S1x1x16.size a ≤ S7x8x768.size a)
    (iC6_3 : ∀ a, oC6_3 a + S1x1x16.size a ≤ S7x8x768.size a)
    (iC6_4 : ∀ a, oC6_4 a + S1x1x16.size a ≤ S7x8x768.size a)
    (iC6_5 : ∀ a, oC6_5 a + S1x1x16.size a ≤ S7x8x768.size a)
    (iC6_6 : ∀ a, oC6_6 a + S1x1x16.size a ≤ S7x8x768.size a)
    (iC6_7 : ∀ a, oC6_7 a + S1x1x16.size a ≤ S7x8x768.size a)
    (Lst : List (View.Piece (Elt F) S7x8x768 .f32))
    (hL : Lst =
      [⟨Rect.unit (s := S7x8x768) oC6_7 S1x1x16.size iC6_7,
          stripSum (View.readAt (Elt F) (bA).view (Rect.unit (s := S7x8x768) oC6_7 S1x1x16.size iC6_7).toLoadRect gA)
            (View.readAt (Elt F) (bPw5).view (Rect.unit (s := S5x768) oP6 S1x16.size iP6).toLoadRect gP5)⟩,
        ⟨Rect.unit (s := S7x8x768) oC6_6 S1x1x16.size iC6_6,
          stripSum (View.readAt (Elt F) (bA).view (Rect.unit (s := S7x8x768) oC6_6 S1x1x16.size iC6_6).toLoadRect gA)
            (View.readAt (Elt F) (bPw5).view (Rect.unit (s := S5x768) oP6 S1x16.size iP6).toLoadRect gP5)⟩,
        ⟨Rect.unit (s := S7x8x768) oC6_5 S1x1x16.size iC6_5,
          stripSum (View.readAt (Elt F) (bA).view (Rect.unit (s := S7x8x768) oC6_5 S1x1x16.size iC6_5).toLoadRect gA)
            (View.readAt (Elt F) (bPw5).view (Rect.unit (s := S5x768) oP6 S1x16.size iP6).toLoadRect gP5)⟩,
        ⟨Rect.unit (s := S7x8x768) oC6_4 S1x1x16.size iC6_4,
          stripSum (View.readAt (Elt F) (bA).view (Rect.unit (s := S7x8x768) oC6_4 S1x1x16.size iC6_4).toLoadRect gA)
            (View.readAt (Elt F) (bPw5).view (Rect.unit (s := S5x768) oP6 S1x16.size iP6).toLoadRect gP5)⟩,
        ⟨Rect.unit (s := S7x8x768) oC6_3 S1x1x16.size iC6_3,
          stripSum (View.readAt (Elt F) (bA).view (Rect.unit (s := S7x8x768) oC6_3 S1x1x16.size iC6_3).toLoadRect gA)
            (View.readAt (Elt F) (bPw5).view (Rect.unit (s := S5x768) oP6 S1x16.size iP6).toLoadRect gP5)⟩,
        ⟨Rect.unit (s := S7x8x768) oC6_2 S1x1x16.size iC6_2,
          stripSum (View.readAt (Elt F) (bA).view (Rect.unit (s := S7x8x768) oC6_2 S1x1x16.size iC6_2).toLoadRect gA)
            (View.readAt (Elt F) (bPw5).view (Rect.unit (s := S5x768) oP6 S1x16.size iP6).toLoadRect gP5)⟩,
        ⟨Rect.unit (s := S7x8x768) oC6_1 S1x1x16.size iC6_1,
          stripSum (View.readAt (Elt F) (bA).view (Rect.unit (s := S7x8x768) oC6_1 S1x1x16.size iC6_1).toLoadRect gA)
            (View.readAt (Elt F) (bPw5).view (Rect.unit (s := S5x768) oP6 S1x16.size iP6).toLoadRect gP5)⟩,
        ⟨Rect.unit (s := S7x8x768) oC6_0 S1x1x16.size iC6_0,
          stripSum (View.readAt (Elt F) (bA).view (Rect.unit (s := S7x8x768) oC6_0 S1x1x16.size iC6_0).toLoadRect gA)
            (View.readAt (Elt F) (bPw5).view (Rect.unit (s := S5x768) oP6 S1x16.size iP6).toLoadRect gP5)⟩,
        ⟨Rect.unit (s := S7x8x768) oC5_7 S1x1x16.size iC5_7,
          stripSum (View.readAt (Elt F) (bA).view (Rect.unit (s := S7x8x768) oC5_7 S1x1x16.size iC5_7).toLoadRect gA)
            (View.readAt (Elt F) (bPw5).view (Rect.unit (s := S5x768) oP5 S1x16.size iP5).toLoadRect gP5)⟩,
        ⟨Rect.unit (s := S7x8x768) oC5_6 S1x1x16.size iC5_6,
          stripSum (View.readAt (Elt F) (bA).view (Rect.unit (s := S7x8x768) oC5_6 S1x1x16.size iC5_6).toLoadRect gA)
            (View.readAt (Elt F) (bPw5).view (Rect.unit (s := S5x768) oP5 S1x16.size iP5).toLoadRect gP5)⟩,
        ⟨Rect.unit (s := S7x8x768) oC5_5 S1x1x16.size iC5_5,
          stripSum (View.readAt (Elt F) (bA).view (Rect.unit (s := S7x8x768) oC5_5 S1x1x16.size iC5_5).toLoadRect gA)
            (View.readAt (Elt F) (bPw5).view (Rect.unit (s := S5x768) oP5 S1x16.size iP5).toLoadRect gP5)⟩,
        ⟨Rect.unit (s := S7x8x768) oC5_4 S1x1x16.size iC5_4,
          stripSum (View.readAt (Elt F) (bA).view (Rect.unit (s := S7x8x768) oC5_4 S1x1x16.size iC5_4).toLoadRect gA)
            (View.readAt (Elt F) (bPw5).view (Rect.unit (s := S5x768) oP5 S1x16.size iP5).toLoadRect gP5)⟩,
        ⟨Rect.unit (s := S7x8x768) oC5_3 S1x1x16.size iC5_3,
          stripSum (View.readAt (Elt F) (bA).view (Rect.unit (s := S7x8x768) oC5_3 S1x1x16.size iC5_3).toLoadRect gA)
            (View.readAt (Elt F) (bPw5).view (Rect.unit (s := S5x768) oP5 S1x16.size iP5).toLoadRect gP5)⟩,
        ⟨Rect.unit (s := S7x8x768) oC5_2 S1x1x16.size iC5_2,
          stripSum (View.readAt (Elt F) (bA).view (Rect.unit (s := S7x8x768) oC5_2 S1x1x16.size iC5_2).toLoadRect gA)
            (View.readAt (Elt F) (bPw5).view (Rect.unit (s := S5x768) oP5 S1x16.size iP5).toLoadRect gP5)⟩,
        ⟨Rect.unit (s := S7x8x768) oC5_1 S1x1x16.size iC5_1,
          stripSum (View.readAt (Elt F) (bA).view (Rect.unit (s := S7x8x768) oC5_1 S1x1x16.size iC5_1).toLoadRect gA)
            (View.readAt (Elt F) (bPw5).view (Rect.unit (s := S5x768) oP5 S1x16.size iP5).toLoadRect gP5)⟩,
        ⟨Rect.unit (s := S7x8x768) oC5_0 S1x1x16.size iC5_0,
          stripSum (View.readAt (Elt F) (bA).view (Rect.unit (s := S7x8x768) oC5_0 S1x1x16.size iC5_0).toLoadRect gA)
            (View.readAt (Elt F) (bPw5).view (Rect.unit (s := S5x768) oP5 S1x16.size iP5).toLoadRect gP5)⟩,
        ⟨Rect.unit (s := S7x8x768) oC4_7 S1x1x16.size iC4_7,
          stripSum (View.readAt (Elt F) (bA).view (Rect.unit (s := S7x8x768) oC4_7 S1x1x16.size iC4_7).toLoadRect gA)
            (View.readAt (Elt F) (bPw5).view (Rect.unit (s := S5x768) oP4 S1x16.size iP4).toLoadRect gP5)⟩,
        ⟨Rect.unit (s := S7x8x768) oC4_6 S1x1x16.size iC4_6,
          stripSum (View.readAt (Elt F) (bA).view (Rect.unit (s := S7x8x768) oC4_6 S1x1x16.size iC4_6).toLoadRect gA)
            (View.readAt (Elt F) (bPw5).view (Rect.unit (s := S5x768) oP4 S1x16.size iP4).toLoadRect gP5)⟩,
        ⟨Rect.unit (s := S7x8x768) oC4_5 S1x1x16.size iC4_5,
          stripSum (View.readAt (Elt F) (bA).view (Rect.unit (s := S7x8x768) oC4_5 S1x1x16.size iC4_5).toLoadRect gA)
            (View.readAt (Elt F) (bPw5).view (Rect.unit (s := S5x768) oP4 S1x16.size iP4).toLoadRect gP5)⟩,
        ⟨Rect.unit (s := S7x8x768) oC4_4 S1x1x16.size iC4_4,
          stripSum (View.readAt (Elt F) (bA).view (Rect.unit (s := S7x8x768) oC4_4 S1x1x16.size iC4_4).toLoadRect gA)
            (View.readAt (Elt F) (bPw5).view (Rect.unit (s := S5x768) oP4 S1x16.size iP4).toLoadRect gP5)⟩,
        ⟨Rect.unit (s := S7x8x768) oC4_3 S1x1x16.size iC4_3,
          stripSum (View.readAt (Elt F) (bA).view (Rect.unit (s := S7x8x768) oC4_3 S1x1x16.size iC4_3).toLoadRect gA)
            (View.readAt (Elt F) (bPw5).view (Rect.unit (s := S5x768) oP4 S1x16.size iP4).toLoadRect gP5)⟩,
        ⟨Rect.unit (s := S7x8x768) oC4_2 S1x1x16.size iC4_2,
          stripSum (View.readAt (Elt F) (bA).view (Rect.unit (s := S7x8x768) oC4_2 S1x1x16.size iC4_2).toLoadRect gA)
            (View.readAt (Elt F) (bPw5).view (Rect.unit (s := S5x768) oP4 S1x16.size iP4).toLoadRect gP5)⟩,
        ⟨Rect.unit (s := S7x8x768) oC4_1 S1x1x16.size iC4_1,
          stripSum (View.readAt (Elt F) (bA).view (Rect.unit (s := S7x8x768) oC4_1 S1x1x16.size iC4_1).toLoadRect gA)
            (View.readAt (Elt F) (bPw5).view (Rect.unit (s := S5x768) oP4 S1x16.size iP4).toLoadRect gP5)⟩,
        ⟨Rect.unit (s := S7x8x768) oC4_0 S1x1x16.size iC4_0,
          stripSum (View.readAt (Elt F) (bA).view (Rect.unit (s := S7x8x768) oC4_0 S1x1x16.size iC4_0).toLoadRect gA)
            (View.readAt (Elt F) (bPw5).view (Rect.unit (s := S5x768) oP4 S1x16.size iP4).toLoadRect gP5)⟩,
        ⟨Rect.unit (s := S7x8x768) oC3_7 S1x1x16.size iC3_7,
          stripSum (View.readAt (Elt F) (bA).view (Rect.unit (s := S7x8x768) oC3_7 S1x1x16.size iC3_7).toLoadRect gA)
            (View.readAt (Elt F) (bPw5).view (Rect.unit (s := S5x768) oP3 S1x16.size iP3).toLoadRect gP5)⟩,
        ⟨Rect.unit (s := S7x8x768) oC3_6 S1x1x16.size iC3_6,
          stripSum (View.readAt (Elt F) (bA).view (Rect.unit (s := S7x8x768) oC3_6 S1x1x16.size iC3_6).toLoadRect gA)
            (View.readAt (Elt F) (bPw5).view (Rect.unit (s := S5x768) oP3 S1x16.size iP3).toLoadRect gP5)⟩,
        ⟨Rect.unit (s := S7x8x768) oC3_5 S1x1x16.size iC3_5,
          stripSum (View.readAt (Elt F) (bA).view (Rect.unit (s := S7x8x768) oC3_5 S1x1x16.size iC3_5).toLoadRect gA)
            (View.readAt (Elt F) (bPw5).view (Rect.unit (s := S5x768) oP3 S1x16.size iP3).toLoadRect gP5)⟩,
        ⟨Rect.unit (s := S7x8x768) oC3_4 S1x1x16.size iC3_4,
          stripSum (View.readAt (Elt F) (bA).view (Rect.unit (s := S7x8x768) oC3_4 S1x1x16.size iC3_4).toLoadRect gA)
            (View.readAt (Elt F) (bPw5).view (Rect.unit (s := S5x768) oP3 S1x16.size iP3).toLoadRect gP5)⟩,
        ⟨Rect.unit (s := S7x8x768) oC3_3 S1x1x16.size iC3_3,
          stripSum (View.readAt (Elt F) (bA).view (Rect.unit (s := S7x8x768) oC3_3 S1x1x16.size iC3_3).toLoadRect gA)
            (View.readAt (Elt F) (bPw5).view (Rect.unit (s := S5x768) oP3 S1x16.size iP3).toLoadRect gP5)⟩,
        ⟨Rect.unit (s := S7x8x768) oC3_2 S1x1x16.size iC3_2,
          stripSum (View.readAt (Elt F) (bA).view (Rect.unit (s := S7x8x768) oC3_2 S1x1x16.size iC3_2).toLoadRect gA)
            (View.readAt (Elt F) (bPw5).view (Rect.unit (s := S5x768) oP3 S1x16.size iP3).toLoadRect gP5)⟩,
        ⟨Rect.unit (s := S7x8x768) oC3_1 S1x1x16.size iC3_1,
          stripSum (View.readAt (Elt F) (bA).view (Rect.unit (s := S7x8x768) oC3_1 S1x1x16.size iC3_1).toLoadRect gA)
            (View.readAt (Elt F) (bPw5).view (Rect.unit (s := S5x768) oP3 S1x16.size iP3).toLoadRect gP5)⟩,
        ⟨Rect.unit (s := S7x8x768) oC3_0 S1x1x16.size iC3_0,
          stripSum (View.readAt (Elt F) (bA).view (Rect.unit (s := S7x8x768) oC3_0 S1x1x16.size iC3_0).toLoadRect gA)
            (View.readAt (Elt F) (bPw5).view (Rect.unit (s := S5x768) oP3 S1x16.size iP3).toLoadRect gP5)⟩,
        ⟨Rect.unit (s := S7x8x768) oC2_7 S1x1x16.size iC2_7,
          stripSum (View.readAt (Elt F) (bA).view (Rect.unit (s := S7x8x768) oC2_7 S1x1x16.size iC2_7).toLoadRect gA)
            (View.readAt (Elt F) (bPw5).view (Rect.unit (s := S5x768) oP2 S1x16.size iP2).toLoadRect gP5)⟩,
        ⟨Rect.unit (s := S7x8x768) oC2_6 S1x1x16.size iC2_6,
          stripSum (View.readAt (Elt F) (bA).view (Rect.unit (s := S7x8x768) oC2_6 S1x1x16.size iC2_6).toLoadRect gA)
            (View.readAt (Elt F) (bPw5).view (Rect.unit (s := S5x768) oP2 S1x16.size iP2).toLoadRect gP5)⟩,
        ⟨Rect.unit (s := S7x8x768) oC2_5 S1x1x16.size iC2_5,
          stripSum (View.readAt (Elt F) (bA).view (Rect.unit (s := S7x8x768) oC2_5 S1x1x16.size iC2_5).toLoadRect gA)
            (View.readAt (Elt F) (bPw5).view (Rect.unit (s := S5x768) oP2 S1x16.size iP2).toLoadRect gP5)⟩,
        ⟨Rect.unit (s := S7x8x768) oC2_4 S1x1x16.size iC2_4,
          stripSum (View.readAt (Elt F) (bA).view (Rect.unit (s := S7x8x768) oC2_4 S1x1x16.size iC2_4).toLoadRect gA)
            (View.readAt (Elt F) (bPw5).view (Rect.unit (s := S5x768) oP2 S1x16.size iP2).toLoadRect gP5)⟩,
        ⟨Rect.unit (s := S7x8x768) oC2_3 S1x1x16.size iC2_3,
          stripSum (View.readAt (Elt F) (bA).view (Rect.unit (s := S7x8x768) oC2_3 S1x1x16.size iC2_3).toLoadRect gA)
            (View.readAt (Elt F) (bPw5).view (Rect.unit (s := S5x768) oP2 S1x16.size iP2).toLoadRect gP5)⟩,
        ⟨Rect.unit (s := S7x8x768) oC2_2 S1x1x16.size iC2_2,
          stripSum (View.readAt (Elt F) (bA).view (Rect.unit (s := S7x8x768) oC2_2 S1x1x16.size iC2_2).toLoadRect gA)
            (View.readAt (Elt F) (bPw5).view (Rect.unit (s := S5x768) oP2 S1x16.size iP2).toLoadRect gP5)⟩,
        ⟨Rect.unit (s := S7x8x768) oC2_1 S1x1x16.size iC2_1,
          stripSum (View.readAt (Elt F) (bA).view (Rect.unit (s := S7x8x768) oC2_1 S1x1x16.size iC2_1).toLoadRect gA)
            (View.readAt (Elt F) (bPw5).view (Rect.unit (s := S5x768) oP2 S1x16.size iP2).toLoadRect gP5)⟩,
        ⟨Rect.unit (s := S7x8x768) oC2_0 S1x1x16.size iC2_0,
          stripSum (View.readAt (Elt F) (bA).view (Rect.unit (s := S7x8x768) oC2_0 S1x1x16.size iC2_0).toLoadRect gA)
            (View.readAt (Elt F) (bPw5).view (Rect.unit (s := S5x768) oP2 S1x16.size iP2).toLoadRect gP5)⟩,
        ⟨Rect.unit (s := S7x8x768) oC1_7 S1x1x16.size iC1_7,
          stripSum (View.readAt (Elt F) (bA).view (Rect.unit (s := S7x8x768) oC1_7 S1x1x16.size iC1_7).toLoadRect gA)
            (View.readAt (Elt F) (bPw).view (Rect.unit (s := S16x768) oP1 S1x16.size iP1).toLoadRect gP)⟩,
        ⟨Rect.unit (s := S7x8x768) oC1_6 S1x1x16.size iC1_6,
          stripSum (View.readAt (Elt F) (bA).view (Rect.unit (s := S7x8x768) oC1_6 S1x1x16.size iC1_6).toLoadRect gA)
            (View.readAt (Elt F) (bPw).view (Rect.unit (s := S16x768) oP1 S1x16.size iP1).toLoadRect gP)⟩,
        ⟨Rect.unit (s := S7x8x768) oC1_5 S1x1x16.size iC1_5,
          stripSum (View.readAt (Elt F) (bA).view (Rect.unit (s := S7x8x768) oC1_5 S1x1x16.size iC1_5).toLoadRect gA)
            (View.readAt (Elt F) (bPw).view (Rect.unit (s := S16x768) oP1 S1x16.size iP1).toLoadRect gP)⟩,
        ⟨Rect.unit (s := S7x8x768) oC1_4 S1x1x16.size iC1_4,
          stripSum (View.readAt (Elt F) (bA).view (Rect.unit (s := S7x8x768) oC1_4 S1x1x16.size iC1_4).toLoadRect gA)
            (View.readAt (Elt F) (bPw).view (Rect.unit (s := S16x768) oP1 S1x16.size iP1).toLoadRect gP)⟩,
        ⟨Rect.unit (s := S7x8x768) oC1_3 S1x1x16.size iC1_3,
          stripSum (View.readAt (Elt F) (bA).view (Rect.unit (s := S7x8x768) oC1_3 S1x1x16.size iC1_3).toLoadRect gA)
            (View.readAt (Elt F) (bPw).view (Rect.unit (s := S16x768) oP1 S1x16.size iP1).toLoadRect gP)⟩,
        ⟨Rect.unit (s := S7x8x768) oC1_2 S1x1x16.size iC1_2,
          stripSum (View.readAt (Elt F) (bA).view (Rect.unit (s := S7x8x768) oC1_2 S1x1x16.size iC1_2).toLoadRect gA)
            (View.readAt (Elt F) (bPw).view (Rect.unit (s := S16x768) oP1 S1x16.size iP1).toLoadRect gP)⟩,
        ⟨Rect.unit (s := S7x8x768) oC1_1 S1x1x16.size iC1_1,
          stripSum (View.readAt (Elt F) (bA).view (Rect.unit (s := S7x8x768) oC1_1 S1x1x16.size iC1_1).toLoadRect gA)
            (View.readAt (Elt F) (bPw).view (Rect.unit (s := S16x768) oP1 S1x16.size iP1).toLoadRect gP)⟩,
        ⟨Rect.unit (s := S7x8x768) oC1_0 S1x1x16.size iC1_0,
          stripSum (View.readAt (Elt F) (bA).view (Rect.unit (s := S7x8x768) oC1_0 S1x1x16.size iC1_0).toLoadRect gA)
            (View.readAt (Elt F) (bPw).view (Rect.unit (s := S16x768) oP1 S1x16.size iP1).toLoadRect gP)⟩,
        ⟨Rect.unit (s := S7x8x768) oC0_7 S1x1x16.size iC0_7,
          stripSum (View.readAt (Elt F) (bA).view (Rect.unit (s := S7x8x768) oC0_7 S1x1x16.size iC0_7).toLoadRect gA)
            (View.readAt (Elt F) (bPw).view (Rect.unit (s := S16x768) oP0 S1x16.size iP0).toLoadRect gP)⟩,
        ⟨Rect.unit (s := S7x8x768) oC0_6 S1x1x16.size iC0_6,
          stripSum (View.readAt (Elt F) (bA).view (Rect.unit (s := S7x8x768) oC0_6 S1x1x16.size iC0_6).toLoadRect gA)
            (View.readAt (Elt F) (bPw).view (Rect.unit (s := S16x768) oP0 S1x16.size iP0).toLoadRect gP)⟩,
        ⟨Rect.unit (s := S7x8x768) oC0_5 S1x1x16.size iC0_5,
          stripSum (View.readAt (Elt F) (bA).view (Rect.unit (s := S7x8x768) oC0_5 S1x1x16.size iC0_5).toLoadRect gA)
            (View.readAt (Elt F) (bPw).view (Rect.unit (s := S16x768) oP0 S1x16.size iP0).toLoadRect gP)⟩,
        ⟨Rect.unit (s := S7x8x768) oC0_4 S1x1x16.size iC0_4,
          stripSum (View.readAt (Elt F) (bA).view (Rect.unit (s := S7x8x768) oC0_4 S1x1x16.size iC0_4).toLoadRect gA)
            (View.readAt (Elt F) (bPw).view (Rect.unit (s := S16x768) oP0 S1x16.size iP0).toLoadRect gP)⟩,
        ⟨Rect.unit (s := S7x8x768) oC0_3 S1x1x16.size iC0_3,
          stripSum (View.readAt (Elt F) (bA).view (Rect.unit (s := S7x8x768) oC0_3 S1x1x16.size iC0_3).toLoadRect gA)
            (View.readAt (Elt F) (bPw).view (Rect.unit (s := S16x768) oP0 S1x16.size iP0).toLoadRect gP)⟩,
        ⟨Rect.unit (s := S7x8x768) oC0_2 S1x1x16.size iC0_2,
          stripSum (View.readAt (Elt F) (bA).view (Rect.unit (s := S7x8x768) oC0_2 S1x1x16.size iC0_2).toLoadRect gA)
            (View.readAt (Elt F) (bPw).view (Rect.unit (s := S16x768) oP0 S1x16.size iP0).toLoadRect gP)⟩,
        ⟨Rect.unit (s := S7x8x768) oC0_1 S1x1x16.size iC0_1,
          stripSum (View.readAt (Elt F) (bA).view (Rect.unit (s := S7x8x768) oC0_1 S1x1x16.size iC0_1).toLoadRect gA)
            (View.readAt (Elt F) (bPw).view (Rect.unit (s := S16x768) oP0 S1x16.size iP0).toLoadRect gP)⟩,
        ⟨Rect.unit (s := S7x8x768) oC0_0 S1x1x16.size iC0_0,
          stripSum (View.readAt (Elt F) (bA).view (Rect.unit (s := S7x8x768) oC0_0 S1x1x16.size iC0_0).toLoadRect gA)
            (View.readAt (Elt F) (bPw).view (Rect.unit (s := S16x768) oP0 S1x16.size iP0).toLoadRect gP)⟩])
    (r : Fin 7) (b : Fin 8) (c : Fin 768) :
    (bA).view.writes (Elt F) gA Lst
      (ix3 r b c) = if c.val < 16 * (k + 1) then lastVal m d r b c else xT m d (ix3 (⟨189 + r.val, by have := r.isLt; omega⟩ : Fin 196) (⟨56 + b.val, by have := b.isLt; omega⟩ : Fin 64) c) := by
  subst eP0 eP1 eP2 eP3 eP4 eP5 eP6
  subst eC0_0 eC0_1 eC0_2 eC0_3 eC0_4 eC0_5 eC0_6 eC0_7 eC1_0 eC1_1 eC1_2 eC1_3 eC1_4 eC1_5 eC1_6 eC1_7 eC2_0 eC2_1 eC2_2 eC2_3 eC2_4 eC2_5 eC2_6 eC2_7 eC3_0 eC3_1 eC3_2 eC3_3 eC3_4 eC3_5 eC3_6 eC3_7 eC4_0 eC4_1 eC4_2 eC4_3 eC4_4 eC4_5 eC4_6 eC4_7 eC5_0 eC5_1 eC5_2 eC5_3 eC5_4 eC5_5 eC5_6 eC5_7 eC6_0 eC6_1 eC6_2 eC6_3 eC6_4 eC6_5 eC6_6 eC6_7
  have hA' : ∀ (r : Fin 7) (b : Fin 8) (c : Fin 768), 16 * k ≤ c.val →
      gA (ix3 r b c) = xT m d (ix3 (⟨189 + r.val, by have := r.isLt; omega⟩ : Fin 196) (⟨56 + b.val, by have := b.isLt; omega⟩ : Fin 64) c) :=
    fun r b c h => by rw [hA, if_neg (by omega)]
  by_cases hin : 16 * k ≤ c.val ∧ c.val < 16 * k + 16
  · rw [if_pos (by omega)]
    refine whole_writes_of_pieces cc0_scratch0 gA (fun i => lastVal m d (i 0) (i 1) (i 2)) _ ?_ (ix3 r b c) ?_
    · intro p hp x
      rw [hL] at hp
      simp only [List.mem_cons, List.mem_nil_iff, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
      · exact last_piece m d L k hk 6 7 (by decide) (by decide) iC6_7 gA hA' _ (posStrip5 m d L k hk 4 (by decide) iP6 gP5 hP5) x
      · exact last_piece m d L k hk 6 6 (by decide) (by decide) iC6_6 gA hA' _ (posStrip5 m d L k hk 4 (by decide) iP6 gP5 hP5) x
      · exact last_piece m d L k hk 6 5 (by decide) (by decide) iC6_5 gA hA' _ (posStrip5 m d L k hk 4 (by decide) iP6 gP5 hP5) x
      · exact last_piece m d L k hk 6 4 (by decide) (by decide) iC6_4 gA hA' _ (posStrip5 m d L k hk 4 (by decide) iP6 gP5 hP5) x
      · exact last_piece m d L k hk 6 3 (by decide) (by decide) iC6_3 gA hA' _ (posStrip5 m d L k hk 4 (by decide) iP6 gP5 hP5) x
      · exact last_piece m d L k hk 6 2 (by decide) (by decide) iC6_2 gA hA' _ (posStrip5 m d L k hk 4 (by decide) iP6 gP5 hP5) x
      · exact last_piece m d L k hk 6 1 (by decide) (by decide) iC6_1 gA hA' _ (posStrip5 m d L k hk 4 (by decide) iP6 gP5 hP5) x
      · exact last_piece m d L k hk 6 0 (by decide) (by decide) iC6_0 gA hA' _ (posStrip5 m d L k hk 4 (by decide) iP6 gP5 hP5) x
      · exact last_piece m d L k hk 5 7 (by decide) (by decide) iC5_7 gA hA' _ (posStrip5 m d L k hk 3 (by decide) iP5 gP5 hP5) x
      · exact last_piece m d L k hk 5 6 (by decide) (by decide) iC5_6 gA hA' _ (posStrip5 m d L k hk 3 (by decide) iP5 gP5 hP5) x
      · exact last_piece m d L k hk 5 5 (by decide) (by decide) iC5_5 gA hA' _ (posStrip5 m d L k hk 3 (by decide) iP5 gP5 hP5) x
      · exact last_piece m d L k hk 5 4 (by decide) (by decide) iC5_4 gA hA' _ (posStrip5 m d L k hk 3 (by decide) iP5 gP5 hP5) x
      · exact last_piece m d L k hk 5 3 (by decide) (by decide) iC5_3 gA hA' _ (posStrip5 m d L k hk 3 (by decide) iP5 gP5 hP5) x
      · exact last_piece m d L k hk 5 2 (by decide) (by decide) iC5_2 gA hA' _ (posStrip5 m d L k hk 3 (by decide) iP5 gP5 hP5) x
      · exact last_piece m d L k hk 5 1 (by decide) (by decide) iC5_1 gA hA' _ (posStrip5 m d L k hk 3 (by decide) iP5 gP5 hP5) x
      · exact last_piece m d L k hk 5 0 (by decide) (by decide) iC5_0 gA hA' _ (posStrip5 m d L k hk 3 (by decide) iP5 gP5 hP5) x
      · exact last_piece m d L k hk 4 7 (by decide) (by decide) iC4_7 gA hA' _ (posStrip5 m d L k hk 2 (by decide) iP4 gP5 hP5) x
      · exact last_piece m d L k hk 4 6 (by decide) (by decide) iC4_6 gA hA' _ (posStrip5 m d L k hk 2 (by decide) iP4 gP5 hP5) x
      · exact last_piece m d L k hk 4 5 (by decide) (by decide) iC4_5 gA hA' _ (posStrip5 m d L k hk 2 (by decide) iP4 gP5 hP5) x
      · exact last_piece m d L k hk 4 4 (by decide) (by decide) iC4_4 gA hA' _ (posStrip5 m d L k hk 2 (by decide) iP4 gP5 hP5) x
      · exact last_piece m d L k hk 4 3 (by decide) (by decide) iC4_3 gA hA' _ (posStrip5 m d L k hk 2 (by decide) iP4 gP5 hP5) x
      · exact last_piece m d L k hk 4 2 (by decide) (by decide) iC4_2 gA hA' _ (posStrip5 m d L k hk 2 (by decide) iP4 gP5 hP5) x
      · exact last_piece m d L k hk 4 1 (by decide) (by decide) iC4_1 gA hA' _ (posStrip5 m d L k hk 2 (by decide) iP4 gP5 hP5) x
      · exact last_piece m d L k hk 4 0 (by decide) (by decide) iC4_0 gA hA' _ (posStrip5 m d L k hk 2 (by decide) iP4 gP5 hP5) x
      · exact last_piece m d L k hk 3 7 (by decide) (by decide) iC3_7 gA hA' _ (posStrip5 m d L k hk 1 (by decide) iP3 gP5 hP5) x
      · exact last_piece m d L k hk 3 6 (by decide) (by decide) iC3_6 gA hA' _ (posStrip5 m d L k hk 1 (by decide) iP3 gP5 hP5) x
      · exact last_piece m d L k hk 3 5 (by decide) (by decide) iC3_5 gA hA' _ (posStrip5 m d L k hk 1 (by decide) iP3 gP5 hP5) x
      · exact last_piece m d L k hk 3 4 (by decide) (by decide) iC3_4 gA hA' _ (posStrip5 m d L k hk 1 (by decide) iP3 gP5 hP5) x
      · exact last_piece m d L k hk 3 3 (by decide) (by decide) iC3_3 gA hA' _ (posStrip5 m d L k hk 1 (by decide) iP3 gP5 hP5) x
      · exact last_piece m d L k hk 3 2 (by decide) (by decide) iC3_2 gA hA' _ (posStrip5 m d L k hk 1 (by decide) iP3 gP5 hP5) x
      · exact last_piece m d L k hk 3 1 (by decide) (by decide) iC3_1 gA hA' _ (posStrip5 m d L k hk 1 (by decide) iP3 gP5 hP5) x
      · exact last_piece m d L k hk 3 0 (by decide) (by decide) iC3_0 gA hA' _ (posStrip5 m d L k hk 1 (by decide) iP3 gP5 hP5) x
      · exact last_piece m d L k hk 2 7 (by decide) (by decide) iC2_7 gA hA' _ (posStrip5 m d L k hk 0 (by decide) iP2 gP5 hP5) x
      · exact last_piece m d L k hk 2 6 (by decide) (by decide) iC2_6 gA hA' _ (posStrip5 m d L k hk 0 (by decide) iP2 gP5 hP5) x
      · exact last_piece m d L k hk 2 5 (by decide) (by decide) iC2_5 gA hA' _ (posStrip5 m d L k hk 0 (by decide) iP2 gP5 hP5) x
      · exact last_piece m d L k hk 2 4 (by decide) (by decide) iC2_4 gA hA' _ (posStrip5 m d L k hk 0 (by decide) iP2 gP5 hP5) x
      · exact last_piece m d L k hk 2 3 (by decide) (by decide) iC2_3 gA hA' _ (posStrip5 m d L k hk 0 (by decide) iP2 gP5 hP5) x
      · exact last_piece m d L k hk 2 2 (by decide) (by decide) iC2_2 gA hA' _ (posStrip5 m d L k hk 0 (by decide) iP2 gP5 hP5) x
      · exact last_piece m d L k hk 2 1 (by decide) (by decide) iC2_1 gA hA' _ (posStrip5 m d L k hk 0 (by decide) iP2 gP5 hP5) x
      · exact last_piece m d L k hk 2 0 (by decide) (by decide) iC2_0 gA hA' _ (posStrip5 m d L k hk 0 (by decide) iP2 gP5 hP5) x
      · exact last_piece m d L k hk 1 7 (by decide) (by decide) iC1_7 gA hA' _ (posStrip16 m d L k hk 1 (by decide) iP1 gP hP) x
      · exact last_piece m d L k hk 1 6 (by decide) (by decide) iC1_6 gA hA' _ (posStrip16 m d L k hk 1 (by decide) iP1 gP hP) x
      · exact last_piece m d L k hk 1 5 (by decide) (by decide) iC1_5 gA hA' _ (posStrip16 m d L k hk 1 (by decide) iP1 gP hP) x
      · exact last_piece m d L k hk 1 4 (by decide) (by decide) iC1_4 gA hA' _ (posStrip16 m d L k hk 1 (by decide) iP1 gP hP) x
      · exact last_piece m d L k hk 1 3 (by decide) (by decide) iC1_3 gA hA' _ (posStrip16 m d L k hk 1 (by decide) iP1 gP hP) x
      · exact last_piece m d L k hk 1 2 (by decide) (by decide) iC1_2 gA hA' _ (posStrip16 m d L k hk 1 (by decide) iP1 gP hP) x
      · exact last_piece m d L k hk 1 1 (by decide) (by decide) iC1_1 gA hA' _ (posStrip16 m d L k hk 1 (by decide) iP1 gP hP) x
      · exact last_piece m d L k hk 1 0 (by decide) (by decide) iC1_0 gA hA' _ (posStrip16 m d L k hk 1 (by decide) iP1 gP hP) x
      · exact last_piece m d L k hk 0 7 (by decide) (by decide) iC0_7 gA hA' _ (posStrip16 m d L k hk 0 (by decide) iP0 gP hP) x
      · exact last_piece m d L k hk 0 6 (by decide) (by decide) iC0_6 gA hA' _ (posStrip16 m d L k hk 0 (by decide) iP0 gP hP) x
      · exact last_piece m d L k hk 0 5 (by decide) (by decide) iC0_5 gA hA' _ (posStrip16 m d L k hk 0 (by decide) iP0 gP hP) x
      · exact last_piece m d L k hk 0 4 (by decide) (by decide) iC0_4 gA hA' _ (posStrip16 m d L k hk 0 (by decide) iP0 gP hP) x
      · exact last_piece m d L k hk 0 3 (by decide) (by decide) iC0_3 gA hA' _ (posStrip16 m d L k hk 0 (by decide) iP0 gP hP) x
      · exact last_piece m d L k hk 0 2 (by decide) (by decide) iC0_2 gA hA' _ (posStrip16 m d L k hk 0 (by decide) iP0 gP hP) x
      · exact last_piece m d L k hk 0 1 (by decide) (by decide) iC0_1 gA hA' _ (posStrip16 m d L k hk 0 (by decide) iP0 gP hP) x
      · exact last_piece m d L k hk 0 0 (by decide) (by decide) iC0_0 gA hA' _ (posStrip16 m d L k hk 0 (by decide) iP0 gP hP) x
    · have hmem : ∀ (r' b' : Nat) (inb : ∀ a, (![r', b', 16 * k] : Fin 3 → Nat) a + S1x1x16.size a ≤ S7x8x768.size a), r' = r.val → b' = b.val →
          ix3 r b c ∈ (Rect.unit (s := S7x8x768) ![r', b', 16 * k] S1x1x16.size inb).set := by
        intro r' b' inb h1 h2
        rw [mem_cell]; exact ⟨h1, h2, hin.1, hin.2⟩
      have hr := r.isLt
      have hb := b.isLt
      match r, hr with
      | ⟨0, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))), hmem 0 0 iC0_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))), hmem 0 1 iC0_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))), hmem 0 2 iC0_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))), hmem 0 3 iC0_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))), hmem 0 4 iC0_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))), hmem 0 5 iC0_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))), hmem 0 6 iC0_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))), hmem 0 7 iC0_7 rfl rfl⟩
      | ⟨1, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))), hmem 1 0 iC1_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))), hmem 1 1 iC1_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))), hmem 1 2 iC1_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))), hmem 1 3 iC1_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))), hmem 1 4 iC1_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))), hmem 1 5 iC1_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))), hmem 1 6 iC1_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))), hmem 1 7 iC1_7 rfl rfl⟩
      | ⟨2, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))), hmem 2 0 iC2_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))), hmem 2 1 iC2_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))), hmem 2 2 iC2_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))), hmem 2 3 iC2_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))), hmem 2 4 iC2_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))), hmem 2 5 iC2_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))), hmem 2 6 iC2_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))), hmem 2 7 iC2_7 rfl rfl⟩
      | ⟨3, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), hmem 3 0 iC3_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), hmem 3 1 iC3_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), hmem 3 2 iC3_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), hmem 3 3 iC3_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), hmem 3 4 iC3_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), hmem 3 5 iC3_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), hmem 3 6 iC3_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), hmem 3 7 iC3_7 rfl rfl⟩
      | ⟨4, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), hmem 4 0 iC4_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), hmem 4 1 iC4_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), hmem 4 2 iC4_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), hmem 4 3 iC4_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), hmem 4 4 iC4_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), hmem 4 5 iC4_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), hmem 4 6 iC4_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), hmem 4 7 iC4_7 rfl rfl⟩
      | ⟨5, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), hmem 5 0 iC5_0 rfl rfl⟩
        | ⟨1, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), hmem 5 1 iC5_1 rfl rfl⟩
        | ⟨2, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), hmem 5 2 iC5_2 rfl rfl⟩
        | ⟨3, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), hmem 5 3 iC5_3 rfl rfl⟩
        | ⟨4, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), hmem 5 4 iC5_4 rfl rfl⟩
        | ⟨5, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), hmem 5 5 iC5_5 rfl rfl⟩
        | ⟨6, _⟩, _ => exact ⟨_, mem_of_eq hL (List.Mem.tail _ (List.Mem.tail _ (List.Mem.tail _ (List.Mem.tail _ (List.Mem.tail _ (List.Mem.tail _ (List.Mem.tail _ (List.Mem.tail _ (List.Mem.tail _ (List.Mem.head _)))))))))), hmem 5 6 iC5_6 rfl rfl⟩
        | ⟨7, _⟩, _ => exact ⟨_, mem_of_eq hL (List.Mem.tail _ (List.Mem.tail _ (List.Mem.tail _ (List.Mem.tail _ (List.Mem.tail _ (List.Mem.tail _ (List.Mem.tail _ (List.Mem.tail _ (List.Mem.head _))))))))), hmem 5 7 iC5_7 rfl rfl⟩
      | ⟨6, _⟩, _ =>
        match b, hb with
        | ⟨0, _⟩, _ => exact ⟨_, mem_of_eq hL (List.Mem.tail _ (List.Mem.tail _ (List.Mem.tail _ (List.Mem.tail _ (List.Mem.tail _ (List.Mem.tail _ (List.Mem.tail _ (List.Mem.head _)))))))), hmem 6 0 iC6_0 rfl rfl⟩
        | ⟨1, _⟩, _ => exact ⟨_, mem_of_eq hL (List.Mem.tail _ (List.Mem.tail _ (List.Mem.tail _ (List.Mem.tail _ (List.Mem.tail _ (List.Mem.tail _ (List.Mem.head _))))))), hmem 6 1 iC6_1 rfl rfl⟩
        | ⟨2, _⟩, _ => exact ⟨_, mem_of_eq hL (List.Mem.tail _ (List.Mem.tail _ (List.Mem.tail _ (List.Mem.tail _ (List.Mem.tail _ (List.Mem.head _)))))), hmem 6 2 iC6_2 rfl rfl⟩
        | ⟨3, _⟩, _ => exact ⟨_, mem_of_eq hL (List.Mem.tail _ (List.Mem.tail _ (List.Mem.tail _ (List.Mem.tail _ (List.Mem.head _))))), hmem 6 3 iC6_3 rfl rfl⟩
        | ⟨4, _⟩, _ => exact ⟨_, mem_of_eq hL (List.Mem.tail _ (List.Mem.tail _ (List.Mem.tail _ (List.Mem.head _)))), hmem 6 4 iC6_4 rfl rfl⟩
        | ⟨5, _⟩, _ => exact ⟨_, mem_of_eq hL (List.Mem.tail _ (List.Mem.tail _ (List.Mem.head _))), hmem 6 5 iC6_5 rfl rfl⟩
        | ⟨6, _⟩, _ => exact ⟨_, mem_of_eq hL (List.Mem.tail _ (List.Mem.head _)), hmem 6 6 iC6_6 rfl rfl⟩
        | ⟨7, _⟩, _ => exact ⟨_, mem_of_eq hL (List.Mem.head _), hmem 6 7 iC6_7 rfl rfl⟩
  · refine (whole_writes_of_not_mem cc0_scratch0 gA (ix3 r b c) _ ?_).trans ?_
    · intro p hp
      rw [hL] at hp
      simp only [List.mem_cons, List.mem_nil_iff, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      · rw [mem_cell]; omega
    · rw [hA]
      by_cases h : c.val < 16 * k
      · rw [if_pos h, if_pos (by omega)]
      · rw [if_neg h, if_neg (by omega)]

end Cert.KB.Rest

end
-- ==== Proof.TileRestKBLast.lean ====
/-
  Worker 27, before and after its loop: what the three copies in leave in the scratch buffers, what the copy out
  leaves in rows 190 to 196 of the call's result, and the loop's invariant.
-/
import proofs.«207362_g47132971107233_retrytranche2_1164_24_alg».proof.Proof.TileRestKBLastStep

noncomputable section

namespace Cert.KB.Rest

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]
variable (m : (ℓ : Loc nD τ sig) → Buf (Elt F) ℓ)

/-! ## Before and after the loop -/

/-- The result's rows 190 to 196, as the body slices them. -/
abbrev outSl190 : Memref sig .scVector .hbm S7x8x768 .f32 :=
  (oW).slice (Rect.unit (s := S197x8x768) ![190, 0, 0] S7x8x768.size inb_S197x8x768_S7x8x768_190_0_0) (fun _ => rfl)

set_option Elab.async false in
theorem last_w : ∀ L : grid0.Coords, k0_cond2 L = 1#1 → wL L = (27 : Fin 32) := by decide +kernel

theorem outSet_last (L : grid0.Coords) (h2 : k0_cond2 L = 1#1) : outSet (wL L) = (outSl190).view.set := by
  rw [last_w L h2]; rfl

theorem pts_out190 (d : Dev nD) (L : grid0.Coords) (h2 : k0_cond2 L = 1#1) (f : Buf (Elt F) (oLoc d)) :
    ((outSl190).view.loc (thrV d L) ↦[(outSl190).view.set]{fullShare} f : sProp 𝕄) = (oLoc d ↦[outSet (wL L)]{fullShare} f) := by
  rw [outSet_last L h2]

/-- The sixteen-row scratch after its first eight rows were copied from the position table's rows `base` to `base + 7`. -/
theorem pw_rows (d : Dev nD) (L : grid0.Coords) (fPw : Buf (Elt F) ((bPw).view.loc (thrV d L))) (base : Nat) (hbase : base + 8 ≤ 197)
    (inb1 : ∀ a, (![0, 0] : Fin 2 → Nat) a + S8x768.size a ≤ S16x768.size a)
    (inb2 : ∀ a, (![base, 0] : Fin 2 → Nat) a + S8x768.size a ≤ S197x768.size a)
    (hst : ∀ a, (Rect.unit (s := S197x768) ![base, 0] S8x768.size inb2).stride a = 1)
    (j : Fin 8) (c : Fin 768) :
    (bPw).view.writes (Elt F) fPw
      [⟨Rect.unit (s := S16x768) ![0, 0] S8x768.size inb1,
          ReadAs.same.apply (View.read (Elt F) ((pW).slice (Rect.unit (s := S197x768) ![base, 0] S8x768.size inb2) hst).view (m (pLoc d)))⟩]
      (ix2 (⟨j.val, by have := j.isLt; omega⟩ : Fin 16) c) = m (pLoc d) (ix2 (⟨base + j.val, by have := j.isLt; omega⟩ : Fin 197) c) := by
  refine (whole_writes_of_pieces cc0_scratch2 fPw
    (fun i => m (pLoc d) (ix2 (⟨base + (i 0).val % 8, by have := Nat.mod_lt (i 0).val (show 0 < 8 by omega); omega⟩ : Fin 197) (i 1))) _ ?_
    (ix2 (⟨j.val, by have := j.isLt; omega⟩ : Fin 16) c) ?_).trans ?_
  · intro p hp x
    rw [List.mem_singleton] at hp
    subst hp
    show m (pLoc d) _ = m (pLoc d) _
    refine congrArg (m (pLoc d)) (funext fun a => ?_)
    have hx0 : (x 0).val < 8 := (x 0).isLt
    match a with
    | ⟨0, _⟩ => exact Fin.ext (by show base + 1 * (x 0).val = base + (0 + 1 * (x 0).val) % 8; omega)
    | ⟨1, _⟩ => exact Fin.ext (by show 0 + 1 * (x 1).val = 0 + 1 * (x 1).val; rfl)
  · refine ⟨⟨Rect.unit (s := S16x768) ![0, 0] S8x768.size inb1, _⟩, List.Mem.head _,
      (Rect.mem_set_unit (s := S16x768) (off := ![0, 0]) (size := S8x768.size) (inb := inb1)).mpr fun a => ?_⟩
    match a with
    | ⟨0, _⟩ => exact (show 0 ≤ j.val ∧ j.val < 0 + 8 from ⟨Nat.zero_le _, by have := j.isLt; omega⟩)
    | ⟨1, _⟩ => exact (show 0 ≤ c.val ∧ c.val < 0 + 768 from ⟨Nat.zero_le _, by have := c.isLt; omega⟩)
  · refine congrArg (m (pLoc d)) (funext fun a => ?_)
    match a with
    | ⟨0, _⟩ => exact Fin.ext (by show base + j.val % 8 = base + j.val; have := j.isLt; omega)
    | ⟨1, _⟩ => rfl

/-- The five-row scratch after the position table's rows 192 to 196 were copied in. -/
theorem pw5_rows (d : Dev nD) (L : grid0.Coords) (fPw5 : Buf (Elt F) ((bPw5).view.loc (thrV d L)))
    (inb2 : ∀ a, (![192, 0] : Fin 2 → Nat) a + S5x768.size a ≤ S197x768.size a)
    (hst : ∀ a, (Rect.unit (s := S197x768) ![192, 0] S5x768.size inb2).stride a = 1)
    (j : Fin 5) (c : Fin 768) :
    View.write (Elt F) (bPw5).view fPw5
      (ReadAs.same.apply (View.read (Elt F) ((pW).slice (Rect.unit (s := S197x768) ![192, 0] S5x768.size inb2) hst).view (m (pLoc d)))) Finset.univ
      (ix2 j c) = m (pLoc d) (ix2 (⟨192 + j.val, by have := j.isLt; omega⟩ : Fin 197) c) := by
  refine (congrFun (View.write_whole_univ (Val := Elt F) cc0_scratch3 fPw5 _) (ix2 j c)).trans ?_
  show m (pLoc d) _ = m (pLoc d) _
  refine congrArg (m (pLoc d)) (funext fun a => ?_)
  match a with
  | ⟨0, _⟩ => exact Fin.ext (by show 192 + 1 * j.val = 192 + j.val; omega)
  | ⟨1, _⟩ => exact Fin.ext (by show 0 + 1 * c.val = c.val; omega)

/-- The seven-row scratch after feature rows 189 to 195 of batch entries 56 to 63 were copied in. -/
theorem feats_rows (d : Dev nD) (L : grid0.Coords) (fA : Buf (Elt F) ((bA).view.loc (thrV d L)))
    (inb2 : ∀ a, (![189, 56, 0] : Fin 3 → Nat) a + S7x8x768.size a ≤ S196x64x768.size a)
    (hst : ∀ a, (Rect.unit (s := S196x64x768) ![189, 56, 0] S7x8x768.size inb2).stride a = 1)
    (r : Fin 7) (b : Fin 8) (c : Fin 768) :
    View.write (Elt F) (bA).view fA
      (ReadAs.same.apply (View.read (Elt F) ((xW).slice (Rect.unit (s := S196x64x768) ![189, 56, 0] S7x8x768.size inb2) hst).view (xT m d))) Finset.univ
      (ix3 r b c) = xT m d (ix3 (⟨189 + r.val, by have := r.isLt; omega⟩ : Fin 196) (⟨56 + b.val, by have := b.isLt; omega⟩ : Fin 64) c) := by
  refine (congrFun (View.write_whole_univ (Val := Elt F) cc0_scratch0 fA _) (ix3 r b c)).trans ?_
  show xT m d _ = xT m d _
  refine congrArg (xT m d) (funext fun a => ?_)
  match a with
  | ⟨0, _⟩ => exact Fin.ext (by show 189 + 1 * r.val = 189 + r.val; omega)
  | ⟨1, _⟩ => exact Fin.ext (by show 56 + 1 * b.val = 56 + b.val; omega)
  | ⟨2, _⟩ => exact Fin.ext (by show 0 + 1 * c.val = c.val; omega)

/-- The call's result at a position other than 0: the feature row before it plus the position table's row. -/
theorem scBuf_pos (d : Dev nD) (i : S197x8x768.Idx) (hi : ¬ (i 0).val = 0) :
    scBuf m d i = Cert.Spec.addF F
      (xT m d (ix3 (⟨(i 0).val - 1, by have h : (i 0).val < 197 := (i 0).isLt; omega⟩ : Fin 196) (⟨56 + (i 1).val, by have h : (i 1).val < 8 := (i 1).isLt; omega⟩ : Fin 64) (i 2)))
      (m (pLoc d) (ix2 (i 0) (i 2))) := by
  unfold scBuf Cert.Spec.scOut Cert.Spec.rowT
  rw [dif_neg hi]

/-- What the last copy leaves in the result's rows 190 to 196 is the call's result there. -/
theorem last_final (d : Dev nD) (L : grid0.Coords) (f0 : Buf (Elt F) (oLoc d)) (gA : Buf (Elt F) ((bA).view.loc (thrV d L)))
    (hA : ∀ (r : Fin 7) (b : Fin 8) (c : Fin 768), gA (ix3 r b c) = lastVal m d r b c) :
    ∀ i ∈ (outSl190).view.set,
      (outSl190).view.writes (Elt F) f0 [⟨Rect.whole S7x8x768, ReadAs.same.apply (View.read (Elt F) (bA).view gA)⟩] i = scBuf m d i := by
  intro i hi
  obtain ⟨x, -, rfl⟩ := Finset.mem_map.mp hi
  obtain ⟨r, b, c, rfl⟩ : ∃ (r : Fin 7) (b : Fin 8) (c : Fin 768), x = ix3 r b c := ⟨x 0, x 1, x 2, eq_ix3 x⟩
  have e : (outSl190).view.emb (ix3 r b c) = ((outSl190).view.slice (Rect.whole S7x8x768)).emb (ix3 r b c) := by
    show (outSl190).view.emb _ = (outSl190).view.emb ((Rect.whole S7x8x768).emb _)
    rw [Rect.emb_whole_apply]
  rw [View.writes_singleton]
  conv_lhs => rw [e, View.write_emb_of_mem _ _ (Finset.mem_univ _)]
  rw [scBuf_pos m d _ (by show ¬ 190 + 1 * r.val = 0; omega)]
  refine Eq.trans (b := lastVal m d r b c) ?_ ?_
  · rw [← hA r b c]; rfl
  · unfold lastVal
    have eX : (ix3 (⟨189 + r.val, by have := r.isLt; omega⟩ : Fin 196) (⟨56 + b.val, by have := b.isLt; omega⟩ : Fin 64) c : S196x64x768.Idx)
        = ix3 (⟨((outSl190).view.emb (ix3 r b c) 0).val - 1, by have h : ((outSl190).view.emb (ix3 r b c) 0).val < 197 := ((outSl190).view.emb (ix3 r b c) 0).isLt; omega⟩ : Fin 196)
            (⟨56 + ((outSl190).view.emb (ix3 r b c) 1).val, by have h : ((outSl190).view.emb (ix3 r b c) 1).val < 8 := ((outSl190).view.emb (ix3 r b c) 1).isLt; omega⟩ : Fin 64)
            ((outSl190).view.emb (ix3 r b c) 2) := by
      funext a
      match a with
      | ⟨0, _⟩ => exact Fin.ext (by show 189 + r.val = 190 + 1 * r.val - 1; omega)
      | ⟨1, _⟩ => exact Fin.ext (by show 56 + b.val = 56 + (0 + 1 * b.val); omega)
      | ⟨2, _⟩ => exact Fin.ext (by show c.val = 0 + 1 * c.val; omega)
    have eP : (ix2 (⟨190 + r.val, by have := r.isLt; omega⟩ : Fin 197) c : S197x768.Idx)
        = ix2 ((outSl190).view.emb (ix3 r b c) 0) ((outSl190).view.emb (ix3 r b c) 2) := by
      funext a
      match a with
      | ⟨0, _⟩ => exact Fin.ext (by show 190 + r.val = 190 + 1 * r.val; omega)
      | ⟨1, _⟩ => exact Fin.ext (by show c.val = 0 + 1 * c.val; omega)
    rw [eX, eP]
    rfl

/-- The result's rows 190 to 196 after the last copy, as a points-to at the call's result. -/
theorem pts_last_final (d : Dev nD) (L : grid0.Coords) (f0 : Buf (Elt F) (oLoc d)) (gA : Buf (Elt F) ((bA).view.loc (thrV d L)))
    (hA : ∀ (r : Fin 7) (b : Fin 8) (c : Fin 768), gA (ix3 r b c) = lastVal m d r b c) :
    ((outSl190).view.loc (thrV d L) ↦[(outSl190).view.set]{fullShare}
        (outSl190).view.writes (Elt F) f0 [⟨Rect.whole S7x8x768, ReadAs.same.apply (View.read (Elt F) (bA).view gA)⟩] : sProp 𝕄)
      = ((outSl190).view.loc (thrV d L) ↦[(outSl190).view.set]{fullShare} scBuf m d) :=
  pointsTo_congr (last_final m d L f0 gA hA)

/-- The loop's invariant: rows 6, 7 of the sixteen-row scratch hold the position table's rows 190, 191, the five-row
    scratch its rows 192 to 196, and the seven-row scratch holds the finished value on the lanes below `16 k` and the
    copied-in features on the others. -/
def invL (d : Dev nD) (L : grid0.Coords) (O : CellTallies nD τ sig (HIx 1)) (W' : Waits sig (HIx 1)) (k : Nat) (_ : BitVec 32) : sProp 𝕄 :=
  iprop(Transfers.MayWaits (thrV d L) (none : HIx 1) O
      ∗ (∃ g : Buf (Elt F) ((bPw).view.loc (thrV d L)), ((bPw).view.loc (thrV d L) ↦{fullShare} g)
            ∗ ⌜∀ (j : Fin 2) (c : Fin 768), g (ix2 (⟨6 + j.val, by have := j.isLt; omega⟩ : Fin 16) c) = m (pLoc d) (ix2 (⟨190 + j.val, by have := j.isLt; omega⟩ : Fin 197) c)⌝)
      ∗ (∃ g : Buf (Elt F) ((bPw5).view.loc (thrV d L)), ((bPw5).view.loc (thrV d L) ↦{fullShare} g)
            ∗ ⌜∀ (j : Fin 5) (c : Fin 768), g (ix2 j c) = m (pLoc d) (ix2 (⟨192 + j.val, by have := j.isLt; omega⟩ : Fin 197) c)⌝)
      ∗ (∃ g : Buf (Elt F) ((bA).view.loc (thrV d L)), ((bA).view.loc (thrV d L) ↦{fullShare} g)
            ∗ ⌜∀ (r : Fin 7) (b : Fin 8) (c : Fin 768), g (ix3 r b c) = if c.val < 16 * k then lastVal m d r b c else xT m d (ix3 (⟨189 + r.val, by have := r.isLt; omega⟩ : Fin 196) (⟨56 + b.val, by have := b.isLt; omega⟩ : Fin 64) c)⌝)
      ∗ owes (thrV d L) O W')

end Cert.KB.Rest

end
-- ==== Proof.TileRestKB.lean ====
/-
  The three cases of one tile's task other than the main one: worker 28 (the quality row, row 0 of the call's
  result), workers 29 to 31 (nothing to do), and worker 27 (the last seven position rows, 190 to 196). Each
  runs the printed body at the tile from the tile's resources with the result rows at their launch contents
  and leaves those rows at the one function `scBuf`: the kernel's additions are the specification's, operand
  for operand, so only the indices are matched.
-/
import proofs.«207362_g47132971107233_retrytranche2_1164_24_alg».proof.Proof.TileRestKBRow0
import proofs.«207362_g47132971107233_retrytranche2_1164_24_alg».proof.Proof.TileRestKBLast

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

namespace Rest

/-! ## Workers 29 to 31: nothing to do -/

set_option Elab.async false in
theorem idle_size : ∀ L : grid0.Coords, ¬ k0_cond1 L = 1#1 → ¬ k0_cond2 L = 1#1 → ¬ k0_cond3 L = 1#1 → outSize (wL L) 0 = 0 := by
  decide +kernel

/-- A worker that takes none of the three cases owns no row of the result. -/
theorem idle_outSet (L : grid0.Coords) (h1 : ¬ k0_cond1 L = 1#1) (h2 : ¬ k0_cond2 L = 1#1) (h3 : ¬ k0_cond3 L = 1#1) :
    outSet (wL L) = ∅ := by
  ext i
  simp only [Finset.notMem_empty, iff_false]
  intro hi
  have hi' : i ∈ (outRect (wL L)).set := (View.set_slice_whole main_v1_scv (outRect (wL L))) ▸ hi
  have h0 := (Rect.mem_set_unit.mp hi') 0
  rw [idle_size L h1 h2 h3] at h0
  omega

/-- So its rows at the launch contents are its rows at the call's result: there are none. -/
theorem tileRaw_idle [FloatOps F] (m : (ℓ : Loc nD τ sig) → Buf (Elt F) ℓ) (d : Dev nD) (L : grid0.Coords)
    (h1 : ¬ k0_cond1 L = 1#1) (h2 : ¬ k0_cond2 L = 1#1) (h3 : ¬ k0_cond3 L = 1#1)
    (O : CellTallies nD τ sig (HIx 1)) (W : Waits sig (HIx 1)) (q : PosShare TreeShare) :
    tileRaw m d L O W q (m (oLoc d)) = tileRaw m d L O W q (scBuf m d) := by
  unfold tileRaw
  rw [pointsTo_congr (I := outSet (wL L)) (f := m (oLoc d)) (g := scBuf m d)
    (by rw [idle_outSet L h1 h2 h3]; intro i hi; exact absurd hi (Finset.notMem_empty i))]

end Rest

open Rest

variable [FloatOps F]
variable (m : (ℓ : Loc nD τ sig) → Buf (Elt F) ℓ)

/-- Worker 28: the quality row and the position table's rows 0 to 7 are copied in, the loop adds row 0 of the
    table to the quality row sixteen lanes per trip into the eight batch entries of a one-row scratch, and the
    scratch is copied to row 0 of the result. -/
theorem branch_row0 (d : Dev nD) (L : grid0.Coords) (k0_h3 : k0_cond3 L = 1#1) : BranchSpec m d L := by
  intro O W q
  have k0_h1 : ¬ k0_cond1 L = 1#1 := (by decide +kernel : ∀ L : grid0.Coords, k0_cond3 L = 1#1 → ¬ k0_cond1 L = 1#1) L k0_h3
  have k0_h2 : ¬ k0_cond2 L = 1#1 := (by decide +kernel : ∀ L : grid0.Coords, k0_cond3 L = 1#1 → ¬ k0_cond2 L = 1#1) L k0_h3
  unfold tileRaw scratchAny semsZero
  iintro ⟨Hmw, Hx, Hq, Hp, Ho, ⟨⟨%fA, HA⟩, ⟨%fB, HB⟩, ⟨%fPw, HPw⟩, ⟨%fPw5, HPw5⟩, ⟨%fQw, HQw⟩, ⟨%fR0, HR0⟩⟩, ⟨S6, S7, S8, S9, T0, T1, T2, T3, T4⟩, HO⟩
  ihave HoS := (Entails.of_eq (pts_out0 (F := F) d L k0_h3 _).symm) $$ Ho
  unfold body
  rw [cc0__sc_body_eq_skeleton]; unfold cc0__sc_body_skel
  sl_exec (disch := first | exact View.amount_pos _ _ (by decide) | exact View.dmaCredit_pos _ (by decide))
  sl_unfold_run_names
  sl_for (invR m d L O (insert (SemLoc.dma cc0_scoped4.sem, (default : HIx 1)) (insert (SemLoc.dma cc0_scoped3.sem, (default : HIx 1)) W))) $$ [Hmw HQw HPw HR0 HO]
  case region =>
    intro k _
    unfold invR
    iintro ⟨Hmw, ⟨%gQ, HQw, %hQ⟩, ⟨%gP, HPw, %hP⟩, ⟨%g0, HR0, %h0⟩, HO⟩
    sl_exec
    sl_unfold_run_names
    sl_step
    isplitl [Hmw]; · iexact Hmw
    isplitl [HQw]
    · iexists gQ; isplitl [HQw]; · iexact HQw
      ipureintro; exact hQ
    isplitl [HPw]
    · iexists gP; isplitl [HPw]; · iexact HPw
      ipureintro; exact hP
    isplitl [HR0]
    · iexists _; isplitl [HR0]; · iexact HR0
      ipureintro
      intro b c hc
      exact row0_step_aux m d L k.val (lt_of_lt_of_eq k.isLt trips3) gQ gP g0 hQ hP h0 _ _ _ _ _ _ _ _ _ _
        (k0_off124_eq k) (k0_off125_eq k) (k0_off126_eq k) (k0_off127_eq k) (k0_off128_eq k) (k0_off129_eq k)
        (k0_off130_eq k) (k0_off131_eq k) (k0_off132_eq k) (k0_off133_eq k) _ _ _ _ _ _ _ _ _ _ b c hc
    · iexact HO
  · unfold invR
    isplitl [Hmw]; · iexact Hmw
    isplitl [HQw]
    · iexists _; isplitl [HQw]; · iexact HQw
      ipureintro; intro c
      exact congrFun (View.write_whole_univ (Val := Elt F) cc0_scratch4 fQw _) (ix2 (0 : Fin 1) c)
    isplitl [HPw]
    · iexists _; isplitl [HPw]; · iexact HPw
      ipureintro; intro c
      exact pw_rows0 m d L fPw _ _ _ c
    isplitl [HR0]
    · iexists _; isplitl [HR0]; · iexact HR0
      ipureintro; intro b c hc; omega
    · iexact HO
  iintro %_ HI
  unfold invR
  icases HI with ⟨Hmw, ⟨%gQ, HQw, %hQ⟩, ⟨%gP, HPw, %hP⟩, ⟨%g0, HR0, %h0⟩, HO⟩
  sl_exec (disch := first | exact View.amount_pos _ _ (by decide) | exact View.dmaCredit_pos _ (by decide))
  sl_unfold_run_names
  sl_step
  have e48 : Scf.trips k0_t3_loop.lb k0_t3_loop.ub k0_t3_loop.st = 48 := trips3
  rw [e48] at h0
  iexists (insert (SemLoc.dma cc0_scratch8.sem, (default : HIx 1)) (insert (SemLoc.dma cc0_scoped4.sem, (default : HIx 1)) (insert (SemLoc.dma cc0_scoped3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  isplitl [Hx]; · iexact Hx
  isplitl [Hq]; · iexact Hq
  isplitl [Hp]; · iexact Hp
  isplitl [HoS]
  · ihave Ho2 := (Entails.of_eq (pts_row0_final (F := F) m d L (m (oLoc d)) g0 h0)) $$ HoS
    ihave Ho3 := (Entails.of_eq (pts_out0 (F := F) d L k0_h3 (scBuf m d))) $$ Ho2
    iexact Ho3
  isplitl [HA HB HPw HPw5 HQw HR0]
  · isplitl [HA]; · iexists _; iexact HA
    isplitl [HB]; · iexists _; iexact HB
    isplitl [HPw]; · iexists _; iexact HPw
    isplitl [HPw5]; · iexists _; iexact HPw5
    isplitl [HQw]; · iexists _; iexact HQw
    iexists _; iexact HR0
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

/-- Workers 29 to 31 take none of the three cases: the body does nothing, and they own no row of the result. -/
theorem branch_idle (d : Dev nD) (L : grid0.Coords) (h1 : ¬ k0_cond1 L = 1#1) (h2 : ¬ k0_cond2 L = 1#1) (h3 : ¬ k0_cond3 L = 1#1) :
    BranchSpec m d L := by
  intro O W q
  iintro ⟨Hmw, HT⟩
  unfold body
  rw [cc0__sc_body_eq_skeleton]; unfold cc0__sc_body_skel
  sl_exec
  sl_step
  iexists W; isplitr
  · ipureintro; exact fun p hp => .inl hp
  · rw [← tileRaw_idle m d L h1 h2 h3]; iexact HT

/-- Worker 27: the position table's rows 184 to 191 and 192 to 196 and feature rows 189 to 195 of batch entries 56 to 63
    are copied in, the loop adds position row `190 + r` to feature row `189 + r` sixteen lanes per trip in place, and
    the scratch is copied to rows 190 to 196 of the result. -/
theorem branch_last (d : Dev nD) (L : grid0.Coords) (k0_h2 : k0_cond2 L = 1#1) : BranchSpec m d L := by
  intro O W q
  have k0_h1 : ¬ k0_cond1 L = 1#1 := (by decide +kernel : ∀ L : grid0.Coords, k0_cond2 L = 1#1 → ¬ k0_cond1 L = 1#1) L k0_h2
  have k0_h3 : ¬ k0_cond3 L = 1#1 := (by decide +kernel : ∀ L : grid0.Coords, k0_cond2 L = 1#1 → ¬ k0_cond3 L = 1#1) L k0_h2
  unfold tileRaw scratchAny semsZero
  iintro ⟨Hmw, Hx, Hq, Hp, Ho, ⟨⟨%fA, HA⟩, ⟨%fB, HB⟩, ⟨%fPw, HPw⟩, ⟨%fPw5, HPw5⟩, ⟨%fQw, HQw⟩, ⟨%fR0, HR0⟩⟩, ⟨S6, S7, S8, S9, T0, T1, T2, T3, T4⟩, HO⟩
  ihave HoS := (Entails.of_eq (pts_out190 (F := F) d L k0_h2 _).symm) $$ Ho
  unfold body
  rw [cc0__sc_body_eq_skeleton]; unfold cc0__sc_body_skel
  sl_exec (disch := first | exact View.amount_pos _ _ (by decide) | exact View.dmaCredit_pos _ (by decide))
  sl_unfold_run_names
  sl_for (invL m d L O (insert (SemLoc.dma cc0_scratch6.sem, (default : HIx 1)) (insert (SemLoc.dma cc0_scoped2.sem, (default : HIx 1)) (insert (SemLoc.dma cc0_scoped1.sem, (default : HIx 1)) W)))) $$ [Hmw HPw HPw5 HA HO]
  case region =>
    intro k _
    unfold invL
    iintro ⟨Hmw, ⟨%gP, HPw, %hP⟩, ⟨%gP5, HPw5, %hP5⟩, ⟨%gA, HA, %hA⟩, HO⟩
    sl_exec
    sl_unfold_run_names
    sl_step
    isplitl [Hmw]; · iexact Hmw
    isplitl [HPw]
    · iexists gP; isplitl [HPw]; · iexact HPw
      ipureintro; exact hP
    isplitl [HPw5]
    · iexists gP5; isplitl [HPw5]; · iexact HPw5
      ipureintro; exact hP5
    isplitl [HA]
    · iexists _; isplitl [HA]; · iexact HA
      ipureintro
      intro r b c
      exact last_step_aux m d L k.val (lt_of_lt_of_eq k.isLt trips2) gP gP5 gA hP hP5 hA
        (k0_off61 k) (k0_off70 k) (k0_off79 k) (k0_off88 k) (k0_off97 k) (k0_off106 k) (k0_off115 k)
        (k0_off62 k) (k0_off63 k) (k0_off64 k) (k0_off65 k) (k0_off66 k) (k0_off67 k) (k0_off68 k) (k0_off69 k)
        (k0_off71 k) (k0_off72 k) (k0_off73 k) (k0_off74 k) (k0_off75 k) (k0_off76 k) (k0_off77 k) (k0_off78 k)
        (k0_off80 k) (k0_off81 k) (k0_off82 k) (k0_off83 k) (k0_off84 k) (k0_off85 k) (k0_off86 k) (k0_off87 k)
        (k0_off89 k) (k0_off90 k) (k0_off91 k) (k0_off92 k) (k0_off93 k) (k0_off94 k) (k0_off95 k) (k0_off96 k)
        (k0_off98 k) (k0_off99 k) (k0_off100 k) (k0_off101 k) (k0_off102 k) (k0_off103 k) (k0_off104 k) (k0_off105 k)
        (k0_off107 k) (k0_off108 k) (k0_off109 k) (k0_off110 k) (k0_off111 k) (k0_off112 k) (k0_off113 k) (k0_off114 k)
        (k0_off116 k) (k0_off117 k) (k0_off118 k) (k0_off119 k) (k0_off120 k) (k0_off121 k) (k0_off122 k) (k0_off123 k)
        (k0_off61_eq k) (k0_off70_eq k) (k0_off79_eq k) (k0_off88_eq k) (k0_off97_eq k) (k0_off106_eq k) (k0_off115_eq k)
        (k0_off62_eq k) (k0_off63_eq k) (k0_off64_eq k) (k0_off65_eq k) (k0_off66_eq k) (k0_off67_eq k) (k0_off68_eq k) (k0_off69_eq k)
        (k0_off71_eq k) (k0_off72_eq k) (k0_off73_eq k) (k0_off74_eq k) (k0_off75_eq k) (k0_off76_eq k) (k0_off77_eq k) (k0_off78_eq k)
        (k0_off80_eq k) (k0_off81_eq k) (k0_off82_eq k) (k0_off83_eq k) (k0_off84_eq k) (k0_off85_eq k) (k0_off86_eq k) (k0_off87_eq k)
        (k0_off89_eq k) (k0_off90_eq k) (k0_off91_eq k) (k0_off92_eq k) (k0_off93_eq k) (k0_off94_eq k) (k0_off95_eq k) (k0_off96_eq k)
        (k0_off98_eq k) (k0_off99_eq k) (k0_off100_eq k) (k0_off101_eq k) (k0_off102_eq k) (k0_off103_eq k) (k0_off104_eq k) (k0_off105_eq k)
        (k0_off107_eq k) (k0_off108_eq k) (k0_off109_eq k) (k0_off110_eq k) (k0_off111_eq k) (k0_off112_eq k) (k0_off113_eq k) (k0_off114_eq k)
        (k0_off116_eq k) (k0_off117_eq k) (k0_off118_eq k) (k0_off119_eq k) (k0_off120_eq k) (k0_off121_eq k) (k0_off122_eq k) (k0_off123_eq k)
        _ _ _ _ _ _ _
        _ _ _ _ _ _ _ _
        _ _ _ _ _ _ _ _
        _ _ _ _ _ _ _ _
        _ _ _ _ _ _ _ _
        _ _ _ _ _ _ _ _
        _ _ _ _ _ _ _ _
        _ _ _ _ _ _ _ _
        _ rfl r b c
    · iexact HO
  · unfold invL
    isplitl [Hmw]; · iexact Hmw
    isplitl [HPw]
    · iexists _; isplitl [HPw]; · iexact HPw
      ipureintro; intro j c
      refine (pw_rows m d L fPw 184 (by omega) _ _ _ ⟨6 + j.val, by have := j.isLt; omega⟩ c).trans ?_
      refine congrArg (m (pLoc d)) (funext fun a => ?_)
      match a with
      | ⟨0, _⟩ => exact Fin.ext (by show 184 + (6 + j.val) = 190 + j.val; omega)
      | ⟨1, _⟩ => rfl
    isplitl [HPw5]
    · iexists _; isplitl [HPw5]; · iexact HPw5
      ipureintro; intro j c
      exact pw5_rows m d L fPw5 _ _ j c
    isplitl [HA]
    · iexists _; isplitl [HA]; · iexact HA
      ipureintro; intro r b c
      rw [if_neg (by omega)]
      exact feats_rows m d L fA _ _ r b c
    · iexact HO
  iintro %_ HI
  unfold invL
  icases HI with ⟨Hmw, ⟨%gP, HPw, %hP⟩, ⟨%gP5, HPw5, %hP5⟩, ⟨%gA, HA, %hA⟩, HO⟩
  sl_exec (disch := first | exact View.amount_pos _ _ (by decide) | exact View.dmaCredit_pos _ (by decide))
  sl_unfold_run_names
  sl_step
  have e48 : Scf.trips k0_t2_loop.lb k0_t2_loop.ub k0_t2_loop.st = 48 := trips2
  rw [e48] at hA
  have hA48 : ∀ (r : Fin 7) (b : Fin 8) (c : Fin 768), gA (ix3 r b c) = lastVal m d r b c :=
    fun r b c => by rw [hA, if_pos (by have := c.isLt; omega)]
  iexists (insert (SemLoc.dma cc0_scratch8.sem, (default : HIx 1)) (insert (SemLoc.dma cc0_scratch6.sem, (default : HIx 1)) (insert (SemLoc.dma cc0_scoped2.sem, (default : HIx 1)) (insert (SemLoc.dma cc0_scoped1.sem, (default : HIx 1)) W)))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  isplitl [Hx]; · iexact Hx
  isplitl [Hq]; · iexact Hq
  isplitl [Hp]; · iexact Hp
  isplitl [HoS]
  · ihave Ho2 := (Entails.of_eq (pts_last_final (F := F) m d L (m (oLoc d)) gA hA48)) $$ HoS
    ihave Ho3 := (Entails.of_eq (pts_out190 (F := F) d L k0_h2 (scBuf m d))) $$ Ho2
    iexact Ho3
  isplitl [HA HB HPw HPw5 HQw HR0]
  · isplitl [HA]; · iexists _; iexact HA
    isplitl [HB]; · iexists _; iexact HB
    isplitl [HPw]; · iexists _; iexact HPw
    isplitl [HPw5]; · iexists _; iexact HPw5
    isplitl [HQw]; · iexists _; iexact HQw
    iexists _; iexact HR0
  isplitl [S6 S7 S8 S9 T0 T1 T2 T3 T4]
  · isplitl [S6]; · iexact S6
    isplitl [S7]; · iexact S7
    isplitl [S8]; · iexact S8
    isplitl [S9]; · iexact S9
    isplitl [T0]; · iexact T0
    isplitl [T1]; · iexact T1
    isplitl [T2]; · iexact T2
    isplitl [T3]; · iexact T3
    iexact T4
  iexact HO

end Cert.KB

end
-- ==== Proof.BodyKB.lean ====
/-
  The tile's body in every case: a worker below 27 adds its seven position rows, worker 27 the last
  seven, worker 28 writes the quality row, the others do nothing; the three conditions exclude one
  another, so exactly one case's proof applies at each tile.
-/
import proofs.«207362_g47132971107233_retrytranche2_1164_24_alg».proof.Proof.TileMainKB
import proofs.«207362_g47132971107233_retrytranche2_1164_24_alg».proof.Proof.TileRestKB

noncomputable section

namespace Cert.KB

open Cert.Kernel Cert.Kernel.Gen
open Idealize.ShloMosaic Idealize.SL.Sem

variable {F : FTy → Type} [FloatOps F]

theorem hbody (m : (ℓ : Loc nD τ sig) → Buf (Elt F) ℓ) (d : Dev nD) (L : grid0.Coords) : BranchSpec m d L := by
  by_cases h1 : k0_cond1 L = 1#1
  · exact branch_main m d L h1
  by_cases h2 : k0_cond2 L = 1#1
  · exact branch_last m d L h2
  by_cases h3 : k0_cond3 L = 1#1
  · exact branch_row0 m d L h3
  exact branch_idle m d L h1 h2 h3

end Cert.KB

end
-- ==== Proof.RefValue.lean ====
/-
  The reference's result, stage by stage, is the function `G`.

  The reference lays the one quality row (broadcast over the batch) and the 196 feature rows end
  to end along the position axis, and adds the position table broadcast over the batch. Read at
  an index (batch `b`, position `p`, hidden `h`): position 0 falls in the first piece of the
  concatenation, the broadcast quality row, and reads `qw[0, h]`; a position `p ≥ 1` falls in the
  second piece, the features, at position `p - 1`; the broadcast position table reads `pw[p, h]`.
  The sum of the two is `G` at that index, by its definition.
-/
import proofs.«207362_g47132971107233_retrytranche2_1164_24_alg».proof.Proof.Spec
import proofs.«207362_g47132971107233_retrytranche2_1164_24_alg».proof.Proof.Gen.ReferenceIdeal.Read
import Idealize.ShloMosaic.Lib.Pipeline.Value
import Idealize.ShloMosaic.Lib.ValueIdx

noncomputable section

namespace Cert.RefValue

open Idealize.ShloMosaic Idealize.ShloMosaic.ValueIdx Cert.ReferenceIdeal Cert.ReferenceIdeal.Gen Cert.ReferenceIdeal.Read

variable {F : FTy → Type} [FloatOps F]

/-- The position table broadcast over the batch, read at (batch, position, hidden), is the table
    at (position, hidden). -/
theorem pos_apply (x2 : (⟨S197x768, .f32⟩ : BufTy).Contents (Elt F)) (b : Fin 64) (p : Fin 197) (h : Fin 768) :
    val_main_v4 (F := F) x2 (ix3 b p h) = x2 (ix2 p h) := by
  rw [val_main_v4_apply, val_main_v3_apply]
  exact congrArg x2 (funext fun a => match a with
    | ⟨0, _⟩ => rfl
    | ⟨1, _⟩ => rfl)

/-- The concatenation at position 0 reads the first piece: the quality row, whatever the batch entry. -/
theorem concat_zero (x0 : (⟨S64x196x768, .f32⟩ : BufTy).Contents (Elt F)) (x1 : (⟨S1x768, .f32⟩ : BufTy).Contents (Elt F))
    (b : Fin 64) (p : Fin 197) (h : Fin 768) (hp : p.val = 0) :
    val_main_v2 (F := F) x0 x1 (ix3 b p h) = x1 (ix2 (0 : Fin 1) h) := by
  unfold val_main_v2
  refine (concatenate_pair_apply_left (1 : Fin S64x197x768.rank) (val_main_v1 (F := F) x1) x0
    concatenates_S64x1x768_S64x196x768_S64x197x768_d1 (ix3 b p h) rfl (ix3 b (0 : Fin 1) h) (fun a => match a with
      | ⟨0, _⟩ => rfl
      | ⟨1, _⟩ => by
        show 0 = p.val
        omega
      | ⟨2, _⟩ => rfl)).trans ?_
  rw [val_main_v1_apply, val_main_v0_apply]
  exact congrArg x1 (funext fun a => match a with
    | ⟨0, _⟩ => rfl
    | ⟨1, _⟩ => rfl)

/-- The concatenation at a position `p ≥ 1` reads the second piece, the features, at position `p - 1`. -/
theorem concat_succ (x0 : (⟨S64x196x768, .f32⟩ : BufTy).Contents (Elt F)) (x1 : (⟨S1x768, .f32⟩ : BufTy).Contents (Elt F))
    (b : Fin 64) (p : Fin 197) (h : Fin 768) (hp : ¬ p.val = 0) :
    val_main_v2 (F := F) x0 x1 (ix3 b p h)
      = x0 (ix3 b (⟨p.val - 1, by have := p.isLt; omega⟩ : Fin 196) h) := by
  unfold val_main_v2
  exact concatenate_pair_apply_right (1 : Fin S64x197x768.rank) (val_main_v1 (F := F) x1) x0
    concatenates_S64x1x768_S64x196x768_S64x197x768_d1 (ix3 b p h) rfl rfl
    (ix3 b (⟨p.val - 1, by have := p.isLt; omega⟩ : Fin 196) h)
    (fun a => match a with
      | ⟨0, _⟩ => fun _ => rfl
      | ⟨1, _⟩ => fun hne => (hne (Fin.ext rfl)).elim
      | ⟨2, _⟩ => fun _ => rfl)
    (by
      show (p.val - 1) + 1 = p.val
      omega)

/-- The reference's last stage is `G` of its three arguments, at the float instance's addition. -/
theorem ref_is_G (x0 : (⟨Cert.ReferenceIdeal.S64x196x768, .f32⟩ : BufTy).Contents (Elt F))
    (x1 : (⟨Cert.ReferenceIdeal.S1x768, .f32⟩ : BufTy).Contents (Elt F))
    (x2 : (⟨Cert.ReferenceIdeal.S197x768, .f32⟩ : BufTy).Contents (Elt F)) :
    Cert.ReferenceIdeal.Read.val_main_v5 (F := F) x0 x1 x2 = Cert.Spec.G (Cert.Spec.addF F) x0 x1 x2 := by
  funext i
  obtain ⟨b, p, h, rfl⟩ : ∃ (b : Fin 64) (p : Fin 197) (h : Fin 768), i = ix3 b p h := ⟨i 0, i 1, i 2, eq_ix3 i⟩
  rw [val_main_v5_apply, pos_apply]
  unfold Cert.Spec.G
  by_cases hp : p.val = 0
  · rw [dif_pos (show ((ix3 b p h : Cert.Spec.SOut.Idx) 1).val = 0 from hp), concat_zero x0 x1 b p h hp]
    have e : p = (0 : Fin 197) := Fin.ext hp
    subst e
    rfl
  · rw [dif_neg (show ¬ ((ix3 b p h : Cert.Spec.SOut.Idx) 1).val = 0 from hp), concat_succ x0 x1 b p h hp]

end Cert.RefValue

end
-- ==== Proof.lean ====
/-
  The five claims. Both printed kernels — the word-level one and its idealization, the same text read
  at two float instances — transpose the features to position-major, let the SparseCores' tiles fill
  batch entries 56..63 and the TensorCore's pipelined kernel batch entries 0..55 of the position-major
  result, join the two pieces and transpose back; every stage's array is a pure function of the three
  arguments, and the last is `Spec.G`: the quality row and the feature rows, each plus its row of the
  position table. The reference computes the same function by a concatenation and one addition
  (`RefValue.ref_is_G`). No law of arithmetic joins the two sides: they perform the same additions on
  the same operands in the same order, so the claim holds for every input and the precondition is
  not used. The ideal pass rewrote nothing, so `preserves` has no conjunct.
-/
import proofs.«207362_g47132971107233_retrytranche2_1164_24_alg».proof.Defs
import proofs.«207362_g47132971107233_retrytranche2_1164_24_alg».proof.Proof.Gen.Kernel
import proofs.«207362_g47132971107233_retrytranche2_1164_24_alg».proof.Proof.Gen.Kernel.Skeleton
import proofs.«207362_g47132971107233_retrytranche2_1164_24_alg».proof.Proof.Gen.Kernel.Launch
import proofs.«207362_g47132971107233_retrytranche2_1164_24_alg».proof.Proof.Gen.Kernel.Points
import proofs.«207362_g47132971107233_retrytranche2_1164_24_alg».proof.Proof.Gen.KernelIdeal
import proofs.«207362_g47132971107233_retrytranche2_1164_24_alg».proof.Proof.Gen.KernelIdeal.Skeleton
import proofs.«207362_g47132971107233_retrytranche2_1164_24_alg».proof.Proof.Gen.KernelIdeal.Launch
import proofs.«207362_g47132971107233_retrytranche2_1164_24_alg».proof.Proof.Gen.KernelIdeal.Points
import proofs.«207362_g47132971107233_retrytranche2_1164_24_alg».proof.Proof.Gen.ReferenceIdeal
import proofs.«207362_g47132971107233_retrytranche2_1164_24_alg».proof.Proof.Gen.Pre_finite_inputs
import proofs.«207362_g47132971107233_retrytranche2_1164_24_alg».proof.Proof.Gen.ReferenceIdeal.Run
import proofs.«207362_g47132971107233_retrytranche2_1164_24_alg».proof.Proof.Gen.ReferenceIdeal.Read
import proofs.«207362_g47132971107233_retrytranche2_1164_24_alg».proof.Proof.MainKI
import proofs.«207362_g47132971107233_retrytranche2_1164_24_alg».proof.Proof.MainKB
import proofs.«207362_g47132971107233_retrytranche2_1164_24_alg».proof.Proof.BodyKI
import proofs.«207362_g47132971107233_retrytranche2_1164_24_alg».proof.Proof.BodyKB
import proofs.«207362_g47132971107233_retrytranche2_1164_24_alg».proof.Proof.RefValue
import Idealize.ShloMosaic.Adequacy
import Idealize.ShloMosaic.Init

noncomputable section

namespace Cert.Proof

open Idealize.ShloMosaic Idealize.SL.Sem

/-- The word-level kernel runs, and its arguments end unchanged: its run with the result's value dropped. -/
theorem frame_k : Cert.frame_Kernel := fun m ρ _ =>
  (θ_run Cert.Kernel.defs _ _).mono (fun _ h c => ⟨(h c).2.1, (h c).2.2.1, (h c).2.2.2⟩)
    (Cert.KB.run_main (F := Bits) m ρ (Cert.KB.hbody m))

/-- The same for the idealized kernel. -/
theorem frame_ki : Cert.frame_KernelIdeal := fun m ρ _ =>
  (θ_run Cert.KernelIdeal.defs _ _).mono (fun _ h c => ⟨(h c).2.1, (h c).2.2.1, (h c).2.2.2⟩)
    (Cert.KI.run_main (F := Ideal) m ρ (Cert.KI.hbody m))

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with `Spec.G` of arguments that agree. -/
theorem algebraic : Cert.algebraic_KernelIdeal_ReferenceIdeal := by
  intro m ρ m' ρ' _ hagree
  refine ⟨fun c => Cert.Spec.G (Cert.Spec.addF Ideal) (m (Cert.KI.fLoc c)) (m (Cert.KI.qLoc c)) (m (Cert.KI.pLoc c)), ?_, ?_⟩
  · exact (θ_run Cert.KernelIdeal.defs _ _).mono (fun _ h c => h c) (Cert.KI.run_main (F := Ideal) m ρ (Cert.KI.hbody m))
  · refine (θ_run Cert.ReferenceIdeal.defs _ _).mono (fun _ h c => ⟨?_, (h c).2⟩) (Cert.ReferenceIdeal.Value.run (F := Ideal) m' ρ')
    rw [(h c).1, Cert.ReferenceIdeal.Read.val_main_v5_eq, Cert.RefValue.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
